-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128 : Shape := ⟨1, ![128]⟩
abbrev S4x128x128 : Shape := ⟨3, ![4, 128, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S4x128x128 .f32) (main_arg5 : FVec F S4x128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x10000 .f32) (main_arg1 : FVec F S10000x10000 .f32) (main_arg2 : FVec F S10000x128 .f32) (main_arg3 : FVec F S128 .f32) (main_arg4 : FVec F S4x128x128 .f32) (main_arg5 : FVec F S4x128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x10000 : Shape := ⟨2, ![10000, 10000]⟩
abbrev S10000x128 : Shape := ⟨2, ![10000, 128]⟩
abbrev S128 : Shape := ⟨1, ![128]⟩
abbrev S4x128x128 : Shape := ⟨3, ![4, 128, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S1x128x128 : Shape := ⟨3, ![1, 128, 128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S128x640 : Shape := ⟨2, ![128, 640]⟩
abbrev S10000x640 : Shape := ⟨2, ![10000, 640]⟩
abbrev S400x640 : Shape := ⟨2, ![400, 640]⟩
abbrev S640 : Shape := ⟨1, ![640]⟩
abbrev S1x640 : Shape := ⟨2, ![1, 640]⟩
abbrev S1x1 : Shape := ⟨2, ![1, 1]⟩
abbrev S10000x1 : Shape := ⟨2, ![10000, 1]⟩

abbrev nBuf : Space → Nat
  | .hbm => 61
  | .vmem => 49
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x128, .f32⟩
  | .hbm, ⟨3, _⟩ => ⟨S128, .f32⟩
  | .hbm, ⟨4, _⟩ => ⟨S4x128x128, .f32⟩
  | .hbm, ⟨5, _⟩ => ⟨S4x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x128x128, .f32⟩
  | .hbm, ⟨13, _⟩ => ⟨S128x128, .f32⟩
  | .hbm, ⟨14, _⟩ => ⟨S1x128, .f32⟩
  | .hbm, ⟨15, _⟩ => ⟨S10000x128, .f32⟩
  | .hbm, ⟨16, _⟩ => ⟨S1x128, .f32⟩
  | .hbm, ⟨17, _⟩ => ⟨S128, .f32⟩
  | .hbm, ⟨18, _⟩ => ⟨S1x128x128, .f32⟩
  | .hbm, ⟨19, _⟩ => ⟨S128x128, .f32⟩
  | .hbm, ⟨20, _⟩ => ⟨S1x128, .f32⟩
  | .hbm, ⟨21, _⟩ => ⟨S10000x128, .f32⟩
  | .hbm, ⟨22, _⟩ => ⟨S1x128, .f32⟩
  | .hbm, ⟨23, _⟩ => ⟨S128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S10000x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S10000x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S1x128x128, .f32⟩
  | .hbm, ⟨39, _⟩ => ⟨S128x128, .f32⟩
  | .hbm, ⟨40, _⟩ => ⟨S1x128x128, .f32⟩
  | .hbm, ⟨41, _⟩ => ⟨S128x128, .f32⟩
  | .hbm, ⟨42, _⟩ => ⟨S128x640, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S10000x128, .f32⟩
  | .hbm, ⟨47, _⟩ => ⟨S10000x640, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S640, .f32⟩
  | .hbm, ⟨57, _⟩ => ⟨S1x640, .f32⟩
  | .hbm, ⟨58, _⟩ => ⟨S1x128, .f32⟩
  | .hbm, ⟨59, _⟩ => ⟨S1x1, .f32⟩
  | .hbm, ⟨60, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S1x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | .local _ .vmem, ⟨7, _⟩ => ⟨S400x10000, .f32⟩
  | .local _ .vmem, ⟨8, _⟩ => ⟨S400x10000, .f32⟩
  | .local _ .vmem, ⟨9, _⟩ => ⟨S10000x128, .f32⟩
  | .local _ .vmem, ⟨10, _⟩ => ⟨S1x128, .f32⟩
  | .local _ .vmem, ⟨11, _⟩ => ⟨S128x128, .f32⟩
  | .local _ .vmem, ⟨12, _⟩ => ⟨S400x128, .f32⟩
  | .local _ .vmem, ⟨13, _⟩ => ⟨S400x128, .f32⟩
  | .local _ .vmem, ⟨14, _⟩ => ⟨S400x10000, .f32⟩
  | .local _ .vmem, ⟨15, _⟩ => ⟨S400x10000, .f32⟩
  | .local _ .vmem, ⟨16, _⟩ => ⟨S10000x128, .f32⟩
  | .local _ .vmem, ⟨17, _⟩ => ⟨S1x128, .f32⟩
  | .local _ .vmem, ⟨18, _⟩ => ⟨S128x128, .f32⟩
  | .local _ .vmem, ⟨19, _⟩ => ⟨S400x128, .f32⟩
  | .local _ .vmem, ⟨20, _⟩ => ⟨S400x128, .f32⟩
  | .local _ .vmem, ⟨21, _⟩ => ⟨S400x10000, .f32⟩
  | .local _ .vmem, ⟨22, _⟩ => ⟨S400x10000, .f32⟩
  | .local _ .vmem, ⟨23, _⟩ => ⟨S10000x128, .f32⟩
  | .local _ .vmem, ⟨24, _⟩ => ⟨S1x128, .f32⟩
  | .local _ .vmem, ⟨25, _⟩ => ⟨S128x128, .f32⟩
  | .local _ .vmem, ⟨26, _⟩ => ⟨S400x128, .f32⟩
  | .local _ .vmem, ⟨27, _⟩ => ⟨S400x128, .f32⟩
  | .local _ .vmem, ⟨28, _⟩ => ⟨S400x10000, .f32⟩
  | .local _ .vmem, ⟨29, _⟩ => ⟨S400x10000, .f32⟩
  | .local _ .vmem, ⟨30, _⟩ => ⟨S10000x128, .f32⟩
  | .local _ .vmem, ⟨31, _⟩ => ⟨S1x128, .f32⟩
  | .local _ .vmem, ⟨32, _⟩ => ⟨S128x640, .f32⟩
  | .local _ .vmem, ⟨33, _⟩ => ⟨S400x128, .f32⟩
  | .local _ .vmem, ⟨34, _⟩ => ⟨S400x128, .f32⟩
  | .local _ .vmem, ⟨35, _⟩ => ⟨S400x640, .f32⟩
  | .local _ .vmem, ⟨36, _⟩ => ⟨S400x640, .f32⟩
  | .local _ .vmem, ⟨37, _⟩ => ⟨S400x10000, .f32⟩
  | .local _ .vmem, ⟨38, _⟩ => ⟨S400x10000, .f32⟩
  | .local _ .vmem, ⟨39, _⟩ => ⟨S10000x640, .f32⟩
  | .local _ .vmem, ⟨40, _⟩ => ⟨S400x128, .f32⟩
  | .local _ .vmem, ⟨41, _⟩ => ⟨S400x128, .f32⟩
  | .local _ .vmem, ⟨42, _⟩ => ⟨S1x640, .f32⟩
  | .local _ .vmem, ⟨43, _⟩ => ⟨S128x128, .f32⟩
  | .local _ .vmem, ⟨44, _⟩ => ⟨S1x128, .f32⟩
  | .local _ .vmem, ⟨45, _⟩ => ⟨S128x1, .f32⟩
  | .local _ .vmem, ⟨46, _⟩ => ⟨S1x1, .f32⟩
  | .local _ .vmem, ⟨47, _⟩ => ⟨S400x1, .f32⟩
  | .local _ .vmem, ⟨48, _⟩ => ⟨S400x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg8_0 : Ref sig .tc := ⟨.vmem, 47, rfl⟩
abbrev cc5_stg8_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem4_1 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem8_0 : DmaSem sig := 47
abbrev cc5_sem8_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x640 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S400x640 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x640 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x640 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S400x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S4x128x128_S1x128x128_0_0_0 : S4x128x128.Slices ![0, 0, 0] S1x128x128
  shapeCasts_S1x128x128_S128x128 : S1x128x128.ShapeCasts S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S10000x128_S10000x128 : S10000x128.ShapeCasts S10000x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  concatenates_S128x128_S128x128_S128x128_S128x128_S128x128_S128x640_d1 : Shape.Concatenates [S128x128, S128x128, S128x128, S128x128, S128x128] S128x640 1
  slices_S4x128_S1x128_3_0 : S4x128.Slices ![3, 0] S1x128
  inb_S128x640_S128x640_0_0 : ∀ a, (![0, 0] : Fin 2 → Nat) a + S128x640.size a ≤ S128x640.size a
  h_S128x640 : 0 < S128x640.numel
  shapeCasts_S128x640_S128x640 : S128x640.ShapeCasts S128x640
  inb_S400x640_S400x640_0_0 : ∀ a, (![0, 0] : Fin 2 → Nat) a + S400x640.size a ≤ S400x640.size a
  h_S400x640 : 0 < S400x640.numel
  concatenates_S128_S128_S128_S128_S128_S640_d0 : Shape.Concatenates [S128, S128, S128, S128, S128] S640 0
  shapeCasts_S640_S1x640 : S640.ShapeCasts S1x640
  shapeCasts_S1_S1x1 : S1.ShapeCasts S1x1
  inb_S10000x640_S10000x640_0_0 : ∀ a, (![0, 0] : Fin 2 → Nat) a + S10000x640.size a ≤ S10000x640.size a
  h_S10000x640 : 0 < S10000x640.numel
  shapeCasts_S10000x640_S10000x640 : S10000x640.ShapeCasts S10000x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S400x640 : S1x640.Broadcasts S400x640
  shapeCasts_S400x128_S400x128 : S400x128.ShapeCasts S400x128
  slices_S400x640_o0_0_S400x128 : S400x640.Slices ![0, 0] S400x128
  slices_S400x640_o0_128_S400x128 : S400x640.Slices ![0, 128] S400x128
  slices_S400x640_o0_256_S400x128 : S400x640.Slices ![0, 256] S400x128
  slices_S400x640_o0_384_S400x128 : S400x640.Slices ![0, 384] S400x128
  slices_S400x640_o0_512_S400x128 : S400x640.Slices ![0, 512] S400x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x640_S400x640_1_0_0_1_n_n_wf : DotDims.WF S400x128 S128x640 S400x640 [1] [0] [0] [1] [] []
  dot_S400x10000_S10000x640_S400x640_1_0_0_1_n_n_wf : DotDims.WF S400x10000 S10000x640 S400x640 [1] [0] [0] [1] [] []
  dot_S400x128_S128x1_S400x1_1_0_0_1_n_n_wf : DotDims.WF S400x128 S128x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .f32 = 32 ∨ (Rect.block (s := S10000x128) S400x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .f32 = 32 ∨ (Rect.block (s := S10000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x640.size a ≤ S128x640.size a
  hwx4_3 : ∀ i : grid4.Coords, EltTy.bits .f32 = 32 ∨ (Rect.block (s := S128x640) S128x640.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x128.size a ≤ S10000x128.size a
  hwx4_4 : ∀ i : grid4.Coords, EltTy.bits .f32 = 32 ∨ (Rect.block (s := S10000x128) S400x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S400x640.size a ≤ S10000x640.size a
  hwx4_5 : ∀ i : grid4.Coords, EltTy.bits .f32 = 32 ∨ (Rect.block (s := S10000x640) S400x640.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x640.size a ≤ S10000x640.size a
  hwx5_1 : ∀ i : grid5.Coords, EltTy.bits .f32 = 32 ∨ (Rect.block (s := S10000x640) S10000x640.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x128.size a ≤ S10000x128.size a
  hwx5_2 : ∀ i : grid5.Coords, EltTy.bits .f32 = 32 ∨ (Rect.block (s := S10000x128) S400x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x640.size a ≤ S1x640.size a
  hwx5_3 : ∀ i : grid5.Coords, EltTy.bits .f32 = 32 ∨ (Rect.block (s := S1x640) S1x640.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x1.size a ≤ S128x1.size a
  hwx5_6 : ∀ i : grid5.Coords, EltTy.bits .f32 = 32 ∨ (Rect.block (s := S128x1) S128x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1.size a ≤ S1x1.size a
  hwx5_7 : ∀ i : grid5.Coords, EltTy.bits .f32 = 32 ∨ (Rect.block (s := S1x1) S1x1.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S400x1.size a ≤ S10000x1.size a
  hwx5_8 : ∀ i : grid5.Coords, EltTy.bits .f32 = 32 ∨ (Rect.block (s := S10000x1) S400x1.size (cc5_transform_8 i) (hinb5_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x640_S400x640_1_0_0_1_n_n : DotDims S400x128 S128x640 S400x640 where
  lhsContracting := [1]
  rhsContracting := [0]
  lhsNonContracting := [0]
  rhsNonContracting := [1]
  lhsBatch := []
  rhsBatch := []
  wf := dot_S400x128_S128x640_S400x640_1_0_0_1_n_n_wf
def dot_S400x10000_S10000x640_S400x640_1_0_0_1_n_n : DotDims S400x10000 S10000x640 S400x640 where
  lhsContracting := [1]
  rhsContracting := [0]
  lhsNonContracting := [0]
  rhsNonContracting := [1]
  lhsBatch := []
  rhsBatch := []
  wf := dot_S400x10000_S10000x640_S400x640_1_0_0_1_n_n_wf
def dot_S400x128_S128x1_S400x1_1_0_0_1_n_n : DotDims S400x128 S128x1 S400x1 where
  lhsContracting := [1]
  rhsContracting := [0]
  lhsNonContracting := [0]
  rhsNonContracting := [1]
  lhsBatch := []
  rhsBatch := []
  wf := dot_S400x128_S128x1_S400x1_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S128x640.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34_0) S400x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v34_1) S400x640.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34_1) S10000x640.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v34_0) S400x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x640.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg8) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v45) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg10) S128x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v46) S1x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v47) S400x1.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128 : Shape := ⟨1, ![128]⟩
abbrev S4x128x128 : Shape := ⟨3, ![4, 128, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S1x128x128 : Shape := ⟨3, ![1, 128, 128]⟩
abbrev S1x1 : Shape := ⟨2, ![1, 1]⟩

abbrev nBuf : Space → Nat
  | .hbm => 284
  | .vmem => 0
  | .smem => 0
  | _ => 0

abbrev hbmTy0_0 (i : Nat) : BufTy := match i % 128 with
  | 0 => ⟨S10000x10000, .f32⟩
  | 1 => ⟨S10000x10000, .f32⟩
  | 2 => ⟨S10000x128, .f32⟩
  | 3 => ⟨S128, .f32⟩
  | 4 => ⟨S4x128x128, .f32⟩
  | 5 => ⟨S4x128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S10000x128, .f32⟩
  | 13 => ⟨S1x128, .f32⟩
  | 14 => ⟨S10000x128, .f32⟩
  | 15 => ⟨S10000x128, .f32⟩
  | 16 => ⟨S_, .f32⟩
  | 17 => ⟨S10000x128, .f32⟩
  | 18 => ⟨S10000x128, .f32⟩
  | 19 => ⟨S10000x128, .f32⟩
  | 20 => ⟨S_, .f32⟩
  | 21 => ⟨S10000, .f32⟩
  | 22 => ⟨S10000x1, .f32⟩
  | 23 => ⟨S10000x1, .f32⟩
  | 24 => ⟨S_, .f32⟩
  | 25 => ⟨S10000x1, .f32⟩
  | 26 => ⟨S10000x1, .f32⟩
  | 27 => ⟨S10000x128, .f32⟩
  | 28 => ⟨S10000x128, .f32⟩
  | 29 => ⟨S1x128x128, .f32⟩
  | 30 => ⟨S128x128, .f32⟩
  | 31 => ⟨S10000x128, .f32⟩
  | 32 => ⟨S10000x128, .f32⟩
  | 33 => ⟨S1x128, .f32⟩
  | 34 => ⟨S128, .f32⟩
  | 35 => ⟨S1x128, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x128, .f32⟩
  | 42 => ⟨S_, .f32⟩
  | 43 => ⟨S10000, .f32⟩
  | 44 => ⟨S10000x1, .f32⟩
  | 45 => ⟨S10000x1, .f32⟩
  | 46 => ⟨S_, .f32⟩
  | 47 => ⟨S10000x1, .f32⟩
  | 48 => ⟨S10000x1, .f32⟩
  | 49 => ⟨S10000x128, .f32⟩
  | 50 => ⟨S10000x128, .f32⟩
  | 51 => ⟨S1x128x128, .f32⟩
  | 52 => ⟨S128x128, .f32⟩
  | 53 => ⟨S10000x128, .f32⟩
  | 54 => ⟨S10000x128, .f32⟩
  | 55 => ⟨S1x128, .f32⟩
  | 56 => ⟨S128, .f32⟩
  | 57 => ⟨S1x128, .f32⟩
  | 58 => ⟨S10000x128, .f32⟩
  | 59 => ⟨S10000x128, .f32⟩
  | 60 => ⟨S_, .f32⟩
  | 61 => ⟨S10000x128, .f32⟩
  | 62 => ⟨S10000x128, .f32⟩
  | 63 => ⟨S10000x128, .f32⟩
  | 64 => ⟨S_, .f32⟩
  | 65 => ⟨S10000, .f32⟩
  | 66 => ⟨S10000x1, .f32⟩
  | 67 => ⟨S10000x1, .f32⟩
  | 68 => ⟨S_, .f32⟩
  | 69 => ⟨S10000x1, .f32⟩
  | 70 => ⟨S10000x1, .f32⟩
  | 71 => ⟨S10000x128, .f32⟩
  | 72 => ⟨S10000x128, .f32⟩
  | 73 => ⟨S1x128x128, .f32⟩
  | 74 => ⟨S128x128, .f32⟩
  | 75 => ⟨S10000x128, .f32⟩
  | 76 => ⟨S10000x128, .f32⟩
  | 77 => ⟨S1x128, .f32⟩
  | 78 => ⟨S128, .f32⟩
  | 79 => ⟨S1x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x128, .f32⟩
  | 86 => ⟨S_, .f32⟩
  | 87 => ⟨S10000, .f32⟩
  | 88 => ⟨S10000x1, .f32⟩
  | 89 => ⟨S10000x1, .f32⟩
  | 90 => ⟨S_, .f32⟩
  | 91 => ⟨S10000x1, .f32⟩
  | 92 => ⟨S10000x1, .f32⟩
  | 93 => ⟨S10000x128, .f32⟩
  | 94 => ⟨S10000x128, .f32⟩
  | 95 => ⟨S1x128x128, .f32⟩
  | 96 => ⟨S128x128, .f32⟩
  | 97 => ⟨S10000x128, .f32⟩
  | 98 => ⟨S10000x128, .f32⟩
  | 99 => ⟨S1x128, .f32⟩
  | 100 => ⟨S128, .f32⟩
  | 101 => ⟨S1x128, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S10000x128, .f32⟩
  | 108 => ⟨S_, .f32⟩
  | 109 => ⟨S10000, .f32⟩
  | 110 => ⟨S10000x1, .f32⟩
  | 111 => ⟨S10000x1, .f32⟩
  | 112 => ⟨S_, .f32⟩
  | 113 => ⟨S10000x1, .f32⟩
  | 114 => ⟨S10000x1, .f32⟩
  | 115 => ⟨S10000x128, .f32⟩
  | 116 => ⟨S10000x128, .f32⟩
  | 117 => ⟨S10000x128, .f32⟩
  | 118 => ⟨S10000x128, .f32⟩
  | 119 => ⟨S1x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S10000x128, .f32⟩
  | 126 => ⟨S1x128, .f32⟩
  | 127 => ⟨S10000x128, .f32⟩
  | _ => ⟨S10000x10000, .f32⟩

abbrev hbmTy0_1 (i : Nat) : BufTy := match i % 128 with
  | 0 => ⟨S10000x128, .f32⟩
  | 1 => ⟨S_, .f32⟩
  | 2 => ⟨S10000x128, .f32⟩
  | 3 => ⟨S10000x128, .f32⟩
  | 4 => ⟨S10000x1, .f32⟩
  | 5 => ⟨S1x1, .f32⟩
  | 6 => ⟨S10000x1, .f32⟩
  | 7 => ⟨S10000x1, .f32⟩
  | 8 => ⟨S1x128x128, .f32⟩
  | 9 => ⟨S128x128, .f32⟩
  | 10 => ⟨S10000x128, .f32⟩
  | 11 => ⟨S10000x128, .f32⟩
  | 12 => ⟨S1x128, .f32⟩
  | 13 => ⟨S128, .f32⟩
  | 14 => ⟨S1x128, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S10000x128, .f32⟩
  | 21 => ⟨S_, .f32⟩
  | 22 => ⟨S10000, .f32⟩
  | 23 => ⟨S10000x1, .f32⟩
  | 24 => ⟨S10000x1, .f32⟩
  | 25 => ⟨S_, .f32⟩
  | 26 => ⟨S10000x1, .f32⟩
  | 27 => ⟨S10000x1, .f32⟩
  | 28 => ⟨S10000x128, .f32⟩
  | 29 => ⟨S10000x128, .f32⟩
  | 30 => ⟨S10000x128, .f32⟩
  | 31 => ⟨S1x128, .f32⟩
  | 32 => ⟨S10000x128, .f32⟩
  | 33 => ⟨S10000x128, .f32⟩
  | 34 => ⟨S_, .f32⟩
  | 35 => ⟨S10000x128, .f32⟩
  | 36 => ⟨S10000x128, .f32⟩
  | 37 => ⟨S10000x1, .f32⟩
  | 38 => ⟨S1x1, .f32⟩
  | 39 => ⟨S10000x1, .f32⟩
  | 40 => ⟨S10000x1, .f32⟩
  | 41 => ⟨S1x128x128, .f32⟩
  | 42 => ⟨S128x128, .f32⟩
  | 43 => ⟨S10000x128, .f32⟩
  | 44 => ⟨S10000x128, .f32⟩
  | 45 => ⟨S1x128, .f32⟩
  | 46 => ⟨S128, .f32⟩
  | 47 => ⟨S1x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S10000x128, .f32⟩
  | 54 => ⟨S_, .f32⟩
  | 55 => ⟨S10000, .f32⟩
  | 56 => ⟨S10000x1, .f32⟩
  | 57 => ⟨S10000x1, .f32⟩
  | 58 => ⟨S_, .f32⟩
  | 59 => ⟨S10000x1, .f32⟩
  | 60 => ⟨S10000x1, .f32⟩
  | 61 => ⟨S10000x128, .f32⟩
  | 62 => ⟨S10000x128, .f32⟩
  | 63 => ⟨S10000x128, .f32⟩
  | 64 => ⟨S1x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x1, .f32⟩
  | 71 => ⟨S1x1, .f32⟩
  | 72 => ⟨S10000x1, .f32⟩
  | 73 => ⟨S10000x1, .f32⟩
  | 74 => ⟨S1x128x128, .f32⟩
  | 75 => ⟨S128x128, .f32⟩
  | 76 => ⟨S10000x128, .f32⟩
  | 77 => ⟨S10000x128, .f32⟩
  | 78 => ⟨S1x128, .f32⟩
  | 79 => ⟨S128, .f32⟩
  | 80 => ⟨S1x128, .f32⟩
  | 81 => ⟨S10000x128, .f32⟩
  | 82 => ⟨S10000x128, .f32⟩
  | 83 => ⟨S_, .f32⟩
  | 84 => ⟨S10000x128, .f32⟩
  | 85 => ⟨S10000x128, .f32⟩
  | 86 => ⟨S10000x128, .f32⟩
  | 87 => ⟨S_, .f32⟩
  | 88 => ⟨S10000, .f32⟩
  | 89 => ⟨S10000x1, .f32⟩
  | 90 => ⟨S10000x1, .f32⟩
  | 91 => ⟨S_, .f32⟩
  | 92 => ⟨S10000x1, .f32⟩
  | 93 => ⟨S10000x1, .f32⟩
  | 94 => ⟨S10000x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S_, .f32⟩
  | 101 => ⟨S10000x128, .f32⟩
  | 102 => ⟨S10000x128, .f32⟩
  | 103 => ⟨S10000x1, .f32⟩
  | 104 => ⟨S1x1, .f32⟩
  | 105 => ⟨S10000x1, .f32⟩
  | 106 => ⟨S10000x1, .f32⟩
  | 107 => ⟨S1x128x128, .f32⟩
  | 108 => ⟨S128x128, .f32⟩
  | 109 => ⟨S10000x128, .f32⟩
  | 110 => ⟨S10000x128, .f32⟩
  | 111 => ⟨S1x128, .f32⟩
  | 112 => ⟨S128, .f32⟩
  | 113 => ⟨S1x128, .f32⟩
  | 114 => ⟨S10000x128, .f32⟩
  | 115 => ⟨S10000x128, .f32⟩
  | 116 => ⟨S_, .f32⟩
  | 117 => ⟨S10000x128, .f32⟩
  | 118 => ⟨S10000x128, .f32⟩
  | 119 => ⟨S10000x128, .f32⟩
  | 120 => ⟨S_, .f32⟩
  | 121 => ⟨S10000, .f32⟩
  | 122 => ⟨S10000x1, .f32⟩
  | 123 => ⟨S10000x1, .f32⟩
  | 124 => ⟨S_, .f32⟩
  | 125 => ⟨S10000x1, .f32⟩
  | 126 => ⟨S10000x1, .f32⟩
  | 127 => ⟨S10000x128, .f32⟩
  | _ => ⟨S10000x10000, .f32⟩

abbrev hbmTy0_2 (i : Nat) : BufTy := match i % 128 with
  | 0 => ⟨S10000x128, .f32⟩
  | 1 => ⟨S10000x128, .f32⟩
  | 2 => ⟨S1x128, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S10000x1, .f32⟩
  | 9 => ⟨S1x1, .f32⟩
  | 10 => ⟨S10000x1, .f32⟩
  | 11 => ⟨S10000x1, .f32⟩
  | 12 => ⟨S10000x128, .f32⟩
  | 13 => ⟨S1x128, .f32⟩
  | 14 => ⟨S10000x128, .f32⟩
  | 15 => ⟨S10000x128, .f32⟩
  | 16 => ⟨S_, .f32⟩
  | 17 => ⟨S10000x128, .f32⟩
  | 18 => ⟨S10000x128, .f32⟩
  | 19 => ⟨S10000x1, .f32⟩
  | 20 => ⟨S1x1, .f32⟩
  | 21 => ⟨S10000x1, .f32⟩
  | 22 => ⟨S10000x1, .f32⟩
  | 23 => ⟨S10000x1, .f32⟩
  | 24 => ⟨S10000x1, .f32⟩
  | 25 => ⟨S10000x1, .f32⟩
  | 26 => ⟨S10000x1, .f32⟩
  | 27 => ⟨S10000x1, .f32⟩
  | _ => ⟨S10000x10000, .f32⟩

abbrev hbmTy (i : Nat) : BufTy := match i / 128 with
  | 0 => hbmTy0_0 i
  | 1 => hbmTy0_1 i
  | 2 => hbmTy0_2 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call2_cst : Ref sig .tc := ⟨.hbm, 38, rfl⟩
abbrev main_call2_v0 : Ref sig .tc := ⟨.hbm, 39, rfl⟩
abbrev main_v19 : Ref sig .tc := ⟨.hbm, 40, rfl⟩
abbrev main_call3_v0 : Ref sig .tc := ⟨.hbm, 41, rfl⟩
abbrev main_call3_cst : Ref sig .tc := ⟨.hbm, 42, rfl⟩
abbrev main_call3_v1 : Ref sig .tc := ⟨.hbm, 43, rfl⟩
abbrev main_call3_v2 : Ref sig .tc := ⟨.hbm, 44, rfl⟩
abbrev main_v20 : Ref sig .tc := ⟨.hbm, 45, rfl⟩
abbrev main_cst_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call4_cst : Ref sig .tc := ⟨.hbm, 60, rfl⟩
abbrev main_call4_v0 : Ref sig .tc := ⟨.hbm, 61, rfl⟩
abbrev main_v34 : Ref sig .tc := ⟨.hbm, 62, rfl⟩
abbrev main_call5_v0 : Ref sig .tc := ⟨.hbm, 63, rfl⟩
abbrev main_call5_cst : Ref sig .tc := ⟨.hbm, 64, rfl⟩
abbrev main_call5_v1 : Ref sig .tc := ⟨.hbm, 65, rfl⟩
abbrev main_call5_v2 : Ref sig .tc := ⟨.hbm, 66, rfl⟩
abbrev main_v35 : Ref sig .tc := ⟨.hbm, 67, rfl⟩
abbrev main_cst_1 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call6_cst : Ref sig .tc := ⟨.hbm, 82, rfl⟩
abbrev main_call6_v0 : Ref sig .tc := ⟨.hbm, 83, rfl⟩
abbrev main_v49 : Ref sig .tc := ⟨.hbm, 84, rfl⟩
abbrev main_call7_v0 : Ref sig .tc := ⟨.hbm, 85, rfl⟩
abbrev main_call7_cst : Ref sig .tc := ⟨.hbm, 86, rfl⟩
abbrev main_call7_v1 : Ref sig .tc := ⟨.hbm, 87, rfl⟩
abbrev main_call7_v2 : Ref sig .tc := ⟨.hbm, 88, rfl⟩
abbrev main_v50 : Ref sig .tc := ⟨.hbm, 89, rfl⟩
abbrev main_cst_2 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call8_cst : Ref sig .tc := ⟨.hbm, 104, rfl⟩
abbrev main_call8_v0 : Ref sig .tc := ⟨.hbm, 105, rfl⟩
abbrev main_v64 : Ref sig .tc := ⟨.hbm, 106, rfl⟩
abbrev main_call9_v0 : Ref sig .tc := ⟨.hbm, 107, rfl⟩
abbrev main_call9_cst : Ref sig .tc := ⟨.hbm, 108, rfl⟩
abbrev main_call9_v1 : Ref sig .tc := ⟨.hbm, 109, rfl⟩
abbrev main_call9_v2 : Ref sig .tc := ⟨.hbm, 110, rfl⟩
abbrev main_v65 : Ref sig .tc := ⟨.hbm, 111, rfl⟩
abbrev main_cst_3 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call10_cst : Ref sig .tc := ⟨.hbm, 122, rfl⟩
abbrev main_call10_v0 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call11_cst : Ref sig .tc := ⟨.hbm, 129, rfl⟩
abbrev main_call11_v0 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_call12_cst : Ref sig .tc := ⟨.hbm, 145, rfl⟩
abbrev main_call12_v0 : Ref sig .tc := ⟨.hbm, 146, rfl⟩
abbrev main_v94 : Ref sig .tc := ⟨.hbm, 147, rfl⟩
abbrev main_call13_v0 : Ref sig .tc := ⟨.hbm, 148, rfl⟩
abbrev main_call13_cst : Ref sig .tc := ⟨.hbm, 149, rfl⟩
abbrev main_call13_v1 : Ref sig .tc := ⟨.hbm, 150, rfl⟩
abbrev main_call13_v2 : Ref sig .tc := ⟨.hbm, 151, rfl⟩
abbrev main_v95 : Ref sig .tc := ⟨.hbm, 152, rfl⟩
abbrev main_cst_4 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_call14_cst : Ref sig .tc := ⟨.hbm, 162, rfl⟩
abbrev main_call14_v0 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_call15_cst : Ref sig .tc := ⟨.hbm, 178, rfl⟩
abbrev main_call15_v0 : Ref sig .tc := ⟨.hbm, 179, rfl⟩
abbrev main_v118 : Ref sig .tc := ⟨.hbm, 180, rfl⟩
abbrev main_call16_v0 : Ref sig .tc := ⟨.hbm, 181, rfl⟩
abbrev main_call16_cst : Ref sig .tc := ⟨.hbm, 182, rfl⟩
abbrev main_call16_v1 : Ref sig .tc := ⟨.hbm, 183, rfl⟩
abbrev main_call16_v2 : Ref sig .tc := ⟨.hbm, 184, rfl⟩
abbrev main_v119 : Ref sig .tc := ⟨.hbm, 185, rfl⟩
abbrev main_cst_5 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_call17_cst : Ref sig .tc := ⟨.hbm, 195, rfl⟩
abbrev main_call17_v0 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_call18_cst : Ref sig .tc := ⟨.hbm, 211, rfl⟩
abbrev main_call18_v0 : Ref sig .tc := ⟨.hbm, 212, rfl⟩
abbrev main_v142 : Ref sig .tc := ⟨.hbm, 213, rfl⟩
abbrev main_call19_v0 : Ref sig .tc := ⟨.hbm, 214, rfl⟩
abbrev main_call19_cst : Ref sig .tc := ⟨.hbm, 215, rfl⟩
abbrev main_call19_v1 : Ref sig .tc := ⟨.hbm, 216, rfl⟩
abbrev main_call19_v2 : Ref sig .tc := ⟨.hbm, 217, rfl⟩
abbrev main_v143 : Ref sig .tc := ⟨.hbm, 218, rfl⟩
abbrev main_cst_6 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_call20_cst : Ref sig .tc := ⟨.hbm, 228, rfl⟩
abbrev main_call20_v0 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_call21_cst : Ref sig .tc := ⟨.hbm, 244, rfl⟩
abbrev main_call21_v0 : Ref sig .tc := ⟨.hbm, 245, rfl⟩
abbrev main_v166 : Ref sig .tc := ⟨.hbm, 246, rfl⟩
abbrev main_call22_v0 : Ref sig .tc := ⟨.hbm, 247, rfl⟩
abbrev main_call22_cst : Ref sig .tc := ⟨.hbm, 248, rfl⟩
abbrev main_call22_v1 : Ref sig .tc := ⟨.hbm, 249, rfl⟩
abbrev main_call22_v2 : Ref sig .tc := ⟨.hbm, 250, rfl⟩
abbrev main_v167 : Ref sig .tc := ⟨.hbm, 251, rfl⟩
abbrev main_cst_7 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_call23_cst : Ref sig .tc := ⟨.hbm, 261, rfl⟩
abbrev main_call23_v0 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_call24_cst : Ref sig .tc := ⟨.hbm, 272, rfl⟩
abbrev main_call24_v0 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KB.Region0.lean ====
/-
  Kernel region 0 of @main (custom_call 0, body `cc0__prop_body`) on one core, at arbitrary contents `V` of the core's
  buffers when the region is entered. The region has four input windows and one output window; every point of its 25-point grid
  runs the same straight-line body, which loads each input window's whole staging block, computes, and stores each output
  window's whole block.

  Proved here: the body's triple (`sound_kernel0`: the inputs' buffers are left as found and each output's buffer holds
  `out0_w` of the input blocks, whatever it held before); the pipeline's proof data `dat0` (the arrays as `V` has them; after
  the body at point `t` an input's buffer holds its block of the array, `iblk0`, and an output's holds `out0_w` of those blocks);
  that an input's buffer holds its block at every point, fetched there or not (`before0_w`); and the body obligation at every
  point (`body_obligation0`).
-/
import proofs.«172286_g11278584119306_cont_sun_m_662_2_alg».proof.Proof.Gen.Kernel.Launch
import proofs.«172286_g11278584119306_cont_sun_m_662_2_alg».proof.Proof.Gen.Kernel.Skeleton
import proofs.«172286_g11278584119306_cont_sun_m_662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 0: the pipeline's body on whole blocks, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched its
    block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where it is not fetched its
    block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where it is not fetched its
    block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: where it is not fetched its
    block index has not moved and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_S400x10000 : Rect S400x10000 := Rect.unit (s := S400x10000) ![0, 0] S400x10000.size inb_S400x10000_S400x10000_0_0
abbrev r0_S10000x128 : Rect S10000x128 := Rect.unit (s := S10000x128) ![0, 0] S10000x128.size inb_S10000x128_S10000x128_0_0
abbrev r0_S1x128 : Rect S1x128 := Rect.unit (s := S1x128) ![0, 0] S1x128.size inb_S1x128_S1x128_0_0
abbrev r0_S128x128 : Rect S128x128 := Rect.unit (s := S128x128) ![0, 0] S128x128.size inb_S128x128_S128x128_0_0
abbrev r0_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out0_4 (x0 : Vec F S400x10000 .f32) (x1 : Vec F S10000x128 .f32) (x2 : Vec F S1x128 .f32) (x3 : Vec F S128x128 .f32) : Vec F S400x128 .f32 :=
  View.canon [⟨r0_S400x128, k0_pay1 (View.ld x0 r0_S400x10000) (View.ld x1 r0_S10000x128) (View.ld x2 r0_S1x128) (View.ld x3 r0_S128x128)⟩]

/-- The one store covers the buffer. -/
theorem cover0_4 (p0 : Vec F S400x128 .f32) (y : S400x128.Idx) :
    ∃ pc ∈ ([⟨r0_S400x128, p0⟩] : List (View.Piece (Elt F) S400x128 .f32)), y ∈ pc.1.set :=
  View.cover_of_tiled [⟨r0_S400x128, p0⟩] S400x128.size (by rfl) y

/-! ## The body's triple -/

set_option maxHeartbeats 1000000 in
/-- The body on whole staging buffers, the inputs' at contents `xW` and the outputs' at anything, runs to the continuation
    holding the inputs' as they were and each output's at `out0_W` of the inputs'. -/
theorem sound_kernel0 (c : Dev nD) (E : Set ℕ) (i : grid0.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__prop_body i arg0 harg0 arg1 harg1 arg2 harg2 arg3 harg3 arg4 harg4) K := by
  simp only [cc0__prop_body_eq_skeleton]; unfold cc0__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of pipeline 0 on core `c`: the arrays as the region finds them; after the body at point `t` each
    input's buffer at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Region1.lean ====
/-
  Kernel region 1 of @main (custom_call 1, body `cc1__prop_body`) on one core, at arbitrary contents `V` of the core's
  buffers when the region is entered. The region has four input windows and one output window; every point of its 25-point grid
  runs the same straight-line body, which loads each input window's whole staging block, computes, and stores each output
  window's whole block.

  Proved here: the body's triple (`sound_kernel1`: the inputs' buffers are left as found and each output's buffer holds
  `out1_w` of the input blocks, whatever it held before); the pipeline's proof data `dat1` (the arrays as `V` has them; after
  the body at point `t` an input's buffer holds its block of the array, `iblk1`, and an output's holds `out1_w` of those blocks);
  that an input's buffer holds its block at every point, fetched there or not (`before1_w`); and the body obligation at every
  point (`body_obligation1`).
-/
import proofs.«172286_g11278584119306_cont_sun_m_662_2_alg».proof.Proof.Gen.Kernel.Launch
import proofs.«172286_g11278584119306_cont_sun_m_662_2_alg».proof.Proof.Gen.Kernel.Skeleton
import proofs.«172286_g11278584119306_cont_sun_m_662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 1: the pipeline's body on whole blocks, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched its
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where it is not fetched its
    block index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where it is not fetched its
    block index has not moved and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: where it is not fetched its
    block index has not moved and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_S400x10000 : Rect S400x10000 := Rect.unit (s := S400x10000) ![0, 0] S400x10000.size inb_S400x10000_S400x10000_0_0
abbrev r1_S10000x128 : Rect S10000x128 := Rect.unit (s := S10000x128) ![0, 0] S10000x128.size inb_S10000x128_S10000x128_0_0
abbrev r1_S1x128 : Rect S1x128 := Rect.unit (s := S1x128) ![0, 0] S1x128.size inb_S1x128_S1x128_0_0
abbrev r1_S128x128 : Rect S128x128 := Rect.unit (s := S128x128) ![0, 0] S128x128.size inb_S128x128_S128x128_0_0
abbrev r1_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out1_4 (x0 : Vec F S400x10000 .f32) (x1 : Vec F S10000x128 .f32) (x2 : Vec F S1x128 .f32) (x3 : Vec F S128x128 .f32) : Vec F S400x128 .f32 :=
  View.canon [⟨r1_S400x128, k1_pay1 (View.ld x0 r1_S400x10000) (View.ld x1 r1_S10000x128) (View.ld x2 r1_S1x128) (View.ld x3 r1_S128x128)⟩]

/-- The one store covers the buffer. -/
theorem cover1_4 (p0 : Vec F S400x128 .f32) (y : S400x128.Idx) :
    ∃ pc ∈ ([⟨r1_S400x128, p0⟩] : List (View.Piece (Elt F) S400x128 .f32)), y ∈ pc.1.set :=
  View.cover_of_tiled [⟨r1_S400x128, p0⟩] S400x128.size (by rfl) y

/-! ## The body's triple -/

set_option maxHeartbeats 1000000 in
/-- The body on whole staging buffers, the inputs' at contents `xW` and the outputs' at anything, runs to the continuation
    holding the inputs' as they were and each output's at `out1_W` of the inputs'. -/
theorem sound_kernel1 (c : Dev nD) (E : Set ℕ) (i : grid1.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__prop_body i arg0 harg0 arg1 harg1 arg2 harg2 arg3 harg3 arg4 harg4) K := by
  simp only [cc1__prop_body_eq_skeleton]; unfold cc1__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## The pipeline's proof data -/

/-- The proof data of pipeline 1 on core `c`: the arrays as the region finds them; after the body at point `t` each
    input's buffer at its block and each output's at `out1_W` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Region2.lean ====
/-
  Kernel region 2 of @main (custom_call 2, body `cc2__prop_body`) on one core, at arbitrary contents `V` of the core's
  buffers when the region is entered. The region has four input windows and one output window; every point of its 25-point grid
  runs the same straight-line body, which loads each input window's whole staging block, computes, and stores each output
  window's whole block.

  Proved here: the body's triple (`sound_kernel2`: the inputs' buffers are left as found and each output's buffer holds
  `out2_w` of the input blocks, whatever it held before); the pipeline's proof data `dat2` (the arrays as `V` has them; after
  the body at point `t` an input's buffer holds its block of the array, `iblk2`, and an output's holds `out2_w` of those blocks);
  that an input's buffer holds its block at every point, fetched there or not (`before2_w`); and the body obligation at every
  point (`body_obligation2`).
-/
import proofs.«172286_g11278584119306_cont_sun_m_662_2_alg».proof.Proof.Gen.Kernel.Launch
import proofs.«172286_g11278584119306_cont_sun_m_662_2_alg».proof.Proof.Gen.Kernel.Skeleton
import proofs.«172286_g11278584119306_cont_sun_m_662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 2: the pipeline's body on whole blocks, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched its
    block index has not moved and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: where it is not fetched its
    block index has not moved and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: where it is not fetched its
    block index has not moved and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: where it is not fetched its
    block index has not moved and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev r2_S400x10000 : Rect S400x10000 := Rect.unit (s := S400x10000) ![0, 0] S400x10000.size inb_S400x10000_S400x10000_0_0
abbrev r2_S10000x128 : Rect S10000x128 := Rect.unit (s := S10000x128) ![0, 0] S10000x128.size inb_S10000x128_S10000x128_0_0
abbrev r2_S1x128 : Rect S1x128 := Rect.unit (s := S1x128) ![0, 0] S1x128.size inb_S1x128_S1x128_0_0
abbrev r2_S128x128 : Rect S128x128 := Rect.unit (s := S128x128) ![0, 0] S128x128.size inb_S128x128_S128x128_0_0
abbrev r2_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out2_4 (x0 : Vec F S400x10000 .f32) (x1 : Vec F S10000x128 .f32) (x2 : Vec F S1x128 .f32) (x3 : Vec F S128x128 .f32) : Vec F S400x128 .f32 :=
  View.canon [⟨r2_S400x128, k2_pay1 (View.ld x0 r2_S400x10000) (View.ld x1 r2_S10000x128) (View.ld x2 r2_S1x128) (View.ld x3 r2_S128x128)⟩]

/-- The one store covers the buffer. -/
theorem cover2_4 (p0 : Vec F S400x128 .f32) (y : S400x128.Idx) :
    ∃ pc ∈ ([⟨r2_S400x128, p0⟩] : List (View.Piece (Elt F) S400x128 .f32)), y ∈ pc.1.set :=
  View.cover_of_tiled [⟨r2_S400x128, p0⟩] S400x128.size (by rfl) y

/-! ## The body's triple -/

set_option maxHeartbeats 1000000 in
/-- The body on whole staging buffers, the inputs' at contents `xW` and the outputs' at anything, runs to the continuation
    holding the inputs' as they were and each output's at `out2_W` of the inputs'. -/
theorem sound_kernel2 (c : Dev nD) (E : Set ℕ) (i : grid2.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__prop_body i arg0 harg0 arg1 harg1 arg2 harg2 arg3 harg3 arg4 harg4) K := by
  simp only [cc2__prop_body_eq_skeleton]; unfold cc2__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2_4 _)

/-! ## The pipeline's proof data -/

/-- The proof data of pipeline 2 on core `c`: the arrays as the region finds them; after the body at point `t` each
    input's buffer at its block and each output's at `out2_W` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Region3.lean ====
/-
  Kernel region 3 of @main (custom_call 3, body `cc3__prop_body`) on one core, at arbitrary contents `V` of the core's
  buffers when the region is entered. The region has four input windows and one output window; every point of its 25-point grid
  runs the same straight-line body, which loads each input window's whole staging block, computes, and stores each output
  window's whole block.

  Proved here: the body's triple (`sound_kernel3`: the inputs' buffers are left as found and each output's buffer holds
  `out3_w` of the input blocks, whatever it held before); the pipeline's proof data `dat3` (the arrays as `V` has them; after
  the body at point `t` an input's buffer holds its block of the array, `iblk3`, and an output's holds `out3_w` of those blocks);
  that an input's buffer holds its block at every point, fetched there or not (`before3_w`); and the body obligation at every
  point (`body_obligation3`).
-/
import proofs.«172286_g11278584119306_cont_sun_m_662_2_alg».proof.Proof.Gen.Kernel.Launch
import proofs.«172286_g11278584119306_cont_sun_m_662_2_alg».proof.Proof.Gen.Kernel.Skeleton
import proofs.«172286_g11278584119306_cont_sun_m_662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 3: the pipeline's body on whole blocks, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched its
    block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not: where it is not fetched its
    block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not: where it is not fetched its
    block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not: where it is not fetched its
    block index has not moved and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole block -/

abbrev r3_S400x10000 : Rect S400x10000 := Rect.unit (s := S400x10000) ![0, 0] S400x10000.size inb_S400x10000_S400x10000_0_0
abbrev r3_S10000x128 : Rect S10000x128 := Rect.unit (s := S10000x128) ![0, 0] S10000x128.size inb_S10000x128_S10000x128_0_0
abbrev r3_S1x128 : Rect S1x128 := Rect.unit (s := S1x128) ![0, 0] S1x128.size inb_S1x128_S1x128_0_0
abbrev r3_S128x128 : Rect S128x128 := Rect.unit (s := S128x128) ![0, 0] S128x128.size inb_S128x128_S128x128_0_0
abbrev r3_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out3_4 (x0 : Vec F S400x10000 .f32) (x1 : Vec F S10000x128 .f32) (x2 : Vec F S1x128 .f32) (x3 : Vec F S128x128 .f32) : Vec F S400x128 .f32 :=
  View.canon [⟨r3_S400x128, k3_pay1 (View.ld x0 r3_S400x10000) (View.ld x1 r3_S10000x128) (View.ld x2 r3_S1x128) (View.ld x3 r3_S128x128)⟩]

/-- The one store covers the buffer. -/
theorem cover3_4 (p0 : Vec F S400x128 .f32) (y : S400x128.Idx) :
    ∃ pc ∈ ([⟨r3_S400x128, p0⟩] : List (View.Piece (Elt F) S400x128 .f32)), y ∈ pc.1.set :=
  View.cover_of_tiled [⟨r3_S400x128, p0⟩] S400x128.size (by rfl) y

/-! ## The body's triple -/

set_option maxHeartbeats 1000000 in
/-- The body on whole staging buffers, the inputs' at contents `xW` and the outputs' at anything, runs to the continuation
    holding the inputs' as they were and each output's at `out3_W` of the inputs'. -/
theorem sound_kernel3 (c : Dev nD) (E : Set ℕ) (i : grid3.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__prop_body i arg0 harg0 arg1 harg1 arg2 harg2 arg3 harg3 arg4 harg4) K := by
  simp only [cc3__prop_body_eq_skeleton]; unfold cc3__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-! ## The pipeline's proof data -/

/-- The proof data of pipeline 3 on core `c`: the arrays as the region finds them; after the body at point `t` each
    input's buffer at its block and each output's at `out3_W` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Region4.lean ====
/-
  Kernel region 4 of @main (custom_call 4, body `cc4__prop_keep_body`) on one core, at arbitrary contents `V` of the core's
  buffers when the region is entered. The region has four input windows and two output windows; every point of its 25-point grid
  runs the same straight-line body, which loads each input window's whole staging block, computes, and stores each output
  window's whole block.

  Proved here: the body's triple (`sound_kernel4`: the inputs' buffers are left as found and each output's buffer holds
  `out4_w` of the input blocks, whatever it held before); the pipeline's proof data `dat4` (the arrays as `V` has them; after
  the body at point `t` an input's buffer holds its block of the array, `iblk4`, and an output's holds `out4_w` of those blocks);
  that an input's buffer holds its block at every point, fetched there or not (`before4_w`); and the body obligation at every
  point (`body_obligation4`).
-/
import proofs.«172286_g11278584119306_cont_sun_m_662_2_alg».proof.Proof.Gen.Kernel.Launch
import proofs.«172286_g11278584119306_cont_sun_m_662_2_alg».proof.Proof.Gen.Kernel.Skeleton
import proofs.«172286_g11278584119306_cont_sun_m_662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 4: the pipeline's body on whole blocks, at the entry contents `V` -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: where it is not fetched its
    block index has not moved and the body left the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not: where it is not fetched its
    block index has not moved and the body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not: where it is not fetched its
    block index has not moved and the body left the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, fetched there or not: where it is not fetched its
    block index has not moved and the body left the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole block -/

abbrev r4_S400x10000 : Rect S400x10000 := Rect.unit (s := S400x10000) ![0, 0] S400x10000.size inb_S400x10000_S400x10000_0_0
abbrev r4_S10000x128 : Rect S10000x128 := Rect.unit (s := S10000x128) ![0, 0] S10000x128.size inb_S10000x128_S10000x128_0_0
abbrev r4_S1x128 : Rect S1x128 := Rect.unit (s := S1x128) ![0, 0] S1x128.size inb_S1x128_S1x128_0_0
abbrev r4_S128x640 : Rect S128x640 := Rect.unit (s := S128x640) ![0, 0] S128x640.size inb_S128x640_S128x640_0_0
abbrev r4_S400x128 : Rect S400x128 := Rect.unit (s := S400x128) ![0, 0] S400x128.size inb_S400x128_S400x128_0_0
abbrev r4_S400x640 : Rect S400x640 := Rect.unit (s := S400x640) ![0, 0] S400x640.size inb_S400x640_S400x640_0_0

/-! ## What the body leaves in each output window's buffer -/

/-- Output window 4's staging buffer after the body, from the input windows' blocks: its one store, of the whole block. -/
def out4_4 (x0 : Vec F S400x10000 .f32) (x1 : Vec F S10000x128 .f32) (x2 : Vec F S1x128 .f32) (x3 : Vec F S128x640 .f32) : Vec F S400x128 .f32 :=
  View.canon [⟨r4_S400x128, k4_pay1 (View.ld x0 r4_S400x10000) (View.ld x1 r4_S10000x128) (View.ld x2 r4_S1x128)⟩]

/-- The one store covers the buffer. -/
theorem cover4_4 (p0 : Vec F S400x128 .f32) (y : S400x128.Idx) :
    ∃ pc ∈ ([⟨r4_S400x128, p0⟩] : List (View.Piece (Elt F) S400x128 .f32)), y ∈ pc.1.set :=
  View.cover_of_tiled [⟨r4_S400x128, p0⟩] S400x128.size (by rfl) y

/-- Output window 5's staging buffer after the body, from the input windows' blocks: its one store, of the whole block. -/
def out4_5 (x0 : Vec F S400x10000 .f32) (x1 : Vec F S10000x128 .f32) (x2 : Vec F S1x128 .f32) (x3 : Vec F S128x640 .f32) : Vec F S400x640 .f32 :=
  View.canon [⟨r4_S400x640, k4_pay2 (View.ld x0 r4_S400x10000) (View.ld x1 r4_S10000x128) (View.ld x2 r4_S1x128) (View.ld x3 r4_S128x640)⟩]

/-- The one store covers the buffer. -/
theorem cover4_5 (p0 : Vec F S400x640 .f32) (y : S400x640.Idx) :
    ∃ pc ∈ ([⟨r4_S400x640, p0⟩] : List (View.Piece (Elt F) S400x640 .f32)), y ∈ pc.1.set :=
  View.cover_of_tiled [⟨r4_S400x640, p0⟩] S400x640.size (by rfl) y

/-! ## The body's triple -/

set_option maxHeartbeats 1000000 in
/-- The body on whole staging buffers, the inputs' at contents `xW` and the outputs' at anything, runs to the continuation
    holding the inputs' as they were and each output's at `out4_W` of the inputs'. -/
theorem sound_kernel4 (c : Dev nD) (E : Set ℕ) (i : grid4.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x640 .f32) (harg3 : arg3.IsWhole) (arg4 : Memref sig .tc .vmem S400x128 .f32) (harg4 : arg4.IsWhole) (arg5 : Memref sig .tc .vmem S400x640 .f32) (harg5 : arg5.IsWhole)
    (x0 : Vec F S400x10000 .f32) (x1 : Vec F S10000x128 .f32) (x2 : Vec F S1x128 .f32) (x3 : Vec F S128x640 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3) ∗ owns (c : Thread nD τ) arg5 fullShare (out4_5 x0 x1 x2 x3)) -∗ K ⟨⟩))
      ⊢ wp frame (wpE (defs₀ (F := F)) Variants.none c none) E (cc4__prop_keep_body i arg0 harg0 arg1 harg1 arg2 harg2 arg3 harg3 arg4 harg4 arg5 harg5) K := by
  simp only [cc4__prop_keep_body_eq_skeleton]; unfold cc4__prop_keep_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover4_4 _)
  iexists _; isplitr
  swap; · iexact H5
  ipureintro
  try dsimp only
  exact View.read_writes_eq_canon _ _ _ (cover4_5 _)

/-! ## The pipeline's proof data -/

/-- The proof data of pipeline 4 on core `c`: the arrays as the region finds them; after the body at point `t` each
    input's buffer at its block and each output's at `out4_W` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Region5.lean ====
/-
  Kernel region 5 of @main (custom_call 5, body `cc5__score_body`) on one core, at arbitrary contents `V` of the core's
  buffers when the region is entered. The region has eight input windows and one output window; every point of its 25-point grid
  runs the same straight-line body, which loads each input window's whole staging block, computes, and stores each output
  window's whole block.

  Proved here: the body's triple (`sound_kernel5`: the inputs' buffers are left as found and each output's buffer holds
  `out5_w` of the input blocks, whatever it held before); the pipeline's proof data `dat5` (the arrays as `V` has them; after
  the body at point `t` an input's buffer holds its block of the array, `iblk5`, and an output's holds `out5_w` of those blocks);
  that an input's buffer holds its block at every point, fetched there or not (`before5_w`); and the body obligation at every
  point (`body_obligation5`).
-/
import proofs.«172286_g11278584119306_cont_sun_m_662_2_alg».proof.Proof.Gen.Kernel.Launch
import proofs.«172286_g11278584119306_cont_sun_m_662_2_alg».proof.Proof.Gen.Kernel.Skeleton
import proofs.«172286_g11278584119306_cont_sun_m_662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 5: the pipeline's body on whole blocks, at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched its
    block index has not moved and the body left the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not: where it is not fetched its
    block index has not moved and the body left the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not: where it is not fetched its
    block index has not moved and the body left the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not: where it is not fetched its
    block index has not moved and the body left the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, fetched there or not: where it is not fetched its
    block index has not moved and the body left the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's staging buffer holds its block at every point, fetched there or not: where it is not fetched its
    block index has not moved and the body left the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's staging buffer holds its block at every point, fetched there or not: where it is not fetched its
    block index has not moved and the body left the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's staging buffer holds its block at every point, fetched there or not: where it is not fetched its
    block index has not moved and the body left the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole block -/

abbrev r5_S400x10000 : Rect S400x10000 := Rect.unit (s := S400x10000) ![0, 0] S400x10000.size inb_S400x10000_S400x10000_0_0
abbrev r5_S10000x640 : Rect S10000x640 := Rect.unit (s := S10000x640) ![0, 0] S10000x640.size inb_S10000x640_S10000x640_0_0
abbrev r5_S400x128 : Rect S400x128 := Rect.unit (s := S400x128) ![0, 0] S400x128.size inb_S400x128_S400x128_0_0
abbrev r5_S1x640 : Rect S1x640 := Rect.unit (s := S1x640) ![0, 0] S1x640.size inb_S1x640_S1x640_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0
abbrev r5_S128x1 : Rect S128x1 := Rect.unit (s := S128x1) ![0, 0] S128x1.size inb_S128x1_S128x1_0_0
abbrev r5_S1x1 : Rect S1x1 := Rect.unit (s := S1x1) ![0, 0] S1x1.size inb_S1x1_S1x1_0_0
abbrev r5_S400x1 : Rect S400x1 := Rect.unit (s := S400x1) ![0, 0] S400x1.size inb_S400x1_S400x1_0_0

/-! ## What the body leaves in each output window's buffer -/

/-- Output window 8's staging buffer after the body, from the input windows' blocks: its one store, of the whole block. -/
def out5_8 (x0 : Vec F S400x10000 .f32) (x1 : Vec F S10000x640 .f32) (x2 : Vec F S400x128 .f32) (x3 : Vec F S1x640 .f32) (x4 : Vec F S128x128 .f32) (x5 : Vec F S1x128 .f32) (x6 : Vec F S128x1 .f32) (x7 : Vec F S1x1 .f32) : Vec F S400x1 .f32 :=
  View.canon [⟨r5_S400x1, k5_pay1 (k5_pay2 (View.ld x0 r5_S400x10000) (View.ld x1 r5_S10000x640) (View.ld x3 r5_S1x640)) (View.ld x4 r5_S128x128) (k5_pay3 (View.ld x5 r5_S1x128)) (k5_pay6 (k5_pay2 (View.ld x0 r5_S400x10000) (View.ld x1 r5_S10000x640) (View.ld x3 r5_S1x640)) (View.ld x4 r5_S128x128) (k5_pay3 (View.ld x5 r5_S1x128)) (k5_pay4 (View.ld x0 r5_S400x10000) (View.ld x1 r5_S10000x640) (View.ld x3 r5_S1x640) (View.ld x4 r5_S128x128) (View.ld x5 r5_S1x128) (View.ld x2 r5_S400x128)) (k5_pay5 (View.ld x0 r5_S400x10000) (View.ld x1 r5_S10000x640) (View.ld x3 r5_S1x640))) (k5_pay7 (k5_pay2 (View.ld x0 r5_S400x10000) (View.ld x1 r5_S10000x640) (View.ld x3 r5_S1x640)) (View.ld x4 r5_S128x128) (k5_pay3 (View.ld x5 r5_S1x128))) (k5_pay8 (F := F)) (View.ld x6 r5_S128x1) (View.ld x7 r5_S1x1)⟩]

/-- The one store covers the buffer. -/
theorem cover5_8 (p0 : Vec F S400x1 .f32) (y : S400x1.Idx) :
    ∃ pc ∈ ([⟨r5_S400x1, p0⟩] : List (View.Piece (Elt F) S400x1 .f32)), y ∈ pc.1.set :=
  View.cover_of_tiled [⟨r5_S400x1, p0⟩] S400x1.size (by rfl) y

/-! ## The body's triple -/

set_option maxHeartbeats 1000000 in
/-- The body on whole staging buffers, the inputs' at contents `xW` and the outputs' at anything, runs to the continuation
    holding the inputs' as they were and each output's at `out5_W` of the inputs'. -/
theorem sound_kernel5 (c : Dev nD) (E : Set ℕ) (i : grid5.Coords) (arg0 : Memref sig .tc .vmem S400x10000 .f32) (harg0 : arg0.IsWhole) (arg1 : Memref sig .tc .vmem S10000x640 .f32) (harg1 : arg1.IsWhole) (arg2 : Memref sig .tc .vmem S400x128 .f32) (harg2 : arg2.IsWhole) (arg3 : Memref sig .tc .vmem S1x640 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S400x1 .f32) (harg8 : arg8.IsWhole)
    (x0 : Vec F S400x10000 .f32) (x1 : Vec F S10000x640 .f32) (x2 : Vec F S400x128 .f32) (x3 : Vec F S1x640 .f32) (x4 : Vec F S128x128 .f32) (x5 : Vec F S1x128 .f32) (x6 : Vec F S128x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out5_8 x0 x1 x2 x3 x4 x5 x6 x7)) -∗ K ⟨⟩))
      ⊢ wp frame (wpE (defs₀ (F := F)) Variants.none c none) E (cc5__score_body i arg0 harg0 arg1 harg1 arg2 harg2 arg3 harg3 arg4 harg4 arg5 harg5 arg6 harg6 arg7 harg7 arg8 harg8) K := by
  simp only [cc5__score_body_eq_skeleton]; unfold cc5__score_body_skel
  simp only [k5_part1_eq_skeleton]; unfold k5_part1_skel
  simp only [k5_part2_eq_skeleton]; unfold k5_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover5_8 _)

/-! ## The pipeline's proof data -/

/-- The proof data of pipeline 5 on core `c`: the arrays as the region finds them; after the body at point `t` each
    input's buffer at its block and each output's at `out5_W` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

/-- The body at any point: the inputs' buffers hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Run.lean ====
/-
  The run of @main: six stretches of host operations alternating with six kernel regions.

  The contents the regions leave in the buffers they write (`outsAll`) are chosen as what their pipelines compute: region K,
  entered at the contents `EntK`, leaves in each output array the fold of its write-backs, `(datK (EntRK m) c).arrAt w N`, and
  every other buffer as entered (`hFK`, `hrestK`, `extK_w`). Since region K's entry contents read only what regions 0 to K-1
  leave, the contents are defined region by region. Each region is a segment over the thread state "every unscoped buffer at
  the boundary's contents, the generator register at some state, nothing owed" (`regK`), and the host stretches are segments
  over the same valuations.

  The theorem `run`: from any memory with zero counters every weakly fair execution of @main on the TensorCores terminates,
  nothing faulting; the result `main_v47` ends at `res m c`, the last region's output array after its last point, and the
  twelve argument arrays end as launched. The theorems `entryK_w` say what each input window of each region is entered with: an
  argument as launched, an earlier region's output, or an operand a host stretch computes.
-/
import proofs.«172286_g11278584119306_cont_sun_m_662_2_alg».proof.Proof.KB.Region0
import proofs.«172286_g11278584119306_cont_sun_m_662_2_alg».proof.Proof.KB.Region1
import proofs.«172286_g11278584119306_cont_sun_m_662_2_alg».proof.Proof.KB.Region2
import proofs.«172286_g11278584119306_cont_sun_m_662_2_alg».proof.Proof.KB.Region3
import proofs.«172286_g11278584119306_cont_sun_m_662_2_alg».proof.Proof.KB.Region4
import proofs.«172286_g11278584119306_cont_sun_m_662_2_alg».proof.Proof.KB.Region5
import proofs.«172286_g11278584119306_cont_sun_m_662_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run: what each region leaves, then @main as segments

## The contents the regions leave, stage by stage

Region K is entered at the valuation `V(2K+1)`, which reads the unknown contents only at the earlier regions' outputs; so
the contents are defined region by region, each from the valuation over the contents defined so far. -/

/-- A family of buffer contents changed at the reference `r₀`. -/
def setAt (f : (r : Ref sig .tc) → (c : Dev nD) → Buf (Elt F) ((c : Thread nD τ).loc r)) (r₀ : Ref sig .tc)
    (v : (c : Dev nD) → Buf (Elt F) ((c : Thread nD τ).loc r₀)) : (r : Ref sig .tc) → (c : Dev nD) → Buf (Elt F) ((c : Thread nD τ).loc r) :=
  Function.update f r₀ v

theorem setAt_self (f : (r : Ref sig .tc) → (c : Dev nD) → Buf (Elt F) ((c : Thread nD τ).loc r)) (r₀ : Ref sig .tc)
    (v : (c : Dev nD) → Buf (Elt F) ((c : Thread nD τ).loc r₀)) : setAt f r₀ v r₀ = v := Function.update_self ..

theorem setAt_ne (f : (r : Ref sig .tc) → (c : Dev nD) → Buf (Elt F) ((c : Thread nD τ).loc r)) (r₀ : Ref sig .tc)
    (v : (c : Dev nD) → Buf (Elt F) ((c : Thread nD τ).loc r₀)) {r : Ref sig .tc} (h : r ≠ r₀) : setAt f r₀ v r = f r :=
  Function.update_of_ne h ..

/-- Where no region writes, the launch contents (never read). -/
abbrev dflt : Outs (F := F) := fun _ r c => m ((c : Thread nD τ).loc r)

/-- What region 0 leaves in `main_v3`: window 4's array after the last point. -/
def o2_4 (c : Dev nD) : Buf (Elt F) ((c : Thread nD τ).loc main_v3) := (dat0 (fun c b => V1 m c b) c).arrAt 4 cfg0.N
/-- The contents left by region 0. -/
def outs1 : Outs (F := F) := fun J => match J with
  | 2 => setAt (dflt m 2) main_v3 (o2_4 m)
  | J => dflt m J

/-- What region 1 leaves in `main_v9`: window 4's array after the last point. -/
def o4_4 (c : Dev nD) : Buf (Elt F) ((c : Thread nD τ).loc main_v9) := (dat1 (fun c b => V3 m (outs1 m) c b) c).arrAt 4 cfg1.N
/-- The contents left by regions 0–1. -/
def outs2 : Outs (F := F) := fun J => match J with
  | 2 => setAt (dflt m 2) main_v3 (o2_4 m)
  | 4 => setAt (dflt m 4) main_v9 (o4_4 m)
  | J => dflt m J

/-- What region 2 leaves in `main_v15`: window 4's array after the last point. -/
def o6_4 (c : Dev nD) : Buf (Elt F) ((c : Thread nD τ).loc main_v15) := (dat2 (fun c b => V5 m (outs2 m) c b) c).arrAt 4 cfg2.N
/-- The contents left by regions 0–2. -/
def outs3 : Outs (F := F) := fun J => match J with
  | 2 => setAt (dflt m 2) main_v3 (o2_4 m)
  | 4 => setAt (dflt m 4) main_v9 (o4_4 m)
  | 6 => setAt (dflt m 6) main_v15 (o6_4 m)
  | J => dflt m J

/-- What region 3 leaves in `main_v21`: window 4's array after the last point. -/
def o8_4 (c : Dev nD) : Buf (Elt F) ((c : Thread nD τ).loc main_v21) := (dat3 (fun c b => V7 m (outs3 m) c b) c).arrAt 4 cfg3.N
/-- The contents left by regions 0–3. -/
def outs4 : Outs (F := F) := fun J => match J with
  | 2 => setAt (dflt m 2) main_v3 (o2_4 m)
  | 4 => setAt (dflt m 4) main_v9 (o4_4 m)
  | 6 => setAt (dflt m 6) main_v15 (o6_4 m)
  | 8 => setAt (dflt m 8) main_v21 (o8_4 m)
  | J => dflt m J

/-- What region 4 leaves in `main_v34_0`: window 4's array after the last point. -/
def o10_4 (c : Dev nD) : Buf (Elt F) ((c : Thread nD τ).loc main_v34_0) := (dat4 (fun c b => V9 m (outs4 m) c b) c).arrAt 4 cfg4.N
/-- What region 4 leaves in `main_v34_1`: window 5's array after the last point. -/
def o10_5 (c : Dev nD) : Buf (Elt F) ((c : Thread nD τ).loc main_v34_1) := (dat4 (fun c b => V9 m (outs4 m) c b) c).arrAt 5 cfg4.N
/-- The contents left by regions 0–4. -/
def outs5 : Outs (F := F) := fun J => match J with
  | 2 => setAt (dflt m 2) main_v3 (o2_4 m)
  | 4 => setAt (dflt m 4) main_v9 (o4_4 m)
  | 6 => setAt (dflt m 6) main_v15 (o6_4 m)
  | 8 => setAt (dflt m 8) main_v21 (o8_4 m)
  | 10 => setAt (setAt (dflt m 10) main_v34_0 (o10_4 m)) main_v34_1 (o10_5 m)
  | J => dflt m J

/-- What region 5 leaves in `main_v47`: window 8's array after the last point. -/
def o12_8 (c : Dev nD) : Buf (Elt F) ((c : Thread nD τ).loc main_v47) := (dat5 (fun c b => V11 m (outs5 m) c b) c).arrAt 8 cfg5.N
/-- The contents left by regions 0–5. -/
def outsAll : Outs (F := F) := fun J => match J with
  | 2 => setAt (dflt m 2) main_v3 (o2_4 m)
  | 4 => setAt (dflt m 4) main_v9 (o4_4 m)
  | 6 => setAt (dflt m 6) main_v15 (o6_4 m)
  | 8 => setAt (dflt m 8) main_v21 (o8_4 m)
  | 10 => setAt (setAt (dflt m 10) main_v34_0 (o10_4 m)) main_v34_1 (o10_5 m)
  | 12 => setAt (dflt m 12) main_v47 (o12_8 m)
  | J => dflt m J

/-! ## The regions' entry contents, by name -/

/-- Core `c`'s unscoped buffers when region 0 is entered. -/
abbrev Ent0 (c : Dev nD) : Valuation τ sig (Elt F) := V1 m c
/-- The same read at the TensorCore's references (what region 0's proof data take). -/
abbrev EntR0 : (c : Dev nD) → (b : Ref sig .tc) → Buf (Elt F) ((c : Thread nD τ).loc b) := fun c b => Ent0 m c b
/-- Core `c`'s unscoped buffers when region 0 is left. -/
abbrev Ext0 (c : Dev nD) : Valuation τ sig (Elt F) := V2 m (outsAll m) c
abbrev ExtR0 : (c : Dev nD) → (b : Ref sig .tc) → Buf (Elt F) ((c : Thread nD τ).loc b) := fun c b => Ext0 m c b

/-- Core `c`'s unscoped buffers when region 1 is entered. -/
abbrev Ent1 (c : Dev nD) : Valuation τ sig (Elt F) := V3 m (outsAll m) c
/-- The same read at the TensorCore's references (what region 1's proof data take). -/
abbrev EntR1 : (c : Dev nD) → (b : Ref sig .tc) → Buf (Elt F) ((c : Thread nD τ).loc b) := fun c b => Ent1 m c b
/-- Core `c`'s unscoped buffers when region 1 is left. -/
abbrev Ext1 (c : Dev nD) : Valuation τ sig (Elt F) := V4 m (outsAll m) c
abbrev ExtR1 : (c : Dev nD) → (b : Ref sig .tc) → Buf (Elt F) ((c : Thread nD τ).loc b) := fun c b => Ext1 m c b
/-- The entry contents of region 1 read only the contents region 0 leaves. -/
theorem entR1_eq : EntR1 m = (fun c b => V3 m (outs1 m) c b : (c : Dev nD) → (b : Ref sig .tc) → Buf (Elt F) ((c : Thread nD τ).loc b)) := rfl

/-- Core `c`'s unscoped buffers when region 2 is entered. -/
abbrev Ent2 (c : Dev nD) : Valuation τ sig (Elt F) := V5 m (outsAll m) c
/-- The same read at the TensorCore's references (what region 2's proof data take). -/
abbrev EntR2 : (c : Dev nD) → (b : Ref sig .tc) → Buf (Elt F) ((c : Thread nD τ).loc b) := fun c b => Ent2 m c b
/-- Core `c`'s unscoped buffers when region 2 is left. -/
abbrev Ext2 (c : Dev nD) : Valuation τ sig (Elt F) := V6 m (outsAll m) c
abbrev ExtR2 : (c : Dev nD) → (b : Ref sig .tc) → Buf (Elt F) ((c : Thread nD τ).loc b) := fun c b => Ext2 m c b
/-- The entry contents of region 2 read only the contents regions 0–1 leave. -/
theorem entR2_eq : EntR2 m = (fun c b => V5 m (outs2 m) c b : (c : Dev nD) → (b : Ref sig .tc) → Buf (Elt F) ((c : Thread nD τ).loc b)) := rfl

/-- Core `c`'s unscoped buffers when region 3 is entered. -/
abbrev Ent3 (c : Dev nD) : Valuation τ sig (Elt F) := V7 m (outsAll m) c
/-- The same read at the TensorCore's references (what region 3's proof data take). -/
abbrev EntR3 : (c : Dev nD) → (b : Ref sig .tc) → Buf (Elt F) ((c : Thread nD τ).loc b) := fun c b => Ent3 m c b
/-- Core `c`'s unscoped buffers when region 3 is left. -/
abbrev Ext3 (c : Dev nD) : Valuation τ sig (Elt F) := V8 m (outsAll m) c
abbrev ExtR3 : (c : Dev nD) → (b : Ref sig .tc) → Buf (Elt F) ((c : Thread nD τ).loc b) := fun c b => Ext3 m c b
/-- The entry contents of region 3 read only the contents regions 0–2 leave. -/
theorem entR3_eq : EntR3 m = (fun c b => V7 m (outs3 m) c b : (c : Dev nD) → (b : Ref sig .tc) → Buf (Elt F) ((c : Thread nD τ).loc b)) := rfl

/-- Core `c`'s unscoped buffers when region 4 is entered. -/
abbrev Ent4 (c : Dev nD) : Valuation τ sig (Elt F) := V9 m (outsAll m) c
/-- The same read at the TensorCore's references (what region 4's proof data take). -/
abbrev EntR4 : (c : Dev nD) → (b : Ref sig .tc) → Buf (Elt F) ((c : Thread nD τ).loc b) := fun c b => Ent4 m c b
/-- Core `c`'s unscoped buffers when region 4 is left. -/
abbrev Ext4 (c : Dev nD) : Valuation τ sig (Elt F) := V10 m (outsAll m) c
abbrev ExtR4 : (c : Dev nD) → (b : Ref sig .tc) → Buf (Elt F) ((c : Thread nD τ).loc b) := fun c b => Ext4 m c b
/-- The entry contents of region 4 read only the contents regions 0–3 leave. -/
theorem entR4_eq : EntR4 m = (fun c b => V9 m (outs4 m) c b : (c : Dev nD) → (b : Ref sig .tc) → Buf (Elt F) ((c : Thread nD τ).loc b)) := rfl

/-- Core `c`'s unscoped buffers when region 5 is entered. -/
abbrev Ent5 (c : Dev nD) : Valuation τ sig (Elt F) := V11 m (outsAll m) c
/-- The same read at the TensorCore's references (what region 5's proof data take). -/
abbrev EntR5 : (c : Dev nD) → (b : Ref sig .tc) → Buf (Elt F) ((c : Thread nD τ).loc b) := fun c b => Ent5 m c b
/-- Core `c`'s unscoped buffers when region 5 is left. -/
abbrev Ext5 (c : Dev nD) : Valuation τ sig (Elt F) := V12 m (outsAll m) c
abbrev ExtR5 : (c : Dev nD) → (b : Ref sig .tc) → Buf (Elt F) ((c : Thread nD τ).loc b) := fun c b => Ext5 m c b
/-- The entry contents of region 5 read only the contents regions 0–4 leave. -/
theorem entR5_eq : EntR5 m = (fun c b => V11 m (outs5 m) c b : (c : Dev nD) → (b : Ref sig .tc) → Buf (Elt F) ((c : Thread nD τ).loc b)) := rfl

/-! ## What the regions leave is what their pipelines compute -/

theorem outsAll_2_4 (c : Dev nD) : outsAll m 2 main_v3 c = (dat0 (EntR0 m) c).arrAt 4 cfg0.N := by
  show setAt _ _ _ _ c = _
  rw [setAt_self]
  rfl
theorem outsAll_4_4 (c : Dev nD) : outsAll m 4 main_v9 c = (dat1 (EntR1 m) c).arrAt 4 cfg1.N := by
  rw [entR1_eq]
  show setAt _ _ _ _ c = _
  rw [setAt_self]
  rfl
theorem outsAll_6_4 (c : Dev nD) : outsAll m 6 main_v15 c = (dat2 (EntR2 m) c).arrAt 4 cfg2.N := by
  rw [entR2_eq]
  show setAt _ _ _ _ c = _
  rw [setAt_self]
  rfl
theorem outsAll_8_4 (c : Dev nD) : outsAll m 8 main_v21 c = (dat3 (EntR3 m) c).arrAt 4 cfg3.N := by
  rw [entR3_eq]
  show setAt _ _ _ _ c = _
  rw [setAt_self]
  rfl
theorem outsAll_10_4 (c : Dev nD) : outsAll m 10 main_v34_0 c = (dat4 (EntR4 m) c).arrAt 4 cfg4.N := by
  rw [entR4_eq]
  show setAt _ _ _ _ c = _
  rw [setAt_ne _ _ _ (by decide), setAt_self]
  rfl
theorem outsAll_10_5 (c : Dev nD) : outsAll m 10 main_v34_1 c = (dat4 (EntR4 m) c).arrAt 5 cfg4.N := by
  rw [entR4_eq]
  show setAt _ _ _ _ c = _
  rw [setAt_self]
  rfl
theorem outsAll_12_8 (c : Dev nD) : outsAll m 12 main_v47 c = (dat5 (EntR5 m) c).arrAt 8 cfg5.N := by
  rw [entR5_eq]
  show setAt _ _ _ _ c = _
  rw [setAt_self]
  rfl

/-! ## A region's exit contents: its outputs at what the pipeline leaves, everything else as entered -/

theorem ext0_4 (c : Dev nD) : Ext0 m c main_v3 = (dat0 (EntR0 m) c).arrAt 4 cfg0.N :=
  (show V2 m (outsAll m) c main_v3 = outsAll m 2 main_v3 c from Function.update_self ..).trans (outsAll_2_4 m c)
theorem hF0_0 (c : Dev nD) : (dat0 (EntR0 m) c).arrAt 0 cfg0.N = ExtR0 m c (Pipeline.arrRef spec0 0) :=
  ((dat0 (EntR0 m) c).arrAt_in 0 rfl _).trans ((A_eq0 (EntR0 m) c 0).trans (V2_of m (outsAll m) c (Pipeline.arrRef spec0 0) (by decide)).symm)
theorem hF0_1 (c : Dev nD) : (dat0 (EntR0 m) c).arrAt 1 cfg0.N = ExtR0 m c (Pipeline.arrRef spec0 1) :=
  ((dat0 (EntR0 m) c).arrAt_in 1 rfl _).trans ((A_eq0 (EntR0 m) c 1).trans (V2_of m (outsAll m) c (Pipeline.arrRef spec0 1) (by decide)).symm)
theorem hF0_2 (c : Dev nD) : (dat0 (EntR0 m) c).arrAt 2 cfg0.N = ExtR0 m c (Pipeline.arrRef spec0 2) :=
  ((dat0 (EntR0 m) c).arrAt_in 2 rfl _).trans ((A_eq0 (EntR0 m) c 2).trans (V2_of m (outsAll m) c (Pipeline.arrRef spec0 2) (by decide)).symm)
theorem hF0_3 (c : Dev nD) : (dat0 (EntR0 m) c).arrAt 3 cfg0.N = ExtR0 m c (Pipeline.arrRef spec0 3) :=
  ((dat0 (EntR0 m) c).arrAt_in 3 rfl _).trans ((A_eq0 (EntR0 m) c 3).trans (V2_of m (outsAll m) c (Pipeline.arrRef spec0 3) (by decide)).symm)
theorem hF0_4 (c : Dev nD) : (dat0 (EntR0 m) c).arrAt 4 cfg0.N = ExtR0 m c (Pipeline.arrRef spec0 4) :=
  (ext0_4 m c).symm
set_option maxHeartbeats 1000000 in
/-- At region 0's exit each of its arrays holds what the pipeline leaves: an input as entered, an output its write-backs. -/
theorem hF0 (c : Dev nD) (w : Fin cfg0.W) : (dat0 (EntR0 m) c).arrAt w cfg0.N = ExtR0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
/-- and every other buffer what it held at entry. -/
theorem hrest0 (c : Dev nD) : ∀ b, b ∉ Finset.univ.image (Pipeline.arrRef spec0) → ExtR0 m c b = EntR0 m c b :=
  fun b hb => V2_of m (outsAll m) c b fun hm => hb (Finset.mem_image.mpr ⟨4, Finset.mem_univ _, (List.mem_singleton.mp hm).symm⟩)

theorem ext1_4 (c : Dev nD) : Ext1 m c main_v9 = (dat1 (EntR1 m) c).arrAt 4 cfg1.N :=
  (show V4 m (outsAll m) c main_v9 = outsAll m 4 main_v9 c from Function.update_self ..).trans (outsAll_4_4 m c)
theorem hF1_0 (c : Dev nD) : (dat1 (EntR1 m) c).arrAt 0 cfg1.N = ExtR1 m c (Pipeline.arrRef spec1 0) :=
  ((dat1 (EntR1 m) c).arrAt_in 0 rfl _).trans ((A_eq1 (EntR1 m) c 0).trans (V4_of m (outsAll m) c (Pipeline.arrRef spec1 0) (by decide)).symm)
theorem hF1_1 (c : Dev nD) : (dat1 (EntR1 m) c).arrAt 1 cfg1.N = ExtR1 m c (Pipeline.arrRef spec1 1) :=
  ((dat1 (EntR1 m) c).arrAt_in 1 rfl _).trans ((A_eq1 (EntR1 m) c 1).trans (V4_of m (outsAll m) c (Pipeline.arrRef spec1 1) (by decide)).symm)
theorem hF1_2 (c : Dev nD) : (dat1 (EntR1 m) c).arrAt 2 cfg1.N = ExtR1 m c (Pipeline.arrRef spec1 2) :=
  ((dat1 (EntR1 m) c).arrAt_in 2 rfl _).trans ((A_eq1 (EntR1 m) c 2).trans (V4_of m (outsAll m) c (Pipeline.arrRef spec1 2) (by decide)).symm)
theorem hF1_3 (c : Dev nD) : (dat1 (EntR1 m) c).arrAt 3 cfg1.N = ExtR1 m c (Pipeline.arrRef spec1 3) :=
  ((dat1 (EntR1 m) c).arrAt_in 3 rfl _).trans ((A_eq1 (EntR1 m) c 3).trans (V4_of m (outsAll m) c (Pipeline.arrRef spec1 3) (by decide)).symm)
theorem hF1_4 (c : Dev nD) : (dat1 (EntR1 m) c).arrAt 4 cfg1.N = ExtR1 m c (Pipeline.arrRef spec1 4) :=
  (ext1_4 m c).symm
set_option maxHeartbeats 1000000 in
/-- At region 1's exit each of its arrays holds what the pipeline leaves: an input as entered, an output its write-backs. -/
theorem hF1 (c : Dev nD) (w : Fin cfg1.W) : (dat1 (EntR1 m) c).arrAt w cfg1.N = ExtR1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
/-- and every other buffer what it held at entry. -/
theorem hrest1 (c : Dev nD) : ∀ b, b ∉ Finset.univ.image (Pipeline.arrRef spec1) → ExtR1 m c b = EntR1 m c b :=
  fun b hb => V4_of m (outsAll m) c b fun hm => hb (Finset.mem_image.mpr ⟨4, Finset.mem_univ _, (List.mem_singleton.mp hm).symm⟩)

theorem ext2_4 (c : Dev nD) : Ext2 m c main_v15 = (dat2 (EntR2 m) c).arrAt 4 cfg2.N :=
  (show V6 m (outsAll m) c main_v15 = outsAll m 6 main_v15 c from Function.update_self ..).trans (outsAll_6_4 m c)
theorem hF2_0 (c : Dev nD) : (dat2 (EntR2 m) c).arrAt 0 cfg2.N = ExtR2 m c (Pipeline.arrRef spec2 0) :=
  ((dat2 (EntR2 m) c).arrAt_in 0 rfl _).trans ((A_eq2 (EntR2 m) c 0).trans (V6_of m (outsAll m) c (Pipeline.arrRef spec2 0) (by decide)).symm)
theorem hF2_1 (c : Dev nD) : (dat2 (EntR2 m) c).arrAt 1 cfg2.N = ExtR2 m c (Pipeline.arrRef spec2 1) :=
  ((dat2 (EntR2 m) c).arrAt_in 1 rfl _).trans ((A_eq2 (EntR2 m) c 1).trans (V6_of m (outsAll m) c (Pipeline.arrRef spec2 1) (by decide)).symm)
theorem hF2_2 (c : Dev nD) : (dat2 (EntR2 m) c).arrAt 2 cfg2.N = ExtR2 m c (Pipeline.arrRef spec2 2) :=
  ((dat2 (EntR2 m) c).arrAt_in 2 rfl _).trans ((A_eq2 (EntR2 m) c 2).trans (V6_of m (outsAll m) c (Pipeline.arrRef spec2 2) (by decide)).symm)
theorem hF2_3 (c : Dev nD) : (dat2 (EntR2 m) c).arrAt 3 cfg2.N = ExtR2 m c (Pipeline.arrRef spec2 3) :=
  ((dat2 (EntR2 m) c).arrAt_in 3 rfl _).trans ((A_eq2 (EntR2 m) c 3).trans (V6_of m (outsAll m) c (Pipeline.arrRef spec2 3) (by decide)).symm)
theorem hF2_4 (c : Dev nD) : (dat2 (EntR2 m) c).arrAt 4 cfg2.N = ExtR2 m c (Pipeline.arrRef spec2 4) :=
  (ext2_4 m c).symm
set_option maxHeartbeats 1000000 in
/-- At region 2's exit each of its arrays holds what the pipeline leaves: an input as entered, an output its write-backs. -/
theorem hF2 (c : Dev nD) (w : Fin cfg2.W) : (dat2 (EntR2 m) c).arrAt w cfg2.N = ExtR2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
/-- and every other buffer what it held at entry. -/
theorem hrest2 (c : Dev nD) : ∀ b, b ∉ Finset.univ.image (Pipeline.arrRef spec2) → ExtR2 m c b = EntR2 m c b :=
  fun b hb => V6_of m (outsAll m) c b fun hm => hb (Finset.mem_image.mpr ⟨4, Finset.mem_univ _, (List.mem_singleton.mp hm).symm⟩)

theorem ext3_4 (c : Dev nD) : Ext3 m c main_v21 = (dat3 (EntR3 m) c).arrAt 4 cfg3.N :=
  (show V8 m (outsAll m) c main_v21 = outsAll m 8 main_v21 c from Function.update_self ..).trans (outsAll_8_4 m c)
theorem hF3_0 (c : Dev nD) : (dat3 (EntR3 m) c).arrAt 0 cfg3.N = ExtR3 m c (Pipeline.arrRef spec3 0) :=
  ((dat3 (EntR3 m) c).arrAt_in 0 rfl _).trans ((A_eq3 (EntR3 m) c 0).trans (V8_of m (outsAll m) c (Pipeline.arrRef spec3 0) (by decide)).symm)
theorem hF3_1 (c : Dev nD) : (dat3 (EntR3 m) c).arrAt 1 cfg3.N = ExtR3 m c (Pipeline.arrRef spec3 1) :=
  ((dat3 (EntR3 m) c).arrAt_in 1 rfl _).trans ((A_eq3 (EntR3 m) c 1).trans (V8_of m (outsAll m) c (Pipeline.arrRef spec3 1) (by decide)).symm)
theorem hF3_2 (c : Dev nD) : (dat3 (EntR3 m) c).arrAt 2 cfg3.N = ExtR3 m c (Pipeline.arrRef spec3 2) :=
  ((dat3 (EntR3 m) c).arrAt_in 2 rfl _).trans ((A_eq3 (EntR3 m) c 2).trans (V8_of m (outsAll m) c (Pipeline.arrRef spec3 2) (by decide)).symm)
theorem hF3_3 (c : Dev nD) : (dat3 (EntR3 m) c).arrAt 3 cfg3.N = ExtR3 m c (Pipeline.arrRef spec3 3) :=
  ((dat3 (EntR3 m) c).arrAt_in 3 rfl _).trans ((A_eq3 (EntR3 m) c 3).trans (V8_of m (outsAll m) c (Pipeline.arrRef spec3 3) (by decide)).symm)
theorem hF3_4 (c : Dev nD) : (dat3 (EntR3 m) c).arrAt 4 cfg3.N = ExtR3 m c (Pipeline.arrRef spec3 4) :=
  (ext3_4 m c).symm
set_option maxHeartbeats 1000000 in
/-- At region 3's exit each of its arrays holds what the pipeline leaves: an input as entered, an output its write-backs. -/
theorem hF3 (c : Dev nD) (w : Fin cfg3.W) : (dat3 (EntR3 m) c).arrAt w cfg3.N = ExtR3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
/-- and every other buffer what it held at entry. -/
theorem hrest3 (c : Dev nD) : ∀ b, b ∉ Finset.univ.image (Pipeline.arrRef spec3) → ExtR3 m c b = EntR3 m c b :=
  fun b hb => V8_of m (outsAll m) c b fun hm => hb (Finset.mem_image.mpr ⟨4, Finset.mem_univ _, (List.mem_singleton.mp hm).symm⟩)

theorem ext4_4 (c : Dev nD) : Ext4 m c main_v34_0 = (dat4 (EntR4 m) c).arrAt 4 cfg4.N :=
  (show V10 m (outsAll m) c main_v34_0 = outsAll m 10 main_v34_0 c from (Function.update_of_ne (StableHlo.devRef_ne_of_ne (by decide) : (Proc.devRef .tc main_v34_0 : DevRef τ sig) ≠ Proc.devRef .tc main_v34_1) ..).trans (Function.update_self ..)).trans (outsAll_10_4 m c)
theorem ext4_5 (c : Dev nD) : Ext4 m c main_v34_1 = (dat4 (EntR4 m) c).arrAt 5 cfg4.N :=
  (show V10 m (outsAll m) c main_v34_1 = outsAll m 10 main_v34_1 c from Function.update_self ..).trans (outsAll_10_5 m c)
theorem hF4_0 (c : Dev nD) : (dat4 (EntR4 m) c).arrAt 0 cfg4.N = ExtR4 m c (Pipeline.arrRef spec4 0) :=
  ((dat4 (EntR4 m) c).arrAt_in 0 rfl _).trans ((A_eq4 (EntR4 m) c 0).trans (V10_of m (outsAll m) c (Pipeline.arrRef spec4 0) (by decide)).symm)
theorem hF4_1 (c : Dev nD) : (dat4 (EntR4 m) c).arrAt 1 cfg4.N = ExtR4 m c (Pipeline.arrRef spec4 1) :=
  ((dat4 (EntR4 m) c).arrAt_in 1 rfl _).trans ((A_eq4 (EntR4 m) c 1).trans (V10_of m (outsAll m) c (Pipeline.arrRef spec4 1) (by decide)).symm)
theorem hF4_2 (c : Dev nD) : (dat4 (EntR4 m) c).arrAt 2 cfg4.N = ExtR4 m c (Pipeline.arrRef spec4 2) :=
  ((dat4 (EntR4 m) c).arrAt_in 2 rfl _).trans ((A_eq4 (EntR4 m) c 2).trans (V10_of m (outsAll m) c (Pipeline.arrRef spec4 2) (by decide)).symm)
theorem hF4_3 (c : Dev nD) : (dat4 (EntR4 m) c).arrAt 3 cfg4.N = ExtR4 m c (Pipeline.arrRef spec4 3) :=
  ((dat4 (EntR4 m) c).arrAt_in 3 rfl _).trans ((A_eq4 (EntR4 m) c 3).trans (V10_of m (outsAll m) c (Pipeline.arrRef spec4 3) (by decide)).symm)
theorem hF4_4 (c : Dev nD) : (dat4 (EntR4 m) c).arrAt 4 cfg4.N = ExtR4 m c (Pipeline.arrRef spec4 4) :=
  (ext4_4 m c).symm
theorem hF4_5 (c : Dev nD) : (dat4 (EntR4 m) c).arrAt 5 cfg4.N = ExtR4 m c (Pipeline.arrRef spec4 5) :=
  (ext4_5 m c).symm
set_option maxHeartbeats 1000000 in
/-- At region 4's exit each of its arrays holds what the pipeline leaves: an input as entered, an output its write-backs. -/
theorem hF4 (c : Dev nD) (w : Fin cfg4.W) : (dat4 (EntR4 m) c).arrAt w cfg4.N = ExtR4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
/-- and every other buffer what it held at entry. -/
theorem hrest4 (c : Dev nD) : ∀ b, b ∉ Finset.univ.image (Pipeline.arrRef spec4) → ExtR4 m c b = EntR4 m c b :=
  fun b hb => V10_of m (outsAll m) c b fun hm => (List.mem_cons.mp hm).elim (fun e => hb (Finset.mem_image.mpr ⟨4, Finset.mem_univ _, e.symm⟩)) (fun hm' => hb (Finset.mem_image.mpr ⟨5, Finset.mem_univ _, (List.mem_singleton.mp hm').symm⟩))

theorem ext5_8 (c : Dev nD) : Ext5 m c main_v47 = (dat5 (EntR5 m) c).arrAt 8 cfg5.N :=
  (show V12 m (outsAll m) c main_v47 = outsAll m 12 main_v47 c from Function.update_self ..).trans (outsAll_12_8 m c)
theorem hF5_0 (c : Dev nD) : (dat5 (EntR5 m) c).arrAt 0 cfg5.N = ExtR5 m c (Pipeline.arrRef spec5 0) :=
  ((dat5 (EntR5 m) c).arrAt_in 0 rfl _).trans ((A_eq5 (EntR5 m) c 0).trans (V12_of m (outsAll m) c (Pipeline.arrRef spec5 0) (by decide)).symm)
theorem hF5_1 (c : Dev nD) : (dat5 (EntR5 m) c).arrAt 1 cfg5.N = ExtR5 m c (Pipeline.arrRef spec5 1) :=
  ((dat5 (EntR5 m) c).arrAt_in 1 rfl _).trans ((A_eq5 (EntR5 m) c 1).trans (V12_of m (outsAll m) c (Pipeline.arrRef spec5 1) (by decide)).symm)
theorem hF5_2 (c : Dev nD) : (dat5 (EntR5 m) c).arrAt 2 cfg5.N = ExtR5 m c (Pipeline.arrRef spec5 2) :=
  ((dat5 (EntR5 m) c).arrAt_in 2 rfl _).trans ((A_eq5 (EntR5 m) c 2).trans (V12_of m (outsAll m) c (Pipeline.arrRef spec5 2) (by decide)).symm)
theorem hF5_3 (c : Dev nD) : (dat5 (EntR5 m) c).arrAt 3 cfg5.N = ExtR5 m c (Pipeline.arrRef spec5 3) :=
  ((dat5 (EntR5 m) c).arrAt_in 3 rfl _).trans ((A_eq5 (EntR5 m) c 3).trans (V12_of m (outsAll m) c (Pipeline.arrRef spec5 3) (by decide)).symm)
theorem hF5_4 (c : Dev nD) : (dat5 (EntR5 m) c).arrAt 4 cfg5.N = ExtR5 m c (Pipeline.arrRef spec5 4) :=
  ((dat5 (EntR5 m) c).arrAt_in 4 rfl _).trans ((A_eq5 (EntR5 m) c 4).trans (V12_of m (outsAll m) c (Pipeline.arrRef spec5 4) (by decide)).symm)
theorem hF5_5 (c : Dev nD) : (dat5 (EntR5 m) c).arrAt 5 cfg5.N = ExtR5 m c (Pipeline.arrRef spec5 5) :=
  ((dat5 (EntR5 m) c).arrAt_in 5 rfl _).trans ((A_eq5 (EntR5 m) c 5).trans (V12_of m (outsAll m) c (Pipeline.arrRef spec5 5) (by decide)).symm)
theorem hF5_6 (c : Dev nD) : (dat5 (EntR5 m) c).arrAt 6 cfg5.N = ExtR5 m c (Pipeline.arrRef spec5 6) :=
  ((dat5 (EntR5 m) c).arrAt_in 6 rfl _).trans ((A_eq5 (EntR5 m) c 6).trans (V12_of m (outsAll m) c (Pipeline.arrRef spec5 6) (by decide)).symm)
theorem hF5_7 (c : Dev nD) : (dat5 (EntR5 m) c).arrAt 7 cfg5.N = ExtR5 m c (Pipeline.arrRef spec5 7) :=
  ((dat5 (EntR5 m) c).arrAt_in 7 rfl _).trans ((A_eq5 (EntR5 m) c 7).trans (V12_of m (outsAll m) c (Pipeline.arrRef spec5 7) (by decide)).symm)
theorem hF5_8 (c : Dev nD) : (dat5 (EntR5 m) c).arrAt 8 cfg5.N = ExtR5 m c (Pipeline.arrRef spec5 8) :=
  (ext5_8 m c).symm
set_option maxHeartbeats 1000000 in
/-- At region 5's exit each of its arrays holds what the pipeline leaves: an input as entered, an output its write-backs. -/
theorem hF5 (c : Dev nD) (w : Fin cfg5.W) : (dat5 (EntR5 m) c).arrAt w cfg5.N = ExtR5 m c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c
  | ⟨6, _⟩ => hF5_6 m c
  | ⟨7, _⟩ => hF5_7 m c
  | ⟨8, _⟩ => hF5_8 m c
/-- and every other buffer what it held at entry. -/
theorem hrest5 (c : Dev nD) : ∀ b, b ∉ Finset.univ.image (Pipeline.arrRef spec5) → ExtR5 m c b = EntR5 m c b :=
  fun b hb => V12_of m (outsAll m) c b fun hm => hb (Finset.mem_image.mpr ⟨8, Finset.mem_univ _, (List.mem_singleton.mp hm).symm⟩)

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (EntR0 m) c
  | ⟨1, _⟩ => fun c => dat1 (EntR1 m) c
  | ⟨2, _⟩ => fun c => dat2 (EntR2 m) c
  | ⟨3, _⟩ => fun c => dat3 (EntR3 m) c
  | ⟨4, _⟩ => fun c => dat4 (EntR4 m) c
  | ⟨5, _⟩ => fun c => dat5 (EntR5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- The last thread state without what is owed: every unscoped buffer at the last contents, the generator register at some state. -/
abbrev Tₙ (c : Dev nD) : sProp 𝕄 := iprop(StableHlo.held (c : Thread nD τ) (Pipeline.ucRefs τ sig) (Ext5 m c) ∗ ∃ r, prngReg c r)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at its entry contents, left at its exit contents. Its
    arrays are split out of the unscoped buffers and put back at the exit contents; the generator register goes into the
    pipeline's invariant and out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EntR0 m) c).loose
  hwaits := Pipeline.hwaits_of_owed_zero _ _ _ _ L lv 0 fun _ _ => rfl
  pre c := iprop(StableHlo.held (c : Thread nD τ) (Pipeline.ucRefs τ sig) (Ent0 m c) ∗ R c)
  post c := iprop(StableHlo.held (c : Thread nD τ) (Pipeline.ucRefs τ sig) (Ext0 m c) ∗ R c)
  X c := iprop(∃ r, prngReg c r)
  Y c := iprop(∃ r, prngReg c r)
  Z c := Pipeline.unscopedRest (Ix := Unit) (Name := ℕ) (U := UR sig nD τ) (Lvl := ℕ) spec0 c (EntR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EntR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EntR0 m c) (ExtR0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents. Its
    arrays are split out of the unscoped buffers and put back at the exit contents; the generator register goes into the
    pipeline's invariant and out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EntR1 m) c).loose
  hwaits := Pipeline.hwaits_of_owed_zero _ _ _ _ L lv 1 fun _ _ => rfl
  pre c := iprop(StableHlo.held (c : Thread nD τ) (Pipeline.ucRefs τ sig) (Ent1 m c) ∗ R c)
  post c := iprop(StableHlo.held (c : Thread nD τ) (Pipeline.ucRefs τ sig) (Ext1 m c) ∗ R c)
  X c := iprop(∃ r, prngReg c r)
  Y c := iprop(∃ r, prngReg c r)
  Z c := Pipeline.unscopedRest (Ix := Unit) (Name := ℕ) (U := UR sig nD τ) (Lvl := ℕ) spec1 c (EntR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EntR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EntR1 m c) (ExtR1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents. Its
    arrays are split out of the unscoped buffers and put back at the exit contents; the generator register goes into the
    pipeline's invariant and out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EntR2 m) c).loose
  hwaits := Pipeline.hwaits_of_owed_zero _ _ _ _ L lv 2 fun _ _ => rfl
  pre c := iprop(StableHlo.held (c : Thread nD τ) (Pipeline.ucRefs τ sig) (Ent2 m c) ∗ R c)
  post c := iprop(StableHlo.held (c : Thread nD τ) (Pipeline.ucRefs τ sig) (Ext2 m c) ∗ R c)
  X c := iprop(∃ r, prngReg c r)
  Y c := iprop(∃ r, prngReg c r)
  Z c := Pipeline.unscopedRest (Ix := Unit) (Name := ℕ) (U := UR sig nD τ) (Lvl := ℕ) spec2 c (EntR2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (EntR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EntR2 m c) (ExtR2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit contents. Its
    arrays are split out of the unscoped buffers and put back at the exit contents; the generator register goes into the
    pipeline's invariant and out; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (EntR3 m) c).loose
  hwaits := Pipeline.hwaits_of_owed_zero _ _ _ _ L lv 3 fun _ _ => rfl
  pre c := iprop(StableHlo.held (c : Thread nD τ) (Pipeline.ucRefs τ sig) (Ent3 m c) ∗ R c)
  post c := iprop(StableHlo.held (c : Thread nD τ) (Pipeline.ucRefs τ sig) (Ext3 m c) ∗ R c)
  X c := iprop(∃ r, prngReg c r)
  Y c := iprop(∃ r, prngReg c r)
  Z c := Pipeline.unscopedRest (Ix := Unit) (Name := ℕ) (U := UR sig nD τ) (Lvl := ℕ) spec3 c (EntR3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (EntR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (EntR3 m c) (ExtR3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at its entry contents, left at its exit contents. Its
    arrays are split out of the unscoped buffers and put back at the exit contents; the generator register goes into the
    pipeline's invariant and out; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (EntR4 m) c).loose
  hwaits := Pipeline.hwaits_of_owed_zero _ _ _ _ L lv 4 fun _ _ => rfl
  pre c := iprop(StableHlo.held (c : Thread nD τ) (Pipeline.ucRefs τ sig) (Ent4 m c) ∗ R c)
  post c := iprop(StableHlo.held (c : Thread nD τ) (Pipeline.ucRefs τ sig) (Ext4 m c) ∗ R c)
  X c := iprop(∃ r, prngReg c r)
  Y c := iprop(∃ r, prngReg c r)
  Z c := Pipeline.unscopedRest (Ix := Unit) (Name := ℕ) (U := UR sig nD τ) (Lvl := ℕ) spec4 c (EntR4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (EntR4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (EntR4 m c) (ExtR4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at its entry contents, left at its exit contents. Its
    arrays are split out of the unscoped buffers and put back at the exit contents; the generator register goes into the
    pipeline's invariant and out; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (EntR5 m) c).loose
  hwaits := Pipeline.hwaits_of_owed_zero _ _ _ _ L lv 5 fun _ _ => rfl
  pre c := iprop(StableHlo.held (c : Thread nD τ) (Pipeline.ucRefs τ sig) (Ent5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (EntR5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (EntR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (EntR5 m c) (ExtR5 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- What @main leaves in its result on core `c`: the last region's output array after its last point. -/
def res (c : Dev nD) : Buf (Elt F) ((c : Thread nD τ).loc main_v47) := (dat5 (EntR5 m) c).arrAt 8 cfg5.N

set_option backward.isDefEq.respectTransparency.types false in
/-- THE RUN: at the compiled mesh, from any memory with zero counters, every weakly fair execution of @main on the TensorCores
    terminates, nothing faulting, and every final state has the result at `res` and every argument array as launched. -/
theorem run (ρ : Dev nD → PrngReg) : θ_run defs (onTc (τ := τ) (main (F := F))) ⟨m, fun _ => 0, ρ⟩ (fun r => ∀ c : Dev nD,
      r.2.mem ((c.tc : Thread nD τ).loc main_v47) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outsAll m) 𝒱₀ L lv (fun _ c => R c) () (pdats m) (reg0 m) (reg1 m) (reg2 m) (reg3 m) (reg4 m) (reg5 m))
    (fun c Q => by
      rewrite [main_chain c, Seg.run_eq_chain,
        show ((segs m (outsAll m) 𝒱₀ L lv (fun _ c => R c) () (pdats m) (reg0 m) (reg1 m) (reg2 m) (reg3 m) (reg4 m) (reg5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Ext5 m c b)
    (hfin := fun c s' => by
      iintro ⟨⟨Hh, -⟩, HSI⟩
      unfold StableHlo.held
      imodintro
      iapply (pointsTo_read_all (Pipeline.ucRefs τ sig) (fun b => (((c : Thread nD τ)).1, b)) (Ext5 m c) s')
      isplitl [Hh] <;> iassumption)
    (hQ := fun s h c =>
      ⟨(h c _ (mem_uc main_v47 (by decide))).trans (ext5_8 m c),
        (h c _ (mem_uc main_arg0 (by decide))).trans (V12_main_arg0 m (outsAll m) c),
        (h c _ (mem_uc main_arg1 (by decide))).trans (V12_main_arg1 m (outsAll m) c),
        (h c _ (mem_uc main_arg2 (by decide))).trans (V12_main_arg2 m (outsAll m) c),
        (h c _ (mem_uc main_arg3 (by decide))).trans (V12_main_arg3 m (outsAll m) c),
        (h c _ (mem_uc main_arg4 (by decide))).trans (V12_main_arg4 m (outsAll m) c),
        (h c _ (mem_uc main_arg5 (by decide))).trans (V12_main_arg5 m (outsAll m) c),
        (h c _ (mem_uc main_arg6 (by decide))).trans (V12_main_arg6 m (outsAll m) c),
        (h c _ (mem_uc main_arg7 (by decide))).trans (V12_main_arg7 m (outsAll m) c),
        (h c _ (mem_uc main_arg8 (by decide))).trans (V12_main_arg8 m (outsAll m) c),
        (h c _ (mem_uc main_arg9 (by decide))).trans (V12_main_arg9 m (outsAll m) c),
        (h c _ (mem_uc main_arg10 (by decide))).trans (V12_main_arg10 m (outsAll m) c),
        (h c _ (mem_uc main_arg11 (by decide))).trans (V12_main_arg11 m (outsAll m) c)⟩)

/-- info: 'Cert.Kernel.Fr.run' depends on axioms: [propext, Classical.choice, Quot.sound] -/
#guard_msgs in #print axioms run

/-! ## What each region's windows are entered with -/

/-- Region 0's window 0 is entered with the argument `main_arg0` as launched. -/
theorem entry0_0 (c : Dev nD) : (dat0 (EntR0 m) c).A 0 = m ((c : Thread nD τ).loc main_arg0) :=
  (A_eq0 (EntR0 m) c 0).trans (show Ent0 m c main_arg0 = V0 m c main_arg0 from (V1_of m c main_arg0 (by decide)))
/-- Region 0's window 1 is entered with the argument `main_arg2` as launched. -/
theorem entry0_1 (c : Dev nD) : (dat0 (EntR0 m) c).A 1 = m ((c : Thread nD τ).loc main_arg2) :=
  (A_eq0 (EntR0 m) c 1).trans (show Ent0 m c main_arg2 = V0 m c main_arg2 from (V1_of m c main_arg2 (by decide)))
/-- Region 0's window 2 is entered with the host-computed `main_v2`. -/
theorem entry0_2 (c : Dev nD) : (dat0 (EntR0 m) c).A 2 = Ent0 m c main_v2 := A_eq0 (EntR0 m) c 2
/-- Region 0's window 3 is entered with the host-computed `main_v1`. -/
theorem entry0_3 (c : Dev nD) : (dat0 (EntR0 m) c).A 3 = Ent0 m c main_v1 := A_eq0 (EntR0 m) c 3

/-- Region 1's window 0 is entered with the argument `main_arg1` as launched. -/
theorem entry1_0 (c : Dev nD) : (dat1 (EntR1 m) c).A 0 = m ((c : Thread nD τ).loc main_arg1) :=
  (A_eq1 (EntR1 m) c 0).trans (show Ent1 m c main_arg1 = V0 m c main_arg1 from (V3_of m (outsAll m) c main_arg1 (by decide)).trans <| (V2_of m (outsAll m) c main_arg1 (by decide)).trans <| (V1_of m c main_arg1 (by decide)))
/-- Region 1's window 1 is entered with what region 0 left in `main_v3`. -/
theorem entry1_1 (c : Dev nD) : (dat1 (EntR1 m) c).A 1 = (dat0 (EntR0 m) c).arrAt 4 cfg0.N :=
  (A_eq1 (EntR1 m) c 1).trans ((show Ent1 m c main_v3 = Ext0 m c main_v3 from (V3_of m (outsAll m) c main_v3 (by decide))).trans (ext0_4 m c))
/-- Region 1's window 2 is entered with the host-computed `main_v8`. -/
theorem entry1_2 (c : Dev nD) : (dat1 (EntR1 m) c).A 2 = Ent1 m c main_v8 := A_eq1 (EntR1 m) c 2
/-- Region 1's window 3 is entered with the host-computed `main_v7`. -/
theorem entry1_3 (c : Dev nD) : (dat1 (EntR1 m) c).A 3 = Ent1 m c main_v7 := A_eq1 (EntR1 m) c 3

/-- Region 2's window 0 is entered with the argument `main_arg1` as launched. -/
theorem entry2_0 (c : Dev nD) : (dat2 (EntR2 m) c).A 0 = m ((c : Thread nD τ).loc main_arg1) :=
  (A_eq2 (EntR2 m) c 0).trans (show Ent2 m c main_arg1 = V0 m c main_arg1 from (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 2's window 1 is entered with what region 1 left in `main_v9`. -/
theorem entry2_1 (c : Dev nD) : (dat2 (EntR2 m) c).A 1 = (dat1 (EntR1 m) c).arrAt 4 cfg1.N :=
  (A_eq2 (EntR2 m) c 1).trans ((show Ent2 m c main_v9 = Ext1 m c main_v9 from (V5_of m (outsAll m) c main_v9 (by decide))).trans (ext1_4 m c))
/-- Region 2's window 2 is entered with the host-computed `main_v14`. -/
theorem entry2_2 (c : Dev nD) : (dat2 (EntR2 m) c).A 2 = Ent2 m c main_v14 := A_eq2 (EntR2 m) c 2
/-- Region 2's window 3 is entered with the host-computed `main_v13`. -/
theorem entry2_3 (c : Dev nD) : (dat2 (EntR2 m) c).A 3 = Ent2 m c main_v13 := A_eq2 (EntR2 m) c 3

/-- Region 3's window 0 is entered with the argument `main_arg1` as launched. -/
theorem entry3_0 (c : Dev nD) : (dat3 (EntR3 m) c).A 0 = m ((c : Thread nD τ).loc main_arg1) :=
  (A_eq3 (EntR3 m) c 0).trans (show Ent3 m c main_arg1 = V0 m c main_arg1 from (V7_of m (outsAll m) c main_arg1 (by decide)).trans <| (V6_of m (outsAll m) c main_arg1 (by decide)).trans <| (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 3's window 1 is entered with what region 2 left in `main_v15`. -/
theorem entry3_1 (c : Dev nD) : (dat3 (EntR3 m) c).A 1 = (dat2 (EntR2 m) c).arrAt 4 cfg2.N :=
  (A_eq3 (EntR3 m) c 1).trans ((show Ent3 m c main_v15 = Ext2 m c main_v15 from (V7_of m (outsAll m) c main_v15 (by decide))).trans (ext2_4 m c))
/-- Region 3's window 2 is entered with the host-computed `main_v20`. -/
theorem entry3_2 (c : Dev nD) : (dat3 (EntR3 m) c).A 2 = Ent3 m c main_v20 := A_eq3 (EntR3 m) c 2
/-- Region 3's window 3 is entered with the host-computed `main_v19`. -/
theorem entry3_3 (c : Dev nD) : (dat3 (EntR3 m) c).A 3 = Ent3 m c main_v19 := A_eq3 (EntR3 m) c 3

/-- Region 4's window 0 is entered with the argument `main_arg1` as launched. -/
theorem entry4_0 (c : Dev nD) : (dat4 (EntR4 m) c).A 0 = m ((c : Thread nD τ).loc main_arg1) :=
  (A_eq4 (EntR4 m) c 0).trans (show Ent4 m c main_arg1 = V0 m c main_arg1 from (V9_of m (outsAll m) c main_arg1 (by decide)).trans <| (V8_of m (outsAll m) c main_arg1 (by decide)).trans <| (V7_of m (outsAll m) c main_arg1 (by decide)).trans <| (V6_of m (outsAll m) c main_arg1 (by decide)).trans <| (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 4's window 1 is entered with what region 3 left in `main_v21`. -/
theorem entry4_1 (c : Dev nD) : (dat4 (EntR4 m) c).A 1 = (dat3 (EntR3 m) c).arrAt 4 cfg3.N :=
  (A_eq4 (EntR4 m) c 1).trans ((show Ent4 m c main_v21 = Ext3 m c main_v21 from (V9_of m (outsAll m) c main_v21 (by decide))).trans (ext3_4 m c))
/-- Region 4's window 2 is entered with the host-computed `main_v33`. -/
theorem entry4_2 (c : Dev nD) : (dat4 (EntR4 m) c).A 2 = Ent4 m c main_v33 := A_eq4 (EntR4 m) c 2
/-- Region 4's window 3 is entered with the host-computed `main_v30`. -/
theorem entry4_3 (c : Dev nD) : (dat4 (EntR4 m) c).A 3 = Ent4 m c main_v30 := A_eq4 (EntR4 m) c 3

/-- Region 5's window 0 is entered with the argument `main_arg1` as launched. -/
theorem entry5_0 (c : Dev nD) : (dat5 (EntR5 m) c).A 0 = m ((c : Thread nD τ).loc main_arg1) :=
  (A_eq5 (EntR5 m) c 0).trans (show Ent5 m c main_arg1 = V0 m c main_arg1 from (V11_of m (outsAll m) c main_arg1 (by decide)).trans <| (V10_of m (outsAll m) c main_arg1 (by decide)).trans <| (V9_of m (outsAll m) c main_arg1 (by decide)).trans <| (V8_of m (outsAll m) c main_arg1 (by decide)).trans <| (V7_of m (outsAll m) c main_arg1 (by decide)).trans <| (V6_of m (outsAll m) c main_arg1 (by decide)).trans <| (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 5's window 1 is entered with what region 4 left in `main_v34_1`. -/
theorem entry5_1 (c : Dev nD) : (dat5 (EntR5 m) c).A 1 = (dat4 (EntR4 m) c).arrAt 5 cfg4.N :=
  (A_eq5 (EntR5 m) c 1).trans ((show Ent5 m c main_v34_1 = Ext4 m c main_v34_1 from (V11_of m (outsAll m) c main_v34_1 (by decide))).trans (ext4_5 m c))
/-- Region 5's window 2 is entered with what region 4 left in `main_v34_0`. -/
theorem entry5_2 (c : Dev nD) : (dat5 (EntR5 m) c).A 2 = (dat4 (EntR4 m) c).arrAt 4 cfg4.N :=
  (A_eq5 (EntR5 m) c 2).trans ((show Ent5 m c main_v34_0 = Ext4 m c main_v34_0 from (V11_of m (outsAll m) c main_v34_0 (by decide))).trans (ext4_4 m c))
/-- Region 5's window 3 is entered with the host-computed `main_v44`. -/
theorem entry5_3 (c : Dev nD) : (dat5 (EntR5 m) c).A 3 = Ent5 m c main_v44 := A_eq5 (EntR5 m) c 3
/-- Region 5's window 4 is entered with the argument `main_arg8` as launched. -/
theorem entry5_4 (c : Dev nD) : (dat5 (EntR5 m) c).A 4 = m ((c : Thread nD τ).loc main_arg8) :=
  (A_eq5 (EntR5 m) c 4).trans (show Ent5 m c main_arg8 = V0 m c main_arg8 from (V11_of m (outsAll m) c main_arg8 (by decide)).trans <| (V10_of m (outsAll m) c main_arg8 (by decide)).trans <| (V9_of m (outsAll m) c main_arg8 (by decide)).trans <| (V8_of m (outsAll m) c main_arg8 (by decide)).trans <| (V7_of m (outsAll m) c main_arg8 (by decide)).trans <| (V6_of m (outsAll m) c main_arg8 (by decide)).trans <| (V5_of m (outsAll m) c main_arg8 (by decide)).trans <| (V4_of m (outsAll m) c main_arg8 (by decide)).trans <| (V3_of m (outsAll m) c main_arg8 (by decide)).trans <| (V2_of m (outsAll m) c main_arg8 (by decide)).trans <| (V1_of m c main_arg8 (by decide)))
/-- Region 5's window 5 is entered with the host-computed `main_v45`. -/
theorem entry5_5 (c : Dev nD) : (dat5 (EntR5 m) c).A 5 = Ent5 m c main_v45 := A_eq5 (EntR5 m) c 5
/-- Region 5's window 6 is entered with the argument `main_arg10` as launched. -/
theorem entry5_6 (c : Dev nD) : (dat5 (EntR5 m) c).A 6 = m ((c : Thread nD τ).loc main_arg10) :=
  (A_eq5 (EntR5 m) c 6).trans (show Ent5 m c main_arg10 = V0 m c main_arg10 from (V11_of m (outsAll m) c main_arg10 (by decide)).trans <| (V10_of m (outsAll m) c main_arg10 (by decide)).trans <| (V9_of m (outsAll m) c main_arg10 (by decide)).trans <| (V8_of m (outsAll m) c main_arg10 (by decide)).trans <| (V7_of m (outsAll m) c main_arg10 (by decide)).trans <| (V6_of m (outsAll m) c main_arg10 (by decide)).trans <| (V5_of m (outsAll m) c main_arg10 (by decide)).trans <| (V4_of m (outsAll m) c main_arg10 (by decide)).trans <| (V3_of m (outsAll m) c main_arg10 (by decide)).trans <| (V2_of m (outsAll m) c main_arg10 (by decide)).trans <| (V1_of m c main_arg10 (by decide)))
/-- Region 5's window 7 is entered with the host-computed `main_v46`. -/
theorem entry5_7 (c : Dev nD) : (dat5 (EntR5 m) c).A 7 = Ent5 m c main_v46 := A_eq5 (EntR5 m) c 7

end Cert.Kernel.Fr

end
-- ==== Proof.KI.Region0.lean ====
/-
  Kernel region 0 of @main (custom_call 0, body `cc0__prop_body`) on one core, at arbitrary contents `V` of the core's
  buffers when the region is entered. The region has four input windows and one output window; every point of its 25-point grid
  runs the same straight-line body, which loads each input window's whole staging block, computes, and stores each output
  window's whole block.

  Proved here: the body's triple (`sound_kernel0`: the inputs' buffers are left as found and each output's buffer holds
  `out0_w` of the input blocks, whatever it held before); the pipeline's proof data `dat0` (the arrays as `V` has them; after
  the body at point `t` an input's buffer holds its block of the array, `iblk0`, and an output's holds `out0_w` of those blocks);
  that an input's buffer holds its block at every point, fetched there or not (`before0_w`); and the body obligation at every
  point (`body_obligation0`).
-/
import proofs.«172286_g11278584119306_cont_sun_m_662_2_alg».proof.Proof.Gen.KernelIdeal.Launch
import proofs.«172286_g11278584119306_cont_sun_m_662_2_alg».proof.Proof.Gen.KernelIdeal.Skeleton
import proofs.«172286_g11278584119306_cont_sun_m_662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 0: the pipeline's body on whole blocks, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched its
    block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where it is not fetched its
    block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where it is not fetched its
    block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: where it is not fetched its
    block index has not moved and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_S400x10000 : Rect S400x10000 := Rect.unit (s := S400x10000) ![0, 0] S400x10000.size inb_S400x10000_S400x10000_0_0
abbrev r0_S10000x128 : Rect S10000x128 := Rect.unit (s := S10000x128) ![0, 0] S10000x128.size inb_S10000x128_S10000x128_0_0
abbrev r0_S1x128 : Rect S1x128 := Rect.unit (s := S1x128) ![0, 0] S1x128.size inb_S1x128_S1x128_0_0
abbrev r0_S128x128 : Rect S128x128 := Rect.unit (s := S128x128) ![0, 0] S128x128.size inb_S128x128_S128x128_0_0
abbrev r0_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out0_4 (x0 : Vec F S400x10000 .f32) (x1 : Vec F S10000x128 .f32) (x2 : Vec F S1x128 .f32) (x3 : Vec F S128x128 .f32) : Vec F S400x128 .f32 :=
  View.canon [⟨r0_S400x128, k0_pay1 (View.ld x0 r0_S400x10000) (View.ld x1 r0_S10000x128) (View.ld x2 r0_S1x128) (View.ld x3 r0_S128x128)⟩]

/-- The one store covers the buffer. -/
theorem cover0_4 (p0 : Vec F S400x128 .f32) (y : S400x128.Idx) :
    ∃ pc ∈ ([⟨r0_S400x128, p0⟩] : List (View.Piece (Elt F) S400x128 .f32)), y ∈ pc.1.set :=
  View.cover_of_tiled [⟨r0_S400x128, p0⟩] S400x128.size (by rfl) y

/-! ## The body's triple -/

set_option maxHeartbeats 1000000 in
/-- The body on whole staging buffers, the inputs' at contents `xW` and the outputs' at anything, runs to the continuation
    holding the inputs' as they were and each output's at `out0_W` of the inputs'. -/
theorem sound_kernel0 (c : Dev nD) (E : Set ℕ) (i : grid0.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__prop_body i arg0 harg0 arg1 harg1 arg2 harg2 arg3 harg3 arg4 harg4) K := by
  simp only [cc0__prop_body_eq_skeleton]; unfold cc0__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of pipeline 0 on core `c`: the arrays as the region finds them; after the body at point `t` each
    input's buffer at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Kernel region 1 of @main (custom_call 1, body `cc1__prop_body`) on one core, at arbitrary contents `V` of the core's
  buffers when the region is entered. The region has four input windows and one output window; every point of its 25-point grid
  runs the same straight-line body, which loads each input window's whole staging block, computes, and stores each output
  window's whole block.

  Proved here: the body's triple (`sound_kernel1`: the inputs' buffers are left as found and each output's buffer holds
  `out1_w` of the input blocks, whatever it held before); the pipeline's proof data `dat1` (the arrays as `V` has them; after
  the body at point `t` an input's buffer holds its block of the array, `iblk1`, and an output's holds `out1_w` of those blocks);
  that an input's buffer holds its block at every point, fetched there or not (`before1_w`); and the body obligation at every
  point (`body_obligation1`).
-/
import proofs.«172286_g11278584119306_cont_sun_m_662_2_alg».proof.Proof.Gen.KernelIdeal.Launch
import proofs.«172286_g11278584119306_cont_sun_m_662_2_alg».proof.Proof.Gen.KernelIdeal.Skeleton
import proofs.«172286_g11278584119306_cont_sun_m_662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 1: the pipeline's body on whole blocks, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched its
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where it is not fetched its
    block index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where it is not fetched its
    block index has not moved and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: where it is not fetched its
    block index has not moved and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_S400x10000 : Rect S400x10000 := Rect.unit (s := S400x10000) ![0, 0] S400x10000.size inb_S400x10000_S400x10000_0_0
abbrev r1_S10000x128 : Rect S10000x128 := Rect.unit (s := S10000x128) ![0, 0] S10000x128.size inb_S10000x128_S10000x128_0_0
abbrev r1_S1x128 : Rect S1x128 := Rect.unit (s := S1x128) ![0, 0] S1x128.size inb_S1x128_S1x128_0_0
abbrev r1_S128x128 : Rect S128x128 := Rect.unit (s := S128x128) ![0, 0] S128x128.size inb_S128x128_S128x128_0_0
abbrev r1_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out1_4 (x0 : Vec F S400x10000 .f32) (x1 : Vec F S10000x128 .f32) (x2 : Vec F S1x128 .f32) (x3 : Vec F S128x128 .f32) : Vec F S400x128 .f32 :=
  View.canon [⟨r1_S400x128, k1_pay1 (View.ld x0 r1_S400x10000) (View.ld x1 r1_S10000x128) (View.ld x2 r1_S1x128) (View.ld x3 r1_S128x128)⟩]

/-- The one store covers the buffer. -/
theorem cover1_4 (p0 : Vec F S400x128 .f32) (y : S400x128.Idx) :
    ∃ pc ∈ ([⟨r1_S400x128, p0⟩] : List (View.Piece (Elt F) S400x128 .f32)), y ∈ pc.1.set :=
  View.cover_of_tiled [⟨r1_S400x128, p0⟩] S400x128.size (by rfl) y

/-! ## The body's triple -/

set_option maxHeartbeats 1000000 in
/-- The body on whole staging buffers, the inputs' at contents `xW` and the outputs' at anything, runs to the continuation
    holding the inputs' as they were and each output's at `out1_W` of the inputs'. -/
theorem sound_kernel1 (c : Dev nD) (E : Set ℕ) (i : grid1.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__prop_body i arg0 harg0 arg1 harg1 arg2 harg2 arg3 harg3 arg4 harg4) K := by
  simp only [cc1__prop_body_eq_skeleton]; unfold cc1__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## The pipeline's proof data -/

/-- The proof data of pipeline 1 on core `c`: the arrays as the region finds them; after the body at point `t` each
    input's buffer at its block and each output's at `out1_W` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  Kernel region 2 of @main (custom_call 2, body `cc2__prop_body`) on one core, at arbitrary contents `V` of the core's
  buffers when the region is entered. The region has four input windows and one output window; every point of its 25-point grid
  runs the same straight-line body, which loads each input window's whole staging block, computes, and stores each output
  window's whole block.

  Proved here: the body's triple (`sound_kernel2`: the inputs' buffers are left as found and each output's buffer holds
  `out2_w` of the input blocks, whatever it held before); the pipeline's proof data `dat2` (the arrays as `V` has them; after
  the body at point `t` an input's buffer holds its block of the array, `iblk2`, and an output's holds `out2_w` of those blocks);
  that an input's buffer holds its block at every point, fetched there or not (`before2_w`); and the body obligation at every
  point (`body_obligation2`).
-/
import proofs.«172286_g11278584119306_cont_sun_m_662_2_alg».proof.Proof.Gen.KernelIdeal.Launch
import proofs.«172286_g11278584119306_cont_sun_m_662_2_alg».proof.Proof.Gen.KernelIdeal.Skeleton
import proofs.«172286_g11278584119306_cont_sun_m_662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 2: the pipeline's body on whole blocks, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched its
    block index has not moved and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: where it is not fetched its
    block index has not moved and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: where it is not fetched its
    block index has not moved and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: where it is not fetched its
    block index has not moved and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev r2_S400x10000 : Rect S400x10000 := Rect.unit (s := S400x10000) ![0, 0] S400x10000.size inb_S400x10000_S400x10000_0_0
abbrev r2_S10000x128 : Rect S10000x128 := Rect.unit (s := S10000x128) ![0, 0] S10000x128.size inb_S10000x128_S10000x128_0_0
abbrev r2_S1x128 : Rect S1x128 := Rect.unit (s := S1x128) ![0, 0] S1x128.size inb_S1x128_S1x128_0_0
abbrev r2_S128x128 : Rect S128x128 := Rect.unit (s := S128x128) ![0, 0] S128x128.size inb_S128x128_S128x128_0_0
abbrev r2_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out2_4 (x0 : Vec F S400x10000 .f32) (x1 : Vec F S10000x128 .f32) (x2 : Vec F S1x128 .f32) (x3 : Vec F S128x128 .f32) : Vec F S400x128 .f32 :=
  View.canon [⟨r2_S400x128, k2_pay1 (View.ld x0 r2_S400x10000) (View.ld x1 r2_S10000x128) (View.ld x2 r2_S1x128) (View.ld x3 r2_S128x128)⟩]

/-- The one store covers the buffer. -/
theorem cover2_4 (p0 : Vec F S400x128 .f32) (y : S400x128.Idx) :
    ∃ pc ∈ ([⟨r2_S400x128, p0⟩] : List (View.Piece (Elt F) S400x128 .f32)), y ∈ pc.1.set :=
  View.cover_of_tiled [⟨r2_S400x128, p0⟩] S400x128.size (by rfl) y

/-! ## The body's triple -/

set_option maxHeartbeats 1000000 in
/-- The body on whole staging buffers, the inputs' at contents `xW` and the outputs' at anything, runs to the continuation
    holding the inputs' as they were and each output's at `out2_W` of the inputs'. -/
theorem sound_kernel2 (c : Dev nD) (E : Set ℕ) (i : grid2.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__prop_body i arg0 harg0 arg1 harg1 arg2 harg2 arg3 harg3 arg4 harg4) K := by
  simp only [cc2__prop_body_eq_skeleton]; unfold cc2__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2_4 _)

/-! ## The pipeline's proof data -/

/-- The proof data of pipeline 2 on core `c`: the arrays as the region finds them; after the body at point `t` each
    input's buffer at its block and each output's at `out2_W` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
/-
  Kernel region 3 of @main (custom_call 3, body `cc3__prop_body`) on one core, at arbitrary contents `V` of the core's
  buffers when the region is entered. The region has four input windows and one output window; every point of its 25-point grid
  runs the same straight-line body, which loads each input window's whole staging block, computes, and stores each output
  window's whole block.

  Proved here: the body's triple (`sound_kernel3`: the inputs' buffers are left as found and each output's buffer holds
  `out3_w` of the input blocks, whatever it held before); the pipeline's proof data `dat3` (the arrays as `V` has them; after
  the body at point `t` an input's buffer holds its block of the array, `iblk3`, and an output's holds `out3_w` of those blocks);
  that an input's buffer holds its block at every point, fetched there or not (`before3_w`); and the body obligation at every
  point (`body_obligation3`).
-/
import proofs.«172286_g11278584119306_cont_sun_m_662_2_alg».proof.Proof.Gen.KernelIdeal.Launch
import proofs.«172286_g11278584119306_cont_sun_m_662_2_alg».proof.Proof.Gen.KernelIdeal.Skeleton
import proofs.«172286_g11278584119306_cont_sun_m_662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 3: the pipeline's body on whole blocks, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched its
    block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not: where it is not fetched its
    block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not: where it is not fetched its
    block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not: where it is not fetched its
    block index has not moved and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole block -/

abbrev r3_S400x10000 : Rect S400x10000 := Rect.unit (s := S400x10000) ![0, 0] S400x10000.size inb_S400x10000_S400x10000_0_0
abbrev r3_S10000x128 : Rect S10000x128 := Rect.unit (s := S10000x128) ![0, 0] S10000x128.size inb_S10000x128_S10000x128_0_0
abbrev r3_S1x128 : Rect S1x128 := Rect.unit (s := S1x128) ![0, 0] S1x128.size inb_S1x128_S1x128_0_0
abbrev r3_S128x128 : Rect S128x128 := Rect.unit (s := S128x128) ![0, 0] S128x128.size inb_S128x128_S128x128_0_0
abbrev r3_S400x128 : Rect S400x128 := Rect.unit (s := S400x128) ![0, 0] S400x128.size inb_S400x128_S400x128_0_0

/-! ## What the body leaves in each output window's buffer -/

/-- Output window 4's staging buffer after the body, from the input windows' blocks: its one store, of the whole block. -/
def out3_4 (x0 : Vec F S400x10000 .f32) (x1 : Vec F S10000x128 .f32) (x2 : Vec F S1x128 .f32) (x3 : Vec F S128x128 .f32) : Vec F S400x128 .f32 :=
  View.canon [⟨r3_S400x128, k3_pay1 (View.ld x0 r3_S400x10000) (View.ld x1 r3_S10000x128) (View.ld x2 r3_S1x128) (View.ld x3 r3_S128x128)⟩]

/-- The one store covers the buffer. -/
theorem cover3_4 (p0 : Vec F S400x128 .f32) (y : S400x128.Idx) :
    ∃ pc ∈ ([⟨r3_S400x128, p0⟩] : List (View.Piece (Elt F) S400x128 .f32)), y ∈ pc.1.set :=
  View.cover_of_tiled [⟨r3_S400x128, p0⟩] S400x128.size (by rfl) y

/-! ## The body's triple -/

set_option maxHeartbeats 1000000 in
/-- The body on whole staging buffers, the inputs' at contents `xW` and the outputs' at anything, runs to the continuation
    holding the inputs' as they were and each output's at `out3_W` of the inputs'. -/
theorem sound_kernel3 (c : Dev nD) (E : Set ℕ) (i : grid3.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__prop_body i arg0 harg0 arg1 harg1 arg2 harg2 arg3 harg3 arg4 harg4) K := by
  simp only [cc3__prop_body_eq_skeleton]; unfold cc3__prop_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-! ## The pipeline's proof data -/

/-- The proof data of pipeline 3 on core `c`: the arrays as the region finds them; after the body at point `t` each
    input's buffer at its block and each output's at `out3_W` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
/-
  Kernel region 4 of @main (custom_call 4, body `cc4__prop_keep_body`) on one core, at arbitrary contents `V` of the core's
  buffers when the region is entered. The region has four input windows and two output windows; every point of its 25-point grid
  runs the same straight-line body, which loads each input window's whole staging block, computes, and stores each output
  window's whole block.

  Proved here: the body's triple (`sound_kernel4`: the inputs' buffers are left as found and each output's buffer holds
  `out4_w` of the input blocks, whatever it held before); the pipeline's proof data `dat4` (the arrays as `V` has them; after
  the body at point `t` an input's buffer holds its block of the array, `iblk4`, and an output's holds `out4_w` of those blocks);
  that an input's buffer holds its block at every point, fetched there or not (`before4_w`); and the body obligation at every
  point (`body_obligation4`).
-/
import proofs.«172286_g11278584119306_cont_sun_m_662_2_alg».proof.Proof.Gen.KernelIdeal.Launch
import proofs.«172286_g11278584119306_cont_sun_m_662_2_alg».proof.Proof.Gen.KernelIdeal.Skeleton
import proofs.«172286_g11278584119306_cont_sun_m_662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 4: the pipeline's body on whole blocks, at the entry contents `V` -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: where it is not fetched its
    block index has not moved and the body left the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not: where it is not fetched its
    block index has not moved and the body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not: where it is not fetched its
    block index has not moved and the body left the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, fetched there or not: where it is not fetched its
    block index has not moved and the body left the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole block -/

abbrev r4_S400x10000 : Rect S400x10000 := Rect.unit (s := S400x10000) ![0, 0] S400x10000.size inb_S400x10000_S400x10000_0_0
abbrev r4_S10000x128 : Rect S10000x128 := Rect.unit (s := S10000x128) ![0, 0] S10000x128.size inb_S10000x128_S10000x128_0_0
abbrev r4_S1x128 : Rect S1x128 := Rect.unit (s := S1x128) ![0, 0] S1x128.size inb_S1x128_S1x128_0_0
abbrev r4_S128x640 : Rect S128x640 := Rect.unit (s := S128x640) ![0, 0] S128x640.size inb_S128x640_S128x640_0_0
abbrev r4_S400x128 : Rect S400x128 := Rect.unit (s := S400x128) ![0, 0] S400x128.size inb_S400x128_S400x128_0_0
abbrev r4_S400x640 : Rect S400x640 := Rect.unit (s := S400x640) ![0, 0] S400x640.size inb_S400x640_S400x640_0_0

/-! ## What the body leaves in each output window's buffer -/

/-- Output window 4's staging buffer after the body, from the input windows' blocks: its one store, of the whole block. -/
def out4_4 (x0 : Vec F S400x10000 .f32) (x1 : Vec F S10000x128 .f32) (x2 : Vec F S1x128 .f32) (x3 : Vec F S128x640 .f32) : Vec F S400x128 .f32 :=
  View.canon [⟨r4_S400x128, k4_pay1 (View.ld x0 r4_S400x10000) (View.ld x1 r4_S10000x128) (View.ld x2 r4_S1x128)⟩]

/-- The one store covers the buffer. -/
theorem cover4_4 (p0 : Vec F S400x128 .f32) (y : S400x128.Idx) :
    ∃ pc ∈ ([⟨r4_S400x128, p0⟩] : List (View.Piece (Elt F) S400x128 .f32)), y ∈ pc.1.set :=
  View.cover_of_tiled [⟨r4_S400x128, p0⟩] S400x128.size (by rfl) y

/-- Output window 5's staging buffer after the body, from the input windows' blocks: its one store, of the whole block. -/
def out4_5 (x0 : Vec F S400x10000 .f32) (x1 : Vec F S10000x128 .f32) (x2 : Vec F S1x128 .f32) (x3 : Vec F S128x640 .f32) : Vec F S400x640 .f32 :=
  View.canon [⟨r4_S400x640, k4_pay2 (View.ld x0 r4_S400x10000) (View.ld x1 r4_S10000x128) (View.ld x2 r4_S1x128) (View.ld x3 r4_S128x640)⟩]

/-- The one store covers the buffer. -/
theorem cover4_5 (p0 : Vec F S400x640 .f32) (y : S400x640.Idx) :
    ∃ pc ∈ ([⟨r4_S400x640, p0⟩] : List (View.Piece (Elt F) S400x640 .f32)), y ∈ pc.1.set :=
  View.cover_of_tiled [⟨r4_S400x640, p0⟩] S400x640.size (by rfl) y

/-! ## The body's triple -/

set_option maxHeartbeats 1000000 in
/-- The body on whole staging buffers, the inputs' at contents `xW` and the outputs' at anything, runs to the continuation
    holding the inputs' as they were and each output's at `out4_W` of the inputs'. -/
theorem sound_kernel4 (c : Dev nD) (E : Set ℕ) (i : grid4.Coords) (arg0 : Memref sig .tc .vmem S400x10000 .f32) (harg0 : arg0.IsWhole) (arg1 : Memref sig .tc .vmem S10000x128 .f32) (harg1 : arg1.IsWhole) (arg2 : Memref sig .tc .vmem S1x128 .f32) (harg2 : arg2.IsWhole) (arg3 : Memref sig .tc .vmem S128x640 .f32) (harg3 : arg3.IsWhole) (arg4 : Memref sig .tc .vmem S400x128 .f32) (harg4 : arg4.IsWhole) (arg5 : Memref sig .tc .vmem S400x640 .f32) (harg5 : arg5.IsWhole)
    (x0 : Vec F S400x10000 .f32) (x1 : Vec F S10000x128 .f32) (x2 : Vec F S1x128 .f32) (x3 : Vec F S128x640 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3) ∗ owns (c : Thread nD τ) arg5 fullShare (out4_5 x0 x1 x2 x3)) -∗ K ⟨⟩))
      ⊢ wp frame (wpE (defs₀ (F := F)) Variants.none c none) E (cc4__prop_keep_body i arg0 harg0 arg1 harg1 arg2 harg2 arg3 harg3 arg4 harg4 arg5 harg5) K := by
  simp only [cc4__prop_keep_body_eq_skeleton]; unfold cc4__prop_keep_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover4_4 _)
  iexists _; isplitr
  swap; · iexact H5
  ipureintro
  try dsimp only
  exact View.read_writes_eq_canon _ _ _ (cover4_5 _)

/-! ## The pipeline's proof data -/

/-- The proof data of pipeline 4 on core `c`: the arrays as the region finds them; after the body at point `t` each
    input's buffer at its block and each output's at `out4_W` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Region5.lean ====
/-
  Kernel region 5 of @main (custom_call 5, body `cc5__score_body`) on one core, at arbitrary contents `V` of the core's
  buffers when the region is entered. The region has eight input windows and one output window; every point of its 25-point grid
  runs the same straight-line body, which loads each input window's whole staging block, computes, and stores each output
  window's whole block.

  Proved here: the body's triple (`sound_kernel5`: the inputs' buffers are left as found and each output's buffer holds
  `out5_w` of the input blocks, whatever it held before); the pipeline's proof data `dat5` (the arrays as `V` has them; after
  the body at point `t` an input's buffer holds its block of the array, `iblk5`, and an output's holds `out5_w` of those blocks);
  that an input's buffer holds its block at every point, fetched there or not (`before5_w`); and the body obligation at every
  point (`body_obligation5`).
-/
import proofs.«172286_g11278584119306_cont_sun_m_662_2_alg».proof.Proof.Gen.KernelIdeal.Launch
import proofs.«172286_g11278584119306_cont_sun_m_662_2_alg».proof.Proof.Gen.KernelIdeal.Skeleton
import proofs.«172286_g11278584119306_cont_sun_m_662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the region is entered
variable (V : (c : Dev nD) → (b : Ref sig .tc) → Buf (Elt F) ((c : Thread nD τ).loc b))

/-! # Region 5: the pipeline's body on whole blocks, at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched its
    block index has not moved and the body left the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not: where it is not fetched its
    block index has not moved and the body left the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not: where it is not fetched its
    block index has not moved and the body left the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not: where it is not fetched its
    block index has not moved and the body left the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, fetched there or not: where it is not fetched its
    block index has not moved and the body left the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's staging buffer holds its block at every point, fetched there or not: where it is not fetched its
    block index has not moved and the body left the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's staging buffer holds its block at every point, fetched there or not: where it is not fetched its
    block index has not moved and the body left the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's staging buffer holds its block at every point, fetched there or not: where it is not fetched its
    block index has not moved and the body left the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole block -/

abbrev r5_S400x10000 : Rect S400x10000 := Rect.unit (s := S400x10000) ![0, 0] S400x10000.size inb_S400x10000_S400x10000_0_0
abbrev r5_S10000x640 : Rect S10000x640 := Rect.unit (s := S10000x640) ![0, 0] S10000x640.size inb_S10000x640_S10000x640_0_0
abbrev r5_S400x128 : Rect S400x128 := Rect.unit (s := S400x128) ![0, 0] S400x128.size inb_S400x128_S400x128_0_0
abbrev r5_S1x640 : Rect S1x640 := Rect.unit (s := S1x640) ![0, 0] S1x640.size inb_S1x640_S1x640_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0
abbrev r5_S128x1 : Rect S128x1 := Rect.unit (s := S128x1) ![0, 0] S128x1.size inb_S128x1_S128x1_0_0
abbrev r5_S1x1 : Rect S1x1 := Rect.unit (s := S1x1) ![0, 0] S1x1.size inb_S1x1_S1x1_0_0
abbrev r5_S400x1 : Rect S400x1 := Rect.unit (s := S400x1) ![0, 0] S400x1.size inb_S400x1_S400x1_0_0

/-! ## What the body leaves in each output window's buffer -/

/-- Output window 8's staging buffer after the body, from the input windows' blocks: its one store, of the whole block. -/
def out5_8 (x0 : Vec F S400x10000 .f32) (x1 : Vec F S10000x640 .f32) (x2 : Vec F S400x128 .f32) (x3 : Vec F S1x640 .f32) (x4 : Vec F S128x128 .f32) (x5 : Vec F S1x128 .f32) (x6 : Vec F S128x1 .f32) (x7 : Vec F S1x1 .f32) : Vec F S400x1 .f32 :=
  View.canon [⟨r5_S400x1, k5_pay1 (k5_pay2 (View.ld x0 r5_S400x10000) (View.ld x1 r5_S10000x640) (View.ld x3 r5_S1x640)) (View.ld x4 r5_S128x128) (k5_pay3 (View.ld x5 r5_S1x128)) (k5_pay6 (k5_pay2 (View.ld x0 r5_S400x10000) (View.ld x1 r5_S10000x640) (View.ld x3 r5_S1x640)) (View.ld x4 r5_S128x128) (k5_pay3 (View.ld x5 r5_S1x128)) (k5_pay4 (View.ld x0 r5_S400x10000) (View.ld x1 r5_S10000x640) (View.ld x3 r5_S1x640) (View.ld x4 r5_S128x128) (View.ld x5 r5_S1x128) (View.ld x2 r5_S400x128)) (k5_pay5 (View.ld x0 r5_S400x10000) (View.ld x1 r5_S10000x640) (View.ld x3 r5_S1x640))) (k5_pay7 (k5_pay2 (View.ld x0 r5_S400x10000) (View.ld x1 r5_S10000x640) (View.ld x3 r5_S1x640)) (View.ld x4 r5_S128x128) (k5_pay3 (View.ld x5 r5_S1x128))) (k5_pay8 (F := F)) (View.ld x6 r5_S128x1) (View.ld x7 r5_S1x1)⟩]

/-- The one store covers the buffer. -/
theorem cover5_8 (p0 : Vec F S400x1 .f32) (y : S400x1.Idx) :
    ∃ pc ∈ ([⟨r5_S400x1, p0⟩] : List (View.Piece (Elt F) S400x1 .f32)), y ∈ pc.1.set :=
  View.cover_of_tiled [⟨r5_S400x1, p0⟩] S400x1.size (by rfl) y

/-! ## The body's triple -/

set_option maxHeartbeats 1000000 in
/-- The body on whole staging buffers, the inputs' at contents `xW` and the outputs' at anything, runs to the continuation
    holding the inputs' as they were and each output's at `out5_W` of the inputs'. -/
theorem sound_kernel5 (c : Dev nD) (E : Set ℕ) (i : grid5.Coords) (arg0 : Memref sig .tc .vmem S400x10000 .f32) (harg0 : arg0.IsWhole) (arg1 : Memref sig .tc .vmem S10000x640 .f32) (harg1 : arg1.IsWhole) (arg2 : Memref sig .tc .vmem S400x128 .f32) (harg2 : arg2.IsWhole) (arg3 : Memref sig .tc .vmem S1x640 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S400x1 .f32) (harg8 : arg8.IsWhole)
    (x0 : Vec F S400x10000 .f32) (x1 : Vec F S10000x640 .f32) (x2 : Vec F S400x128 .f32) (x3 : Vec F S1x640 .f32) (x4 : Vec F S128x128 .f32) (x5 : Vec F S1x128 .f32) (x6 : Vec F S128x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out5_8 x0 x1 x2 x3 x4 x5 x6 x7)) -∗ K ⟨⟩))
      ⊢ wp frame (wpE (defs₀ (F := F)) Variants.none c none) E (cc5__score_body i arg0 harg0 arg1 harg1 arg2 harg2 arg3 harg3 arg4 harg4 arg5 harg5 arg6 harg6 arg7 harg7 arg8 harg8) K := by
  simp only [cc5__score_body_eq_skeleton]; unfold cc5__score_body_skel
  simp only [k5_part1_eq_skeleton]; unfold k5_part1_skel
  simp only [k5_part2_eq_skeleton]; unfold k5_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover5_8 _)

/-! ## The pipeline's proof data -/

/-- The proof data of pipeline 5 on core `c`: the arrays as the region finds them; after the body at point `t` each
    input's buffer at its block and each output's at `out5_W` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

/-- The body at any point: the inputs' buffers hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Run.lean ====
/-
  The run of @main: six stretches of host operations alternating with six kernel regions.

  The contents the regions leave in the buffers they write (`outsAll`) are chosen as what their pipelines compute: region K,
  entered at the contents `EntK`, leaves in each output array the fold of its write-backs, `(datK (EntRK m) c).arrAt w N`, and
  every other buffer as entered (`hFK`, `hrestK`, `extK_w`). Since region K's entry contents read only what regions 0 to K-1
  leave, the contents are defined region by region. Each region is a segment over the thread state "every unscoped buffer at
  the boundary's contents, the generator register at some state, nothing owed" (`regK`), and the host stretches are segments
  over the same valuations.

  The theorem `run`: from any memory with zero counters every weakly fair execution of @main on the TensorCores terminates,
  nothing faulting; the result `main_v47` ends at `res m c`, the last region's output array after its last point, and the
  twelve argument arrays end as launched. The theorems `entryK_w` say what each input window of each region is entered with: an
  argument as launched, an earlier region's output, or an operand a host stretch computes.
-/
import proofs.«172286_g11278584119306_cont_sun_m_662_2_alg».proof.Proof.KI.Region0
import proofs.«172286_g11278584119306_cont_sun_m_662_2_alg».proof.Proof.KI.Region1
import proofs.«172286_g11278584119306_cont_sun_m_662_2_alg».proof.Proof.KI.Region2
import proofs.«172286_g11278584119306_cont_sun_m_662_2_alg».proof.Proof.KI.Region3
import proofs.«172286_g11278584119306_cont_sun_m_662_2_alg».proof.Proof.KI.Region4
import proofs.«172286_g11278584119306_cont_sun_m_662_2_alg».proof.Proof.KI.Region5
import proofs.«172286_g11278584119306_cont_sun_m_662_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run: what each region leaves, then @main as segments

## The contents the regions leave, stage by stage

Region K is entered at the valuation `V(2K+1)`, which reads the unknown contents only at the earlier regions' outputs; so
the contents are defined region by region, each from the valuation over the contents defined so far. -/

/-- A family of buffer contents changed at the reference `r₀`. -/
def setAt (f : (r : Ref sig .tc) → (c : Dev nD) → Buf (Elt F) ((c : Thread nD τ).loc r)) (r₀ : Ref sig .tc)
    (v : (c : Dev nD) → Buf (Elt F) ((c : Thread nD τ).loc r₀)) : (r : Ref sig .tc) → (c : Dev nD) → Buf (Elt F) ((c : Thread nD τ).loc r) :=
  Function.update f r₀ v

theorem setAt_self (f : (r : Ref sig .tc) → (c : Dev nD) → Buf (Elt F) ((c : Thread nD τ).loc r)) (r₀ : Ref sig .tc)
    (v : (c : Dev nD) → Buf (Elt F) ((c : Thread nD τ).loc r₀)) : setAt f r₀ v r₀ = v := Function.update_self ..

theorem setAt_ne (f : (r : Ref sig .tc) → (c : Dev nD) → Buf (Elt F) ((c : Thread nD τ).loc r)) (r₀ : Ref sig .tc)
    (v : (c : Dev nD) → Buf (Elt F) ((c : Thread nD τ).loc r₀)) {r : Ref sig .tc} (h : r ≠ r₀) : setAt f r₀ v r = f r :=
  Function.update_of_ne h ..

/-- Where no region writes, the launch contents (never read). -/
abbrev dflt : Outs (F := F) := fun _ r c => m ((c : Thread nD τ).loc r)

/-- What region 0 leaves in `main_v3`: window 4's array after the last point. -/
def o2_4 (c : Dev nD) : Buf (Elt F) ((c : Thread nD τ).loc main_v3) := (dat0 (fun c b => V1 m c b) c).arrAt 4 cfg0.N
/-- The contents left by region 0. -/
def outs1 : Outs (F := F) := fun J => match J with
  | 2 => setAt (dflt m 2) main_v3 (o2_4 m)
  | J => dflt m J

/-- What region 1 leaves in `main_v9`: window 4's array after the last point. -/
def o4_4 (c : Dev nD) : Buf (Elt F) ((c : Thread nD τ).loc main_v9) := (dat1 (fun c b => V3 m (outs1 m) c b) c).arrAt 4 cfg1.N
/-- The contents left by regions 0–1. -/
def outs2 : Outs (F := F) := fun J => match J with
  | 2 => setAt (dflt m 2) main_v3 (o2_4 m)
  | 4 => setAt (dflt m 4) main_v9 (o4_4 m)
  | J => dflt m J

/-- What region 2 leaves in `main_v15`: window 4's array after the last point. -/
def o6_4 (c : Dev nD) : Buf (Elt F) ((c : Thread nD τ).loc main_v15) := (dat2 (fun c b => V5 m (outs2 m) c b) c).arrAt 4 cfg2.N
/-- The contents left by regions 0–2. -/
def outs3 : Outs (F := F) := fun J => match J with
  | 2 => setAt (dflt m 2) main_v3 (o2_4 m)
  | 4 => setAt (dflt m 4) main_v9 (o4_4 m)
  | 6 => setAt (dflt m 6) main_v15 (o6_4 m)
  | J => dflt m J

/-- What region 3 leaves in `main_v21`: window 4's array after the last point. -/
def o8_4 (c : Dev nD) : Buf (Elt F) ((c : Thread nD τ).loc main_v21) := (dat3 (fun c b => V7 m (outs3 m) c b) c).arrAt 4 cfg3.N
/-- The contents left by regions 0–3. -/
def outs4 : Outs (F := F) := fun J => match J with
  | 2 => setAt (dflt m 2) main_v3 (o2_4 m)
  | 4 => setAt (dflt m 4) main_v9 (o4_4 m)
  | 6 => setAt (dflt m 6) main_v15 (o6_4 m)
  | 8 => setAt (dflt m 8) main_v21 (o8_4 m)
  | J => dflt m J

/-- What region 4 leaves in `main_v34_0`: window 4's array after the last point. -/
def o10_4 (c : Dev nD) : Buf (Elt F) ((c : Thread nD τ).loc main_v34_0) := (dat4 (fun c b => V9 m (outs4 m) c b) c).arrAt 4 cfg4.N
/-- What region 4 leaves in `main_v34_1`: window 5's array after the last point. -/
def o10_5 (c : Dev nD) : Buf (Elt F) ((c : Thread nD τ).loc main_v34_1) := (dat4 (fun c b => V9 m (outs4 m) c b) c).arrAt 5 cfg4.N
/-- The contents left by regions 0–4. -/
def outs5 : Outs (F := F) := fun J => match J with
  | 2 => setAt (dflt m 2) main_v3 (o2_4 m)
  | 4 => setAt (dflt m 4) main_v9 (o4_4 m)
  | 6 => setAt (dflt m 6) main_v15 (o6_4 m)
  | 8 => setAt (dflt m 8) main_v21 (o8_4 m)
  | 10 => setAt (setAt (dflt m 10) main_v34_0 (o10_4 m)) main_v34_1 (o10_5 m)
  | J => dflt m J

/-- What region 5 leaves in `main_v47`: window 8's array after the last point. -/
def o12_8 (c : Dev nD) : Buf (Elt F) ((c : Thread nD τ).loc main_v47) := (dat5 (fun c b => V11 m (outs5 m) c b) c).arrAt 8 cfg5.N
/-- The contents left by regions 0–5. -/
def outsAll : Outs (F := F) := fun J => match J with
  | 2 => setAt (dflt m 2) main_v3 (o2_4 m)
  | 4 => setAt (dflt m 4) main_v9 (o4_4 m)
  | 6 => setAt (dflt m 6) main_v15 (o6_4 m)
  | 8 => setAt (dflt m 8) main_v21 (o8_4 m)
  | 10 => setAt (setAt (dflt m 10) main_v34_0 (o10_4 m)) main_v34_1 (o10_5 m)
  | 12 => setAt (dflt m 12) main_v47 (o12_8 m)
  | J => dflt m J

/-! ## The regions' entry contents, by name -/

/-- Core `c`'s unscoped buffers when region 0 is entered. -/
abbrev Ent0 (c : Dev nD) : Valuation τ sig (Elt F) := V1 m c
/-- The same read at the TensorCore's references (what region 0's proof data take). -/
abbrev EntR0 : (c : Dev nD) → (b : Ref sig .tc) → Buf (Elt F) ((c : Thread nD τ).loc b) := fun c b => Ent0 m c b
/-- Core `c`'s unscoped buffers when region 0 is left. -/
abbrev Ext0 (c : Dev nD) : Valuation τ sig (Elt F) := V2 m (outsAll m) c
abbrev ExtR0 : (c : Dev nD) → (b : Ref sig .tc) → Buf (Elt F) ((c : Thread nD τ).loc b) := fun c b => Ext0 m c b

/-- Core `c`'s unscoped buffers when region 1 is entered. -/
abbrev Ent1 (c : Dev nD) : Valuation τ sig (Elt F) := V3 m (outsAll m) c
/-- The same read at the TensorCore's references (what region 1's proof data take). -/
abbrev EntR1 : (c : Dev nD) → (b : Ref sig .tc) → Buf (Elt F) ((c : Thread nD τ).loc b) := fun c b => Ent1 m c b
/-- Core `c`'s unscoped buffers when region 1 is left. -/
abbrev Ext1 (c : Dev nD) : Valuation τ sig (Elt F) := V4 m (outsAll m) c
abbrev ExtR1 : (c : Dev nD) → (b : Ref sig .tc) → Buf (Elt F) ((c : Thread nD τ).loc b) := fun c b => Ext1 m c b
/-- The entry contents of region 1 read only the contents region 0 leaves. -/
theorem entR1_eq : EntR1 m = (fun c b => V3 m (outs1 m) c b : (c : Dev nD) → (b : Ref sig .tc) → Buf (Elt F) ((c : Thread nD τ).loc b)) := rfl

/-- Core `c`'s unscoped buffers when region 2 is entered. -/
abbrev Ent2 (c : Dev nD) : Valuation τ sig (Elt F) := V5 m (outsAll m) c
/-- The same read at the TensorCore's references (what region 2's proof data take). -/
abbrev EntR2 : (c : Dev nD) → (b : Ref sig .tc) → Buf (Elt F) ((c : Thread nD τ).loc b) := fun c b => Ent2 m c b
/-- Core `c`'s unscoped buffers when region 2 is left. -/
abbrev Ext2 (c : Dev nD) : Valuation τ sig (Elt F) := V6 m (outsAll m) c
abbrev ExtR2 : (c : Dev nD) → (b : Ref sig .tc) → Buf (Elt F) ((c : Thread nD τ).loc b) := fun c b => Ext2 m c b
/-- The entry contents of region 2 read only the contents regions 0–1 leave. -/
theorem entR2_eq : EntR2 m = (fun c b => V5 m (outs2 m) c b : (c : Dev nD) → (b : Ref sig .tc) → Buf (Elt F) ((c : Thread nD τ).loc b)) := rfl

/-- Core `c`'s unscoped buffers when region 3 is entered. -/
abbrev Ent3 (c : Dev nD) : Valuation τ sig (Elt F) := V7 m (outsAll m) c
/-- The same read at the TensorCore's references (what region 3's proof data take). -/
abbrev EntR3 : (c : Dev nD) → (b : Ref sig .tc) → Buf (Elt F) ((c : Thread nD τ).loc b) := fun c b => Ent3 m c b
/-- Core `c`'s unscoped buffers when region 3 is left. -/
abbrev Ext3 (c : Dev nD) : Valuation τ sig (Elt F) := V8 m (outsAll m) c
abbrev ExtR3 : (c : Dev nD) → (b : Ref sig .tc) → Buf (Elt F) ((c : Thread nD τ).loc b) := fun c b => Ext3 m c b
/-- The entry contents of region 3 read only the contents regions 0–2 leave. -/
theorem entR3_eq : EntR3 m = (fun c b => V7 m (outs3 m) c b : (c : Dev nD) → (b : Ref sig .tc) → Buf (Elt F) ((c : Thread nD τ).loc b)) := rfl

/-- Core `c`'s unscoped buffers when region 4 is entered. -/
abbrev Ent4 (c : Dev nD) : Valuation τ sig (Elt F) := V9 m (outsAll m) c
/-- The same read at the TensorCore's references (what region 4's proof data take). -/
abbrev EntR4 : (c : Dev nD) → (b : Ref sig .tc) → Buf (Elt F) ((c : Thread nD τ).loc b) := fun c b => Ent4 m c b
/-- Core `c`'s unscoped buffers when region 4 is left. -/
abbrev Ext4 (c : Dev nD) : Valuation τ sig (Elt F) := V10 m (outsAll m) c
abbrev ExtR4 : (c : Dev nD) → (b : Ref sig .tc) → Buf (Elt F) ((c : Thread nD τ).loc b) := fun c b => Ext4 m c b
/-- The entry contents of region 4 read only the contents regions 0–3 leave. -/
theorem entR4_eq : EntR4 m = (fun c b => V9 m (outs4 m) c b : (c : Dev nD) → (b : Ref sig .tc) → Buf (Elt F) ((c : Thread nD τ).loc b)) := rfl

/-- Core `c`'s unscoped buffers when region 5 is entered. -/
abbrev Ent5 (c : Dev nD) : Valuation τ sig (Elt F) := V11 m (outsAll m) c
/-- The same read at the TensorCore's references (what region 5's proof data take). -/
abbrev EntR5 : (c : Dev nD) → (b : Ref sig .tc) → Buf (Elt F) ((c : Thread nD τ).loc b) := fun c b => Ent5 m c b
/-- Core `c`'s unscoped buffers when region 5 is left. -/
abbrev Ext5 (c : Dev nD) : Valuation τ sig (Elt F) := V12 m (outsAll m) c
abbrev ExtR5 : (c : Dev nD) → (b : Ref sig .tc) → Buf (Elt F) ((c : Thread nD τ).loc b) := fun c b => Ext5 m c b
/-- The entry contents of region 5 read only the contents regions 0–4 leave. -/
theorem entR5_eq : EntR5 m = (fun c b => V11 m (outs5 m) c b : (c : Dev nD) → (b : Ref sig .tc) → Buf (Elt F) ((c : Thread nD τ).loc b)) := rfl

/-! ## What the regions leave is what their pipelines compute -/

theorem outsAll_2_4 (c : Dev nD) : outsAll m 2 main_v3 c = (dat0 (EntR0 m) c).arrAt 4 cfg0.N := by
  show setAt _ _ _ _ c = _
  rw [setAt_self]
  rfl
theorem outsAll_4_4 (c : Dev nD) : outsAll m 4 main_v9 c = (dat1 (EntR1 m) c).arrAt 4 cfg1.N := by
  rw [entR1_eq]
  show setAt _ _ _ _ c = _
  rw [setAt_self]
  rfl
theorem outsAll_6_4 (c : Dev nD) : outsAll m 6 main_v15 c = (dat2 (EntR2 m) c).arrAt 4 cfg2.N := by
  rw [entR2_eq]
  show setAt _ _ _ _ c = _
  rw [setAt_self]
  rfl
theorem outsAll_8_4 (c : Dev nD) : outsAll m 8 main_v21 c = (dat3 (EntR3 m) c).arrAt 4 cfg3.N := by
  rw [entR3_eq]
  show setAt _ _ _ _ c = _
  rw [setAt_self]
  rfl
theorem outsAll_10_4 (c : Dev nD) : outsAll m 10 main_v34_0 c = (dat4 (EntR4 m) c).arrAt 4 cfg4.N := by
  rw [entR4_eq]
  show setAt _ _ _ _ c = _
  rw [setAt_ne _ _ _ (by decide), setAt_self]
  rfl
theorem outsAll_10_5 (c : Dev nD) : outsAll m 10 main_v34_1 c = (dat4 (EntR4 m) c).arrAt 5 cfg4.N := by
  rw [entR4_eq]
  show setAt _ _ _ _ c = _
  rw [setAt_self]
  rfl
theorem outsAll_12_8 (c : Dev nD) : outsAll m 12 main_v47 c = (dat5 (EntR5 m) c).arrAt 8 cfg5.N := by
  rw [entR5_eq]
  show setAt _ _ _ _ c = _
  rw [setAt_self]
  rfl

/-! ## A region's exit contents: its outputs at what the pipeline leaves, everything else as entered -/

theorem ext0_4 (c : Dev nD) : Ext0 m c main_v3 = (dat0 (EntR0 m) c).arrAt 4 cfg0.N :=
  (show V2 m (outsAll m) c main_v3 = outsAll m 2 main_v3 c from Function.update_self ..).trans (outsAll_2_4 m c)
theorem hF0_0 (c : Dev nD) : (dat0 (EntR0 m) c).arrAt 0 cfg0.N = ExtR0 m c (Pipeline.arrRef spec0 0) :=
  ((dat0 (EntR0 m) c).arrAt_in 0 rfl _).trans ((A_eq0 (EntR0 m) c 0).trans (V2_of m (outsAll m) c (Pipeline.arrRef spec0 0) (by decide)).symm)
theorem hF0_1 (c : Dev nD) : (dat0 (EntR0 m) c).arrAt 1 cfg0.N = ExtR0 m c (Pipeline.arrRef spec0 1) :=
  ((dat0 (EntR0 m) c).arrAt_in 1 rfl _).trans ((A_eq0 (EntR0 m) c 1).trans (V2_of m (outsAll m) c (Pipeline.arrRef spec0 1) (by decide)).symm)
theorem hF0_2 (c : Dev nD) : (dat0 (EntR0 m) c).arrAt 2 cfg0.N = ExtR0 m c (Pipeline.arrRef spec0 2) :=
  ((dat0 (EntR0 m) c).arrAt_in 2 rfl _).trans ((A_eq0 (EntR0 m) c 2).trans (V2_of m (outsAll m) c (Pipeline.arrRef spec0 2) (by decide)).symm)
theorem hF0_3 (c : Dev nD) : (dat0 (EntR0 m) c).arrAt 3 cfg0.N = ExtR0 m c (Pipeline.arrRef spec0 3) :=
  ((dat0 (EntR0 m) c).arrAt_in 3 rfl _).trans ((A_eq0 (EntR0 m) c 3).trans (V2_of m (outsAll m) c (Pipeline.arrRef spec0 3) (by decide)).symm)
theorem hF0_4 (c : Dev nD) : (dat0 (EntR0 m) c).arrAt 4 cfg0.N = ExtR0 m c (Pipeline.arrRef spec0 4) :=
  (ext0_4 m c).symm
set_option maxHeartbeats 1000000 in
/-- At region 0's exit each of its arrays holds what the pipeline leaves: an input as entered, an output its write-backs. -/
theorem hF0 (c : Dev nD) (w : Fin cfg0.W) : (dat0 (EntR0 m) c).arrAt w cfg0.N = ExtR0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
/-- and every other buffer what it held at entry. -/
theorem hrest0 (c : Dev nD) : ∀ b, b ∉ Finset.univ.image (Pipeline.arrRef spec0) → ExtR0 m c b = EntR0 m c b :=
  fun b hb => V2_of m (outsAll m) c b fun hm => hb (Finset.mem_image.mpr ⟨4, Finset.mem_univ _, (List.mem_singleton.mp hm).symm⟩)

theorem ext1_4 (c : Dev nD) : Ext1 m c main_v9 = (dat1 (EntR1 m) c).arrAt 4 cfg1.N :=
  (show V4 m (outsAll m) c main_v9 = outsAll m 4 main_v9 c from Function.update_self ..).trans (outsAll_4_4 m c)
theorem hF1_0 (c : Dev nD) : (dat1 (EntR1 m) c).arrAt 0 cfg1.N = ExtR1 m c (Pipeline.arrRef spec1 0) :=
  ((dat1 (EntR1 m) c).arrAt_in 0 rfl _).trans ((A_eq1 (EntR1 m) c 0).trans (V4_of m (outsAll m) c (Pipeline.arrRef spec1 0) (by decide)).symm)
theorem hF1_1 (c : Dev nD) : (dat1 (EntR1 m) c).arrAt 1 cfg1.N = ExtR1 m c (Pipeline.arrRef spec1 1) :=
  ((dat1 (EntR1 m) c).arrAt_in 1 rfl _).trans ((A_eq1 (EntR1 m) c 1).trans (V4_of m (outsAll m) c (Pipeline.arrRef spec1 1) (by decide)).symm)
theorem hF1_2 (c : Dev nD) : (dat1 (EntR1 m) c).arrAt 2 cfg1.N = ExtR1 m c (Pipeline.arrRef spec1 2) :=
  ((dat1 (EntR1 m) c).arrAt_in 2 rfl _).trans ((A_eq1 (EntR1 m) c 2).trans (V4_of m (outsAll m) c (Pipeline.arrRef spec1 2) (by decide)).symm)
theorem hF1_3 (c : Dev nD) : (dat1 (EntR1 m) c).arrAt 3 cfg1.N = ExtR1 m c (Pipeline.arrRef spec1 3) :=
  ((dat1 (EntR1 m) c).arrAt_in 3 rfl _).trans ((A_eq1 (EntR1 m) c 3).trans (V4_of m (outsAll m) c (Pipeline.arrRef spec1 3) (by decide)).symm)
theorem hF1_4 (c : Dev nD) : (dat1 (EntR1 m) c).arrAt 4 cfg1.N = ExtR1 m c (Pipeline.arrRef spec1 4) :=
  (ext1_4 m c).symm
set_option maxHeartbeats 1000000 in
/-- At region 1's exit each of its arrays holds what the pipeline leaves: an input as entered, an output its write-backs. -/
theorem hF1 (c : Dev nD) (w : Fin cfg1.W) : (dat1 (EntR1 m) c).arrAt w cfg1.N = ExtR1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
/-- and every other buffer what it held at entry. -/
theorem hrest1 (c : Dev nD) : ∀ b, b ∉ Finset.univ.image (Pipeline.arrRef spec1) → ExtR1 m c b = EntR1 m c b :=
  fun b hb => V4_of m (outsAll m) c b fun hm => hb (Finset.mem_image.mpr ⟨4, Finset.mem_univ _, (List.mem_singleton.mp hm).symm⟩)

theorem ext2_4 (c : Dev nD) : Ext2 m c main_v15 = (dat2 (EntR2 m) c).arrAt 4 cfg2.N :=
  (show V6 m (outsAll m) c main_v15 = outsAll m 6 main_v15 c from Function.update_self ..).trans (outsAll_6_4 m c)
theorem hF2_0 (c : Dev nD) : (dat2 (EntR2 m) c).arrAt 0 cfg2.N = ExtR2 m c (Pipeline.arrRef spec2 0) :=
  ((dat2 (EntR2 m) c).arrAt_in 0 rfl _).trans ((A_eq2 (EntR2 m) c 0).trans (V6_of m (outsAll m) c (Pipeline.arrRef spec2 0) (by decide)).symm)
theorem hF2_1 (c : Dev nD) : (dat2 (EntR2 m) c).arrAt 1 cfg2.N = ExtR2 m c (Pipeline.arrRef spec2 1) :=
  ((dat2 (EntR2 m) c).arrAt_in 1 rfl _).trans ((A_eq2 (EntR2 m) c 1).trans (V6_of m (outsAll m) c (Pipeline.arrRef spec2 1) (by decide)).symm)
theorem hF2_2 (c : Dev nD) : (dat2 (EntR2 m) c).arrAt 2 cfg2.N = ExtR2 m c (Pipeline.arrRef spec2 2) :=
  ((dat2 (EntR2 m) c).arrAt_in 2 rfl _).trans ((A_eq2 (EntR2 m) c 2).trans (V6_of m (outsAll m) c (Pipeline.arrRef spec2 2) (by decide)).symm)
theorem hF2_3 (c : Dev nD) : (dat2 (EntR2 m) c).arrAt 3 cfg2.N = ExtR2 m c (Pipeline.arrRef spec2 3) :=
  ((dat2 (EntR2 m) c).arrAt_in 3 rfl _).trans ((A_eq2 (EntR2 m) c 3).trans (V6_of m (outsAll m) c (Pipeline.arrRef spec2 3) (by decide)).symm)
theorem hF2_4 (c : Dev nD) : (dat2 (EntR2 m) c).arrAt 4 cfg2.N = ExtR2 m c (Pipeline.arrRef spec2 4) :=
  (ext2_4 m c).symm
set_option maxHeartbeats 1000000 in
/-- At region 2's exit each of its arrays holds what the pipeline leaves: an input as entered, an output its write-backs. -/
theorem hF2 (c : Dev nD) (w : Fin cfg2.W) : (dat2 (EntR2 m) c).arrAt w cfg2.N = ExtR2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
/-- and every other buffer what it held at entry. -/
theorem hrest2 (c : Dev nD) : ∀ b, b ∉ Finset.univ.image (Pipeline.arrRef spec2) → ExtR2 m c b = EntR2 m c b :=
  fun b hb => V6_of m (outsAll m) c b fun hm => hb (Finset.mem_image.mpr ⟨4, Finset.mem_univ _, (List.mem_singleton.mp hm).symm⟩)

theorem ext3_4 (c : Dev nD) : Ext3 m c main_v21 = (dat3 (EntR3 m) c).arrAt 4 cfg3.N :=
  (show V8 m (outsAll m) c main_v21 = outsAll m 8 main_v21 c from Function.update_self ..).trans (outsAll_8_4 m c)
theorem hF3_0 (c : Dev nD) : (dat3 (EntR3 m) c).arrAt 0 cfg3.N = ExtR3 m c (Pipeline.arrRef spec3 0) :=
  ((dat3 (EntR3 m) c).arrAt_in 0 rfl _).trans ((A_eq3 (EntR3 m) c 0).trans (V8_of m (outsAll m) c (Pipeline.arrRef spec3 0) (by decide)).symm)
theorem hF3_1 (c : Dev nD) : (dat3 (EntR3 m) c).arrAt 1 cfg3.N = ExtR3 m c (Pipeline.arrRef spec3 1) :=
  ((dat3 (EntR3 m) c).arrAt_in 1 rfl _).trans ((A_eq3 (EntR3 m) c 1).trans (V8_of m (outsAll m) c (Pipeline.arrRef spec3 1) (by decide)).symm)
theorem hF3_2 (c : Dev nD) : (dat3 (EntR3 m) c).arrAt 2 cfg3.N = ExtR3 m c (Pipeline.arrRef spec3 2) :=
  ((dat3 (EntR3 m) c).arrAt_in 2 rfl _).trans ((A_eq3 (EntR3 m) c 2).trans (V8_of m (outsAll m) c (Pipeline.arrRef spec3 2) (by decide)).symm)
theorem hF3_3 (c : Dev nD) : (dat3 (EntR3 m) c).arrAt 3 cfg3.N = ExtR3 m c (Pipeline.arrRef spec3 3) :=
  ((dat3 (EntR3 m) c).arrAt_in 3 rfl _).trans ((A_eq3 (EntR3 m) c 3).trans (V8_of m (outsAll m) c (Pipeline.arrRef spec3 3) (by decide)).symm)
theorem hF3_4 (c : Dev nD) : (dat3 (EntR3 m) c).arrAt 4 cfg3.N = ExtR3 m c (Pipeline.arrRef spec3 4) :=
  (ext3_4 m c).symm
set_option maxHeartbeats 1000000 in
/-- At region 3's exit each of its arrays holds what the pipeline leaves: an input as entered, an output its write-backs. -/
theorem hF3 (c : Dev nD) (w : Fin cfg3.W) : (dat3 (EntR3 m) c).arrAt w cfg3.N = ExtR3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
/-- and every other buffer what it held at entry. -/
theorem hrest3 (c : Dev nD) : ∀ b, b ∉ Finset.univ.image (Pipeline.arrRef spec3) → ExtR3 m c b = EntR3 m c b :=
  fun b hb => V8_of m (outsAll m) c b fun hm => hb (Finset.mem_image.mpr ⟨4, Finset.mem_univ _, (List.mem_singleton.mp hm).symm⟩)

theorem ext4_4 (c : Dev nD) : Ext4 m c main_v34_0 = (dat4 (EntR4 m) c).arrAt 4 cfg4.N :=
  (show V10 m (outsAll m) c main_v34_0 = outsAll m 10 main_v34_0 c from (Function.update_of_ne (StableHlo.devRef_ne_of_ne (by decide) : (Proc.devRef .tc main_v34_0 : DevRef τ sig) ≠ Proc.devRef .tc main_v34_1) ..).trans (Function.update_self ..)).trans (outsAll_10_4 m c)
theorem ext4_5 (c : Dev nD) : Ext4 m c main_v34_1 = (dat4 (EntR4 m) c).arrAt 5 cfg4.N :=
  (show V10 m (outsAll m) c main_v34_1 = outsAll m 10 main_v34_1 c from Function.update_self ..).trans (outsAll_10_5 m c)
theorem hF4_0 (c : Dev nD) : (dat4 (EntR4 m) c).arrAt 0 cfg4.N = ExtR4 m c (Pipeline.arrRef spec4 0) :=
  ((dat4 (EntR4 m) c).arrAt_in 0 rfl _).trans ((A_eq4 (EntR4 m) c 0).trans (V10_of m (outsAll m) c (Pipeline.arrRef spec4 0) (by decide)).symm)
theorem hF4_1 (c : Dev nD) : (dat4 (EntR4 m) c).arrAt 1 cfg4.N = ExtR4 m c (Pipeline.arrRef spec4 1) :=
  ((dat4 (EntR4 m) c).arrAt_in 1 rfl _).trans ((A_eq4 (EntR4 m) c 1).trans (V10_of m (outsAll m) c (Pipeline.arrRef spec4 1) (by decide)).symm)
theorem hF4_2 (c : Dev nD) : (dat4 (EntR4 m) c).arrAt 2 cfg4.N = ExtR4 m c (Pipeline.arrRef spec4 2) :=
  ((dat4 (EntR4 m) c).arrAt_in 2 rfl _).trans ((A_eq4 (EntR4 m) c 2).trans (V10_of m (outsAll m) c (Pipeline.arrRef spec4 2) (by decide)).symm)
theorem hF4_3 (c : Dev nD) : (dat4 (EntR4 m) c).arrAt 3 cfg4.N = ExtR4 m c (Pipeline.arrRef spec4 3) :=
  ((dat4 (EntR4 m) c).arrAt_in 3 rfl _).trans ((A_eq4 (EntR4 m) c 3).trans (V10_of m (outsAll m) c (Pipeline.arrRef spec4 3) (by decide)).symm)
theorem hF4_4 (c : Dev nD) : (dat4 (EntR4 m) c).arrAt 4 cfg4.N = ExtR4 m c (Pipeline.arrRef spec4 4) :=
  (ext4_4 m c).symm
theorem hF4_5 (c : Dev nD) : (dat4 (EntR4 m) c).arrAt 5 cfg4.N = ExtR4 m c (Pipeline.arrRef spec4 5) :=
  (ext4_5 m c).symm
set_option maxHeartbeats 1000000 in
/-- At region 4's exit each of its arrays holds what the pipeline leaves: an input as entered, an output its write-backs. -/
theorem hF4 (c : Dev nD) (w : Fin cfg4.W) : (dat4 (EntR4 m) c).arrAt w cfg4.N = ExtR4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
/-- and every other buffer what it held at entry. -/
theorem hrest4 (c : Dev nD) : ∀ b, b ∉ Finset.univ.image (Pipeline.arrRef spec4) → ExtR4 m c b = EntR4 m c b :=
  fun b hb => V10_of m (outsAll m) c b fun hm => (List.mem_cons.mp hm).elim (fun e => hb (Finset.mem_image.mpr ⟨4, Finset.mem_univ _, e.symm⟩)) (fun hm' => hb (Finset.mem_image.mpr ⟨5, Finset.mem_univ _, (List.mem_singleton.mp hm').symm⟩))

theorem ext5_8 (c : Dev nD) : Ext5 m c main_v47 = (dat5 (EntR5 m) c).arrAt 8 cfg5.N :=
  (show V12 m (outsAll m) c main_v47 = outsAll m 12 main_v47 c from Function.update_self ..).trans (outsAll_12_8 m c)
theorem hF5_0 (c : Dev nD) : (dat5 (EntR5 m) c).arrAt 0 cfg5.N = ExtR5 m c (Pipeline.arrRef spec5 0) :=
  ((dat5 (EntR5 m) c).arrAt_in 0 rfl _).trans ((A_eq5 (EntR5 m) c 0).trans (V12_of m (outsAll m) c (Pipeline.arrRef spec5 0) (by decide)).symm)
theorem hF5_1 (c : Dev nD) : (dat5 (EntR5 m) c).arrAt 1 cfg5.N = ExtR5 m c (Pipeline.arrRef spec5 1) :=
  ((dat5 (EntR5 m) c).arrAt_in 1 rfl _).trans ((A_eq5 (EntR5 m) c 1).trans (V12_of m (outsAll m) c (Pipeline.arrRef spec5 1) (by decide)).symm)
theorem hF5_2 (c : Dev nD) : (dat5 (EntR5 m) c).arrAt 2 cfg5.N = ExtR5 m c (Pipeline.arrRef spec5 2) :=
  ((dat5 (EntR5 m) c).arrAt_in 2 rfl _).trans ((A_eq5 (EntR5 m) c 2).trans (V12_of m (outsAll m) c (Pipeline.arrRef spec5 2) (by decide)).symm)
theorem hF5_3 (c : Dev nD) : (dat5 (EntR5 m) c).arrAt 3 cfg5.N = ExtR5 m c (Pipeline.arrRef spec5 3) :=
  ((dat5 (EntR5 m) c).arrAt_in 3 rfl _).trans ((A_eq5 (EntR5 m) c 3).trans (V12_of m (outsAll m) c (Pipeline.arrRef spec5 3) (by decide)).symm)
theorem hF5_4 (c : Dev nD) : (dat5 (EntR5 m) c).arrAt 4 cfg5.N = ExtR5 m c (Pipeline.arrRef spec5 4) :=
  ((dat5 (EntR5 m) c).arrAt_in 4 rfl _).trans ((A_eq5 (EntR5 m) c 4).trans (V12_of m (outsAll m) c (Pipeline.arrRef spec5 4) (by decide)).symm)
theorem hF5_5 (c : Dev nD) : (dat5 (EntR5 m) c).arrAt 5 cfg5.N = ExtR5 m c (Pipeline.arrRef spec5 5) :=
  ((dat5 (EntR5 m) c).arrAt_in 5 rfl _).trans ((A_eq5 (EntR5 m) c 5).trans (V12_of m (outsAll m) c (Pipeline.arrRef spec5 5) (by decide)).symm)
theorem hF5_6 (c : Dev nD) : (dat5 (EntR5 m) c).arrAt 6 cfg5.N = ExtR5 m c (Pipeline.arrRef spec5 6) :=
  ((dat5 (EntR5 m) c).arrAt_in 6 rfl _).trans ((A_eq5 (EntR5 m) c 6).trans (V12_of m (outsAll m) c (Pipeline.arrRef spec5 6) (by decide)).symm)
theorem hF5_7 (c : Dev nD) : (dat5 (EntR5 m) c).arrAt 7 cfg5.N = ExtR5 m c (Pipeline.arrRef spec5 7) :=
  ((dat5 (EntR5 m) c).arrAt_in 7 rfl _).trans ((A_eq5 (EntR5 m) c 7).trans (V12_of m (outsAll m) c (Pipeline.arrRef spec5 7) (by decide)).symm)
theorem hF5_8 (c : Dev nD) : (dat5 (EntR5 m) c).arrAt 8 cfg5.N = ExtR5 m c (Pipeline.arrRef spec5 8) :=
  (ext5_8 m c).symm
set_option maxHeartbeats 1000000 in
/-- At region 5's exit each of its arrays holds what the pipeline leaves: an input as entered, an output its write-backs. -/
theorem hF5 (c : Dev nD) (w : Fin cfg5.W) : (dat5 (EntR5 m) c).arrAt w cfg5.N = ExtR5 m c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c
  | ⟨6, _⟩ => hF5_6 m c
  | ⟨7, _⟩ => hF5_7 m c
  | ⟨8, _⟩ => hF5_8 m c
/-- and every other buffer what it held at entry. -/
theorem hrest5 (c : Dev nD) : ∀ b, b ∉ Finset.univ.image (Pipeline.arrRef spec5) → ExtR5 m c b = EntR5 m c b :=
  fun b hb => V12_of m (outsAll m) c b fun hm => hb (Finset.mem_image.mpr ⟨8, Finset.mem_univ _, (List.mem_singleton.mp hm).symm⟩)

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (EntR0 m) c
  | ⟨1, _⟩ => fun c => dat1 (EntR1 m) c
  | ⟨2, _⟩ => fun c => dat2 (EntR2 m) c
  | ⟨3, _⟩ => fun c => dat3 (EntR3 m) c
  | ⟨4, _⟩ => fun c => dat4 (EntR4 m) c
  | ⟨5, _⟩ => fun c => dat5 (EntR5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- The last thread state without what is owed: every unscoped buffer at the last contents, the generator register at some state. -/
abbrev Tₙ (c : Dev nD) : sProp 𝕄 := iprop(StableHlo.held (c : Thread nD τ) (Pipeline.ucRefs τ sig) (Ext5 m c) ∗ ∃ r, prngReg c r)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at its entry contents, left at its exit contents. Its
    arrays are split out of the unscoped buffers and put back at the exit contents; the generator register goes into the
    pipeline's invariant and out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EntR0 m) c).loose
  hwaits := Pipeline.hwaits_of_owed_zero _ _ _ _ L lv 0 fun _ _ => rfl
  pre c := iprop(StableHlo.held (c : Thread nD τ) (Pipeline.ucRefs τ sig) (Ent0 m c) ∗ R c)
  post c := iprop(StableHlo.held (c : Thread nD τ) (Pipeline.ucRefs τ sig) (Ext0 m c) ∗ R c)
  X c := iprop(∃ r, prngReg c r)
  Y c := iprop(∃ r, prngReg c r)
  Z c := Pipeline.unscopedRest (Ix := Unit) (Name := ℕ) (U := UR sig nD τ) (Lvl := ℕ) spec0 c (EntR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EntR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EntR0 m c) (ExtR0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents. Its
    arrays are split out of the unscoped buffers and put back at the exit contents; the generator register goes into the
    pipeline's invariant and out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EntR1 m) c).loose
  hwaits := Pipeline.hwaits_of_owed_zero _ _ _ _ L lv 1 fun _ _ => rfl
  pre c := iprop(StableHlo.held (c : Thread nD τ) (Pipeline.ucRefs τ sig) (Ent1 m c) ∗ R c)
  post c := iprop(StableHlo.held (c : Thread nD τ) (Pipeline.ucRefs τ sig) (Ext1 m c) ∗ R c)
  X c := iprop(∃ r, prngReg c r)
  Y c := iprop(∃ r, prngReg c r)
  Z c := Pipeline.unscopedRest (Ix := Unit) (Name := ℕ) (U := UR sig nD τ) (Lvl := ℕ) spec1 c (EntR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EntR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EntR1 m c) (ExtR1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents. Its
    arrays are split out of the unscoped buffers and put back at the exit contents; the generator register goes into the
    pipeline's invariant and out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EntR2 m) c).loose
  hwaits := Pipeline.hwaits_of_owed_zero _ _ _ _ L lv 2 fun _ _ => rfl
  pre c := iprop(StableHlo.held (c : Thread nD τ) (Pipeline.ucRefs τ sig) (Ent2 m c) ∗ R c)
  post c := iprop(StableHlo.held (c : Thread nD τ) (Pipeline.ucRefs τ sig) (Ext2 m c) ∗ R c)
  X c := iprop(∃ r, prngReg c r)
  Y c := iprop(∃ r, prngReg c r)
  Z c := Pipeline.unscopedRest (Ix := Unit) (Name := ℕ) (U := UR sig nD τ) (Lvl := ℕ) spec2 c (EntR2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (EntR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EntR2 m c) (ExtR2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit contents. Its
    arrays are split out of the unscoped buffers and put back at the exit contents; the generator register goes into the
    pipeline's invariant and out; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (EntR3 m) c).loose
  hwaits := Pipeline.hwaits_of_owed_zero _ _ _ _ L lv 3 fun _ _ => rfl
  pre c := iprop(StableHlo.held (c : Thread nD τ) (Pipeline.ucRefs τ sig) (Ent3 m c) ∗ R c)
  post c := iprop(StableHlo.held (c : Thread nD τ) (Pipeline.ucRefs τ sig) (Ext3 m c) ∗ R c)
  X c := iprop(∃ r, prngReg c r)
  Y c := iprop(∃ r, prngReg c r)
  Z c := Pipeline.unscopedRest (Ix := Unit) (Name := ℕ) (U := UR sig nD τ) (Lvl := ℕ) spec3 c (EntR3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (EntR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (EntR3 m c) (ExtR3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at its entry contents, left at its exit contents. Its
    arrays are split out of the unscoped buffers and put back at the exit contents; the generator register goes into the
    pipeline's invariant and out; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (EntR4 m) c).loose
  hwaits := Pipeline.hwaits_of_owed_zero _ _ _ _ L lv 4 fun _ _ => rfl
  pre c := iprop(StableHlo.held (c : Thread nD τ) (Pipeline.ucRefs τ sig) (Ent4 m c) ∗ R c)
  post c := iprop(StableHlo.held (c : Thread nD τ) (Pipeline.ucRefs τ sig) (Ext4 m c) ∗ R c)
  X c := iprop(∃ r, prngReg c r)
  Y c := iprop(∃ r, prngReg c r)
  Z c := Pipeline.unscopedRest (Ix := Unit) (Name := ℕ) (U := UR sig nD τ) (Lvl := ℕ) spec4 c (EntR4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (EntR4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (EntR4 m c) (ExtR4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at its entry contents, left at its exit contents. Its
    arrays are split out of the unscoped buffers and put back at the exit contents; the generator register goes into the
    pipeline's invariant and out; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (EntR5 m) c).loose
  hwaits := Pipeline.hwaits_of_owed_zero _ _ _ _ L lv 5 fun _ _ => rfl
  pre c := iprop(StableHlo.held (c : Thread nD τ) (Pipeline.ucRefs τ sig) (Ent5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (EntR5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (EntR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (EntR5 m c) (ExtR5 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- What @main leaves in its result on core `c`: the last region's output array after its last point. -/
def res (c : Dev nD) : Buf (Elt F) ((c : Thread nD τ).loc main_v47) := (dat5 (EntR5 m) c).arrAt 8 cfg5.N

set_option backward.isDefEq.respectTransparency.types false in
/-- THE RUN: at the compiled mesh, from any memory with zero counters, every weakly fair execution of @main on the TensorCores
    terminates, nothing faulting, and every final state has the result at `res` and every argument array as launched. -/
theorem run (ρ : Dev nD → PrngReg) : θ_run defs (onTc (τ := τ) (main (F := F))) ⟨m, fun _ => 0, ρ⟩ (fun r => ∀ c : Dev nD,
      r.2.mem ((c.tc : Thread nD τ).loc main_v47) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outsAll m) 𝒱₀ L lv (fun _ c => R c) () (pdats m) (reg0 m) (reg1 m) (reg2 m) (reg3 m) (reg4 m) (reg5 m))
    (fun c Q => by
      rewrite [main_chain c, Seg.run_eq_chain,
        show ((segs m (outsAll m) 𝒱₀ L lv (fun _ c => R c) () (pdats m) (reg0 m) (reg1 m) (reg2 m) (reg3 m) (reg4 m) (reg5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Ext5 m c b)
    (hfin := fun c s' => by
      iintro ⟨⟨Hh, -⟩, HSI⟩
      unfold StableHlo.held
      imodintro
      iapply (pointsTo_read_all (Pipeline.ucRefs τ sig) (fun b => (((c : Thread nD τ)).1, b)) (Ext5 m c) s')
      isplitl [Hh] <;> iassumption)
    (hQ := fun s h c =>
      ⟨(h c _ (mem_uc main_v47 (by decide))).trans (ext5_8 m c),
        (h c _ (mem_uc main_arg0 (by decide))).trans (V12_main_arg0 m (outsAll m) c),
        (h c _ (mem_uc main_arg1 (by decide))).trans (V12_main_arg1 m (outsAll m) c),
        (h c _ (mem_uc main_arg2 (by decide))).trans (V12_main_arg2 m (outsAll m) c),
        (h c _ (mem_uc main_arg3 (by decide))).trans (V12_main_arg3 m (outsAll m) c),
        (h c _ (mem_uc main_arg4 (by decide))).trans (V12_main_arg4 m (outsAll m) c),
        (h c _ (mem_uc main_arg5 (by decide))).trans (V12_main_arg5 m (outsAll m) c),
        (h c _ (mem_uc main_arg6 (by decide))).trans (V12_main_arg6 m (outsAll m) c),
        (h c _ (mem_uc main_arg7 (by decide))).trans (V12_main_arg7 m (outsAll m) c),
        (h c _ (mem_uc main_arg8 (by decide))).trans (V12_main_arg8 m (outsAll m) c),
        (h c _ (mem_uc main_arg9 (by decide))).trans (V12_main_arg9 m (outsAll m) c),
        (h c _ (mem_uc main_arg10 (by decide))).trans (V12_main_arg10 m (outsAll m) c),
        (h c _ (mem_uc main_arg11 (by decide))).trans (V12_main_arg11 m (outsAll m) c)⟩)

/-- info: 'Cert.KernelIdeal.Fr.run' depends on axioms: [propext, Classical.choice, Quot.sound] -/
#guard_msgs in #print axioms run

/-! ## What each region's windows are entered with -/

/-- Region 0's window 0 is entered with the argument `main_arg0` as launched. -/
theorem entry0_0 (c : Dev nD) : (dat0 (EntR0 m) c).A 0 = m ((c : Thread nD τ).loc main_arg0) :=
  (A_eq0 (EntR0 m) c 0).trans (show Ent0 m c main_arg0 = V0 m c main_arg0 from (V1_of m c main_arg0 (by decide)))
/-- Region 0's window 1 is entered with the argument `main_arg2` as launched. -/
theorem entry0_1 (c : Dev nD) : (dat0 (EntR0 m) c).A 1 = m ((c : Thread nD τ).loc main_arg2) :=
  (A_eq0 (EntR0 m) c 1).trans (show Ent0 m c main_arg2 = V0 m c main_arg2 from (V1_of m c main_arg2 (by decide)))
/-- Region 0's window 2 is entered with the host-computed `main_v2`. -/
theorem entry0_2 (c : Dev nD) : (dat0 (EntR0 m) c).A 2 = Ent0 m c main_v2 := A_eq0 (EntR0 m) c 2
/-- Region 0's window 3 is entered with the host-computed `main_v1`. -/
theorem entry0_3 (c : Dev nD) : (dat0 (EntR0 m) c).A 3 = Ent0 m c main_v1 := A_eq0 (EntR0 m) c 3

/-- Region 1's window 0 is entered with the argument `main_arg1` as launched. -/
theorem entry1_0 (c : Dev nD) : (dat1 (EntR1 m) c).A 0 = m ((c : Thread nD τ).loc main_arg1) :=
  (A_eq1 (EntR1 m) c 0).trans (show Ent1 m c main_arg1 = V0 m c main_arg1 from (V3_of m (outsAll m) c main_arg1 (by decide)).trans <| (V2_of m (outsAll m) c main_arg1 (by decide)).trans <| (V1_of m c main_arg1 (by decide)))
/-- Region 1's window 1 is entered with what region 0 left in `main_v3`. -/
theorem entry1_1 (c : Dev nD) : (dat1 (EntR1 m) c).A 1 = (dat0 (EntR0 m) c).arrAt 4 cfg0.N :=
  (A_eq1 (EntR1 m) c 1).trans ((show Ent1 m c main_v3 = Ext0 m c main_v3 from (V3_of m (outsAll m) c main_v3 (by decide))).trans (ext0_4 m c))
/-- Region 1's window 2 is entered with the host-computed `main_v8`. -/
theorem entry1_2 (c : Dev nD) : (dat1 (EntR1 m) c).A 2 = Ent1 m c main_v8 := A_eq1 (EntR1 m) c 2
/-- Region 1's window 3 is entered with the host-computed `main_v7`. -/
theorem entry1_3 (c : Dev nD) : (dat1 (EntR1 m) c).A 3 = Ent1 m c main_v7 := A_eq1 (EntR1 m) c 3

/-- Region 2's window 0 is entered with the argument `main_arg1` as launched. -/
theorem entry2_0 (c : Dev nD) : (dat2 (EntR2 m) c).A 0 = m ((c : Thread nD τ).loc main_arg1) :=
  (A_eq2 (EntR2 m) c 0).trans (show Ent2 m c main_arg1 = V0 m c main_arg1 from (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 2's window 1 is entered with what region 1 left in `main_v9`. -/
theorem entry2_1 (c : Dev nD) : (dat2 (EntR2 m) c).A 1 = (dat1 (EntR1 m) c).arrAt 4 cfg1.N :=
  (A_eq2 (EntR2 m) c 1).trans ((show Ent2 m c main_v9 = Ext1 m c main_v9 from (V5_of m (outsAll m) c main_v9 (by decide))).trans (ext1_4 m c))
/-- Region 2's window 2 is entered with the host-computed `main_v14`. -/
theorem entry2_2 (c : Dev nD) : (dat2 (EntR2 m) c).A 2 = Ent2 m c main_v14 := A_eq2 (EntR2 m) c 2
/-- Region 2's window 3 is entered with the host-computed `main_v13`. -/
theorem entry2_3 (c : Dev nD) : (dat2 (EntR2 m) c).A 3 = Ent2 m c main_v13 := A_eq2 (EntR2 m) c 3

/-- Region 3's window 0 is entered with the argument `main_arg1` as launched. -/
theorem entry3_0 (c : Dev nD) : (dat3 (EntR3 m) c).A 0 = m ((c : Thread nD τ).loc main_arg1) :=
  (A_eq3 (EntR3 m) c 0).trans (show Ent3 m c main_arg1 = V0 m c main_arg1 from (V7_of m (outsAll m) c main_arg1 (by decide)).trans <| (V6_of m (outsAll m) c main_arg1 (by decide)).trans <| (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 3's window 1 is entered with what region 2 left in `main_v15`. -/
theorem entry3_1 (c : Dev nD) : (dat3 (EntR3 m) c).A 1 = (dat2 (EntR2 m) c).arrAt 4 cfg2.N :=
  (A_eq3 (EntR3 m) c 1).trans ((show Ent3 m c main_v15 = Ext2 m c main_v15 from (V7_of m (outsAll m) c main_v15 (by decide))).trans (ext2_4 m c))
/-- Region 3's window 2 is entered with the host-computed `main_v20`. -/
theorem entry3_2 (c : Dev nD) : (dat3 (EntR3 m) c).A 2 = Ent3 m c main_v20 := A_eq3 (EntR3 m) c 2
/-- Region 3's window 3 is entered with the host-computed `main_v19`. -/
theorem entry3_3 (c : Dev nD) : (dat3 (EntR3 m) c).A 3 = Ent3 m c main_v19 := A_eq3 (EntR3 m) c 3

/-- Region 4's window 0 is entered with the argument `main_arg1` as launched. -/
theorem entry4_0 (c : Dev nD) : (dat4 (EntR4 m) c).A 0 = m ((c : Thread nD τ).loc main_arg1) :=
  (A_eq4 (EntR4 m) c 0).trans (show Ent4 m c main_arg1 = V0 m c main_arg1 from (V9_of m (outsAll m) c main_arg1 (by decide)).trans <| (V8_of m (outsAll m) c main_arg1 (by decide)).trans <| (V7_of m (outsAll m) c main_arg1 (by decide)).trans <| (V6_of m (outsAll m) c main_arg1 (by decide)).trans <| (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 4's window 1 is entered with what region 3 left in `main_v21`. -/
theorem entry4_1 (c : Dev nD) : (dat4 (EntR4 m) c).A 1 = (dat3 (EntR3 m) c).arrAt 4 cfg3.N :=
  (A_eq4 (EntR4 m) c 1).trans ((show Ent4 m c main_v21 = Ext3 m c main_v21 from (V9_of m (outsAll m) c main_v21 (by decide))).trans (ext3_4 m c))
/-- Region 4's window 2 is entered with the host-computed `main_v33`. -/
theorem entry4_2 (c : Dev nD) : (dat4 (EntR4 m) c).A 2 = Ent4 m c main_v33 := A_eq4 (EntR4 m) c 2
/-- Region 4's window 3 is entered with the host-computed `main_v30`. -/
theorem entry4_3 (c : Dev nD) : (dat4 (EntR4 m) c).A 3 = Ent4 m c main_v30 := A_eq4 (EntR4 m) c 3

/-- Region 5's window 0 is entered with the argument `main_arg1` as launched. -/
theorem entry5_0 (c : Dev nD) : (dat5 (EntR5 m) c).A 0 = m ((c : Thread nD τ).loc main_arg1) :=
  (A_eq5 (EntR5 m) c 0).trans (show Ent5 m c main_arg1 = V0 m c main_arg1 from (V11_of m (outsAll m) c main_arg1 (by decide)).trans <| (V10_of m (outsAll m) c main_arg1 (by decide)).trans <| (V9_of m (outsAll m) c main_arg1 (by decide)).trans <| (V8_of m (outsAll m) c main_arg1 (by decide)).trans <| (V7_of m (outsAll m) c main_arg1 (by decide)).trans <| (V6_of m (outsAll m) c main_arg1 (by decide)).trans <| (V5_of m (outsAll m) c main_arg1 (by decide)).trans <| (V4_of m (outsAll m) c main_arg1 (by decide)).trans <| (V3_of m (outsAll m) c main_arg1 (by decide)).trans <| (V2_of m (outsAll m) c main_arg1 (by decide)).trans <| (V1_of m c main_arg1 (by decide)))
/-- Region 5's window 1 is entered with what region 4 left in `main_v34_1`. -/
theorem entry5_1 (c : Dev nD) : (dat5 (EntR5 m) c).A 1 = (dat4 (EntR4 m) c).arrAt 5 cfg4.N :=
  (A_eq5 (EntR5 m) c 1).trans ((show Ent5 m c main_v34_1 = Ext4 m c main_v34_1 from (V11_of m (outsAll m) c main_v34_1 (by decide))).trans (ext4_5 m c))
/-- Region 5's window 2 is entered with what region 4 left in `main_v34_0`. -/
theorem entry5_2 (c : Dev nD) : (dat5 (EntR5 m) c).A 2 = (dat4 (EntR4 m) c).arrAt 4 cfg4.N :=
  (A_eq5 (EntR5 m) c 2).trans ((show Ent5 m c main_v34_0 = Ext4 m c main_v34_0 from (V11_of m (outsAll m) c main_v34_0 (by decide))).trans (ext4_4 m c))
/-- Region 5's window 3 is entered with the host-computed `main_v44`. -/
theorem entry5_3 (c : Dev nD) : (dat5 (EntR5 m) c).A 3 = Ent5 m c main_v44 := A_eq5 (EntR5 m) c 3
/-- Region 5's window 4 is entered with the argument `main_arg8` as launched. -/
theorem entry5_4 (c : Dev nD) : (dat5 (EntR5 m) c).A 4 = m ((c : Thread nD τ).loc main_arg8) :=
  (A_eq5 (EntR5 m) c 4).trans (show Ent5 m c main_arg8 = V0 m c main_arg8 from (V11_of m (outsAll m) c main_arg8 (by decide)).trans <| (V10_of m (outsAll m) c main_arg8 (by decide)).trans <| (V9_of m (outsAll m) c main_arg8 (by decide)).trans <| (V8_of m (outsAll m) c main_arg8 (by decide)).trans <| (V7_of m (outsAll m) c main_arg8 (by decide)).trans <| (V6_of m (outsAll m) c main_arg8 (by decide)).trans <| (V5_of m (outsAll m) c main_arg8 (by decide)).trans <| (V4_of m (outsAll m) c main_arg8 (by decide)).trans <| (V3_of m (outsAll m) c main_arg8 (by decide)).trans <| (V2_of m (outsAll m) c main_arg8 (by decide)).trans <| (V1_of m c main_arg8 (by decide)))
/-- Region 5's window 5 is entered with the host-computed `main_v45`. -/
theorem entry5_5 (c : Dev nD) : (dat5 (EntR5 m) c).A 5 = Ent5 m c main_v45 := A_eq5 (EntR5 m) c 5
/-- Region 5's window 6 is entered with the argument `main_arg10` as launched. -/
theorem entry5_6 (c : Dev nD) : (dat5 (EntR5 m) c).A 6 = m ((c : Thread nD τ).loc main_arg10) :=
  (A_eq5 (EntR5 m) c 6).trans (show Ent5 m c main_arg10 = V0 m c main_arg10 from (V11_of m (outsAll m) c main_arg10 (by decide)).trans <| (V10_of m (outsAll m) c main_arg10 (by decide)).trans <| (V9_of m (outsAll m) c main_arg10 (by decide)).trans <| (V8_of m (outsAll m) c main_arg10 (by decide)).trans <| (V7_of m (outsAll m) c main_arg10 (by decide)).trans <| (V6_of m (outsAll m) c main_arg10 (by decide)).trans <| (V5_of m (outsAll m) c main_arg10 (by decide)).trans <| (V4_of m (outsAll m) c main_arg10 (by decide)).trans <| (V3_of m (outsAll m) c main_arg10 (by decide)).trans <| (V2_of m (outsAll m) c main_arg10 (by decide)).trans <| (V1_of m c main_arg10 (by decide)))
/-- Region 5's window 7 is entered with the host-computed `main_v46`. -/
theorem entry5_7 (c : Dev nD) : (dat5 (EntR5 m) c).A 7 = Ent5 m c main_v46 := A_eq5 (EntR5 m) c 7

end Cert.KernelIdeal.Fr

end
-- ==== Proof.KV.Dot.lean ====
/-
  A matrix product into a zero accumulator, read at one entry: the sum over the contracted axis of the products
  of the left operand's row and the right operand's column.  One statement per pair of operand shapes the
  kernels multiply; the proof re-indexes the contraction's one-axis index set through its coordinate.
-/
import proofs.«172286_g11278584119306_cont_sun_m_662_2_alg».proof.Proof.Gen.KernelIdeal
import Idealize.ShloMosaic.Lib.ValueIdx
import Idealize.ShloMosaic.PureOps.Ideal.Laws

noncomputable section

open scoped BigOperators

namespace Cert.KernelIdeal.KV

open Cert.KernelIdeal Idealize.ShloMosaic Idealize.ShloMosaic.ValueIdx

/-! ### `[400, 10000] · [10000, 128]` -/

/-- The left operand is read in the output's row … -/
theorem lrow_400x10000x128 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
/-- … and the contracted column; -/
theorem lcol_400x10000x128 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
/-- the right operand in the contracted row … -/
theorem rrow_400x10000x128 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
/-- … and the output's column. -/
theorem rcol_400x10000x128 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product at entry `(r, c)`. -/
theorem matmul_400x10000x128 (lhs : FVec Ideal S400x10000 .f32) (rhs : FVec Ideal S10000x128 .f32) (r : Fin 400) (c : Fin 128) :
    matmul dot_S400x10000_S10000x128_S400x128_1_0_0_1_n_n none lhs rhs (constant S400x128 .f32 0x00000000#32) (ix2 r c)
      = ∑ k : Fin 10000, lhs (ix2 r k) * rhs (ix2 k c) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r c) ((contrEquiv1 dot_S400x10000_S10000x128_S400x128_1_0_0_1_n_n 10000 rfl rfl).symm k) = ix2 r k :=
    funext fun a => Fin.ext (by
      match a with
      | ⟨0, _⟩ => exact lrow_400x10000x128 _ _
      | ⟨1, _⟩ => exact (lcol_400x10000x128 _ _).trans hk)
  have er : dot_S400x10000_S10000x128_S400x128_1_0_0_1_n_n.rhsIdx (ix2 r c) ((contrEquiv1 dot_S400x10000_S10000x128_S400x128_1_0_0_1_n_n 10000 rfl rfl).symm k) = ix2 k c :=
    funext fun a => Fin.ext (by
      match a with
      | ⟨0, _⟩ => exact (rrow_400x10000x128 _ _).trans hk
      | ⟨1, _⟩ => exact rcol_400x10000x128 _ _)
  rw [el, er]

/-! ### `[400, 128] · [128, 128]` -/

/-- The left operand is read in the output's row … -/
theorem lrow_400x128x128 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
/-- … and the contracted column; -/
theorem lcol_400x128x128 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
/-- the right operand in the contracted row … -/
theorem rrow_400x128x128 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
/-- … and the output's column. -/
theorem rcol_400x128x128 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The product at entry `(r, c)`. -/
theorem matmul_400x128x128 (lhs : FVec Ideal S400x128 .f32) (rhs : FVec Ideal S128x128 .f32) (r : Fin 400) (c : Fin 128) :
    matmul dot_S400x128_S128x128_S400x128_1_0_0_1_n_n none lhs rhs (constant S400x128 .f32 0x00000000#32) (ix2 r c)
      = ∑ k : Fin 128, lhs (ix2 r k) * rhs (ix2 k c) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r c) ((contrEquiv1 dot_S400x128_S128x128_S400x128_1_0_0_1_n_n 128 rfl rfl).symm k) = ix2 r k :=
    funext fun a => Fin.ext (by
      match a with
      | ⟨0, _⟩ => exact lrow_400x128x128 _ _
      | ⟨1, _⟩ => exact (lcol_400x128x128 _ _).trans hk)
  have er : dot_S400x128_S128x128_S400x128_1_0_0_1_n_n.rhsIdx (ix2 r c) ((contrEquiv1 dot_S400x128_S128x128_S400x128_1_0_0_1_n_n 128 rfl rfl).symm k) = ix2 k c :=
    funext fun a => Fin.ext (by
      match a with
      | ⟨0, _⟩ => exact (rrow_400x128x128 _ _).trans hk
      | ⟨1, _⟩ => exact rcol_400x128x128 _ _)
  rw [el, er]

/-! ### `[400, 128] · [128, 640]` -/

/-- The left operand is read in the output's row … -/
theorem lrow_400x128x640 (i : S400x640.Idx) (q : dot_S400x128_S128x640_S400x640_1_0_0_1_n_n.contr.Idx) : (dot_S400x128_S128x640_S400x640_1_0_0_1_n_n.lhsIdx i q 0).val = (i 0).val := by
  unfold DotDims.lhsIdx
  rw [dif_neg (show ¬(0 : Fin S400x128.rank) ∈ dot_S400x128_S128x640_S400x640_1_0_0_1_n_n.lhsBatch by decide),
    dif_pos (show (0 : Fin S400x128.rank) ∈ dot_S400x128_S128x640_S400x640_1_0_0_1_n_n.lhsNonContracting by decide)]
  rfl
/-- … and the contracted column; -/
theorem lcol_400x128x640 (i : S400x640.Idx) (q : dot_S400x128_S128x640_S400x640_1_0_0_1_n_n.contr.Idx) : (dot_S400x128_S128x640_S400x640_1_0_0_1_n_n.lhsIdx i q 1).val = (q ⟨0, by decide⟩).val :=
  dot_S400x128_S128x640_S400x640_1_0_0_1_n_n.lhsIdx_val_of_single rfl i q
/-- the right operand in the contracted row … -/
theorem rrow_400x128x640 (i : S400x640.Idx) (q : dot_S400x128_S128x640_S400x640_1_0_0_1_n_n.contr.Idx) : (dot_S400x128_S128x640_S400x640_1_0_0_1_n_n.rhsIdx i q 0).val = (q ⟨0, by decide⟩).val :=
  dot_S400x128_S128x640_S400x640_1_0_0_1_n_n.rhsIdx_val_of_single rfl i q
/-- … and the output's column. -/
theorem rcol_400x128x640 (i : S400x640.Idx) (q : dot_S400x128_S128x640_S400x640_1_0_0_1_n_n.contr.Idx) : (dot_S400x128_S128x640_S400x640_1_0_0_1_n_n.rhsIdx i q 1).val = (i 1).val := by
  unfold DotDims.rhsIdx
  rw [dif_neg (show ¬(1 : Fin S128x640.rank) ∈ dot_S400x128_S128x640_S400x640_1_0_0_1_n_n.rhsBatch by decide),
    dif_pos (show (1 : Fin S128x640.rank) ∈ dot_S400x128_S128x640_S400x640_1_0_0_1_n_n.rhsNonContracting by decide)]
  rfl

/-- The product at entry `(r, c)`. -/
theorem matmul_400x128x640 (lhs : FVec Ideal S400x128 .f32) (rhs : FVec Ideal S128x640 .f32) (r : Fin 400) (c : Fin 640) :
    matmul dot_S400x128_S128x640_S400x640_1_0_0_1_n_n none lhs rhs (constant S400x640 .f32 0x00000000#32) (ix2 r c)
      = ∑ k : Fin 128, lhs (ix2 r k) * rhs (ix2 k c) := by
  simp only [matmul]
  rw [Ideal.matmul_constant_zero_apply, ← Equiv.sum_comp (contrEquiv1 dot_S400x128_S128x640_S400x640_1_0_0_1_n_n 128 rfl rfl).symm]
  refine Finset.sum_congr rfl fun k _ => ?_
  have hk := contrEquiv1_symm_val dot_S400x128_S128x640_S400x640_1_0_0_1_n_n 128 rfl rfl k
  have el : dot_S400x128_S128x640_S400x640_1_0_0_1_n_n.lhsIdx (ix2 r c) ((contrEquiv1 dot_S400x128_S128x640_S400x640_1_0_0_1_n_n 128 rfl rfl).symm k) = ix2 r k :=
    funext fun a => Fin.ext (by
      match a with
      | ⟨0, _⟩ => exact lrow_400x128x640 _ _
      | ⟨1, _⟩ => exact (lcol_400x128x640 _ _).trans hk)
  have er : dot_S400x128_S128x640_S400x640_1_0_0_1_n_n.rhsIdx (ix2 r c) ((contrEquiv1 dot_S400x128_S128x640_S400x640_1_0_0_1_n_n 128 rfl rfl).symm k) = ix2 k c :=
    funext fun a => Fin.ext (by
      match a with
      | ⟨0, _⟩ => exact (rrow_400x128x640 _ _).trans hk
      | ⟨1, _⟩ => exact rcol_400x128x640 _ _)
  rw [el, er]

/-! ### `[400, 10000] · [10000, 640]` -/

/-- The left operand is read in the output's row … -/
theorem lrow_400x10000x640 (i : S400x640.Idx) (q : dot_S400x10000_S10000x640_S400x640_1_0_0_1_n_n.contr.Idx) : (dot_S400x10000_S10000x640_S400x640_1_0_0_1_n_n.lhsIdx i q 0).val = (i 0).val := by
  unfold DotDims.lhsIdx
  rw [dif_neg (show ¬(0 : Fin S400x10000.rank) ∈ dot_S400x10000_S10000x640_S400x640_1_0_0_1_n_n.lhsBatch by decide),
    dif_pos (show (0 : Fin S400x10000.rank) ∈ dot_S400x10000_S10000x640_S400x640_1_0_0_1_n_n.lhsNonContracting by decide)]
  rfl
/-- … and the contracted column; -/
theorem lcol_400x10000x640 (i : S400x640.Idx) (q : dot_S400x10000_S10000x640_S400x640_1_0_0_1_n_n.contr.Idx) : (dot_S400x10000_S10000x640_S400x640_1_0_0_1_n_n.lhsIdx i q 1).val = (q ⟨0, by decide⟩).val :=
  dot_S400x10000_S10000x640_S400x640_1_0_0_1_n_n.lhsIdx_val_of_single rfl i q
/-- the right operand in the contracted row … -/
theorem rrow_400x10000x640 (i : S400x640.Idx) (q : dot_S400x10000_S10000x640_S400x640_1_0_0_1_n_n.contr.Idx) : (dot_S400x10000_S10000x640_S400x640_1_0_0_1_n_n.rhsIdx i q 0).val = (q ⟨0, by decide⟩).val :=
  dot_S400x10000_S10000x640_S400x640_1_0_0_1_n_n.rhsIdx_val_of_single rfl i q
/-- … and the output's column. -/
theorem rcol_400x10000x640 (i : S400x640.Idx) (q : dot_S400x10000_S10000x640_S400x640_1_0_0_1_n_n.contr.Idx) : (dot_S400x10000_S10000x640_S400x640_1_0_0_1_n_n.rhsIdx i q 1).val = (i 1).val := by
  unfold DotDims.rhsIdx
  rw [dif_neg (show ¬(1 : Fin S10000x640.rank) ∈ dot_S400x10000_S10000x640_S400x640_1_0_0_1_n_n.rhsBatch by decide),
    dif_pos (show (1 : Fin S10000x640.rank) ∈ dot_S400x10000_S10000x640_S400x640_1_0_0_1_n_n.rhsNonContracting by decide)]
  rfl

/-- The product at entry `(r, c)`. -/
theorem matmul_400x10000x640 (lhs : FVec Ideal S400x10000 .f32) (rhs : FVec Ideal S10000x640 .f32) (r : Fin 400) (c : Fin 640) :
    matmul dot_S400x10000_S10000x640_S400x640_1_0_0_1_n_n none lhs rhs (constant S400x640 .f32 0x00000000#32) (ix2 r c)
      = ∑ k : Fin 10000, lhs (ix2 r k) * rhs (ix2 k c) := by
  simp only [matmul]
  rw [Ideal.matmul_constant_zero_apply, ← Equiv.sum_comp (contrEquiv1 dot_S400x10000_S10000x640_S400x640_1_0_0_1_n_n 10000 rfl rfl).symm]
  refine Finset.sum_congr rfl fun k _ => ?_
  have hk := contrEquiv1_symm_val dot_S400x10000_S10000x640_S400x640_1_0_0_1_n_n 10000 rfl rfl k
  have el : dot_S400x10000_S10000x640_S400x640_1_0_0_1_n_n.lhsIdx (ix2 r c) ((contrEquiv1 dot_S400x10000_S10000x640_S400x640_1_0_0_1_n_n 10000 rfl rfl).symm k) = ix2 r k :=
    funext fun a => Fin.ext (by
      match a with
      | ⟨0, _⟩ => exact lrow_400x10000x640 _ _
      | ⟨1, _⟩ => exact (lcol_400x10000x640 _ _).trans hk)
  have er : dot_S400x10000_S10000x640_S400x640_1_0_0_1_n_n.rhsIdx (ix2 r c) ((contrEquiv1 dot_S400x10000_S10000x640_S400x640_1_0_0_1_n_n 10000 rfl rfl).symm k) = ix2 k c :=
    funext fun a => Fin.ext (by
      match a with
      | ⟨0, _⟩ => exact (rrow_400x10000x640 _ _).trans hk
      | ⟨1, _⟩ => exact rcol_400x10000x640 _ _)
  rw [el, er]

/-! ### `[400, 128] · [128, 1]` -/

/-- The left operand is read in the output's row … -/
theorem lrow_400x128x1 (i : S400x1.Idx) (q : dot_S400x128_S128x1_S400x1_1_0_0_1_n_n.contr.Idx) : (dot_S400x128_S128x1_S400x1_1_0_0_1_n_n.lhsIdx i q 0).val = (i 0).val := by
  unfold DotDims.lhsIdx
  rw [dif_neg (show ¬(0 : Fin S400x128.rank) ∈ dot_S400x128_S128x1_S400x1_1_0_0_1_n_n.lhsBatch by decide),
    dif_pos (show (0 : Fin S400x128.rank) ∈ dot_S400x128_S128x1_S400x1_1_0_0_1_n_n.lhsNonContracting by decide)]
  rfl
/-- … and the contracted column; -/
theorem lcol_400x128x1 (i : S400x1.Idx) (q : dot_S400x128_S128x1_S400x1_1_0_0_1_n_n.contr.Idx) : (dot_S400x128_S128x1_S400x1_1_0_0_1_n_n.lhsIdx i q 1).val = (q ⟨0, by decide⟩).val :=
  dot_S400x128_S128x1_S400x1_1_0_0_1_n_n.lhsIdx_val_of_single rfl i q
/-- the right operand in the contracted row … -/
theorem rrow_400x128x1 (i : S400x1.Idx) (q : dot_S400x128_S128x1_S400x1_1_0_0_1_n_n.contr.Idx) : (dot_S400x128_S128x1_S400x1_1_0_0_1_n_n.rhsIdx i q 0).val = (q ⟨0, by decide⟩).val :=
  dot_S400x128_S128x1_S400x1_1_0_0_1_n_n.rhsIdx_val_of_single rfl i q
/-- … and the output's column. -/
theorem rcol_400x128x1 (i : S400x1.Idx) (q : dot_S400x128_S128x1_S400x1_1_0_0_1_n_n.contr.Idx) : (dot_S400x128_S128x1_S400x1_1_0_0_1_n_n.rhsIdx i q 1).val = (i 1).val := by
  unfold DotDims.rhsIdx
  rw [dif_neg (show ¬(1 : Fin S128x1.rank) ∈ dot_S400x128_S128x1_S400x1_1_0_0_1_n_n.rhsBatch by decide),
    dif_pos (show (1 : Fin S128x1.rank) ∈ dot_S400x128_S128x1_S400x1_1_0_0_1_n_n.rhsNonContracting by decide)]
  rfl

/-- The product at entry `(r, c)`. -/
theorem matmul_400x128x1 (lhs : FVec Ideal S400x128 .f32) (rhs : FVec Ideal S128x1 .f32) (r : Fin 400) (c : Fin 1) :
    matmul dot_S400x128_S128x1_S400x1_1_0_0_1_n_n none lhs rhs (constant S400x1 .f32 0x00000000#32) (ix2 r c)
      = ∑ k : Fin 128, lhs (ix2 r k) * rhs (ix2 k c) := by
  simp only [matmul]
  rw [Ideal.matmul_constant_zero_apply, ← Equiv.sum_comp (contrEquiv1 dot_S400x128_S128x1_S400x1_1_0_0_1_n_n 128 rfl rfl).symm]
  refine Finset.sum_congr rfl fun k _ => ?_
  have hk := contrEquiv1_symm_val dot_S400x128_S128x1_S400x1_1_0_0_1_n_n 128 rfl rfl k
  have el : dot_S400x128_S128x1_S400x1_1_0_0_1_n_n.lhsIdx (ix2 r c) ((contrEquiv1 dot_S400x128_S128x1_S400x1_1_0_0_1_n_n 128 rfl rfl).symm k) = ix2 r k :=
    funext fun a => Fin.ext (by
      match a with
      | ⟨0, _⟩ => exact lrow_400x128x1 _ _
      | ⟨1, _⟩ => exact (lcol_400x128x1 _ _).trans hk)
  have er : dot_S400x128_S128x1_S400x1_1_0_0_1_n_n.rhsIdx (ix2 r c) ((contrEquiv1 dot_S400x128_S128x1_S400x1_1_0_0_1_n_n 128 rfl rfl).symm k) = ix2 k c :=
    funext fun a => Fin.ext (by
      match a with
      | ⟨0, _⟩ => exact (rrow_400x128x1 _ _).trans hk
      | ⟨1, _⟩ => exact rcol_400x128x1 _ _)
  rw [el, er]

end Cert.KernelIdeal.KV

end
-- ==== Proof.Spec.lean ====
/-
  The mathematics of both programs, entry by entry, over the extended reals.

  A matrix is a function of a row and a column.  One propagation step is
  `x ↦ normalize (relu (adj · y + b))` where `normalize` divides every row by its Euclidean norm floored at a
  small constant; five such steps (the first through `adj1`, the rest through `adj2`, each fed the previous
  features times a weight matrix) give the features `feat`.  The score of a row is the sum of a two-layer
  perceptron over six feature matrices: `feat` itself, four further normalised propagations of it, and one
  propagation left unnormalised.  One program sums the six perceptrons' outputs; the other sums the six hidden
  activations first and applies the last (linear) layer once, adding six times its bias.  The hidden activations
  are rectified, hence nonnegative, and on the extended reals a product distributes over a sum of nonnegative
  terms: that is the one law joining the two (`score_eq`).
-/
import Idealize.ShloMosaic.PureOps.Ideal
import Idealize.ShloMosaic.Lib.ValueIdx

noncomputable section

open scoped BigOperators

namespace Cert.GraphScore

open Idealize.ShloMosaic

/-- The rectifier. -/
def relu (x : EReal) : EReal := max x 0

theorem relu_nonneg (x : EReal) : 0 ≤ relu x := le_max_right _ _

/-- The floor under a row's norm, by its word (the same word in both programs: never evaluated). -/
def eps : EReal := Ideal.ofBits .f32 0x2B8CBCCC#32

/-- The word of `6.0`. -/
def six : EReal := Ideal.ofBits .f32 0x40C00000#32

/-- `6.0` denotes the real six. -/
theorem six_eq : six = ((6 : ℝ) : EReal) := by
  unfold six
  simp [Ideal.ofBits, Ideal.ieee, -EReal.coe_mul]; norm_num

/-- The matrix product, entry by entry. -/
def mm {a k b : ℕ} (x : Fin a → Fin k → EReal) (w : Fin k → Fin b → EReal) (i : Fin a) (j : Fin b) : EReal :=
  ∑ l : Fin k, x i l * w l j

/-- A row's Euclidean norm, floored. -/
def rowNorm {a : ℕ} (z : Fin a → Fin 128 → EReal) (i : Fin a) : EReal :=
  max (Ideal.sqrt (∑ j : Fin 128, z i j * z i j)) eps

/-- Every row divided by its floored norm. -/
def normalize {a : ℕ} (z : Fin a → Fin 128 → EReal) (i : Fin a) (j : Fin 128) : EReal :=
  Ideal.div (z i j) (rowNorm z i)

/-- `relu (adj · y + b)`. -/
def act {a n b : ℕ} (adj : Fin a → Fin n → EReal) (y : Fin n → Fin b → EReal) (bias : Fin b → EReal)
    (i : Fin a) (j : Fin b) : EReal :=
  relu (mm adj y i j + bias j)

/-- One propagation step: `normalize (relu (adj · y + b))`. -/
def layer {a n : ℕ} (adj : Fin a → Fin n → EReal) (y : Fin n → Fin 128 → EReal) (bias : Fin 128 → EReal) :
    Fin a → Fin 128 → EReal :=
  normalize (act adj y bias)

/-- The perceptron's hidden activations `relu (h · Wm1 + bm1)`. -/
def hidden {a : ℕ} (h : Fin a → Fin 128 → EReal) (wm1 : Fin 128 → Fin 128 → EReal) (bm1 : Fin 128 → EReal)
    (i : Fin a) (j : Fin 128) : EReal :=
  relu (mm h wm1 i j + bm1 j)

theorem hidden_nonneg {a : ℕ} (h : Fin a → Fin 128 → EReal) (wm1 : Fin 128 → Fin 128 → EReal) (bm1 : Fin 128 → EReal)
    (i : Fin a) (j : Fin 128) : 0 ≤ hidden h wm1 bm1 i j := relu_nonneg _

/-- The twelve argument arrays, entry by entry. -/
structure Args where
  adj1 : Fin 10000 → Fin 10000 → EReal
  adj2 : Fin 10000 → Fin 10000 → EReal
  W0 : Fin 10000 → Fin 128 → EReal
  b0 : Fin 128 → EReal
  Ws : Fin 4 → Fin 128 → Fin 128 → EReal
  bs : Fin 4 → Fin 128 → EReal
  Wl : Fin 128 → Fin 128 → EReal
  bl : Fin 128 → EReal
  Wm1 : Fin 128 → Fin 128 → EReal
  bm1 : Fin 128 → EReal
  Wm2 : Fin 128 → Fin 1 → EReal
  bm2 : Fin 1 → EReal

variable (A : Args)

/-- The features after the first step (through `adj1`). -/
def x0 : Fin 10000 → Fin 128 → EReal := layer A.adj1 A.W0 A.b0
/-- … and after each of the four steps through `adj2`. -/
def x1 : Fin 10000 → Fin 128 → EReal := layer A.adj2 (mm (x0 A) (A.Ws 0)) (A.bs 0)
def x2 : Fin 10000 → Fin 128 → EReal := layer A.adj2 (mm (x1 A) (A.Ws 1)) (A.bs 1)
def x3 : Fin 10000 → Fin 128 → EReal := layer A.adj2 (mm (x2 A) (A.Ws 2)) (A.bs 2)
def feat : Fin 10000 → Fin 128 → EReal := layer A.adj2 (mm (x3 A) (A.Ws 3)) (A.bs 3)

/-- The four further normalised propagations of the features. -/
def branch (k : Fin 4) : Fin 10000 → Fin 128 → EReal := layer A.adj2 (mm (feat A) (A.Ws k)) (A.bs k)
/-- The last propagation: rectified, not normalised. -/
def last : Fin 10000 → Fin 128 → EReal := act A.adj2 (mm (feat A) A.Wl) A.bl

/-- The hidden activations of a feature matrix under this perceptron. -/
def hid (h : Fin 10000 → Fin 128 → EReal) : Fin 10000 → Fin 128 → EReal := hidden h A.Wm1 A.bm1

/-- The perceptron's output on a feature matrix. -/
def mlp (h : Fin 10000 → Fin 128 → EReal) (i : Fin 10000) : EReal :=
  (∑ j : Fin 128, hid A h i j * A.Wm2 j 0) + A.bm2 0

/-- The score as the sum of six perceptron outputs, in this order of addition. -/
def scoreSum (i : Fin 10000) : EReal :=
  ((((mlp A (feat A) i + mlp A (branch A 0) i) + mlp A (branch A 1) i) + mlp A (branch A 2) i)
    + mlp A (branch A 3) i) + mlp A (last A) i

/-- The six hidden activations summed, in this order of addition. -/
def hidSum (i : Fin 10000) (j : Fin 128) : EReal :=
  ((((hid A (feat A) i j + hid A (branch A 0) i j) + hid A (branch A 1) i j) + hid A (branch A 2) i j)
    + hid A (branch A 3) i j) + hid A (last A) i j

/-- The score as one last layer over the summed hidden activations, plus six times the bias. -/
def scoreFused (i : Fin 10000) : EReal :=
  (∑ j : Fin 128, hidSum A i j * A.Wm2 j 0) + six * A.bm2 0

/-- Six times `b` is `b` added six times, for every extended real `b`. -/
theorem six_mul (b : EReal) : six * b = ((((b + b) + b) + b) + b) + b := by
  have h1 : (0 : EReal) ≤ 1 := zero_le_one
  have e : six = (((((1 : EReal) + 1) + 1) + 1) + 1) + 1 := by
    rw [six_eq]; norm_cast
  rw [e]
  have h2 : (0 : EReal) ≤ 1 + 1 := add_nonneg h1 h1
  have h3 : (0 : EReal) ≤ 1 + 1 + 1 := add_nonneg h2 h1
  have h4 : (0 : EReal) ≤ 1 + 1 + 1 + 1 := add_nonneg h3 h1
  have h5 : (0 : EReal) ≤ 1 + 1 + 1 + 1 + 1 := add_nonneg h4 h1
  rw [EReal.right_distrib_of_nonneg h5 h1, EReal.right_distrib_of_nonneg h4 h1, EReal.right_distrib_of_nonneg h3 h1,
    EReal.right_distrib_of_nonneg h2 h1, EReal.right_distrib_of_nonneg h1 h1, one_mul]

/-- A sum of six nonnegative terms times `w`, summed over `j`, is the six sums added. -/
theorem sum_six_mul (h0 h1 h2 h3 h4 h5 w : Fin 128 → EReal)
    (p0 : ∀ j, 0 ≤ h0 j) (p1 : ∀ j, 0 ≤ h1 j) (p2 : ∀ j, 0 ≤ h2 j) (p3 : ∀ j, 0 ≤ h3 j) (p4 : ∀ j, 0 ≤ h4 j)
    (p5 : ∀ j, 0 ≤ h5 j) :
    (∑ j, (((((h0 j + h1 j) + h2 j) + h3 j) + h4 j) + h5 j) * w j)
      = (((((∑ j, h0 j * w j) + ∑ j, h1 j * w j) + ∑ j, h2 j * w j) + ∑ j, h3 j * w j) + ∑ j, h4 j * w j)
        + ∑ j, h5 j * w j := by
  simp only [← Finset.sum_add_distrib]
  refine Finset.sum_congr rfl fun j _ => ?_
  have q1 := add_nonneg (p0 j) (p1 j)
  have q2 := add_nonneg q1 (p2 j)
  have q3 := add_nonneg q2 (p3 j)
  have q4 := add_nonneg q3 (p4 j)
  rw [EReal.right_distrib_of_nonneg q4 (p5 j), EReal.right_distrib_of_nonneg q3 (p4 j),
    EReal.right_distrib_of_nonneg q2 (p3 j), EReal.right_distrib_of_nonneg q1 (p2 j),
    EReal.right_distrib_of_nonneg (p0 j) (p1 j)]

/-- THE LAW: the fused score is the sum of the six perceptron outputs. -/
theorem score_eq (i : Fin 10000) : scoreFused A i = scoreSum A i := by
  unfold scoreFused scoreSum mlp hidSum
  rw [sum_six_mul (fun j => hid A (feat A) i j) (fun j => hid A (branch A 0) i j) (fun j => hid A (branch A 1) i j)
    (fun j => hid A (branch A 2) i j) (fun j => hid A (branch A 3) i j) (fun j => hid A (last A) i j)
    (fun j => A.Wm2 j 0) (fun j => hidden_nonneg _ _ _ i j) (fun j => hidden_nonneg _ _ _ i j)
    (fun j => hidden_nonneg _ _ _ i j) (fun j => hidden_nonneg _ _ _ i j) (fun j => hidden_nonneg _ _ _ i j)
    (fun j => hidden_nonneg _ _ _ i j), six_mul]
  abel

end Cert.GraphScore

end
-- ==== Proof.KV.RowOps.lean ====
/-
  The row operations every kernel body shares, read at one entry of a block of 400 rows:
  the rectifier, adding a bias row, and dividing each row by its floored Euclidean norm.
-/
import proofs.«172286_g11278584119306_cont_sun_m_662_2_alg».proof.Proof.Gen.KernelIdeal
import proofs.«172286_g11278584119306_cont_sun_m_662_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KV

open Cert.KernelIdeal Cert.KernelIdeal.Facts₀ Cert.KernelIdeal.Facts Idealize.ShloMosaic Idealize.ShloMosaic.ValueIdx Cert.GraphScore

/-- A rank-2 vector as a matrix of its entries. -/
abbrev mat {a b : ℕ} (v : (⟨2, ![a, b]⟩ : Shape).Idx → EReal) : Fin a → Fin b → EReal := fun i j => v (ix2 i j)

/-- The rectifier on a block. -/
def reluVec (v : FVec Ideal S400x128 .f32) : FVec Ideal S400x128 .f32 :=
  maximumf v (broadcast S400x128 (Scalar.ofBits .f32 0x00000000#32))

theorem reluVec_apply (v : FVec Ideal S400x128 .f32) (r : Fin 400) (j : Fin 128) :
    reluVec v (ix2 r j) = relu (v (ix2 r j)) := by
  unfold reluVec relu
  rw [maximumf_apply, broadcast_apply]
  exact congrArg (max _) Ideal.ofBits_zero_f32

/-- A bias row added to every row of a block. -/
def addRow (v : FVec Ideal S400x128 .f32) (b : FVec Ideal S1x128 .f32) : FVec Ideal S400x128 .f32 :=
  addf v (broadcastTo S400x128 b broadcasts_S1x128_S400x128)

theorem addRow_apply (v : FVec Ideal S400x128 .f32) (b : FVec Ideal S1x128 .f32) (r : Fin 400) (j : Fin 128) :
    addRow v b (ix2 r j) = v (ix2 r j) + b (ix2 0 j) := by
  unfold addRow
  rw [addf_apply]
  refine congrArg (v (ix2 r j) + ·) ?_
  refine broadcastTo_apply b broadcasts_S1x128_S400x128 (ix2 r j) (ix2 0 j) fun a => ?_
  match a with
  | ⟨0, _⟩ => rfl
  | ⟨1, _⟩ => rfl

/-- Each row's sum of squares, as a column. -/
def sumSq (v : FVec Ideal S400x128 .f32) : FVec Ideal S400x1 .f32 :=
  shapeCast S400x1 (multiReduction .add [1] S400 (mulf v v) 0x00000000#32 reduces_S400x128_S400 (.inl rfl) rfl) shapeCasts_S400_S400x1

theorem sumSq_apply (v : FVec Ideal S400x128 .f32) (r : Fin 400) :
    sumSq v (ix2 r 0) = ∑ j : Fin 128, v (ix2 r j) * v (ix2 r j) := by
  unfold sumSq
  refine (shapeCast_apply _ shapeCasts_S400_S400x1 (ix2 r 0) (ix1 r) ?_).trans ?_
  · rw [Shape.rowMajor_val_one, Shape.rowMajor_val_two]
    show r.val = r.val * 1 + 0
    omega
  · refine (Ideal.multiReduction_add_single (mulf v v) 0x00000000#32 reduces_S400x128_S400 (.inl rfl) rfl (ix1 r)).trans ?_
    refine Finset.sum_congr rfl fun k _ => ?_
    have e : reduces_S400x128_S400.lift (ix1 r) k = ix2 r k := funext fun a => Fin.ext (by
      match a with
      | ⟨0, _⟩ => rfl
      | ⟨1, _⟩ => rfl)
    rw [e]
    rfl

/-- Every row of a block divided by its floored Euclidean norm. -/
def normVec (v : FVec Ideal S400x128 .f32) : FVec Ideal S400x128 .f32 :=
  divf v (broadcastTo S400x128 (maximumf (sqrt (sumSq v)) (broadcast S400x1 (Scalar.ofBits .f32 0x2B8CBCCC#32))) broadcasts_S400x1_S400x128)

theorem normVec_apply (v : FVec Ideal S400x128 .f32) (r : Fin 400) (j : Fin 128) :
    normVec v (ix2 r j) = GraphScore.normalize (mat v) r j := by
  unfold normVec GraphScore.normalize rowNorm
  rw [divf_apply]
  refine congrArg (Ideal.div (v (ix2 r j))) ?_
  refine (broadcastTo_apply _ broadcasts_S400x1_S400x128 (ix2 r j) (ix2 r 0) fun a => ?_).trans ?_
  · match a with
    | ⟨0, _⟩ => rfl
    | ⟨1, _⟩ => rfl
  · rw [maximumf_apply, broadcast_apply]
    show max (Ideal.sqrt (sumSq v (ix2 r 0))) _ = _
    rw [sumSq_apply]
    rfl

end Cert.KernelIdeal.KV

end
-- ==== Proof.KV.PropBody.lean ====
/-
  The propagation kernel's stored block, read at one entry: with `a` the block of 400 rows of the adjacency
  matrix, `y` the incoming features already multiplied by their weights, `b` the bias row and `w` the next
  layer's weights, the block stored is `normalize (relu (a · y + b)) · w`.
-/
import proofs.«172286_g11278584119306_cont_sun_m_662_2_alg».proof.Proof.Gen.KernelIdeal.Skeleton
import proofs.«172286_g11278584119306_cont_sun_m_662_2_alg».proof.Proof.KV.Dot
import proofs.«172286_g11278584119306_cont_sun_m_662_2_alg».proof.Proof.KV.RowOps

noncomputable section

open scoped BigOperators

namespace Cert.KernelIdeal.KV

open Cert.KernelIdeal Cert.KernelIdeal.Facts₀ Cert.KernelIdeal.Facts Idealize.ShloMosaic Idealize.ShloMosaic.ValueIdx Cert.GraphScore

/-- The rectified, biased product `relu (a · y + b)` of a block of rows, as a vector. -/
def actVec (a : FVec Ideal S400x10000 .f32) (y : FVec Ideal S10000x128 .f32) (b : FVec Ideal S1x128 .f32) : FVec Ideal S400x128 .f32 :=
  reluVec (addRow (matmul dot_S400x10000_S10000x128_S400x128_1_0_0_1_n_n none a y (constant S400x128 .f32 0x00000000#32)) b)

theorem actVec_apply (a : FVec Ideal S400x10000 .f32) (y : FVec Ideal S10000x128 .f32) (b : FVec Ideal S1x128 .f32)
    (r : Fin 400) (j : Fin 128) : actVec a y b (ix2 r j) = act (mat a) (mat y) (fun j => b (ix2 0 j)) r j := by
  unfold actVec act mm
  rw [reluVec_apply, addRow_apply, matmul_400x10000x128]

/-- The normalised features of a block of rows. -/
theorem layerVec_apply (a : FVec Ideal S400x10000 .f32) (y : FVec Ideal S10000x128 .f32) (b : FVec Ideal S1x128 .f32)
    (r : Fin 400) (j : Fin 128) : normVec (actVec a y b) (ix2 r j) = layer (mat a) (mat y) (fun j => b (ix2 0 j)) r j := by
  rw [normVec_apply]
  unfold layer
  exact congrFun (congrFun (congrArg GraphScore.normalize (funext fun r => funext fun j => actVec_apply a y b r j)) r) j

/-- Region 0's payload. -/
theorem k0_pay1_apply (v0 : Vec Ideal S400x10000 .f32) (v1 : Vec Ideal S10000x128 .f32) (v3 : Vec Ideal S1x128 .f32)
    (v17 : Vec Ideal S128x128 .f32) (r : Fin 400) (c : Fin 128) :
    Gen.k0_pay1 v0 v1 v3 v17 (ix2 r c)
      = mm (layer (mat v0) (mat v1) (fun j => v3 (ix2 0 j))) (mat v17) r c := by
  have e : Gen.k0_pay1 v0 v1 v3 v17
      = matmul dot_S400x128_S128x128_S400x128_1_0_0_1_n_n none (normVec (actVec v0 v1 (shapeCast S1x128 v3 shapeCasts_S1x128_S1x128)))
          (shapeCast S128x128 v17 shapeCasts_S128x128_S128x128) (constant S400x128 .f32 0x00000000#32) := rfl
  rw [e, matmul_400x128x128, shapeCast_self, shapeCast_self]
  unfold mm
  exact Finset.sum_congr rfl fun l _ => congrArg (· * _) (layerVec_apply v0 v1 v3 r l)

end Cert.KernelIdeal.KV

end
-- ==== Proof.KV.PropBodies.lean ====
/-
  The other propagation kernels' stored blocks, read at one entry: the three further steps (the same body), and the
  step that also keeps the normalised features and multiplies them by the five weight matrices side by side.
-/
import proofs.«172286_g11278584119306_cont_sun_m_662_2_alg».proof.Proof.KV.PropBody

noncomputable section

open scoped BigOperators

namespace Cert.KernelIdeal.KV

open Cert.KernelIdeal Cert.KernelIdeal.Facts₀ Cert.KernelIdeal.Facts Idealize.ShloMosaic Idealize.ShloMosaic.ValueIdx Cert.GraphScore

/-- Region 1's payload. -/
theorem k1_pay1_apply (v0 : Vec Ideal S400x10000 .f32) (v1 : Vec Ideal S10000x128 .f32) (v4 : Vec Ideal S1x128 .f32)
    (v18 : Vec Ideal S128x128 .f32) (r : Fin 400) (c : Fin 128) :
    Gen.k1_pay1 v0 v1 v4 v18 (ix2 r c)
      = mm (layer (mat v0) (mat v1) (fun j => v4 (ix2 0 j))) (mat v18) r c := by
  have e : Gen.k1_pay1 v0 v1 v4 v18
      = matmul dot_S400x128_S128x128_S400x128_1_0_0_1_n_n none
          (normVec (actVec v0 (shapeCast S10000x128 v1 shapeCasts_S10000x128_S10000x128) (shapeCast S1x128 v4 shapeCasts_S1x128_S1x128)))
          (shapeCast S128x128 v18 shapeCasts_S128x128_S128x128) (constant S400x128 .f32 0x00000000#32) := rfl
  rw [e, matmul_400x128x128, shapeCast_self, shapeCast_self, shapeCast_self]
  unfold mm
  exact Finset.sum_congr rfl fun l _ => congrArg (· * _) (layerVec_apply v0 v1 v4 r l)

/-- Region 2's payload. -/
theorem k2_pay1_apply (v0 : Vec Ideal S400x10000 .f32) (v1 : Vec Ideal S10000x128 .f32) (v4 : Vec Ideal S1x128 .f32)
    (v18 : Vec Ideal S128x128 .f32) (r : Fin 400) (c : Fin 128) :
    Gen.k2_pay1 v0 v1 v4 v18 (ix2 r c)
      = mm (layer (mat v0) (mat v1) (fun j => v4 (ix2 0 j))) (mat v18) r c := by
  have e : Gen.k2_pay1 v0 v1 v4 v18
      = matmul dot_S400x128_S128x128_S400x128_1_0_0_1_n_n none
          (normVec (actVec v0 (shapeCast S10000x128 v1 shapeCasts_S10000x128_S10000x128) (shapeCast S1x128 v4 shapeCasts_S1x128_S1x128)))
          (shapeCast S128x128 v18 shapeCasts_S128x128_S128x128) (constant S400x128 .f32 0x00000000#32) := rfl
  rw [e, matmul_400x128x128, shapeCast_self, shapeCast_self, shapeCast_self]
  unfold mm
  exact Finset.sum_congr rfl fun l _ => congrArg (· * _) (layerVec_apply v0 v1 v4 r l)

/-- Region 3's payload. -/
theorem k3_pay1_apply (v0 : Vec Ideal S400x10000 .f32) (v1 : Vec Ideal S10000x128 .f32) (v4 : Vec Ideal S1x128 .f32)
    (v18 : Vec Ideal S128x128 .f32) (r : Fin 400) (c : Fin 128) :
    Gen.k3_pay1 v0 v1 v4 v18 (ix2 r c)
      = mm (layer (mat v0) (mat v1) (fun j => v4 (ix2 0 j))) (mat v18) r c := by
  have e : Gen.k3_pay1 v0 v1 v4 v18
      = matmul dot_S400x128_S128x128_S400x128_1_0_0_1_n_n none
          (normVec (actVec v0 (shapeCast S10000x128 v1 shapeCasts_S10000x128_S10000x128) (shapeCast S1x128 v4 shapeCasts_S1x128_S1x128)))
          (shapeCast S128x128 v18 shapeCasts_S128x128_S128x128) (constant S400x128 .f32 0x00000000#32) := rfl
  rw [e, matmul_400x128x128, shapeCast_self, shapeCast_self, shapeCast_self]
  unfold mm
  exact Finset.sum_congr rfl fun l _ => congrArg (· * _) (layerVec_apply v0 v1 v4 r l)

/-- Region 4's first payload: the normalised features themselves. -/
theorem k4_pay1_apply (v0 : Vec Ideal S400x10000 .f32) (v1 : Vec Ideal S10000x128 .f32) (v4 : Vec Ideal S1x128 .f32)
    (r : Fin 400) (j : Fin 128) :
    Gen.k4_pay1 v0 v1 v4 (ix2 r j) = layer (mat v0) (mat v1) (fun j => v4 (ix2 0 j)) r j := by
  have e : Gen.k4_pay1 v0 v1 v4
      = normVec (actVec v0 (shapeCast S10000x128 v1 shapeCasts_S10000x128_S10000x128) (shapeCast S1x128 v4 shapeCasts_S1x128_S1x128)) := rfl
  rw [e, shapeCast_self, shapeCast_self]
  exact layerVec_apply v0 v1 v4 r j

/-- Region 4's second payload: those features times the five weight matrices laid side by side. -/
theorem k4_pay2_apply (v0 : Vec Ideal S400x10000 .f32) (v1 : Vec Ideal S10000x128 .f32) (v4 : Vec Ideal S1x128 .f32)
    (v19 : Vec Ideal S128x640 .f32) (r : Fin 400) (c : Fin 640) :
    Gen.k4_pay2 v0 v1 v4 v19 (ix2 r c)
      = mm (layer (mat v0) (mat v1) (fun j => v4 (ix2 0 j))) (mat v19) r c := by
  have e : Gen.k4_pay2 v0 v1 v4 v19
      = matmul dot_S400x128_S128x640_S400x640_1_0_0_1_n_n none (Gen.k4_pay1 v0 v1 v4)
          (shapeCast S128x640 v19 shapeCasts_S128x640_S128x640) (constant S400x640 .f32 0x00000000#32) := rfl
  rw [e, matmul_400x128x640, shapeCast_self]
  unfold mm
  exact Finset.sum_congr rfl fun l _ => congrArg (· * _) (k4_pay1_apply v0 v1 v4 r l)

end Cert.KernelIdeal.KV

end
-- ==== Proof.SpecRows.lean ====
/-
  Every operation of the specification acts on a matrix row by row: the value in row `i` depends on the
  left-hand matrix only through its row `i`.  So a block of rows of a matrix is sent to the same block of
  rows of the result — what lets a kernel work on 400 rows at a time.
-/
import proofs.«172286_g11278584119306_cont_sun_m_662_2_alg».proof.Proof.Spec

noncomputable section

open scoped BigOperators

namespace Cert.GraphScore

theorem mm_row {a a' k b : ℕ} (x : Fin a → Fin k → EReal) (x' : Fin a' → Fin k → EReal) (w : Fin k → Fin b → EReal)
    (i : Fin a) (r : Fin a') (h : ∀ l, x' r l = x i l) (j : Fin b) : mm x' w r j = mm x w i j := by
  unfold mm; simp only [h]

theorem act_row {a a' n b : ℕ} (adj : Fin a → Fin n → EReal) (adj' : Fin a' → Fin n → EReal) (y : Fin n → Fin b → EReal)
    (bias : Fin b → EReal) (i : Fin a) (r : Fin a') (h : ∀ l, adj' r l = adj i l) (j : Fin b) :
    act adj' y bias r j = act adj y bias i j := by
  unfold act; rw [mm_row adj adj' y i r h]

theorem normalize_row {a a' : ℕ} (z : Fin a → Fin 128 → EReal) (z' : Fin a' → Fin 128 → EReal) (i : Fin a) (r : Fin a')
    (h : ∀ j, z' r j = z i j) (j : Fin 128) : normalize z' r j = normalize z i j := by
  unfold normalize rowNorm; simp only [h]

theorem layer_row {a a' n : ℕ} (adj : Fin a → Fin n → EReal) (adj' : Fin a' → Fin n → EReal) (y : Fin n → Fin 128 → EReal)
    (bias : Fin 128 → EReal) (i : Fin a) (r : Fin a') (h : ∀ l, adj' r l = adj i l) (j : Fin 128) :
    layer adj' y bias r j = layer adj y bias i j :=
  normalize_row _ _ i r (fun j => act_row adj adj' y bias i r h j) j

theorem hidden_row {a a' : ℕ} (x : Fin a → Fin 128 → EReal) (x' : Fin a' → Fin 128 → EReal) (wm1 : Fin 128 → Fin 128 → EReal)
    (bm1 : Fin 128 → EReal) (i : Fin a) (r : Fin a') (h : ∀ l, x' r l = x i l) (j : Fin 128) :
    hidden x' wm1 bm1 r j = hidden x wm1 bm1 i j := by
  unfold hidden; rw [mm_row x x' wm1 i r h]

end Cert.GraphScore

end
-- ==== Proof.KV.Array0.lean ====
/-
  Region 0's output array as ONE function of the arrays the region finds: every grid point stores the block of
  400 rows `normalize (relu (a · y + b)) · w` of its own rows of the adjacency matrix, the blocks tile the
  10000 rows, and each operation acts row by row — so the array ends holding that expression of the whole matrices.
-/
import proofs.«172286_g11278584119306_cont_sun_m_662_2_alg».proof.Proof.KI.Region0
import proofs.«172286_g11278584119306_cont_sun_m_662_2_alg».proof.Proof.KV.PropBodies
import proofs.«172286_g11278584119306_cont_sun_m_662_2_alg».proof.Proof.SpecRows
import Idealize.ShloMosaic.Lib.Pipeline.Value

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the adjacency block and the output block move with the point, the other
    three operands are whole arrays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency block at point `t` is rows `400 t …` of the matrix. -/
theorem blk0_0 (c : Dev nD) (t : Fin cfg0.N) (r : Fin 400) (k : Fin 10000) (i : Fin 10000) (hi : i.val = 400 * t.val + r.val) :
    (iblk0 V c 0 t : Vec Ideal S400x10000 .f32) (ix2 r k) = (V c main_arg0 : S10000x10000.Idx → EReal) (ix2 i k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 400 + 1 * r.val = i.val; rw [e0, hi]; omega
  | ⟨1, _⟩ => show win0_0.index t 1 * 10000 + 1 * k.val = k.val; rw [e1]; omega

/-- The other operands' blocks are the whole arrays. -/
theorem blk0_1 (c : Dev nD) (t : Fin cfg0.N) : (iblk0 V c 1 t : Vec Ideal S10000x128 .f32) = (V c main_arg2 : S10000x128.Idx → EReal) := by
  obtain ⟨-, -, e0, e1, -⟩ := idx0 t
  funext j
  unfold iblk0
  rw [View.read_apply]
  show V c main_arg2 _ = V c main_arg2 _
  congr 1
  funext a
  apply Fin.ext
  match a with
  | ⟨0, _⟩ => show win0_1.index t 0 * 10000 + 1 * (j 0).val = (j 0).val; rw [e0]; omega
  | ⟨1, _⟩ => show win0_1.index t 1 * 128 + 1 * (j 1).val = (j 1).val; rw [e1]; omega

theorem blk0_2 (c : Dev nD) (t : Fin cfg0.N) : (iblk0 V c 2 t : Vec Ideal S1x128 .f32) = (V c main_v2 : S1x128.Idx → EReal) := by
  obtain ⟨-, -, -, -, e0, e1, -⟩ := idx0 t
  funext j
  unfold iblk0
  rw [View.read_apply]
  show V c main_v2 _ = V c main_v2 _
  congr 1
  funext a
  apply Fin.ext
  match a with
  | ⟨0, _⟩ => show win0_2.index t 0 * 1 + 1 * (j 0).val = (j 0).val; rw [e0]; omega
  | ⟨1, _⟩ => show win0_2.index t 1 * 128 + 1 * (j 1).val = (j 1).val; rw [e1]; omega

theorem blk0_3 (c : Dev nD) (t : Fin cfg0.N) : (iblk0 V c 3 t : Vec Ideal S128x128 .f32) = (V c main_v1 : S128x128.Idx → EReal) := by
  obtain ⟨-, -, -, -, -, -, e0, e1, -⟩ := idx0 t
  funext j
  unfold iblk0
  rw [View.read_apply]
  show V c main_v1 _ = V c main_v1 _
  congr 1
  funext a
  apply Fin.ext
  match a with
  | ⟨0, _⟩ => show win0_3.index t 0 * 128 + 1 * (j 0).val = (j 0).val; rw [e0]; omega
  | ⟨1, _⟩ => show win0_3.index t 1 * 128 + 1 * (j 1).val = (j 1).val; rw [e1]; omega

/-- What the region leaves in its output array, entry by entry. -/
def G0 (c : Dev nD) : S10000x128.Idx → EReal := fun i =>
  mm (layer (mat (a := 10000) (b := 10000) (V c main_arg0)) (mat (a := 10000) (b := 128) (V c main_arg2))
      (fun j => (V c main_v2 : S1x128.Idx → EReal) (ix2 0 j))) (mat (a := 128) (b := 128) (V c main_v1)) (i 0) (i 1)

/-- WHAT POINT `t` WRITES BACK is block `t` of `G0`. -/
theorem flushed0 (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz0]
  simp only [View.ld_unit_zero (S := S400x10000) hz0, View.ld_unit_zero (S := S10000x128) hz0,
    View.ld_unit_zero (S := S1x128) hz0, View.ld_unit_zero (S := S128x128) hz0]
  obtain ⟨-, -, -, -, -, -, -, -, e0, e1⟩ := idx0 t
  funext j
  obtain ⟨r, cc, rfl⟩ : ∃ (r : Fin 400) (cc : Fin 128), j = ix2 r cc := ⟨j 0, j 1, eq_ix2 j⟩
  rw [View.read_apply]
  have hrow : ((((cfg0.win 4).blk t).view.emb (ix2 r cc) : S10000x128.Idx) 0).val = 400 * t.val + r.val := by
    show win0_4.index t 0 * 400 + 1 * r.val = _; rw [e0]; omega
  have hcol : (((cfg0.win 4).blk t).view.emb (ix2 r cc) : S10000x128.Idx) 1 = cc :=
    Fin.ext (by show win0_4.index t 1 * 128 + 1 * cc.val = _; rw [e1]; omega)
  refine (k0_pay1_apply (iblk0 V c 0 t) (iblk0 V c 1 t) (iblk0 V c 2 t) (iblk0 V c 3 t) r cc).trans ?_
  rw [blk0_1, blk0_2, blk0_3]
  unfold G0
  rw [hcol]
  exact mm_row _ _ _ _ r (fun l => layer_row _ _ _ _ _ r (fun k => blk0_0 V c t r k _ hrow) l) cc

/-- An index of the array is in point `t`'s block iff each coordinate is in the block's range on its axis. -/
theorem mem_blk0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v3).slice (win0_4.rect t)).set ↔ _
  rw [View.set_slice_whole, Rect.mem_set_unit]
  exact Iff.rfl

/-- THE ARRAY after the region: `G0` (the 25 blocks of 400 rows tile the 10000 rows). -/
theorem final0 (c : Dev nD) : (dat0 V c).arrAt 4 cfg0.N = G0 V c :=
  (dat0 V c).arrAt_eq_of_cover 4 (G0 V c) (fun t _ => flushed0 V c t) fun i => by
    have hi0 : (i 0).val < 10000 := (i 0).isLt
    have hi1 : (i 1).val < 128 := (i 1).isLt
    have hN : cfg0.N = 25 := N_0
    let t : Fin cfg0.N := ⟨(i 0).val / 400, by rw [hN]; omega⟩
    obtain ⟨-, -, -, -, -, -, -, -, e0, e1⟩ := idx0 t
    refine ⟨t, flush0_4 t, ?_⟩
    rw [mem_blk0]
    intro a
    match a with
    | ⟨0, _⟩ => show win0_4.index t 0 * 400 ≤ (i 0).val ∧ (i 0).val < win0_4.index t 0 * 400 + 400; rw [e0]; show (i 0).val / 400 * 400 ≤ _ ∧ _ < (i 0).val / 400 * 400 + 400; omega
    | ⟨1, _⟩ => show win0_4.index t 1 * 128 ≤ (i 1).val ∧ (i 1).val < win0_4.index t 1 * 128 + 128; rw [e1]; omega

end Cert.KernelIdeal.KV

end
-- ==== Proof.KV.Array1.lean ====
/-
  Region 1's output array as ONE function of the arrays the region finds: every grid point stores the block of
  400 rows `normalize (relu (a · y + b)) · w` of its own rows of the adjacency matrix, the blocks tile the
  10000 rows, and each operation acts row by row — so the array ends holding that expression of the whole matrices.
-/
import proofs.«172286_g11278584119306_cont_sun_m_662_2_alg».proof.Proof.KI.Region1
import proofs.«172286_g11278584119306_cont_sun_m_662_2_alg».proof.Proof.KV.PropBodies
import proofs.«172286_g11278584119306_cont_sun_m_662_2_alg».proof.Proof.SpecRows
import Idealize.ShloMosaic.Lib.Pipeline.Value

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the adjacency block and the output block move with the point, the other
    three operands are whole arrays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point `t` is rows `400 t …` of the matrix. -/
theorem blk1_0 (c : Dev nD) (t : Fin cfg1.N) (r : Fin 400) (k : Fin 10000) (i : Fin 10000) (hi : i.val = 400 * t.val + r.val) :
    (iblk1 V c 0 t : Vec Ideal S400x10000 .f32) (ix2 r k) = (V c main_arg1 : S10000x10000.Idx → EReal) (ix2 i k) := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 400 + 1 * r.val = i.val; rw [e0, hi]; omega
  | ⟨1, _⟩ => show win1_0.index t 1 * 10000 + 1 * k.val = k.val; rw [e1]; omega

/-- The other operands' blocks are the whole arrays. -/
theorem blk1_1 (c : Dev nD) (t : Fin cfg1.N) : (iblk1 V c 1 t : Vec Ideal S10000x128 .f32) = (V c main_v3 : S10000x128.Idx → EReal) := by
  obtain ⟨-, -, e0, e1, -⟩ := idx1 t
  funext j
  unfold iblk1
  rw [View.read_apply]
  show V c main_v3 _ = V c main_v3 _
  congr 1
  funext a
  apply Fin.ext
  match a with
  | ⟨0, _⟩ => show win1_1.index t 0 * 10000 + 1 * (j 0).val = (j 0).val; rw [e0]; omega
  | ⟨1, _⟩ => show win1_1.index t 1 * 128 + 1 * (j 1).val = (j 1).val; rw [e1]; omega

theorem blk1_2 (c : Dev nD) (t : Fin cfg1.N) : (iblk1 V c 2 t : Vec Ideal S1x128 .f32) = (V c main_v8 : S1x128.Idx → EReal) := by
  obtain ⟨-, -, -, -, e0, e1, -⟩ := idx1 t
  funext j
  unfold iblk1
  rw [View.read_apply]
  show V c main_v8 _ = V c main_v8 _
  congr 1
  funext a
  apply Fin.ext
  match a with
  | ⟨0, _⟩ => show win1_2.index t 0 * 1 + 1 * (j 0).val = (j 0).val; rw [e0]; omega
  | ⟨1, _⟩ => show win1_2.index t 1 * 128 + 1 * (j 1).val = (j 1).val; rw [e1]; omega

theorem blk1_3 (c : Dev nD) (t : Fin cfg1.N) : (iblk1 V c 3 t : Vec Ideal S128x128 .f32) = (V c main_v7 : S128x128.Idx → EReal) := by
  obtain ⟨-, -, -, -, -, -, e0, e1, -⟩ := idx1 t
  funext j
  unfold iblk1
  rw [View.read_apply]
  show V c main_v7 _ = V c main_v7 _
  congr 1
  funext a
  apply Fin.ext
  match a with
  | ⟨0, _⟩ => show win1_3.index t 0 * 128 + 1 * (j 0).val = (j 0).val; rw [e0]; omega
  | ⟨1, _⟩ => show win1_3.index t 1 * 128 + 1 * (j 1).val = (j 1).val; rw [e1]; omega

/-- What the region leaves in its output array, entry by entry. -/
def G1 (c : Dev nD) : S10000x128.Idx → EReal := fun i =>
  mm (layer (mat (a := 10000) (b := 10000) (V c main_arg1)) (mat (a := 10000) (b := 128) (V c main_v3))
      (fun j => (V c main_v8 : S1x128.Idx → EReal) (ix2 0 j))) (mat (a := 128) (b := 128) (V c main_v7)) (i 0) (i 1)

/-- WHAT POINT `t` WRITES BACK is block `t` of `G1`. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S400x10000) hz1, View.ld_unit_zero (S := S10000x128) hz1,
    View.ld_unit_zero (S := S1x128) hz1, View.ld_unit_zero (S := S128x128) hz1]
  obtain ⟨-, -, -, -, -, -, -, -, e0, e1⟩ := idx1 t
  funext j
  obtain ⟨r, cc, rfl⟩ : ∃ (r : Fin 400) (cc : Fin 128), j = ix2 r cc := ⟨j 0, j 1, eq_ix2 j⟩
  rw [View.read_apply]
  have hrow : ((((cfg1.win 4).blk t).view.emb (ix2 r cc) : S10000x128.Idx) 0).val = 400 * t.val + r.val := by
    show win1_4.index t 0 * 400 + 1 * r.val = _; rw [e0]; omega
  have hcol : (((cfg1.win 4).blk t).view.emb (ix2 r cc) : S10000x128.Idx) 1 = cc :=
    Fin.ext (by show win1_4.index t 1 * 128 + 1 * cc.val = _; rw [e1]; omega)
  refine (k1_pay1_apply (iblk1 V c 0 t) (iblk1 V c 1 t) (iblk1 V c 2 t) (iblk1 V c 3 t) r cc).trans ?_
  rw [blk1_1, blk1_2, blk1_3]
  unfold G1
  rw [hcol]
  exact mm_row _ _ _ _ r (fun l => layer_row _ _ _ _ _ r (fun k => blk1_0 V c t r k _ hrow) l) cc

/-- An index of the array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v9).slice (win1_4.rect t)).set ↔ _
  rw [View.set_slice_whole, Rect.mem_set_unit]
  exact Iff.rfl

/-- THE ARRAY after the region: `G1` (the 25 blocks of 400 rows tile the 10000 rows). -/
theorem final1 (c : Dev nD) : (dat1 V c).arrAt 4 cfg1.N = G1 V c :=
  (dat1 V c).arrAt_eq_of_cover 4 (G1 V c) (fun t _ => flushed1 V c t) fun i => by
    have hi0 : (i 0).val < 10000 := (i 0).isLt
    have hi1 : (i 1).val < 128 := (i 1).isLt
    have hN : cfg1.N = 25 := N_1
    let t : Fin cfg1.N := ⟨(i 0).val / 400, by rw [hN]; omega⟩
    obtain ⟨-, -, -, -, -, -, -, -, e0, e1⟩ := idx1 t
    refine ⟨t, flush1_4 t, ?_⟩
    rw [mem_blk1]
    intro a
    match a with
    | ⟨0, _⟩ => show win1_4.index t 0 * 400 ≤ (i 0).val ∧ (i 0).val < win1_4.index t 0 * 400 + 400; rw [e0]; show (i 0).val / 400 * 400 ≤ _ ∧ _ < (i 0).val / 400 * 400 + 400; omega
    | ⟨1, _⟩ => show win1_4.index t 1 * 128 ≤ (i 1).val ∧ (i 1).val < win1_4.index t 1 * 128 + 128; rw [e1]; omega

end Cert.KernelIdeal.KV

end
-- ==== Proof.KV.Array2.lean ====
/-
  Region 2's output array as ONE function of the arrays the region finds: every grid point stores the block of
  400 rows `normalize (relu (a · y + b)) · w` of its own rows of the adjacency matrix, the blocks tile the
  10000 rows, and each operation acts row by row — so the array ends holding that expression of the whole matrices.
-/
import proofs.«172286_g11278584119306_cont_sun_m_662_2_alg».proof.Proof.KI.Region2
import proofs.«172286_g11278584119306_cont_sun_m_662_2_alg».proof.Proof.KV.PropBodies
import proofs.«172286_g11278584119306_cont_sun_m_662_2_alg».proof.Proof.SpecRows
import Idealize.ShloMosaic.Lib.Pipeline.Value

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the adjacency block and the output block move with the point, the other
    three operands are whole arrays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The adjacency block at point `t` is rows `400 t …` of the matrix. -/
theorem blk2_0 (c : Dev nD) (t : Fin cfg2.N) (r : Fin 400) (k : Fin 10000) (i : Fin 10000) (hi : i.val = 400 * t.val + r.val) :
    (iblk2 V c 0 t : Vec Ideal S400x10000 .f32) (ix2 r k) = (V c main_arg1 : S10000x10000.Idx → EReal) (ix2 i k) := by
  obtain ⟨e0, e1, -⟩ := idx2 t
  unfold iblk2
  rw [View.read_apply]
  show V c main_arg1 _ = V c main_arg1 _
  congr 1
  funext a
  apply Fin.ext
  match a with
  | ⟨0, _⟩ => show win2_0.index t 0 * 400 + 1 * r.val = i.val; rw [e0, hi]; omega
  | ⟨1, _⟩ => show win2_0.index t 1 * 10000 + 1 * k.val = k.val; rw [e1]; omega

/-- The other operands' blocks are the whole arrays. -/
theorem blk2_1 (c : Dev nD) (t : Fin cfg2.N) : (iblk2 V c 1 t : Vec Ideal S10000x128 .f32) = (V c main_v9 : S10000x128.Idx → EReal) := by
  obtain ⟨-, -, e0, e1, -⟩ := idx2 t
  funext j
  unfold iblk2
  rw [View.read_apply]
  show V c main_v9 _ = V c main_v9 _
  congr 1
  funext a
  apply Fin.ext
  match a with
  | ⟨0, _⟩ => show win2_1.index t 0 * 10000 + 1 * (j 0).val = (j 0).val; rw [e0]; omega
  | ⟨1, _⟩ => show win2_1.index t 1 * 128 + 1 * (j 1).val = (j 1).val; rw [e1]; omega

theorem blk2_2 (c : Dev nD) (t : Fin cfg2.N) : (iblk2 V c 2 t : Vec Ideal S1x128 .f32) = (V c main_v14 : S1x128.Idx → EReal) := by
  obtain ⟨-, -, -, -, e0, e1, -⟩ := idx2 t
  funext j
  unfold iblk2
  rw [View.read_apply]
  show V c main_v14 _ = V c main_v14 _
  congr 1
  funext a
  apply Fin.ext
  match a with
  | ⟨0, _⟩ => show win2_2.index t 0 * 1 + 1 * (j 0).val = (j 0).val; rw [e0]; omega
  | ⟨1, _⟩ => show win2_2.index t 1 * 128 + 1 * (j 1).val = (j 1).val; rw [e1]; omega

theorem blk2_3 (c : Dev nD) (t : Fin cfg2.N) : (iblk2 V c 3 t : Vec Ideal S128x128 .f32) = (V c main_v13 : S128x128.Idx → EReal) := by
  obtain ⟨-, -, -, -, -, -, e0, e1, -⟩ := idx2 t
  funext j
  unfold iblk2
  rw [View.read_apply]
  show V c main_v13 _ = V c main_v13 _
  congr 1
  funext a
  apply Fin.ext
  match a with
  | ⟨0, _⟩ => show win2_3.index t 0 * 128 + 1 * (j 0).val = (j 0).val; rw [e0]; omega
  | ⟨1, _⟩ => show win2_3.index t 1 * 128 + 1 * (j 1).val = (j 1).val; rw [e1]; omega

/-- What the region leaves in its output array, entry by entry. -/
def G2 (c : Dev nD) : S10000x128.Idx → EReal := fun i =>
  mm (layer (mat (a := 10000) (b := 10000) (V c main_arg1)) (mat (a := 10000) (b := 128) (V c main_v9))
      (fun j => (V c main_v14 : S1x128.Idx → EReal) (ix2 0 j))) (mat (a := 128) (b := 128) (V c main_v13)) (i 0) (i 1)

/-- WHAT POINT `t` WRITES BACK is block `t` of `G2`. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S400x10000) hz2, View.ld_unit_zero (S := S10000x128) hz2,
    View.ld_unit_zero (S := S1x128) hz2, View.ld_unit_zero (S := S128x128) hz2]
  obtain ⟨-, -, -, -, -, -, -, -, e0, e1⟩ := idx2 t
  funext j
  obtain ⟨r, cc, rfl⟩ : ∃ (r : Fin 400) (cc : Fin 128), j = ix2 r cc := ⟨j 0, j 1, eq_ix2 j⟩
  rw [View.read_apply]
  have hrow : ((((cfg2.win 4).blk t).view.emb (ix2 r cc) : S10000x128.Idx) 0).val = 400 * t.val + r.val := by
    show win2_4.index t 0 * 400 + 1 * r.val = _; rw [e0]; omega
  have hcol : (((cfg2.win 4).blk t).view.emb (ix2 r cc) : S10000x128.Idx) 1 = cc :=
    Fin.ext (by show win2_4.index t 1 * 128 + 1 * cc.val = _; rw [e1]; omega)
  refine (k2_pay1_apply (iblk2 V c 0 t) (iblk2 V c 1 t) (iblk2 V c 2 t) (iblk2 V c 3 t) r cc).trans ?_
  rw [blk2_1, blk2_2, blk2_3]
  unfold G2
  rw [hcol]
  exact mm_row _ _ _ _ r (fun l => layer_row _ _ _ _ _ r (fun k => blk2_0 V c t r k _ hrow) l) cc

/-- An index of the array is in point `t`'s block iff each coordinate is in the block's range on its axis. -/
theorem mem_blk2 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v15).slice (win2_4.rect t)).set ↔ _
  rw [View.set_slice_whole, Rect.mem_set_unit]
  exact Iff.rfl

/-- THE ARRAY after the region: `G2` (the 25 blocks of 400 rows tile the 10000 rows). -/
theorem final2 (c : Dev nD) : (dat2 V c).arrAt 4 cfg2.N = G2 V c :=
  (dat2 V c).arrAt_eq_of_cover 4 (G2 V c) (fun t _ => flushed2 V c t) fun i => by
    have hi0 : (i 0).val < 10000 := (i 0).isLt
    have hi1 : (i 1).val < 128 := (i 1).isLt
    have hN : cfg2.N = 25 := N_2
    let t : Fin cfg2.N := ⟨(i 0).val / 400, by rw [hN]; omega⟩
    obtain ⟨-, -, -, -, -, -, -, -, e0, e1⟩ := idx2 t
    refine ⟨t, flush2_4 t, ?_⟩
    rw [mem_blk2]
    intro a
    match a with
    | ⟨0, _⟩ => show win2_4.index t 0 * 400 ≤ (i 0).val ∧ (i 0).val < win2_4.index t 0 * 400 + 400; rw [e0]; show (i 0).val / 400 * 400 ≤ _ ∧ _ < (i 0).val / 400 * 400 + 400; omega
    | ⟨1, _⟩ => show win2_4.index t 1 * 128 ≤ (i 1).val ∧ (i 1).val < win2_4.index t 1 * 128 + 128; rw [e1]; omega

end Cert.KernelIdeal.KV

end
-- ==== Proof.KV.Array3.lean ====
/-
  Region 3's output array as ONE function of the arrays the region finds: every grid point stores the block of
  400 rows `normalize (relu (a · y + b)) · w` of its own rows of the adjacency matrix, the blocks tile the
  10000 rows, and each operation acts row by row — so the array ends holding that expression of the whole matrices.
-/
import proofs.«172286_g11278584119306_cont_sun_m_662_2_alg».proof.Proof.KI.Region3
import proofs.«172286_g11278584119306_cont_sun_m_662_2_alg».proof.Proof.KV.PropBodies
import proofs.«172286_g11278584119306_cont_sun_m_662_2_alg».proof.Proof.SpecRows
import Idealize.ShloMosaic.Lib.Pipeline.Value

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the adjacency block and the output block move with the point, the other
    three operands are whole arrays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The adjacency block at point `t` is rows `400 t …` of the matrix. -/
theorem blk3_0 (c : Dev nD) (t : Fin cfg3.N) (r : Fin 400) (k : Fin 10000) (i : Fin 10000) (hi : i.val = 400 * t.val + r.val) :
    (iblk3 V c 0 t : Vec Ideal S400x10000 .f32) (ix2 r k) = (V c main_arg1 : S10000x10000.Idx → EReal) (ix2 i k) := by
  obtain ⟨e0, e1, -⟩ := idx3 t
  unfold iblk3
  rw [View.read_apply]
  show V c main_arg1 _ = V c main_arg1 _
  congr 1
  funext a
  apply Fin.ext
  match a with
  | ⟨0, _⟩ => show win3_0.index t 0 * 400 + 1 * r.val = i.val; rw [e0, hi]; omega
  | ⟨1, _⟩ => show win3_0.index t 1 * 10000 + 1 * k.val = k.val; rw [e1]; omega

/-- The other operands' blocks are the whole arrays. -/
theorem blk3_1 (c : Dev nD) (t : Fin cfg3.N) : (iblk3 V c 1 t : Vec Ideal S10000x128 .f32) = (V c main_v15 : S10000x128.Idx → EReal) := by
  obtain ⟨-, -, e0, e1, -⟩ := idx3 t
  funext j
  unfold iblk3
  rw [View.read_apply]
  show V c main_v15 _ = V c main_v15 _
  congr 1
  funext a
  apply Fin.ext
  match a with
  | ⟨0, _⟩ => show win3_1.index t 0 * 10000 + 1 * (j 0).val = (j 0).val; rw [e0]; omega
  | ⟨1, _⟩ => show win3_1.index t 1 * 128 + 1 * (j 1).val = (j 1).val; rw [e1]; omega

theorem blk3_2 (c : Dev nD) (t : Fin cfg3.N) : (iblk3 V c 2 t : Vec Ideal S1x128 .f32) = (V c main_v20 : S1x128.Idx → EReal) := by
  obtain ⟨-, -, -, -, e0, e1, -⟩ := idx3 t
  funext j
  unfold iblk3
  rw [View.read_apply]
  show V c main_v20 _ = V c main_v20 _
  congr 1
  funext a
  apply Fin.ext
  match a with
  | ⟨0, _⟩ => show win3_2.index t 0 * 1 + 1 * (j 0).val = (j 0).val; rw [e0]; omega
  | ⟨1, _⟩ => show win3_2.index t 1 * 128 + 1 * (j 1).val = (j 1).val; rw [e1]; omega

theorem blk3_3 (c : Dev nD) (t : Fin cfg3.N) : (iblk3 V c 3 t : Vec Ideal S128x128 .f32) = (V c main_v19 : S128x128.Idx → EReal) := by
  obtain ⟨-, -, -, -, -, -, e0, e1, -⟩ := idx3 t
  funext j
  unfold iblk3
  rw [View.read_apply]
  show V c main_v19 _ = V c main_v19 _
  congr 1
  funext a
  apply Fin.ext
  match a with
  | ⟨0, _⟩ => show win3_3.index t 0 * 128 + 1 * (j 0).val = (j 0).val; rw [e0]; omega
  | ⟨1, _⟩ => show win3_3.index t 1 * 128 + 1 * (j 1).val = (j 1).val; rw [e1]; omega

/-- What the region leaves in its output array, entry by entry. -/
def G3 (c : Dev nD) : S10000x128.Idx → EReal := fun i =>
  mm (layer (mat (a := 10000) (b := 10000) (V c main_arg1)) (mat (a := 10000) (b := 128) (V c main_v15))
      (fun j => (V c main_v20 : S1x128.Idx → EReal) (ix2 0 j))) (mat (a := 128) (b := 128) (V c main_v19)) (i 0) (i 1)

/-- WHAT POINT `t` WRITES BACK is block `t` of `G3`. -/
theorem flushed3 (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz3]
  simp only [View.ld_unit_zero (S := S400x10000) hz3, View.ld_unit_zero (S := S10000x128) hz3,
    View.ld_unit_zero (S := S1x128) hz3, View.ld_unit_zero (S := S128x128) hz3]
  obtain ⟨-, -, -, -, -, -, -, -, e0, e1⟩ := idx3 t
  funext j
  obtain ⟨r, cc, rfl⟩ : ∃ (r : Fin 400) (cc : Fin 128), j = ix2 r cc := ⟨j 0, j 1, eq_ix2 j⟩
  rw [View.read_apply]
  have hrow : ((((cfg3.win 4).blk t).view.emb (ix2 r cc) : S10000x128.Idx) 0).val = 400 * t.val + r.val := by
    show win3_4.index t 0 * 400 + 1 * r.val = _; rw [e0]; omega
  have hcol : (((cfg3.win 4).blk t).view.emb (ix2 r cc) : S10000x128.Idx) 1 = cc :=
    Fin.ext (by show win3_4.index t 1 * 128 + 1 * cc.val = _; rw [e1]; omega)
  refine (k3_pay1_apply (iblk3 V c 0 t) (iblk3 V c 1 t) (iblk3 V c 2 t) (iblk3 V c 3 t) r cc).trans ?_
  rw [blk3_1, blk3_2, blk3_3]
  unfold G3
  rw [hcol]
  exact mm_row _ _ _ _ r (fun l => layer_row _ _ _ _ _ r (fun k => blk3_0 V c t r k _ hrow) l) cc

/-- An index of the array is in point `t`'s block iff each coordinate is in the block's range on its axis. -/
theorem mem_blk3 (t : Fin cfg3.N) (i : S10000x128.Idx) :
    i ∈ ((cfg3.win 4).blk t).view.set ↔ ∀ a : Fin 2, win3_4.index t a * S400x128.size a ≤ (i a).val ∧ (i a).val < win3_4.index t a * S400x128.size a + S400x128.size a := by
  show i ∈ ((View.whole main_v21).slice (win3_4.rect t)).set ↔ _
  rw [View.set_slice_whole, Rect.mem_set_unit]
  exact Iff.rfl

/-- THE ARRAY after the region: `G3` (the 25 blocks of 400 rows tile the 10000 rows). -/
theorem final3 (c : Dev nD) : (dat3 V c).arrAt 4 cfg3.N = G3 V c :=
  (dat3 V c).arrAt_eq_of_cover 4 (G3 V c) (fun t _ => flushed3 V c t) fun i => by
    have hi0 : (i 0).val < 10000 := (i 0).isLt
    have hi1 : (i 1).val < 128 := (i 1).isLt
    have hN : cfg3.N = 25 := N_3
    let t : Fin cfg3.N := ⟨(i 0).val / 400, by rw [hN]; omega⟩
    obtain ⟨-, -, -, -, -, -, -, -, e0, e1⟩ := idx3 t
    refine ⟨t, flush3_4 t, ?_⟩
    rw [mem_blk3]
    intro a
    match a with
    | ⟨0, _⟩ => show win3_4.index t 0 * 400 ≤ (i 0).val ∧ (i 0).val < win3_4.index t 0 * 400 + 400; rw [e0]; show (i 0).val / 400 * 400 ≤ _ ∧ _ < (i 0).val / 400 * 400 + 400; omega
    | ⟨1, _⟩ => show win3_4.index t 1 * 128 ≤ (i 1).val ∧ (i 1).val < win3_4.index t 1 * 128 + 128; rw [e1]; omega

end Cert.KernelIdeal.KV

end
-- ==== Proof.KV.Array4.lean ====
/-
  Region 4's two output arrays as functions of the arrays the region finds: every grid point stores, for its own 400
  rows of the adjacency matrix, the normalised features `normalize (relu (a · y + b))` and their product with the
  five weight matrices laid side by side; the blocks tile the 10000 rows and each operation acts row by row.
-/
import proofs.«172286_g11278584119306_cont_sun_m_662_2_alg».proof.Proof.KI.Region4
import proofs.«172286_g11278584119306_cont_sun_m_662_2_alg».proof.Proof.KV.PropBodies
import proofs.«172286_g11278584119306_cont_sun_m_662_2_alg».proof.Proof.SpecRows
import Idealize.ShloMosaic.Lib.Pipeline.Value

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the adjacency block and the output block move with the point, the other
    three operands are whole arrays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The adjacency block at point `t` is rows `400 t …` of the matrix. -/
theorem blk4_0 (c : Dev nD) (t : Fin cfg4.N) (r : Fin 400) (k : Fin 10000) (i : Fin 10000) (hi : i.val = 400 * t.val + r.val) :
    (iblk4 V c 0 t : Vec Ideal S400x10000 .f32) (ix2 r k) = (V c main_arg1 : S10000x10000.Idx → EReal) (ix2 i k) := by
  obtain ⟨e0, e1, -⟩ := idx4 t
  unfold iblk4
  rw [View.read_apply]
  show V c main_arg1 _ = V c main_arg1 _
  congr 1
  funext a
  apply Fin.ext
  match a with
  | ⟨0, _⟩ => show win4_0.index t 0 * 400 + 1 * r.val = i.val; rw [e0, hi]; omega
  | ⟨1, _⟩ => show win4_0.index t 1 * 10000 + 1 * k.val = k.val; rw [e1]; omega

/-- The other operands' blocks are the whole arrays. -/
theorem blk4_1 (c : Dev nD) (t : Fin cfg4.N) : (iblk4 V c 1 t : Vec Ideal S10000x128 .f32) = (V c main_v21 : S10000x128.Idx → EReal) := by
  obtain ⟨-, -, e0, e1, -⟩ := idx4 t
  funext j
  unfold iblk4
  rw [View.read_apply]
  show V c main_v21 _ = V c main_v21 _
  congr 1
  funext a
  apply Fin.ext
  match a with
  | ⟨0, _⟩ => show win4_1.index t 0 * 10000 + 1 * (j 0).val = (j 0).val; rw [e0]; omega
  | ⟨1, _⟩ => show win4_1.index t 1 * 128 + 1 * (j 1).val = (j 1).val; rw [e1]; omega

theorem blk4_2 (c : Dev nD) (t : Fin cfg4.N) : (iblk4 V c 2 t : Vec Ideal S1x128 .f32) = (V c main_v33 : S1x128.Idx → EReal) := by
  obtain ⟨-, -, -, -, e0, e1, -⟩ := idx4 t
  funext j
  unfold iblk4
  rw [View.read_apply]
  show V c main_v33 _ = V c main_v33 _
  congr 1
  funext a
  apply Fin.ext
  match a with
  | ⟨0, _⟩ => show win4_2.index t 0 * 1 + 1 * (j 0).val = (j 0).val; rw [e0]; omega
  | ⟨1, _⟩ => show win4_2.index t 1 * 128 + 1 * (j 1).val = (j 1).val; rw [e1]; omega

theorem blk4_3 (c : Dev nD) (t : Fin cfg4.N) : (iblk4 V c 3 t : Vec Ideal S128x640 .f32) = (V c main_v30 : S128x640.Idx → EReal) := by
  obtain ⟨-, -, -, -, -, -, e0, e1, -⟩ := idx4 t
  funext j
  unfold iblk4
  rw [View.read_apply]
  show V c main_v30 _ = V c main_v30 _
  congr 1
  funext a
  apply Fin.ext
  match a with
  | ⟨0, _⟩ => show win4_3.index t 0 * 128 + 1 * (j 0).val = (j 0).val; rw [e0]; omega
  | ⟨1, _⟩ => show win4_3.index t 1 * 640 + 1 * (j 1).val = (j 1).val; rw [e1]; omega

/-- What the region leaves in its first output array: the normalised features, entry by entry. -/
def G4 (c : Dev nD) : S10000x128.Idx → EReal := fun i =>
  layer (mat (a := 10000) (b := 10000) (V c main_arg1)) (mat (a := 10000) (b := 128) (V c main_v21))
      (fun j => (V c main_v33 : S1x128.Idx → EReal) (ix2 0 j)) (i 0) (i 1)

/-- … and in its second: those features times the five weight matrices laid side by side. -/
def G4c (c : Dev nD) : S10000x640.Idx → EReal := fun i =>
  mm (layer (mat (a := 10000) (b := 10000) (V c main_arg1)) (mat (a := 10000) (b := 128) (V c main_v21))
      (fun j => (V c main_v33 : S1x128.Idx → EReal) (ix2 0 j))) (mat (a := 128) (b := 640) (V c main_v30)) (i 0) (i 1)

/-- WHAT POINT `t` WRITES BACK to the first output is block `t` of `G4`. -/
theorem flushed4 (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz4]
  simp only [View.ld_unit_zero (S := S400x10000) hz4, View.ld_unit_zero (S := S10000x128) hz4,
    View.ld_unit_zero (S := S1x128) hz4]
  obtain ⟨-, -, -, -, -, -, -, -, e0, e1, -⟩ := idx4 t
  funext j
  obtain ⟨r, cc, rfl⟩ : ∃ (r : Fin 400) (cc : Fin 128), j = ix2 r cc := ⟨j 0, j 1, eq_ix2 j⟩
  rw [View.read_apply]
  have hrow : ((((cfg4.win 4).blk t).view.emb (ix2 r cc) : S10000x128.Idx) 0).val = 400 * t.val + r.val := by
    show win4_4.index t 0 * 400 + 1 * r.val = _; rw [e0]; omega
  have hcol : (((cfg4.win 4).blk t).view.emb (ix2 r cc) : S10000x128.Idx) 1 = cc :=
    Fin.ext (by show win4_4.index t 1 * 128 + 1 * cc.val = _; rw [e1]; omega)
  refine (k4_pay1_apply (iblk4 V c 0 t) (iblk4 V c 1 t) (iblk4 V c 2 t) r cc).trans ?_
  rw [blk4_1, blk4_2]
  unfold G4
  rw [hcol]
  exact layer_row _ _ _ _ _ r (fun k => blk4_0 V c t r k _ hrow) cc

/-- WHAT POINT `t` WRITES BACK to the second output is block `t` of `G4c`. -/
theorem flushed4c (c : Dev nD) (t : Fin cfg4.N) :
    (dat4 V c).flushed 5 t = ((cfg4.win 5).blk t).view.read (Elt Ideal) (G4c V c) := by
  show (cfg4.win 5).cut (grid4.coords t) ((dat4 V c).after 5 t) = _
  rw [after4_5]
  unfold out4_5
  rw [View.canon_unit_zero hz4]
  simp only [View.ld_unit_zero (S := S400x10000) hz4, View.ld_unit_zero (S := S10000x128) hz4,
    View.ld_unit_zero (S := S1x128) hz4, View.ld_unit_zero (S := S128x640) hz4]
  obtain ⟨-, -, -, -, -, -, -, -, -, -, e0, e1⟩ := idx4 t
  funext j
  obtain ⟨r, cc, rfl⟩ : ∃ (r : Fin 400) (cc : Fin 640), j = ix2 r cc := ⟨j 0, j 1, eq_ix2 j⟩
  rw [View.read_apply]
  have hrow : ((((cfg4.win 5).blk t).view.emb (ix2 r cc) : S10000x640.Idx) 0).val = 400 * t.val + r.val := by
    show win4_5.index t 0 * 400 + 1 * r.val = _; rw [e0]; omega
  have hcol : (((cfg4.win 5).blk t).view.emb (ix2 r cc) : S10000x640.Idx) 1 = cc :=
    Fin.ext (by show win4_5.index t 1 * 640 + 1 * cc.val = _; rw [e1]; omega)
  refine (k4_pay2_apply (iblk4 V c 0 t) (iblk4 V c 1 t) (iblk4 V c 2 t) (iblk4 V c 3 t) r cc).trans ?_
  rw [blk4_1, blk4_2, blk4_3]
  unfold G4c
  rw [hcol]
  exact mm_row _ _ _ _ r (fun l => layer_row _ _ _ _ _ r (fun k => blk4_0 V c t r k _ hrow) l) cc

theorem mem_blk4 (t : Fin cfg4.N) (i : S10000x128.Idx) :
    i ∈ ((cfg4.win 4).blk t).view.set ↔ ∀ a : Fin 2, win4_4.index t a * S400x128.size a ≤ (i a).val ∧ (i a).val < win4_4.index t a * S400x128.size a + S400x128.size a := by
  show i ∈ ((View.whole main_v34_0).slice (win4_4.rect t)).set ↔ _
  rw [View.set_slice_whole, Rect.mem_set_unit]
  exact Iff.rfl

theorem mem_blk4c (t : Fin cfg4.N) (i : S10000x640.Idx) :
    i ∈ ((cfg4.win 5).blk t).view.set ↔ ∀ a : Fin 2, win4_5.index t a * S400x640.size a ≤ (i a).val ∧ (i a).val < win4_5.index t a * S400x640.size a + S400x640.size a := by
  show i ∈ ((View.whole main_v34_1).slice (win4_5.rect t)).set ↔ _
  rw [View.set_slice_whole, Rect.mem_set_unit]
  exact Iff.rfl

/-- THE FIRST ARRAY after the region: `G4`. -/
theorem final4 (c : Dev nD) : (dat4 V c).arrAt 4 cfg4.N = G4 V c :=
  (dat4 V c).arrAt_eq_of_cover 4 (G4 V c) (fun t _ => flushed4 V c t) fun i => by
    have hi0 : (i 0).val < 10000 := (i 0).isLt
    have hi1 : (i 1).val < 128 := (i 1).isLt
    have hN : cfg4.N = 25 := N_4
    let t : Fin cfg4.N := ⟨(i 0).val / 400, by rw [hN]; omega⟩
    obtain ⟨-, -, -, -, -, -, -, -, e0, e1, -⟩ := idx4 t
    refine ⟨t, flush4_4 t, ?_⟩
    rw [mem_blk4]
    intro a
    match a with
    | ⟨0, _⟩ => show win4_4.index t 0 * 400 ≤ (i 0).val ∧ (i 0).val < win4_4.index t 0 * 400 + 400; rw [e0]; show (i 0).val / 400 * 400 ≤ _ ∧ _ < (i 0).val / 400 * 400 + 400; omega
    | ⟨1, _⟩ => show win4_4.index t 1 * 128 ≤ (i 1).val ∧ (i 1).val < win4_4.index t 1 * 128 + 128; rw [e1]; omega

/-- THE SECOND ARRAY after the region: `G4c`. -/
theorem final4c (c : Dev nD) : (dat4 V c).arrAt 5 cfg4.N = G4c V c :=
  (dat4 V c).arrAt_eq_of_cover 5 (G4c V c) (fun t _ => flushed4c V c t) fun i => by
    have hi0 : (i 0).val < 10000 := (i 0).isLt
    have hi1 : (i 1).val < 640 := (i 1).isLt
    have hN : cfg4.N = 25 := N_4
    let t : Fin cfg4.N := ⟨(i 0).val / 400, by rw [hN]; omega⟩
    obtain ⟨-, -, -, -, -, -, -, -, -, -, e0, e1⟩ := idx4 t
    refine ⟨t, flush4_5 t, ?_⟩
    rw [mem_blk4c]
    intro a
    match a with
    | ⟨0, _⟩ => show win4_5.index t 0 * 400 ≤ (i 0).val ∧ (i 0).val < win4_5.index t 0 * 400 + 400; rw [e0]; show (i 0).val / 400 * 400 ≤ _ ∧ _ < (i 0).val / 400 * 400 + 400; omega
    | ⟨1, _⟩ => show win4_5.index t 1 * 640 ≤ (i 1).val ∧ (i 1).val < win4_5.index t 1 * 640 + 640; rw [e1]; omega

end Cert.KernelIdeal.KV

end
-- ==== Proof.KV.ScoreBody.lean ====
/-
  The score kernel's stored column, read at one entry.  With `a` a block of 400 rows of the adjacency matrix,
  `yc` the features already multiplied by five weight matrices laid side by side, `bc` the five bias rows laid
  side by side and `x` the block's own features, the entry stored for a row is the last (linear) layer applied
  to the sum of six hidden activations — of `x`, of the first four slices of `relu (a · yc + bc)` each
  normalised row by row, and of the fifth slice rectified only — plus six times the last bias.
-/
import proofs.«172286_g11278584119306_cont_sun_m_662_2_alg».proof.Proof.Gen.KernelIdeal.Skeleton
import proofs.«172286_g11278584119306_cont_sun_m_662_2_alg».proof.Proof.KV.Dot
import proofs.«172286_g11278584119306_cont_sun_m_662_2_alg».proof.Proof.KV.RowOps

noncomputable section

open scoped BigOperators

namespace Cert.KernelIdeal.KV

open Cert.KernelIdeal Cert.KernelIdeal.Facts₀ Cert.KernelIdeal.Facts Idealize.ShloMosaic Idealize.ShloMosaic.ValueIdx Cert.GraphScore

/-- The pre-activations `a · yc + bc` of a block of 400 rows, entry by entry. -/
def zOf (a : Vec Ideal S400x10000 .f32) (yc : Vec Ideal S10000x640 .f32) (bc : Vec Ideal S1x640 .f32) : Fin 400 → Fin 640 → EReal :=
  fun r c => (∑ k : Fin 10000, a (ix2 r k) * yc (ix2 k c)) + bc (ix2 0 c)

/-- Its k-th slice of 128 columns, rectified. -/
def zk (z : Fin 400 → Fin 640 → EReal) (k : Fin 5) : Fin 400 → Fin 128 → EReal :=
  fun r j => relu (z r ⟨128 * k.val + j.val, by omega⟩)

/-- The pre-activations as a vector: the product into a zero accumulator, plus the bias row on every row. -/
def zVec (a : FVec Ideal S400x10000 .f32) (yc : FVec Ideal S10000x640 .f32) (bc : FVec Ideal S1x640 .f32) : FVec Ideal S400x640 .f32 :=
  addf (matmul dot_S400x10000_S10000x640_S400x640_1_0_0_1_n_n none a yc (constant S400x640 .f32 0x00000000#32))
    (broadcastTo S400x640 bc broadcasts_S1x640_S400x640)

theorem zVec_apply (a : FVec Ideal S400x10000 .f32) (yc : FVec Ideal S10000x640 .f32) (bc : FVec Ideal S1x640 .f32)
    (r : Fin 400) (c : Fin 640) : zVec a yc bc (ix2 r c) = zOf a yc bc r c := by
  unfold zVec zOf
  rw [addf_apply, matmul_400x10000x640]
  refine congrArg (_ + ·) ?_
  refine broadcastTo_apply bc broadcasts_S1x640_S400x640 (ix2 r c) (ix2 0 c) fun ax => ?_
  match ax with
  | ⟨0, _⟩ => rfl
  | ⟨1, _⟩ => rfl

/-- The 128 columns from column `o` on, rectified. -/
def sliceRelu (o : ℕ) (z : FVec Ideal S400x640 .f32) (h : S400x640.Slices ![0, o] S400x128) : FVec Ideal S400x128 .f32 :=
  reluVec (extractStridedSlice S400x128 ![0, o] z h)

theorem sliceRelu_apply (o : ℕ) (z : FVec Ideal S400x640 .f32) (h : S400x640.Slices ![0, o] S400x128)
    (r : Fin 400) (j : Fin 128) (k : Fin 640) (hk : k.val = o + j.val) :
    sliceRelu o z h (ix2 r j) = relu (z (ix2 r k)) := by
  unfold sliceRelu
  rw [reluVec_apply]
  exact congrArg relu (slice2_axis1_apply o z h r j k hk)

/-- The slice at column `128 k` of the pre-activations is their k-th rectified slice. -/
theorem sliceRelu_zVec (o : ℕ) (k : Fin 5) (ho : o = 128 * k.val) (a : FVec Ideal S400x10000 .f32)
    (yc : FVec Ideal S10000x640 .f32) (bc : FVec Ideal S1x640 .f32) (h : S400x640.Slices ![0, o] S400x128)
    (r : Fin 400) (j : Fin 128) : sliceRelu o (zVec a yc bc) h (ix2 r j) = zk (zOf a yc bc) k r j := by
  subst ho
  unfold zk
  rw [sliceRelu_apply _ _ h r j ⟨128 * k.val + j.val, by omega⟩ rfl, zVec_apply]

/-- Normalising a block whose entries are those of a matrix normalises the matrix. -/
theorem normVec_congr (v : FVec Ideal S400x128 .f32) (V : Fin 400 → Fin 128 → EReal) (e : ∀ r j, v (ix2 r j) = V r j)
    (r : Fin 400) (j : Fin 128) : normVec v (ix2 r j) = GraphScore.normalize V r j := by
  rw [normVec_apply]
  exact congrFun (congrFun (congrArg GraphScore.normalize (funext fun r => funext fun j => e r j)) r) j

/-- The perceptron's hidden layer `relu (h · w + b)` on a block, as a vector. -/
def hiddenVec (h : FVec Ideal S400x128 .f32) (w : FVec Ideal S128x128 .f32) (b : FVec Ideal S1x128 .f32) : FVec Ideal S400x128 .f32 :=
  reluVec (addRow (matmul dot_S400x128_S128x128_S400x128_1_0_0_1_n_n none h w (constant S400x128 .f32 0x00000000#32)) b)

theorem hiddenVec_apply (h : FVec Ideal S400x128 .f32) (w : FVec Ideal S128x128 .f32) (b : FVec Ideal S1x128 .f32)
    (H : Fin 400 → Fin 128 → EReal) (e : ∀ r j, h (ix2 r j) = H r j) (r : Fin 400) (j : Fin 128) :
    hiddenVec h w b (ix2 r j) = hidden H (mat w) (fun j => b (ix2 0 j)) r j := by
  unfold hiddenVec GraphScore.hidden mm
  rw [reluVec_apply, addRow_apply, matmul_400x128x128]
  refine congrArg (fun t => relu (t + b (ix2 0 j))) ?_
  exact Finset.sum_congr rfl fun l _ => congrArg (· * w (ix2 l j)) (e r l)

/-- The stored column at row `r`. -/
theorem score_payload_apply (a : Vec Ideal S400x10000 .f32) (yc : Vec Ideal S10000x640 .f32) (x : Vec Ideal S400x128 .f32) (bc : Vec Ideal S1x640 .f32)
    (wm1 : Vec Ideal S128x128 .f32) (bm1 : Vec Ideal S1x128 .f32) (wm2 : Vec Ideal S128x1 .f32) (bm2 : Vec Ideal S1x1 .f32) (r : Fin 400) :
    Gen.k5_pay1 (Gen.k5_pay2 a yc bc) wm1 (Gen.k5_pay3 bm1)
        (Gen.k5_pay6 (Gen.k5_pay2 a yc bc) wm1 (Gen.k5_pay3 bm1) (Gen.k5_pay4 a yc bc wm1 bm1 x) (Gen.k5_pay5 a yc bc))
        (Gen.k5_pay7 (Gen.k5_pay2 a yc bc) wm1 (Gen.k5_pay3 bm1)) (Gen.k5_pay8 (F := Ideal)) wm2 bm2 (ix2 r 0)
      = (∑ j : Fin 128,
          (((((hidden (mat x) (mat wm1) (fun j => bm1 (ix2 0 j)) r j
              + hidden (GraphScore.normalize (zk (zOf a yc bc) 0)) (mat wm1) (fun j => bm1 (ix2 0 j)) r j)
              + hidden (GraphScore.normalize (zk (zOf a yc bc) 1)) (mat wm1) (fun j => bm1 (ix2 0 j)) r j)
              + hidden (GraphScore.normalize (zk (zOf a yc bc) 2)) (mat wm1) (fun j => bm1 (ix2 0 j)) r j)
              + hidden (GraphScore.normalize (zk (zOf a yc bc) 3)) (mat wm1) (fun j => bm1 (ix2 0 j)) r j)
              + hidden (zk (zOf a yc bc) 4) (mat wm1) (fun j => bm1 (ix2 0 j)) r j) * wm2 (ix2 j 0))
        + six * bm2 (ix2 0 0) := by
  -- the payload is the last product of the six hidden layers added in order, plus the broadcast of six times the bias
  have e : Gen.k5_pay1 (Gen.k5_pay2 a yc bc) wm1 (Gen.k5_pay3 bm1)
        (Gen.k5_pay6 (Gen.k5_pay2 a yc bc) wm1 (Gen.k5_pay3 bm1) (Gen.k5_pay4 a yc bc wm1 bm1 x) (Gen.k5_pay5 a yc bc))
        (Gen.k5_pay7 (Gen.k5_pay2 a yc bc) wm1 (Gen.k5_pay3 bm1)) (Gen.k5_pay8 (F := Ideal)) wm2 bm2
      = addf (matmul dot_S400x128_S128x1_S400x1_1_0_0_1_n_n none
          (addf (addf (addf (addf (addf
            (hiddenVec (shapeCast S400x128 x shapeCasts_S400x128_S400x128) wm1 (shapeCast S1x128 bm1 shapeCasts_S1x128_S1x128))
            (hiddenVec (normVec (sliceRelu 0 (zVec a (shapeCast S10000x640 yc shapeCasts_S10000x640_S10000x640) (shapeCast S1x640 bc shapeCasts_S1x640_S1x640)) slices_S400x640_o0_0_S400x128)) wm1 (shapeCast S1x128 bm1 shapeCasts_S1x128_S1x128)))
            (hiddenVec (normVec (sliceRelu 128 (zVec a (shapeCast S10000x640 yc shapeCasts_S10000x640_S10000x640) (shapeCast S1x640 bc shapeCasts_S1x640_S1x640)) slices_S400x640_o0_128_S400x128)) wm1 (shapeCast S1x128 bm1 shapeCasts_S1x128_S1x128)))
            (hiddenVec (normVec (sliceRelu 256 (zVec a (shapeCast S10000x640 yc shapeCasts_S10000x640_S10000x640) (shapeCast S1x640 bc shapeCasts_S1x640_S1x640)) slices_S400x640_o0_256_S400x128)) wm1 (shapeCast S1x128 bm1 shapeCasts_S1x128_S1x128)))
            (hiddenVec (normVec (sliceRelu 384 (zVec a (shapeCast S10000x640 yc shapeCasts_S10000x640_S10000x640) (shapeCast S1x640 bc shapeCasts_S1x640_S1x640)) slices_S400x640_o0_384_S400x128)) wm1 (shapeCast S1x128 bm1 shapeCasts_S1x128_S1x128)))
            (hiddenVec (sliceRelu 512 (zVec a (shapeCast S10000x640 yc shapeCasts_S10000x640_S10000x640) (shapeCast S1x640 bc shapeCasts_S1x640_S1x640)) slices_S400x640_o0_512_S400x128) wm1 (shapeCast S1x128 bm1 shapeCasts_S1x128_S1x128)))
          wm2 (constant S400x1 .f32 0x00000000#32))
        (broadcastTo S400x1 (mulf (broadcast S1x1 (Scalar.ofBits .f32 0x40C00000#32)) (shapeCast S1x1 bm2 shapeCasts_S1x1_S1x1)) broadcasts_S1x1_S400x1) := rfl
  rw [e]
  simp only [shapeCast_self]
  rw [addf_apply, matmul_400x128x1]
  refine congrArg₂ (· + ·) ?_ ?_
  · refine Finset.sum_congr rfl fun j _ => congrArg (· * wm2 (ix2 j 0)) ?_
    rw [addf_apply, addf_apply, addf_apply, addf_apply, addf_apply]
    refine congrArg₂ (· + ·) (congrArg₂ (· + ·) (congrArg₂ (· + ·) (congrArg₂ (· + ·) (congrArg₂ (· + ·) ?_ ?_) ?_) ?_) ?_) ?_
    · exact hiddenVec_apply x wm1 bm1 (mat x) (fun _ _ => rfl) r j
    · exact hiddenVec_apply _ wm1 bm1 _ (fun r j => normVec_congr _ _ (fun r j => sliceRelu_zVec 0 0 rfl a yc bc _ r j) r j) r j
    · exact hiddenVec_apply _ wm1 bm1 _ (fun r j => normVec_congr _ _ (fun r j => sliceRelu_zVec 128 1 rfl a yc bc _ r j) r j) r j
    · exact hiddenVec_apply _ wm1 bm1 _ (fun r j => normVec_congr _ _ (fun r j => sliceRelu_zVec 256 2 rfl a yc bc _ r j) r j) r j
    · exact hiddenVec_apply _ wm1 bm1 _ (fun r j => normVec_congr _ _ (fun r j => sliceRelu_zVec 384 3 rfl a yc bc _ r j) r j) r j
    · exact hiddenVec_apply _ wm1 bm1 _ (fun r j => sliceRelu_zVec 512 4 rfl a yc bc _ r j) r j
  · refine (broadcastTo_apply _ broadcasts_S1x1_S400x1 (ix2 r 0) (ix2 0 0) fun ax => ?_).trans ?_
    · match ax with
      | ⟨0, _⟩ => rfl
      | ⟨1, _⟩ => rfl
    · unfold six
      rfl

end Cert.KernelIdeal.KV

end
-- ==== Proof.SpecFused.lean ====
/-
  The fused score of one row, over any number of rows: from the row's features `x` and its 640 pre-activations
  `z = adj · yc + bc` (five slices of 128 columns: four to be rectified and normalised, the last rectified
  only), the six hidden activations summed, one last layer, six times the bias.  It acts row by row, and with
  `yc` the features times the five weight matrices side by side it is the specification's `scoreFused`.
-/
import proofs.«172286_g11278584119306_cont_sun_m_662_2_alg».proof.Proof.SpecRows

noncomputable section

open scoped BigOperators

namespace Cert.GraphScore

/-- The pre-activations `adj · yc + bc`. -/
def zMat {a : ℕ} (adj : Fin a → Fin 10000 → EReal) (yc : Fin 10000 → Fin 640 → EReal) (bc : Fin 640 → EReal) :
    Fin a → Fin 640 → EReal :=
  fun r c => (∑ k : Fin 10000, adj r k * yc k c) + bc c

/-- Slice `k` of 128 columns, rectified. -/
def zSlice {a : ℕ} (z : Fin a → Fin 640 → EReal) (k : Fin 5) : Fin a → Fin 128 → EReal :=
  fun r j => relu (z r ⟨128 * k.val + j.val, by omega⟩)

/-- The fused score of row `r`. -/
def fusedRow {a : ℕ} (x : Fin a → Fin 128 → EReal) (z : Fin a → Fin 640 → EReal) (wm1 : Fin 128 → Fin 128 → EReal)
    (bm1 : Fin 128 → EReal) (wm2 : Fin 128 → EReal) (bm2 : EReal) (r : Fin a) : EReal :=
  (∑ j : Fin 128,
      (((((hidden x wm1 bm1 r j
          + hidden (normalize (zSlice z 0)) wm1 bm1 r j)
          + hidden (normalize (zSlice z 1)) wm1 bm1 r j)
          + hidden (normalize (zSlice z 2)) wm1 bm1 r j)
          + hidden (normalize (zSlice z 3)) wm1 bm1 r j)
          + hidden (zSlice z 4) wm1 bm1 r j) * wm2 j)
    + six * bm2

theorem zMat_row {a a' : ℕ} (adj : Fin a → Fin 10000 → EReal) (adj' : Fin a' → Fin 10000 → EReal)
    (yc : Fin 10000 → Fin 640 → EReal) (bc : Fin 640 → EReal) (i : Fin a) (r : Fin a') (h : ∀ k, adj' r k = adj i k)
    (c : Fin 640) : zMat adj' yc bc r c = zMat adj yc bc i c := by
  unfold zMat; simp only [h]

theorem zSlice_row {a a' : ℕ} (z : Fin a → Fin 640 → EReal) (z' : Fin a' → Fin 640 → EReal) (i : Fin a) (r : Fin a')
    (h : ∀ c, z' r c = z i c) (k : Fin 5) (j : Fin 128) : zSlice z' k r j = zSlice z k i j := by
  unfold zSlice; rw [h]

/-- The fused score acts row by row. -/
theorem fusedRow_row {a a' : ℕ} (x : Fin a → Fin 128 → EReal) (x' : Fin a' → Fin 128 → EReal) (z : Fin a → Fin 640 → EReal)
    (z' : Fin a' → Fin 640 → EReal) (wm1 : Fin 128 → Fin 128 → EReal) (bm1 : Fin 128 → EReal) (wm2 : Fin 128 → EReal)
    (bm2 : EReal) (i : Fin a) (r : Fin a') (hx : ∀ l, x' r l = x i l) (hz : ∀ c, z' r c = z i c) :
    fusedRow x' z' wm1 bm1 wm2 bm2 r = fusedRow x z wm1 bm1 wm2 bm2 i := by
  unfold fusedRow
  have hs : ∀ k : Fin 5, ∀ l, zSlice z' k r l = zSlice z k i l := fun k l => zSlice_row z z' i r hz k l
  have hn : ∀ k : Fin 5, ∀ l, normalize (zSlice z' k) r l = normalize (zSlice z k) i l :=
    fun k l => normalize_row _ _ i r (hs k) l
  refine congrArg (· + six * bm2) (Finset.sum_congr rfl fun j _ => ?_)
  rw [hidden_row x x' wm1 bm1 i r hx j, hidden_row _ _ wm1 bm1 i r (hn 0) j, hidden_row _ _ wm1 bm1 i r (hn 1) j,
    hidden_row _ _ wm1 bm1 i r (hn 2) j, hidden_row _ _ wm1 bm1 i r (hn 3) j, hidden_row _ _ wm1 bm1 i r (hs 4) j]

variable (A : Args)

/-- With the features times the five weight matrices side by side (`wc`, `bc`: column `128 k + j` is column `j` of
    matrix `k`, the last one `Wl`), the fused score of a row is the specification's. -/
theorem fusedRow_eq_scoreFused (wc : Fin 128 → Fin 640 → EReal) (bc : Fin 640 → EReal)
    (hw : ∀ (k : Fin 4) (l j : Fin 128), wc l ⟨128 * k.val + j.val, by omega⟩ = A.Ws k l j)
    (hwl : ∀ (l j : Fin 128), wc l ⟨512 + j.val, by omega⟩ = A.Wl l j)
    (hb : ∀ (k : Fin 4) (j : Fin 128), bc ⟨128 * k.val + j.val, by omega⟩ = A.bs k j)
    (hbl : ∀ (j : Fin 128), bc ⟨512 + j.val, by omega⟩ = A.bl j) (i : Fin 10000) :
    fusedRow (feat A) (zMat A.adj2 (mm (feat A) wc) bc) A.Wm1 A.bm1 (fun j => A.Wm2 j 0) (A.bm2 0) i = scoreFused A i := by
  have hk : ∀ k : Fin 4, zSlice (zMat A.adj2 (mm (feat A) wc) bc) ⟨k.val, by omega⟩ = act A.adj2 (mm (feat A) (A.Ws k)) (A.bs k) := by
    intro k
    funext r j
    unfold zSlice zMat act mm
    simp only [hw k, hb k]
  have hl : zSlice (zMat A.adj2 (mm (feat A) wc) bc) 4 = last A := by
    funext r j
    unfold zSlice zMat last act mm
    have e1 : ∀ l, wc l ⟨128 * (4 : Fin 5).val + j.val, by omega⟩ = A.Wl l j := fun l => hwl l j
    have e2 : bc ⟨128 * (4 : Fin 5).val + j.val, by omega⟩ = A.bl j := hbl j
    simp only [e1, e2]
  unfold fusedRow scoreFused hidSum hid branch layer
  rw [show (0 : Fin 5) = ⟨(0 : Fin 4).val, by omega⟩ from rfl, show (1 : Fin 5) = ⟨(1 : Fin 4).val, by omega⟩ from rfl,
    show (2 : Fin 5) = ⟨(2 : Fin 4).val, by omega⟩ from rfl, show (3 : Fin 5) = ⟨(3 : Fin 4).val, by omega⟩ from rfl,
    hk 0, hk 1, hk 2, hk 3, hl]

end Cert.GraphScore

end
-- ==== Proof.KV.Array5.lean ====
/-
  The score region's output array as ONE function of the arrays the region finds: every grid point stores, for its
  own 400 rows, the fused score of each row (from the row's features and its 640 pre-activations); the blocks tile
  the 10000 rows and the fused score acts row by row.
-/
import proofs.«172286_g11278584119306_cont_sun_m_662_2_alg».proof.Proof.KI.Region5
import proofs.«172286_g11278584119306_cont_sun_m_662_2_alg».proof.Proof.KV.ScoreBody
import proofs.«172286_g11278584119306_cont_sun_m_662_2_alg».proof.Proof.SpecFused
import Idealize.ShloMosaic.Lib.Pipeline.Value

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the adjacency block, the features' block and the output block move with
    the point; the other operands are whole arrays. -/
theorem idx5 : ∀ t : Fin cfg5.N, (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = t.val ∧ win5_8.index t (1 : Fin 2) = 0) :=
  (by decide +kernel : ∀ t : Fin grid5.N, _)

/-- The adjacency block at point `t` is rows `400 t …` of the matrix. -/
theorem blk5_0 (c : Dev nD) (t : Fin cfg5.N) (r : Fin 400) (k : Fin 10000) (i : Fin 10000) (hi : i.val = 400 * t.val + r.val) :
    (iblk5 V c 0 t : Vec Ideal S400x10000 .f32) (ix2 r k) = (V c main_arg1 : S10000x10000.Idx → EReal) (ix2 i k) := by
  have e := idx5 t
  unfold iblk5
  rw [View.read_apply]
  show V c main_arg1 _ = V c main_arg1 _
  congr 1
  funext a
  apply Fin.ext
  match a with
  | ⟨0, _⟩ => show win5_0.index t 0 * 400 + 1 * r.val = i.val; rw [e.1.1, hi]; omega
  | ⟨1, _⟩ => show win5_0.index t 1 * 10000 + 1 * k.val = k.val; rw [e.1.2]; omega

/-- The features' block at point `t` is rows `400 t …` of the features. -/
theorem blk5_2 (c : Dev nD) (t : Fin cfg5.N) (r : Fin 400) (l : Fin 128) (i : Fin 10000) (hi : i.val = 400 * t.val + r.val) :
    (iblk5 V c 2 t : Vec Ideal S400x128 .f32) (ix2 r l) = (V c main_v34_0 : S10000x128.Idx → EReal) (ix2 i l) := by
  have e := idx5 t
  unfold iblk5
  rw [View.read_apply]
  show V c main_v34_0 _ = V c main_v34_0 _
  congr 1
  funext a
  apply Fin.ext
  match a with
  | ⟨0, _⟩ => show win5_2.index t 0 * 400 + 1 * r.val = i.val; rw [e.2.2.1.1, hi]; omega
  | ⟨1, _⟩ => show win5_2.index t 1 * 128 + 1 * l.val = l.val; rw [e.2.2.1.2]; omega

/-- The other operands' blocks are the whole arrays. -/
theorem blk5_1 (c : Dev nD) (t : Fin cfg5.N) : (iblk5 V c 1 t : Vec Ideal S10000x640 .f32) = (V c main_v34_1 : S10000x640.Idx → EReal) := by
  have e := idx5 t
  funext j
  unfold iblk5
  rw [View.read_apply]
  show V c main_v34_1 _ = V c main_v34_1 _
  congr 1
  funext a
  apply Fin.ext
  match a with
  | ⟨0, _⟩ => show win5_1.index t 0 * 10000 + 1 * (j 0).val = (j 0).val; rw [e.2.1.1]; omega
  | ⟨1, _⟩ => show win5_1.index t 1 * 640 + 1 * (j 1).val = (j 1).val; rw [e.2.1.2]; omega

theorem blk5_3 (c : Dev nD) (t : Fin cfg5.N) : (iblk5 V c 3 t : Vec Ideal S1x640 .f32) = (V c main_v44 : S1x640.Idx → EReal) := by
  have e := idx5 t
  funext j
  unfold iblk5
  rw [View.read_apply]
  show V c main_v44 _ = V c main_v44 _
  congr 1
  funext a
  apply Fin.ext
  match a with
  | ⟨0, _⟩ => show win5_3.index t 0 * 1 + 1 * (j 0).val = (j 0).val; rw [e.2.2.2.1.1]; omega
  | ⟨1, _⟩ => show win5_3.index t 1 * 640 + 1 * (j 1).val = (j 1).val; rw [e.2.2.2.1.2]; omega

theorem blk5_4 (c : Dev nD) (t : Fin cfg5.N) : (iblk5 V c 4 t : Vec Ideal S128x128 .f32) = (V c main_arg8 : S128x128.Idx → EReal) := by
  have e := idx5 t
  funext j
  unfold iblk5
  rw [View.read_apply]
  show V c main_arg8 _ = V c main_arg8 _
  congr 1
  funext a
  apply Fin.ext
  match a with
  | ⟨0, _⟩ => show win5_4.index t 0 * 128 + 1 * (j 0).val = (j 0).val; rw [e.2.2.2.2.1.1]; omega
  | ⟨1, _⟩ => show win5_4.index t 1 * 128 + 1 * (j 1).val = (j 1).val; rw [e.2.2.2.2.1.2]; omega

theorem blk5_5 (c : Dev nD) (t : Fin cfg5.N) : (iblk5 V c 5 t : Vec Ideal S1x128 .f32) = (V c main_v45 : S1x128.Idx → EReal) := by
  have e := idx5 t
  funext j
  unfold iblk5
  rw [View.read_apply]
  show V c main_v45 _ = V c main_v45 _
  congr 1
  funext a
  apply Fin.ext
  match a with
  | ⟨0, _⟩ => show win5_5.index t 0 * 1 + 1 * (j 0).val = (j 0).val; rw [e.2.2.2.2.2.1.1]; omega
  | ⟨1, _⟩ => show win5_5.index t 1 * 128 + 1 * (j 1).val = (j 1).val; rw [e.2.2.2.2.2.1.2]; omega

theorem blk5_6 (c : Dev nD) (t : Fin cfg5.N) : (iblk5 V c 6 t : Vec Ideal S128x1 .f32) = (V c main_arg10 : S128x1.Idx → EReal) := by
  have e := idx5 t
  funext j
  unfold iblk5
  rw [View.read_apply]
  show V c main_arg10 _ = V c main_arg10 _
  congr 1
  funext a
  apply Fin.ext
  match a with
  | ⟨0, _⟩ => show win5_6.index t 0 * 128 + 1 * (j 0).val = (j 0).val; rw [e.2.2.2.2.2.2.1.1]; omega
  | ⟨1, _⟩ => show win5_6.index t 1 * 1 + 1 * (j 1).val = (j 1).val; rw [e.2.2.2.2.2.2.1.2]; omega

theorem blk5_7 (c : Dev nD) (t : Fin cfg5.N) : (iblk5 V c 7 t : Vec Ideal S1x1 .f32) = (V c main_v46 : S1x1.Idx → EReal) := by
  have e := idx5 t
  funext j
  unfold iblk5
  rw [View.read_apply]
  show V c main_v46 _ = V c main_v46 _
  congr 1
  funext a
  apply Fin.ext
  match a with
  | ⟨0, _⟩ => show win5_7.index t 0 * 1 + 1 * (j 0).val = (j 0).val; rw [e.2.2.2.2.2.2.2.1.1]; omega
  | ⟨1, _⟩ => show win5_7.index t 1 * 1 + 1 * (j 1).val = (j 1).val; rw [e.2.2.2.2.2.2.2.1.2]; omega

/-- What the region leaves in its output array, entry by entry. -/
def G5 (c : Dev nD) : S10000x1.Idx → EReal := fun i =>
  fusedRow (mat (a := 10000) (b := 128) (V c main_v34_0))
    (zMat (mat (a := 10000) (b := 10000) (V c main_arg1)) (mat (a := 10000) (b := 640) (V c main_v34_1))
      (fun cc => (V c main_v44 : S1x640.Idx → EReal) (ix2 0 cc)))
    (mat (a := 128) (b := 128) (V c main_arg8)) (fun j => (V c main_v45 : S1x128.Idx → EReal) (ix2 0 j))
    (fun j => (V c main_arg10 : S128x1.Idx → EReal) (ix2 j 0)) ((V c main_v46 : S1x1.Idx → EReal) (ix2 0 0)) (i 0)

/-- The stored block, over any eight operand blocks, read at row `r`: the fused score of that row. -/
theorem out5_8_apply (x0 : Vec Ideal S400x10000 .f32) (x1 : Vec Ideal S10000x640 .f32) (x2 : Vec Ideal S400x128 .f32)
    (x3 : Vec Ideal S1x640 .f32) (x4 : Vec Ideal S128x128 .f32) (x5 : Vec Ideal S1x128 .f32) (x6 : Vec Ideal S128x1 .f32)
    (x7 : Vec Ideal S1x1 .f32) (r : Fin 400) :
    out5_8 x0 x1 x2 x3 x4 x5 x6 x7 (ix2 r 0)
      = fusedRow (mat x2) (zMat (mat x0) (mat x1) (fun cc => x3 (ix2 0 cc))) (mat x4) (fun j => x5 (ix2 0 j))
          (fun j => x6 (ix2 j 0)) (x7 (ix2 0 0)) r := by
  unfold out5_8
  rw [View.canon_unit_zero hz5]
  simp only [View.ld_unit_zero (S := S400x10000) hz5, View.ld_unit_zero (S := S10000x640) hz5,
    View.ld_unit_zero (S := S400x128) hz5, View.ld_unit_zero (S := S1x640) hz5, View.ld_unit_zero (S := S128x128) hz5,
    View.ld_unit_zero (S := S1x128) hz5, View.ld_unit_zero (S := S128x1) hz5, View.ld_unit_zero (S := S1x1) hz5]
  exact (score_payload_apply x0 x1 x2 x3 x4 x5 x6 x7 r).trans rfl

/-- WHAT POINT `t` WRITES BACK is block `t` of `G5`. -/
theorem flushed5 (c : Dev nD) (t : Fin cfg5.N) :
    (dat5 V c).flushed 8 t = ((cfg5.win 8).blk t).view.read (Elt Ideal) (G5 V c) := by
  show (cfg5.win 8).cut (grid5.coords t) ((dat5 V c).after 8 t) = _
  rw [after5_8]
  have e := idx5 t
  funext j
  obtain ⟨r, u, rfl⟩ : ∃ (r : Fin 400) (u : Fin 1), j = ix2 r u := ⟨j 0, j 1, eq_ix2 j⟩
  obtain rfl : u = 0 := Subsingleton.elim _ _
  rw [View.read_apply]
  have hrow : ((((cfg5.win 8).blk t).view.emb (ix2 r 0) : S10000x1.Idx) 0).val = 400 * t.val + r.val := by
    show win5_8.index t 0 * 400 + 1 * r.val = _; rw [e.2.2.2.2.2.2.2.2.1]; omega
  refine (out5_8_apply (iblk5 V c 0 t) (iblk5 V c 1 t) (iblk5 V c 2 t) (iblk5 V c 3 t) (iblk5 V c 4 t)
    (iblk5 V c 5 t) (iblk5 V c 6 t) (iblk5 V c 7 t) r).trans ?_
  rw [blk5_1, blk5_3, blk5_4, blk5_5, blk5_6, blk5_7]
  unfold G5
  exact fusedRow_row (mat (a := 10000) (b := 128) (V c main_v34_0)) (mat (iblk5 V c 2 t : Vec Ideal S400x128 .f32))
    (zMat (mat (a := 10000) (b := 10000) (V c main_arg1)) (mat (a := 10000) (b := 640) (V c main_v34_1)) (fun cc => (V c main_v44 : S1x640.Idx → EReal) (ix2 0 cc)))
    (zMat (mat (iblk5 V c 0 t : Vec Ideal S400x10000 .f32)) (mat (a := 10000) (b := 640) (V c main_v34_1)) (fun cc => (V c main_v44 : S1x640.Idx → EReal) (ix2 0 cc)))
    _ _ _ _ _ r (fun l => blk5_2 V c t r l _ hrow)
    (fun cc => zMat_row _ _ _ _ _ r (fun k => blk5_0 V c t r k _ hrow) cc)

theorem mem_blk5 (t : Fin cfg5.N) (i : S10000x1.Idx) :
    i ∈ ((cfg5.win 8).blk t).view.set ↔ ∀ a : Fin 2, win5_8.index t a * S400x1.size a ≤ (i a).val ∧ (i a).val < win5_8.index t a * S400x1.size a + S400x1.size a := by
  show i ∈ ((View.whole main_v47).slice (win5_8.rect t)).set ↔ _
  rw [View.set_slice_whole, Rect.mem_set_unit]
  exact Iff.rfl

/-- THE ARRAY after the region: `G5`. -/
theorem final5 (c : Dev nD) : (dat5 V c).arrAt 8 cfg5.N = G5 V c :=
  (dat5 V c).arrAt_eq_of_cover 8 (G5 V c) (fun t _ => flushed5 V c t) fun i => by
    have hi0 : (i 0).val < 10000 := (i 0).isLt
    have hi1 : (i 1).val < 1 := (i 1).isLt
    have hN : cfg5.N = 25 := N_5
    let t : Fin cfg5.N := ⟨(i 0).val / 400, by rw [hN]; omega⟩
    have e := idx5 t
    refine ⟨t, flush5_8 t, ?_⟩
    rw [mem_blk5]
    intro a
    match a with
    | ⟨0, _⟩ => show win5_8.index t 0 * 400 ≤ (i 0).val ∧ (i 0).val < win5_8.index t 0 * 400 + 400; rw [e.2.2.2.2.2.2.2.2.1]; show (i 0).val / 400 * 400 ≤ _ ∧ _ < (i 0).val / 400 * 400 + 400; omega
    | ⟨1, _⟩ => show win5_8.index t 1 * 1 ≤ (i 1).val ∧ (i 1).val < win5_8.index t 1 * 1 + 1; rw [e.2.2.2.2.2.2.2.2.2]; omega

end Cert.KernelIdeal.KV

end
-- ==== Proof.KV.HostGlue.lean ====
/-
  The small host operations between the kernels, read at one entry: a slice of the stacked weights or biases with
  its unit axis dropped, a vector given a leading unit axis, and the five weight matrices (bias vectors) laid side
  by side along the columns.
-/
import proofs.«172286_g11278584119306_cont_sun_m_662_2_alg».proof.Proof.Gen.KernelIdeal
import Idealize.ShloMosaic.Lib.ValueIdx
import Idealize.ShloMosaic.Lib.ValueLayout
import Idealize.ShloMosaic.Lib.Pipeline.Value

noncomputable section

namespace Cert.KernelIdeal.KV

open Cert.KernelIdeal Idealize.ShloMosaic Idealize.ShloMosaic.ValueIdx

/-- Matrix `k` of a stack of four, its unit axis dropped. -/
theorem weightSlice_apply (o : ℕ) (x : S4x128x128.Idx → EReal) (h : S4x128x128.Slices ![o, 0, 0] S1x128x128)
    (h' : S1x128x128.ShapeCasts S128x128) (k : Fin 4) (hk : k.val = o) (l j : Fin 128) :
    shapeCast S128x128 (extractStridedSlice S1x128x128 ![o, 0, 0] x h) h' (ix2 l j) = x (ix3 k l j) := by
  rw [shapeCast_1ab_ab_apply]
  refine extractStridedSlice_apply _ x h _ (ix3 k l j) fun a => ?_
  match a with
  | ⟨0, _⟩ => show k.val = o + 0; omega
  | ⟨1, _⟩ => show l.val = 0 + l.val; omega
  | ⟨2, _⟩ => show j.val = 0 + j.val; omega

/-- A vector given a leading unit axis. -/
theorem rowOfVec_apply {n : ℕ} (x : (⟨1, ![n]⟩ : Shape).Idx → EReal) (h : (⟨1, ![n]⟩ : Shape).ShapeCasts ⟨2, ![1, n]⟩) (j : Fin n) :
    shapeCast ⟨2, ![1, n]⟩ x h (ix2 0 j) = x (ix1 j) :=
  shapeCast_a_1a_apply x h 0 j

/-- Row `k` of a stack of four bias vectors, as a vector. -/
theorem biasSlice_apply (o : ℕ) (x : S4x128.Idx → EReal) (h : S4x128.Slices ![o, 0] S1x128) (h1 : S1x128.ShapeCasts S128)
    (k : Fin 4) (hk : k.val = o) (j : Fin 128) :
    shapeCast S128 (extractStridedSlice S1x128 ![o, 0] x h) h1 (ix1 j) = x (ix2 k j) := by
  rw [shapeCast_1a_a_apply]
  refine extractStridedSlice_apply _ x h _ (ix2 k j) fun a => ?_
  match a with
  | ⟨0, _⟩ => show k.val = o + 0; omega
  | ⟨1, _⟩ => show j.val = 0 + j.val; omega

/-- … and as a row again. -/
theorem biasRow_apply (o : ℕ) (x : S4x128.Idx → EReal) (h : S4x128.Slices ![o, 0] S1x128) (h1 : S1x128.ShapeCasts S128)
    (h2 : S128.ShapeCasts S1x128) (k : Fin 4) (hk : k.val = o) (j : Fin 128) :
    shapeCast S1x128 (shapeCast S128 (extractStridedSlice S1x128 ![o, 0] x h) h1) h2 (ix2 0 j) = x (ix2 k j) := by
  rw [rowOfVec_apply]
  exact biasSlice_apply o x h h1 k hk j

/-- Five square matrices side by side: column `128 k + j` is column `j` of matrix `k`. -/
theorem sideBySide_apply (u : Fin 5 → (S128x128.Idx → EReal))
    (h : Shape.Concatenates [S128x128, S128x128, S128x128, S128x128, S128x128] S128x640 1) (k : Fin 5) (l j : Fin 128)
    (cc : Fin 640) (hc : cc.val = 128 * k.val + j.val) :
    concatenate S128x640 1 [⟨S128x128, u 0⟩, ⟨S128x128, u 1⟩, ⟨S128x128, u 2⟩, ⟨S128x128, u 3⟩, ⟨S128x128, u 4⟩] h (ix2 l cc)
      = u k (ix2 l j) := by
  have hi : ∀ b : Fin S128x128.rank, b.cast (rfl : S128x128.rank = S128x640.rank) ≠ (1 : Fin 2) → ((ix2 l j : S128x128.Idx) b).val = ((ix2 l cc : S128x640.Idx) (b.cast rfl)).val := by
    intro b hb
    match b with
    | ⟨0, _⟩ => rfl
    | ⟨1, _⟩ => exact absurd rfl hb
  match k with
  | ⟨0, _⟩ => exact concatenate_apply_piece (t := S128x640) 1 [⟨S128x128, u 0⟩, ⟨S128x128, u 1⟩, ⟨S128x128, u 2⟩, ⟨S128x128, u 3⟩, ⟨S128x128, u 4⟩] h (ix2 l cc) 0 (by show 0 < 5; omega) S128x128 (u 0) rfl rfl 0 rfl (ix2 l j) hi (by have hc' : cc.val = 128 * 0 + j.val := hc; show 0 + j.val = cc.val; omega)
  | ⟨1, _⟩ => exact concatenate_apply_piece (t := S128x640) 1 [⟨S128x128, u 0⟩, ⟨S128x128, u 1⟩, ⟨S128x128, u 2⟩, ⟨S128x128, u 3⟩, ⟨S128x128, u 4⟩] h (ix2 l cc) 1 (by show 1 < 5; omega) S128x128 (u 1) rfl rfl 128 rfl (ix2 l j) hi (by have hc' : cc.val = 128 * 1 + j.val := hc; show 128 + j.val = cc.val; omega)
  | ⟨2, _⟩ => exact concatenate_apply_piece (t := S128x640) 1 [⟨S128x128, u 0⟩, ⟨S128x128, u 1⟩, ⟨S128x128, u 2⟩, ⟨S128x128, u 3⟩, ⟨S128x128, u 4⟩] h (ix2 l cc) 2 (by show 2 < 5; omega) S128x128 (u 2) rfl rfl 256 rfl (ix2 l j) hi (by have hc' : cc.val = 128 * 2 + j.val := hc; show 256 + j.val = cc.val; omega)
  | ⟨3, _⟩ => exact concatenate_apply_piece (t := S128x640) 1 [⟨S128x128, u 0⟩, ⟨S128x128, u 1⟩, ⟨S128x128, u 2⟩, ⟨S128x128, u 3⟩, ⟨S128x128, u 4⟩] h (ix2 l cc) 3 (by show 3 < 5; omega) S128x128 (u 3) rfl rfl 384 rfl (ix2 l j) hi (by have hc' : cc.val = 128 * 3 + j.val := hc; show 384 + j.val = cc.val; omega)
  | ⟨4, _⟩ => exact concatenate_apply_piece (t := S128x640) 1 [⟨S128x128, u 0⟩, ⟨S128x128, u 1⟩, ⟨S128x128, u 2⟩, ⟨S128x128, u 3⟩, ⟨S128x128, u 4⟩] h (ix2 l cc) 4 (by show 4 < 5; omega) S128x128 (u 4) rfl rfl 512 rfl (ix2 l j) hi (by have hc' : cc.val = 128 * 4 + j.val := hc; show 512 + j.val = cc.val; omega)

/-- Five vectors end to end: entry `128 k + j` is entry `j` of vector `k`. -/
theorem endToEnd_apply (u : Fin 5 → (S128.Idx → EReal))
    (h : Shape.Concatenates [S128, S128, S128, S128, S128] S640 0) (k : Fin 5) (j : Fin 128)
    (cc : Fin 640) (hc : cc.val = 128 * k.val + j.val) :
    concatenate S640 0 [⟨S128, u 0⟩, ⟨S128, u 1⟩, ⟨S128, u 2⟩, ⟨S128, u 3⟩, ⟨S128, u 4⟩] h (ix1 cc)
      = u k (ix1 j) := by
  have hi : ∀ b : Fin S128.rank, b.cast (rfl : S128.rank = S640.rank) ≠ (0 : Fin 1) → ((ix1 j : S128.Idx) b).val = ((ix1 cc : S640.Idx) (b.cast rfl)).val := by
    intro b hb
    match b with
    | ⟨0, _⟩ => exact absurd rfl hb
  match k with
  | ⟨0, _⟩ => exact concatenate_apply_piece (t := S640) 0 [⟨S128, u 0⟩, ⟨S128, u 1⟩, ⟨S128, u 2⟩, ⟨S128, u 3⟩, ⟨S128, u 4⟩] h (ix1 cc) 0 (by show 0 < 5; omega) S128 (u 0) rfl rfl 0 rfl (ix1 j) hi (by have hc' : cc.val = 128 * 0 + j.val := hc; show 0 + j.val = cc.val; omega)
  | ⟨1, _⟩ => exact concatenate_apply_piece (t := S640) 0 [⟨S128, u 0⟩, ⟨S128, u 1⟩, ⟨S128, u 2⟩, ⟨S128, u 3⟩, ⟨S128, u 4⟩] h (ix1 cc) 1 (by show 1 < 5; omega) S128 (u 1) rfl rfl 128 rfl (ix1 j) hi (by have hc' : cc.val = 128 * 1 + j.val := hc; show 128 + j.val = cc.val; omega)
  | ⟨2, _⟩ => exact concatenate_apply_piece (t := S640) 0 [⟨S128, u 0⟩, ⟨S128, u 1⟩, ⟨S128, u 2⟩, ⟨S128, u 3⟩, ⟨S128, u 4⟩] h (ix1 cc) 2 (by show 2 < 5; omega) S128 (u 2) rfl rfl 256 rfl (ix1 j) hi (by have hc' : cc.val = 128 * 2 + j.val := hc; show 256 + j.val = cc.val; omega)
  | ⟨3, _⟩ => exact concatenate_apply_piece (t := S640) 0 [⟨S128, u 0⟩, ⟨S128, u 1⟩, ⟨S128, u 2⟩, ⟨S128, u 3⟩, ⟨S128, u 4⟩] h (ix1 cc) 3 (by show 3 < 5; omega) S128 (u 3) rfl rfl 384 rfl (ix1 j) hi (by have hc' : cc.val = 128 * 3 + j.val := hc; show 384 + j.val = cc.val; omega)
  | ⟨4, _⟩ => exact concatenate_apply_piece (t := S640) 0 [⟨S128, u 0⟩, ⟨S128, u 1⟩, ⟨S128, u 2⟩, ⟨S128, u 3⟩, ⟨S128, u 4⟩] h (ix1 cc) 4 (by show 4 < 5; omega) S128 (u 4) rfl rfl 512 rfl (ix1 j) hi (by have hc' : cc.val = 128 * 4 + j.val := hc; show 512 + j.val = cc.val; omega)

end Cert.KernelIdeal.KV

end
-- ==== Proof.KV.Chain.lean ====
/-
  The kernel program's result as the specification's fused score of the argument arrays: the six regions'
  output arrays composed.  Each region's array is the closed form of its own inputs (the Array modules); its
  inputs are argument arrays, the previous region's array, or a small host rearrangement of the stacked weights
  and biases (read entry by entry here); five propagation steps give the features, the fifth region also their
  product with the five weight matrices side by side, and the last region the fused score.
-/
import proofs.«172286_g11278584119306_cont_sun_m_662_2_alg».proof.Proof.KI.Run
import proofs.«172286_g11278584119306_cont_sun_m_662_2_alg».proof.Proof.KV.Array0
import proofs.«172286_g11278584119306_cont_sun_m_662_2_alg».proof.Proof.KV.Array1
import proofs.«172286_g11278584119306_cont_sun_m_662_2_alg».proof.Proof.KV.Array2
import proofs.«172286_g11278584119306_cont_sun_m_662_2_alg».proof.Proof.KV.Array3
import proofs.«172286_g11278584119306_cont_sun_m_662_2_alg».proof.Proof.KV.Array4
import proofs.«172286_g11278584119306_cont_sun_m_662_2_alg».proof.Proof.KV.Array5
import proofs.«172286_g11278584119306_cont_sun_m_662_2_alg».proof.Proof.KV.HostGlue
import proofs.«172286_g11278584119306_cont_sun_m_662_2_alg».proof.Proof.SpecFused
import Idealize.ShloMosaic.Lib.StableHlo.Run

set_option maxRecDepth 16384

noncomputable section

open scoped BigOperators

namespace Cert.KernelIdeal.KV

open Cert.KernelIdeal Cert.KernelIdeal.Gen Cert.KernelIdeal.Fr Idealize.ShloMosaic Idealize.ShloMosaic.TcCoe Idealize.ShloMosaic.ValueIdx Cert.GraphScore
open Idealize.ShloMosaic.Pipeline (Dat)

variable (m : (ℓ : Loc nD τ sig) → Buf (Elt Ideal) ℓ) (c : Dev nD)

/-- The twelve argument arrays of memory `m` on core `c`, entry by entry. -/
def argsOf : GraphScore.Args where
  adj1 i k := (m ((c : Thread nD τ).loc main_arg0) : S10000x10000.Idx → EReal) (ix2 i k)
  adj2 i k := (m ((c : Thread nD τ).loc main_arg1) : S10000x10000.Idx → EReal) (ix2 i k)
  W0 i j := (m ((c : Thread nD τ).loc main_arg2) : S10000x128.Idx → EReal) (ix2 i j)
  b0 j := (m ((c : Thread nD τ).loc main_arg3) : S128.Idx → EReal) (ix1 j)
  Ws k l j := (m ((c : Thread nD τ).loc main_arg4) : S4x128x128.Idx → EReal) (ix3 k l j)
  bs k j := (m ((c : Thread nD τ).loc main_arg5) : S4x128.Idx → EReal) (ix2 k j)
  Wl l j := (m ((c : Thread nD τ).loc main_arg6) : S128x128.Idx → EReal) (ix2 l j)
  bl j := (m ((c : Thread nD τ).loc main_arg7) : S128.Idx → EReal) (ix1 j)
  Wm1 l j := (m ((c : Thread nD τ).loc main_arg8) : S128x128.Idx → EReal) (ix2 l j)
  bm1 j := (m ((c : Thread nD τ).loc main_arg9) : S128.Idx → EReal) (ix1 j)
  Wm2 l o := (m ((c : Thread nD τ).loc main_arg10) : S128x1.Idx → EReal) (ix2 l o)
  bm2 o := (m ((c : Thread nD τ).loc main_arg11) : S1.Idx → EReal) (ix1 o)

/-- A propagation region's closed form with its four operands named. -/
theorem prop_closed (adjV : S10000x10000.Idx → EReal) (yV : S10000x128.Idx → EReal) (bV : S1x128.Idx → EReal)
    (wV : S128x128.Idx → EReal) (adj : Fin 10000 → Fin 10000 → EReal) (y : Fin 10000 → Fin 128 → EReal)
    (b : Fin 128 → EReal) (w : Fin 128 → Fin 128 → EReal) (h1 : ∀ i k, adjV (ix2 i k) = adj i k)
    (h2 : ∀ k j, yV (ix2 k j) = y k j) (h3 : ∀ j, bV (ix2 0 j) = b j) (h4 : ∀ l j, wV (ix2 l j) = w l j) :
    (fun i : S10000x128.Idx => mm (layer (mat adjV) (mat yV) (fun j => bV (ix2 0 j))) (mat wV) (i 0) (i 1))
      = fun i => mm (layer adj y b) w (i 0) (i 1) := by
  have e1 : mat adjV = adj := funext fun i => funext fun k => h1 i k
  have e2 : mat yV = y := funext fun k => funext fun j => h2 k j
  have e3 : (fun j => bV (ix2 0 j)) = b := funext h3
  have e4 : mat wV = w := funext fun l => funext fun j => h4 l j
  rw [e1, e2, e3, e4]

/-! ## Region 0 -/

theorem host0_w : (Ent0 m c main_v1 : S128x128.Idx → EReal) = shapeCast S128x128 (extractStridedSlice S1x128x128 ![0, 0, 0] (m ((c : Thread nD τ).loc main_arg4) : S4x128x128.Idx → EReal) slices_S4x128x128_S1x128x128_0_0_0) shapeCasts_S1x128x128_S128x128 := by
  show StableHlo.after hostOps0 (V0 m c) (Proc.devRef .tc main_v1) = _
  after_results
  rfl

theorem host0_b : (Ent0 m c main_v2 : S1x128.Idx → EReal) = shapeCast S1x128 (m ((c : Thread nD τ).loc main_arg3) : S128.Idx → EReal) shapeCasts_S128_S1x128 := by
  show StableHlo.after hostOps0 (V0 m c) (Proc.devRef .tc main_v2) = _
  after_results
  rfl

/-- Region 0 leaves the first features times the first weight matrix. -/
theorem arr0 : (dat0 (EntR0 m) c).arrAt 4 cfg0.N = fun i => mm (x0 (argsOf m c)) ((argsOf m c).Ws 0) (i 0) (i 1) := by
  have hA : EntR0 m c main_arg0 = m ((c : Thread nD τ).loc main_arg0) := (A_eq0 (EntR0 m) c 0).symm.trans (entry0_0 m c)
  have hY : EntR0 m c main_arg2 = m ((c : Thread nD τ).loc main_arg2) := (A_eq0 (EntR0 m) c 1).symm.trans (entry0_1 m c)
  refine (final0 (EntR0 m) c).trans ?_
  unfold G0
  refine prop_closed _ _ _ _ (argsOf m c).adj1 (argsOf m c).W0 (argsOf m c).b0 ((argsOf m c).Ws 0)
    (fun i k => congrFun hA (ix2 i k)) (fun k j => congrFun hY (ix2 k j)) (fun j => ?_) (fun l j => ?_)
  · show (Ent0 m c main_v2 : S1x128.Idx → EReal) (ix2 0 j) = _
    rw [host0_b]; exact rowOfVec_apply _ _ j
  · show (Ent0 m c main_v1 : S128x128.Idx → EReal) (ix2 l j) = _
    rw [host0_w]; exact weightSlice_apply 0 _ _ _ 0 rfl l j

/-! ## Region 1 -/

theorem host1_w : (Ent1 m c main_v7 : S128x128.Idx → EReal) = shapeCast S128x128 (extractStridedSlice S1x128x128 ![1, 0, 0] (m ((c : Thread nD τ).loc main_arg4) : S4x128x128.Idx → EReal) slices_S4x128x128_S1x128x128_1_0_0) shapeCasts_S1x128x128_S128x128 := by
  show StableHlo.after hostOps1 (V2 m (outsAll m) c) (Proc.devRef .tc main_v7) = _
  after_results
  rfl

theorem host1_b : (Ent1 m c main_v8 : S1x128.Idx → EReal) = shapeCast S1x128 (shapeCast S128 (extractStridedSlice S1x128 ![0, 0] (m ((c : Thread nD τ).loc main_arg5) : S4x128.Idx → EReal) slices_S4x128_S1x128_0_0) shapeCasts_S1x128_S128) shapeCasts_S128_S1x128 := by
  show StableHlo.after hostOps1 (V2 m (outsAll m) c) (Proc.devRef .tc main_v8) = _
  after_results
  rfl

/-- Region 1 leaves the next features times the next weight matrix. -/
theorem arr1 : (dat1 (EntR1 m) c).arrAt 4 cfg1.N = fun i => mm (x1 (argsOf m c)) ((argsOf m c).Ws 1) (i 0) (i 1) := by
  have hA : EntR1 m c main_arg1 = m ((c : Thread nD τ).loc main_arg1) := (A_eq1 (EntR1 m) c 0).symm.trans (entry1_0 m c)
  have hY : EntR1 m c main_v3 = fun i => mm (x0 (argsOf m c)) ((argsOf m c).Ws 0) (i 0) (i 1) :=
    ((A_eq1 (EntR1 m) c 1).symm.trans (entry1_1 m c)).trans (arr0 m c)
  refine (final1 (EntR1 m) c).trans ?_
  unfold G1
  refine prop_closed _ _ _ _ (argsOf m c).adj2 (mm (x0 (argsOf m c)) ((argsOf m c).Ws 0)) ((argsOf m c).bs 0) ((argsOf m c).Ws 1)
    (fun i k => congrFun hA (ix2 i k)) (fun k j => congrFun hY (ix2 k j)) (fun j => ?_) (fun l j => ?_)
  · show (Ent1 m c main_v8 : S1x128.Idx → EReal) (ix2 0 j) = _
    rw [host1_b]; exact biasRow_apply 0 _ _ _ _ 0 rfl j
  · show (Ent1 m c main_v7 : S128x128.Idx → EReal) (ix2 l j) = _
    rw [host1_w]; exact weightSlice_apply 1 _ _ _ 1 rfl l j

/-! ## Region 2 -/

theorem host2_w : (Ent2 m c main_v13 : S128x128.Idx → EReal) = shapeCast S128x128 (extractStridedSlice S1x128x128 ![2, 0, 0] (m ((c : Thread nD τ).loc main_arg4) : S4x128x128.Idx → EReal) slices_S4x128x128_S1x128x128_2_0_0) shapeCasts_S1x128x128_S128x128 := by
  show StableHlo.after hostOps2 (V4 m (outsAll m) c) (Proc.devRef .tc main_v13) = _
  after_results
  rfl

theorem host2_b : (Ent2 m c main_v14 : S1x128.Idx → EReal) = shapeCast S1x128 (shapeCast S128 (extractStridedSlice S1x128 ![1, 0] (m ((c : Thread nD τ).loc main_arg5) : S4x128.Idx → EReal) slices_S4x128_S1x128_1_0) shapeCasts_S1x128_S128) shapeCasts_S128_S1x128 := by
  show StableHlo.after hostOps2 (V4 m (outsAll m) c) (Proc.devRef .tc main_v14) = _
  after_results
  rfl

/-- Region 2 leaves the next features times the next weight matrix. -/
theorem arr2 : (dat2 (EntR2 m) c).arrAt 4 cfg2.N = fun i => mm (x2 (argsOf m c)) ((argsOf m c).Ws 2) (i 0) (i 1) := by
  have hA : EntR2 m c main_arg1 = m ((c : Thread nD τ).loc main_arg1) := (A_eq2 (EntR2 m) c 0).symm.trans (entry2_0 m c)
  have hY : EntR2 m c main_v9 = fun i => mm (x1 (argsOf m c)) ((argsOf m c).Ws 1) (i 0) (i 1) :=
    ((A_eq2 (EntR2 m) c 1).symm.trans (entry2_1 m c)).trans (arr1 m c)
  refine (final2 (EntR2 m) c).trans ?_
  unfold G2
  refine prop_closed _ _ _ _ (argsOf m c).adj2 (mm (x1 (argsOf m c)) ((argsOf m c).Ws 1)) ((argsOf m c).bs 1) ((argsOf m c).Ws 2)
    (fun i k => congrFun hA (ix2 i k)) (fun k j => congrFun hY (ix2 k j)) (fun j => ?_) (fun l j => ?_)
  · show (Ent2 m c main_v14 : S1x128.Idx → EReal) (ix2 0 j) = _
    rw [host2_b]; exact biasRow_apply 1 _ _ _ _ 1 rfl j
  · show (Ent2 m c main_v13 : S128x128.Idx → EReal) (ix2 l j) = _
    rw [host2_w]; exact weightSlice_apply 2 _ _ _ 2 rfl l j

/-! ## Region 3 -/

theorem host3_w : (Ent3 m c main_v19 : S128x128.Idx → EReal) = shapeCast S128x128 (extractStridedSlice S1x128x128 ![3, 0, 0] (m ((c : Thread nD τ).loc main_arg4) : S4x128x128.Idx → EReal) slices_S4x128x128_S1x128x128_3_0_0) shapeCasts_S1x128x128_S128x128 := by
  show StableHlo.after hostOps3 (V6 m (outsAll m) c) (Proc.devRef .tc main_v19) = _
  after_results
  rfl

theorem host3_b : (Ent3 m c main_v20 : S1x128.Idx → EReal) = shapeCast S1x128 (shapeCast S128 (extractStridedSlice S1x128 ![2, 0] (m ((c : Thread nD τ).loc main_arg5) : S4x128.Idx → EReal) slices_S4x128_S1x128_2_0) shapeCasts_S1x128_S128) shapeCasts_S128_S1x128 := by
  show StableHlo.after hostOps3 (V6 m (outsAll m) c) (Proc.devRef .tc main_v20) = _
  after_results
  rfl

/-- Region 3 leaves the next features times the next weight matrix. -/
theorem arr3 : (dat3 (EntR3 m) c).arrAt 4 cfg3.N = fun i => mm (x3 (argsOf m c)) ((argsOf m c).Ws 3) (i 0) (i 1) := by
  have hA : EntR3 m c main_arg1 = m ((c : Thread nD τ).loc main_arg1) := (A_eq3 (EntR3 m) c 0).symm.trans (entry3_0 m c)
  have hY : EntR3 m c main_v15 = fun i => mm (x2 (argsOf m c)) ((argsOf m c).Ws 2) (i 0) (i 1) :=
    ((A_eq3 (EntR3 m) c 1).symm.trans (entry3_1 m c)).trans (arr2 m c)
  refine (final3 (EntR3 m) c).trans ?_
  unfold G3
  refine prop_closed _ _ _ _ (argsOf m c).adj2 (mm (x2 (argsOf m c)) ((argsOf m c).Ws 2)) ((argsOf m c).bs 2) ((argsOf m c).Ws 3)
    (fun i k => congrFun hA (ix2 i k)) (fun k j => congrFun hY (ix2 k j)) (fun j => ?_) (fun l j => ?_)
  · show (Ent3 m c main_v20 : S1x128.Idx → EReal) (ix2 0 j) = _
    rw [host3_b]; exact biasRow_apply 2 _ _ _ _ 2 rfl j
  · show (Ent3 m c main_v19 : S128x128.Idx → EReal) (ix2 l j) = _
    rw [host3_w]; exact weightSlice_apply 3 _ _ _ 3 rfl l j

/-! ## Region 4 -/

/-- The five weight matrices side by side, as the host lays them. -/
def wcat : S128x640.Idx → EReal :=
  concatenate S128x640 1
    [⟨S128x128, shapeCast S128x128 (extractStridedSlice S1x128x128 ![0, 0, 0] (m ((c : Thread nD τ).loc main_arg4) : S4x128x128.Idx → EReal) slices_S4x128x128_S1x128x128_0_0_0) shapeCasts_S1x128x128_S128x128⟩,
     ⟨S128x128, shapeCast S128x128 (extractStridedSlice S1x128x128 ![1, 0, 0] (m ((c : Thread nD τ).loc main_arg4) : S4x128x128.Idx → EReal) slices_S4x128x128_S1x128x128_1_0_0) shapeCasts_S1x128x128_S128x128⟩,
     ⟨S128x128, shapeCast S128x128 (extractStridedSlice S1x128x128 ![2, 0, 0] (m ((c : Thread nD τ).loc main_arg4) : S4x128x128.Idx → EReal) slices_S4x128x128_S1x128x128_2_0_0) shapeCasts_S1x128x128_S128x128⟩,
     ⟨S128x128, shapeCast S128x128 (extractStridedSlice S1x128x128 ![3, 0, 0] (m ((c : Thread nD τ).loc main_arg4) : S4x128x128.Idx → EReal) slices_S4x128x128_S1x128x128_3_0_0) shapeCasts_S1x128x128_S128x128⟩,
     ⟨S128x128, (m ((c : Thread nD τ).loc main_arg6) : S128x128.Idx → EReal)⟩] concatenates_S128x128_S128x128_S128x128_S128x128_S128x128_S128x640_d1

theorem host4_w : (Ent4 m c main_v30 : S128x640.Idx → EReal) = wcat m c := by
  show StableHlo.after hostOps4 (V8 m (outsAll m) c) (Proc.devRef .tc main_v30) = _
  unfold wcat
  after_results
  rfl

theorem host4_b : (Ent4 m c main_v33 : S1x128.Idx → EReal) = shapeCast S1x128 (shapeCast S128 (extractStridedSlice S1x128 ![3, 0] (m ((c : Thread nD τ).loc main_arg5) : S4x128.Idx → EReal) slices_S4x128_S1x128_3_0) shapeCasts_S1x128_S128) shapeCasts_S128_S1x128 := by
  show StableHlo.after hostOps4 (V8 m (outsAll m) c) (Proc.devRef .tc main_v33) = _
  after_results
  rfl

/-- Column `128 k + j` of the side-by-side matrix is column `j` of weight matrix `k` … -/
theorem wcat_ws (k : Fin 4) (l j : Fin 128) : wcat m c (ix2 l ⟨128 * k.val + j.val, by omega⟩) = (argsOf m c).Ws k l j := by
  unfold wcat
  have h := sideBySide_apply
    (fun q : Fin 5 => match q with
      | ⟨0, _⟩ => shapeCast S128x128 (extractStridedSlice S1x128x128 ![0, 0, 0] (m ((c : Thread nD τ).loc main_arg4) : S4x128x128.Idx → EReal) slices_S4x128x128_S1x128x128_0_0_0) shapeCasts_S1x128x128_S128x128
      | ⟨1, _⟩ => shapeCast S128x128 (extractStridedSlice S1x128x128 ![1, 0, 0] (m ((c : Thread nD τ).loc main_arg4) : S4x128x128.Idx → EReal) slices_S4x128x128_S1x128x128_1_0_0) shapeCasts_S1x128x128_S128x128
      | ⟨2, _⟩ => shapeCast S128x128 (extractStridedSlice S1x128x128 ![2, 0, 0] (m ((c : Thread nD τ).loc main_arg4) : S4x128x128.Idx → EReal) slices_S4x128x128_S1x128x128_2_0_0) shapeCasts_S1x128x128_S128x128
      | ⟨3, _⟩ => shapeCast S128x128 (extractStridedSlice S1x128x128 ![3, 0, 0] (m ((c : Thread nD τ).loc main_arg4) : S4x128x128.Idx → EReal) slices_S4x128x128_S1x128x128_3_0_0) shapeCasts_S1x128x128_S128x128
      | ⟨4, _⟩ => (m ((c : Thread nD τ).loc main_arg6) : S128x128.Idx → EReal))
    concatenates_S128x128_S128x128_S128x128_S128x128_S128x128_S128x640_d1 ⟨k.val, by omega⟩ l j ⟨128 * k.val + j.val, by omega⟩ rfl
  refine h.trans ?_
  match k with
  | ⟨0, _⟩ => exact weightSlice_apply 0 _ _ _ 0 rfl l j
  | ⟨1, _⟩ => exact weightSlice_apply 1 _ _ _ 1 rfl l j
  | ⟨2, _⟩ => exact weightSlice_apply 2 _ _ _ 2 rfl l j
  | ⟨3, _⟩ => exact weightSlice_apply 3 _ _ _ 3 rfl l j

/-- … and the last 128 columns are the unnormalised branch's weights. -/
theorem wcat_wl (l j : Fin 128) : wcat m c (ix2 l ⟨512 + j.val, by omega⟩) = (argsOf m c).Wl l j := by
  unfold wcat
  exact sideBySide_apply
    (fun q : Fin 5 => match q with
      | ⟨0, _⟩ => shapeCast S128x128 (extractStridedSlice S1x128x128 ![0, 0, 0] (m ((c : Thread nD τ).loc main_arg4) : S4x128x128.Idx → EReal) slices_S4x128x128_S1x128x128_0_0_0) shapeCasts_S1x128x128_S128x128
      | ⟨1, _⟩ => shapeCast S128x128 (extractStridedSlice S1x128x128 ![1, 0, 0] (m ((c : Thread nD τ).loc main_arg4) : S4x128x128.Idx → EReal) slices_S4x128x128_S1x128x128_1_0_0) shapeCasts_S1x128x128_S128x128
      | ⟨2, _⟩ => shapeCast S128x128 (extractStridedSlice S1x128x128 ![2, 0, 0] (m ((c : Thread nD τ).loc main_arg4) : S4x128x128.Idx → EReal) slices_S4x128x128_S1x128x128_2_0_0) shapeCasts_S1x128x128_S128x128
      | ⟨3, _⟩ => shapeCast S128x128 (extractStridedSlice S1x128x128 ![3, 0, 0] (m ((c : Thread nD τ).loc main_arg4) : S4x128x128.Idx → EReal) slices_S4x128x128_S1x128x128_3_0_0) shapeCasts_S1x128x128_S128x128
      | ⟨4, _⟩ => (m ((c : Thread nD τ).loc main_arg6) : S128x128.Idx → EReal))
    concatenates_S128x128_S128x128_S128x128_S128x128_S128x128_S128x640_d1 4 l j ⟨512 + j.val, by omega⟩ rfl

/-- Region 4 leaves the features … -/
theorem arr4 : (dat4 (EntR4 m) c).arrAt 4 cfg4.N = fun i => feat (argsOf m c) (i 0) (i 1) := by
  have hA : EntR4 m c main_arg1 = m ((c : Thread nD τ).loc main_arg1) := (A_eq4 (EntR4 m) c 0).symm.trans (entry4_0 m c)
  have hY : EntR4 m c main_v21 = fun i => mm (x3 (argsOf m c)) ((argsOf m c).Ws 3) (i 0) (i 1) :=
    ((A_eq4 (EntR4 m) c 1).symm.trans (entry4_1 m c)).trans (arr3 m c)
  refine (final4 (EntR4 m) c).trans ?_
  unfold G4
  have e1 : mat (a := 10000) (b := 10000) (EntR4 m c main_arg1) = (argsOf m c).adj2 := funext fun i => funext fun k => congrFun hA (ix2 i k)
  have e2 : mat (a := 10000) (b := 128) (EntR4 m c main_v21) = mm (x3 (argsOf m c)) ((argsOf m c).Ws 3) := funext fun k => funext fun j => congrFun hY (ix2 k j)
  have e3 : (fun j => (EntR4 m c main_v33 : S1x128.Idx → EReal) (ix2 0 j)) = (argsOf m c).bs 3 := funext fun j => by
    show (Ent4 m c main_v33 : S1x128.Idx → EReal) (ix2 0 j) = _
    rw [host4_b]; exact biasRow_apply 3 _ _ _ _ 3 rfl j
  rw [e1, e2, e3]
  rfl

/-- … and their product with the five weight matrices side by side. -/
theorem arr4c : (dat4 (EntR4 m) c).arrAt 5 cfg4.N = fun i => mm (feat (argsOf m c)) (mat (a := 128) (b := 640) (wcat m c)) (i 0) (i 1) := by
  have hA : EntR4 m c main_arg1 = m ((c : Thread nD τ).loc main_arg1) := (A_eq4 (EntR4 m) c 0).symm.trans (entry4_0 m c)
  have hY : EntR4 m c main_v21 = fun i => mm (x3 (argsOf m c)) ((argsOf m c).Ws 3) (i 0) (i 1) :=
    ((A_eq4 (EntR4 m) c 1).symm.trans (entry4_1 m c)).trans (arr3 m c)
  refine (final4c (EntR4 m) c).trans ?_
  unfold G4c
  have e1 : mat (a := 10000) (b := 10000) (EntR4 m c main_arg1) = (argsOf m c).adj2 := funext fun i => funext fun k => congrFun hA (ix2 i k)
  have e2 : mat (a := 10000) (b := 128) (EntR4 m c main_v21) = mm (x3 (argsOf m c)) ((argsOf m c).Ws 3) := funext fun k => funext fun j => congrFun hY (ix2 k j)
  have e3 : (fun j => (EntR4 m c main_v33 : S1x128.Idx → EReal) (ix2 0 j)) = (argsOf m c).bs 3 := funext fun j => by
    show (Ent4 m c main_v33 : S1x128.Idx → EReal) (ix2 0 j) = _
    rw [host4_b]; exact biasRow_apply 3 _ _ _ _ 3 rfl j
  have e4 : (EntR4 m c main_v30 : S128x640.Idx → EReal) = wcat m c := host4_w m c
  rw [e1, e2, e3, e4]
  rfl

/-! ## Region 5 -/

/-- The five bias vectors end to end, as a row, as the host lays them. -/
def bcat : S1x640.Idx → EReal :=
  shapeCast S1x640 (concatenate S640 0
    [⟨S128, shapeCast S128 (extractStridedSlice S1x128 ![0, 0] (m ((c : Thread nD τ).loc main_arg5) : S4x128.Idx → EReal) slices_S4x128_S1x128_0_0) shapeCasts_S1x128_S128⟩,
     ⟨S128, shapeCast S128 (extractStridedSlice S1x128 ![1, 0] (m ((c : Thread nD τ).loc main_arg5) : S4x128.Idx → EReal) slices_S4x128_S1x128_1_0) shapeCasts_S1x128_S128⟩,
     ⟨S128, shapeCast S128 (extractStridedSlice S1x128 ![2, 0] (m ((c : Thread nD τ).loc main_arg5) : S4x128.Idx → EReal) slices_S4x128_S1x128_2_0) shapeCasts_S1x128_S128⟩,
     ⟨S128, shapeCast S128 (extractStridedSlice S1x128 ![3, 0] (m ((c : Thread nD τ).loc main_arg5) : S4x128.Idx → EReal) slices_S4x128_S1x128_3_0) shapeCasts_S1x128_S128⟩,
     ⟨S128, (m ((c : Thread nD τ).loc main_arg7) : S128.Idx → EReal)⟩] concatenates_S128_S128_S128_S128_S128_S640_d0) shapeCasts_S640_S1x640

theorem host5_bc : (Ent5 m c main_v44 : S1x640.Idx → EReal) = bcat m c := by
  show StableHlo.after hostOps5 (V10 m (outsAll m) c) (Proc.devRef .tc main_v44) = _
  unfold bcat
  after_results
  rfl

theorem host5_bm1 : (Ent5 m c main_v45 : S1x128.Idx → EReal) = shapeCast S1x128 (m ((c : Thread nD τ).loc main_arg9) : S128.Idx → EReal) shapeCasts_S128_S1x128 := by
  show StableHlo.after hostOps5 (V10 m (outsAll m) c) (Proc.devRef .tc main_v45) = _
  after_results
  rfl

theorem host5_bm2 : (Ent5 m c main_v46 : S1x1.Idx → EReal) = shapeCast S1x1 (m ((c : Thread nD τ).loc main_arg11) : S1.Idx → EReal) shapeCasts_S1_S1x1 := by
  show StableHlo.after hostOps5 (V10 m (outsAll m) c) (Proc.devRef .tc main_v46) = _
  after_results
  rfl

theorem bcat_bs (k : Fin 4) (j : Fin 128) : bcat m c (ix2 0 ⟨128 * k.val + j.val, by omega⟩) = (argsOf m c).bs k j := by
  unfold bcat
  rw [rowOfVec_apply]
  have h := endToEnd_apply
    (fun q : Fin 5 => match q with
      | ⟨0, _⟩ => shapeCast S128 (extractStridedSlice S1x128 ![0, 0] (m ((c : Thread nD τ).loc main_arg5) : S4x128.Idx → EReal) slices_S4x128_S1x128_0_0) shapeCasts_S1x128_S128
      | ⟨1, _⟩ => shapeCast S128 (extractStridedSlice S1x128 ![1, 0] (m ((c : Thread nD τ).loc main_arg5) : S4x128.Idx → EReal) slices_S4x128_S1x128_1_0) shapeCasts_S1x128_S128
      | ⟨2, _⟩ => shapeCast S128 (extractStridedSlice S1x128 ![2, 0] (m ((c : Thread nD τ).loc main_arg5) : S4x128.Idx → EReal) slices_S4x128_S1x128_2_0) shapeCasts_S1x128_S128
      | ⟨3, _⟩ => shapeCast S128 (extractStridedSlice S1x128 ![3, 0] (m ((c : Thread nD τ).loc main_arg5) : S4x128.Idx → EReal) slices_S4x128_S1x128_3_0) shapeCasts_S1x128_S128
      | ⟨4, _⟩ => (m ((c : Thread nD τ).loc main_arg7) : S128.Idx → EReal))
    concatenates_S128_S128_S128_S128_S128_S640_d0 ⟨k.val, by omega⟩ j ⟨128 * k.val + j.val, by omega⟩ rfl
  refine h.trans ?_
  match k with
  | ⟨0, _⟩ => exact biasSlice_apply 0 _ _ _ 0 rfl j
  | ⟨1, _⟩ => exact biasSlice_apply 1 _ _ _ 1 rfl j
  | ⟨2, _⟩ => exact biasSlice_apply 2 _ _ _ 2 rfl j
  | ⟨3, _⟩ => exact biasSlice_apply 3 _ _ _ 3 rfl j

theorem bcat_bl (j : Fin 128) : bcat m c (ix2 0 ⟨512 + j.val, by omega⟩) = (argsOf m c).bl j := by
  unfold bcat
  rw [rowOfVec_apply]
  exact endToEnd_apply
    (fun q : Fin 5 => match q with
      | ⟨0, _⟩ => shapeCast S128 (extractStridedSlice S1x128 ![0, 0] (m ((c : Thread nD τ).loc main_arg5) : S4x128.Idx → EReal) slices_S4x128_S1x128_0_0) shapeCasts_S1x128_S128
      | ⟨1, _⟩ => shapeCast S128 (extractStridedSlice S1x128 ![1, 0] (m ((c : Thread nD τ).loc main_arg5) : S4x128.Idx → EReal) slices_S4x128_S1x128_1_0) shapeCasts_S1x128_S128
      | ⟨2, _⟩ => shapeCast S128 (extractStridedSlice S1x128 ![2, 0] (m ((c : Thread nD τ).loc main_arg5) : S4x128.Idx → EReal) slices_S4x128_S1x128_2_0) shapeCasts_S1x128_S128
      | ⟨3, _⟩ => shapeCast S128 (extractStridedSlice S1x128 ![3, 0] (m ((c : Thread nD τ).loc main_arg5) : S4x128.Idx → EReal) slices_S4x128_S1x128_3_0) shapeCasts_S1x128_S128
      | ⟨4, _⟩ => (m ((c : Thread nD τ).loc main_arg7) : S128.Idx → EReal))
    concatenates_S128_S128_S128_S128_S128_S640_d0 4 j ⟨512 + j.val, by omega⟩ rfl

set_option maxHeartbeats 4000000 in
/-- THE KERNEL PROGRAM'S RESULT: the fused score of the argument arrays, row by row. -/
theorem res_eq : res m c = fun i => scoreFused (argsOf m c) (i 0) := by
  have hA : EntR5 m c main_arg1 = m ((c : Thread nD τ).loc main_arg1) := (A_eq5 (EntR5 m) c 0).symm.trans (entry5_0 m c)
  have hYC : EntR5 m c main_v34_1 = fun i => mm (feat (argsOf m c)) (mat (a := 128) (b := 640) (wcat m c)) (i 0) (i 1) :=
    ((A_eq5 (EntR5 m) c 1).symm.trans (entry5_1 m c)).trans (arr4c m c)
  have hX : EntR5 m c main_v34_0 = fun i => feat (argsOf m c) (i 0) (i 1) :=
    ((A_eq5 (EntR5 m) c 2).symm.trans (entry5_2 m c)).trans (arr4 m c)
  have hW1 : EntR5 m c main_arg8 = m ((c : Thread nD τ).loc main_arg8) := (A_eq5 (EntR5 m) c 4).symm.trans (entry5_4 m c)
  have hW2 : EntR5 m c main_arg10 = m ((c : Thread nD τ).loc main_arg10) := (A_eq5 (EntR5 m) c 6).symm.trans (entry5_6 m c)
  unfold res
  refine (final5 (EntR5 m) c).trans ?_
  unfold G5
  have e1 : mat (a := 10000) (b := 128) (EntR5 m c main_v34_0) = feat (argsOf m c) := funext fun i => funext fun l => congrFun hX (ix2 i l)
  have e2 : mat (a := 10000) (b := 10000) (EntR5 m c main_arg1) = (argsOf m c).adj2 := funext fun i => funext fun k => congrFun hA (ix2 i k)
  have e3 : mat (a := 10000) (b := 640) (EntR5 m c main_v34_1) = mm (feat (argsOf m c)) (mat (a := 128) (b := 640) (wcat m c)) :=
    funext fun k => funext fun cc => congrFun hYC (ix2 k cc)
  have e4 : (fun cc => (EntR5 m c main_v44 : S1x640.Idx → EReal) (ix2 0 cc)) = fun cc => bcat m c (ix2 0 cc) := funext fun cc => by
    show (Ent5 m c main_v44 : S1x640.Idx → EReal) (ix2 0 cc) = _
    rw [host5_bc]
  have e5 : mat (a := 128) (b := 128) (EntR5 m c main_arg8) = (argsOf m c).Wm1 := funext fun l => funext fun j => congrFun hW1 (ix2 l j)
  have e6 : (fun j => (EntR5 m c main_v45 : S1x128.Idx → EReal) (ix2 0 j)) = (argsOf m c).bm1 := funext fun j => by
    show (Ent5 m c main_v45 : S1x128.Idx → EReal) (ix2 0 j) = _
    rw [host5_bm1]; exact rowOfVec_apply _ _ j
  have e7 : (fun j => (EntR5 m c main_arg10 : S128x1.Idx → EReal) (ix2 j 0)) = fun j => (argsOf m c).Wm2 j 0 := funext fun j => congrFun hW2 (ix2 j 0)
  have e8 : (EntR5 m c main_v46 : S1x1.Idx → EReal) (ix2 (0 : Fin 1) (0 : Fin 1)) = (argsOf m c).bm2 0 := by
    show (Ent5 m c main_v46 : S1x1.Idx → EReal) (ix2 (0 : Fin 1) (0 : Fin 1))
      = (m ((c : Thread nD τ).loc main_arg11) : S1.Idx → EReal) (ix1 (0 : Fin 1))
    rw [host5_bm2]
    exact shapeCast_a_1a_apply (a := 1) (m ((c : Thread nD τ).loc main_arg11) : S1.Idx → EReal) shapeCasts_S1_S1x1 (0 : Fin 1) (0 : Fin 1)
  rw [e1, e2, e3, e4, e5, e6, e7, e8]
  funext i
  exact fusedRow_eq_scoreFused (argsOf m c) (mat (a := 128) (b := 640) (wcat m c)) (fun cc => bcat m c (ix2 0 cc))
    (fun k l j => wcat_ws m c k l j) (fun l j => wcat_wl m c l j) (fun k j => bcat_bs m c k j) (fun j => bcat_bl m c j) (i 0)

end Cert.KernelIdeal.KV

end
-- ==== Proof.Ref.Ops.lean ====
/-
  The reference program's operations, cut into consecutive stretches: the first propagation step, the four
  further steps, the unnormalised last propagation, the four branch propagations and the six perceptrons, and the
  final additions.  The whole program is the stretches run in order.  Each stretch comes with the list of the buffers
  it writes, and every operation touches buffers of the TensorCore only.
-/
import proofs.«172286_g11278584119306_cont_sun_m_662_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch writing `main_v0` … `main_v9`. -/
def sStep0 : List (HloOp τ sig (Elt F)) :=
  [ binary main_arg0 main_arg2 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S10000x128 ![0, 1] bcast_S1x128_S10000x128_0_1 : (⟨S1x128, .f32⟩ : BufTy).Contents (Elt F) → (⟨S10000x128, .f32⟩ : BufTy).Contents (Elt F)),
    binary main_v0 main_v2 main_v3 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v3) (TRef.of (T := ⟨S10000x128, .f32⟩) main_call0_v0) (TRef.of (T := ⟨S10000x128, .f32⟩) main_v4) maximumf,
    TRef.binary (TRef.of (T := ⟨S10000x128, .f32⟩) main_v4) (TRef.of (T := ⟨S10000x128, .f32⟩) main_v4) (TRef.of (T := ⟨S10000x128, .f32⟩) main_call1_v0) mulf,
    TRef.nullary (TRef.of (T := ⟨S_, .f32⟩) main_call1_cst) (constant S_ .f32 0x00000000#32),
    TRef.binary (TRef.of (T := ⟨S10000x128, .f32⟩) main_call1_v0) (TRef.of (T := ⟨S_, .f32⟩) main_call1_cst) (TRef.of (T := ⟨S10000, .f32⟩) main_call1_v1) (fun x v => Host.reduceAdd x v reducesTo_S10000x128_S10000_d1 h_S_),
    TRef.unary (TRef.of (T := ⟨S10000, .f32⟩) main_call1_v1) (TRef.of (T := ⟨S10000x1, .f32⟩) main_call1_v2) (broadcastInDim S10000x1 ![0] bcast_S10000_S10000x1_0),
    TRef.unary (TRef.of (T := ⟨S10000x1, .f32⟩) main_call1_v2) (TRef.of (T := ⟨S10000x1, .f32⟩) main_v5) Host.sqrt,
    nullary main_cst (constant S_ .f32 0x2B8CBCCC#32),
    unary main_cst main_v6 (broadcastInDim S10000x1 ![] bcast_S_S10000x1 : (⟨S_, .f32⟩ : BufTy).Contents (Elt F) → (⟨S10000x1, .f32⟩ : BufTy).Contents (Elt F)),
    binary main_v5 main_v6 main_v7 (maximumf : (⟨S10000x1, .f32⟩ : BufTy).Contents (Elt F) → (⟨S10000x1, .f32⟩ : BufTy).Contents (Elt F) → (⟨S10000x1, .f32⟩ : BufTy).Contents (Elt F)),
    unary main_v7 main_v8 (broadcastInDim S10000x128 ![0, 1] bcast_S10000x1_S10000x128_0_1 : (⟨S10000x1, .f32⟩ : BufTy).Contents (Elt F) → (⟨S10000x128, .f32⟩ : BufTy).Contents (Elt F)),
    binary main_v4 main_v8 main_v9 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sStep0_sub : (sStep0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sStep0_W : List (Ref sig .tc) :=
  [main_v0, main_v1, main_v2, main_v3, main_call0_cst, main_call0_v0, main_v4, main_call1_v0, main_call1_cst, main_call1_v1, main_call1_v2, main_v5, main_cst, main_v6, main_v7, main_v8, main_v9]

/-- The stretch writing `main_v10` … `main_v24`. -/
def sStep1 : List (HloOp τ sig (Elt F)) :=
  [ unary main_arg4 main_v10 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v10 main_v11 rfl shapeCasts_S1x128x128_S128x128,
    binary main_v9 main_v11 main_v12 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v12 main_v13 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v14 ((extractStridedSlice S1x128 ![0, 0] · slices_S4x128_S1x128_0_0) : (⟨S4x128, .f32⟩ : BufTy).Contents (Elt F) → (⟨S1x128, .f32⟩ : BufTy).Contents (Elt F)),
    reshape main_v14 main_v15 rfl shapeCasts_S1x128_S128,
    unary main_v15 main_v16 (broadcastInDim S1x128 ![1] bcast_S128_S1x128_1 : (⟨S128, .f32⟩ : BufTy).Contents (Elt F) → (⟨S1x128, .f32⟩ : BufTy).Contents (Elt F)),
    unary main_v16 main_v17 (broadcastInDim S10000x128 ![0, 1] bcast_S1x128_S10000x128_0_1 : (⟨S1x128, .f32⟩ : BufTy).Contents (Elt F) → (⟨S10000x128, .f32⟩ : BufTy).Contents (Elt F)),
    binary main_v13 main_v17 main_v18 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v18) (TRef.of (T := ⟨S10000x128, .f32⟩) main_call2_v0) (TRef.of (T := ⟨S10000x128, .f32⟩) main_v19) maximumf,
    TRef.binary (TRef.of (T := ⟨S10000x128, .f32⟩) main_v19) (TRef.of (T := ⟨S10000x128, .f32⟩) main_v19) (TRef.of (T := ⟨S10000x128, .f32⟩) main_call3_v0) mulf,
    TRef.nullary (TRef.of (T := ⟨S_, .f32⟩) main_call3_cst) (constant S_ .f32 0x00000000#32),
    TRef.binary (TRef.of (T := ⟨S10000x128, .f32⟩) main_call3_v0) (TRef.of (T := ⟨S_, .f32⟩) main_call3_cst) (TRef.of (T := ⟨S10000, .f32⟩) main_call3_v1) (fun x v => Host.reduceAdd x v reducesTo_S10000x128_S10000_d1 h_S_),
    TRef.unary (TRef.of (T := ⟨S10000, .f32⟩) main_call3_v1) (TRef.of (T := ⟨S10000x1, .f32⟩) main_call3_v2) (broadcastInDim S10000x1 ![0] bcast_S10000_S10000x1_0),
    TRef.unary (TRef.of (T := ⟨S10000x1, .f32⟩) main_call3_v2) (TRef.of (T := ⟨S10000x1, .f32⟩) main_v20) Host.sqrt,
    nullary main_cst_0 (constant S_ .f32 0x2B8CBCCC#32),
    unary main_cst_0 main_v21 (broadcastInDim S10000x1 ![] bcast_S_S10000x1 : (⟨S_, .f32⟩ : BufTy).Contents (Elt F) → (⟨S10000x1, .f32⟩ : BufTy).Contents (Elt F)),
    binary main_v20 main_v21 main_v22 (maximumf : (⟨S10000x1, .f32⟩ : BufTy).Contents (Elt F) → (⟨S10000x1, .f32⟩ : BufTy).Contents (Elt F) → (⟨S10000x1, .f32⟩ : BufTy).Contents (Elt F)),
    unary main_v22 main_v23 (broadcastInDim S10000x128 ![0, 1] bcast_S10000x1_S10000x128_0_1 : (⟨S10000x1, .f32⟩ : BufTy).Contents (Elt F) → (⟨S10000x128, .f32⟩ : BufTy).Contents (Elt F)),
    binary main_v19 main_v23 main_v24 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sStep1_sub : (sStep1 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sStep1_W : List (Ref sig .tc) :=
  [main_v10, main_v11, main_v12, main_v13, main_v14, main_v15, main_v16, main_v17, main_v18, main_call2_cst, main_call2_v0, main_v19, main_call3_v0, main_call3_cst, main_call3_v1, main_call3_v2, main_v20, main_cst_0, main_v21, main_v22, main_v23, main_v24]

/-- The stretch writing `main_v25` … `main_v39`. -/
def sStep2 : List (HloOp τ sig (Elt F)) :=
  [ unary main_arg4 main_v25 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v27 main_v28 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v29 ((extractStridedSlice S1x128 ![1, 0] · slices_S4x128_S1x128_1_0) : (⟨S4x128, .f32⟩ : BufTy).Contents (Elt F) → (⟨S1x128, .f32⟩ : BufTy).Contents (Elt F)),
    reshape main_v29 main_v30 rfl shapeCasts_S1x128_S128,
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S10000x128 ![0, 1] bcast_S1x128_S10000x128_0_1 : (⟨S1x128, .f32⟩ : BufTy).Contents (Elt F) → (⟨S10000x128, .f32⟩ : BufTy).Contents (Elt F)),
    binary main_v28 main_v32 main_v33 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x128, .f32⟩) main_call4_v0) (broadcastInDim S10000x128 ![] bcast_S_S10000x128),
    TRef.binary (TRef.of (T := ⟨S10000x128, .f32⟩) main_v33) (TRef.of (T := ⟨S10000x128, .f32⟩) main_call4_v0) (TRef.of (T := ⟨S10000x128, .f32⟩) main_v34) maximumf,
    TRef.binary (TRef.of (T := ⟨S10000x128, .f32⟩) main_v34) (TRef.of (T := ⟨S10000x128, .f32⟩) main_v34) (TRef.of (T := ⟨S10000x128, .f32⟩) main_call5_v0) mulf,
    TRef.nullary (TRef.of (T := ⟨S_, .f32⟩) main_call5_cst) (constant S_ .f32 0x00000000#32),
    TRef.binary (TRef.of (T := ⟨S10000x128, .f32⟩) main_call5_v0) (TRef.of (T := ⟨S_, .f32⟩) main_call5_cst) (TRef.of (T := ⟨S10000, .f32⟩) main_call5_v1) (fun x v => Host.reduceAdd x v reducesTo_S10000x128_S10000_d1 h_S_),
    TRef.unary (TRef.of (T := ⟨S10000, .f32⟩) main_call5_v1) (TRef.of (T := ⟨S10000x1, .f32⟩) main_call5_v2) (broadcastInDim S10000x1 ![0] bcast_S10000_S10000x1_0),
    TRef.unary (TRef.of (T := ⟨S10000x1, .f32⟩) main_call5_v2) (TRef.of (T := ⟨S10000x1, .f32⟩) main_v35) Host.sqrt,
    nullary main_cst_1 (constant S_ .f32 0x2B8CBCCC#32),
    unary main_cst_1 main_v36 (broadcastInDim S10000x1 ![] bcast_S_S10000x1 : (⟨S_, .f32⟩ : BufTy).Contents (Elt F) → (⟨S10000x1, .f32⟩ : BufTy).Contents (Elt F)),
    binary main_v35 main_v36 main_v37 (maximumf : (⟨S10000x1, .f32⟩ : BufTy).Contents (Elt F) → (⟨S10000x1, .f32⟩ : BufTy).Contents (Elt F) → (⟨S10000x1, .f32⟩ : BufTy).Contents (Elt F)),
    unary main_v37 main_v38 (broadcastInDim S10000x128 ![0, 1] bcast_S10000x1_S10000x128_0_1 : (⟨S10000x1, .f32⟩ : BufTy).Contents (Elt F) → (⟨S10000x128, .f32⟩ : BufTy).Contents (Elt F)),
    binary main_v34 main_v38 main_v39 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sStep2_sub : (sStep2 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sStep2_W : List (Ref sig .tc) :=
  [main_v25, main_v26, main_v27, main_v28, main_v29, main_v30, main_v31, main_v32, main_v33, main_call4_cst, main_call4_v0, main_v34, main_call5_v0, main_call5_cst, main_call5_v1, main_call5_v2, main_v35, main_cst_1, main_v36, main_v37, main_v38, main_v39]

/-- The stretch writing `main_v40` … `main_v54`. -/
def sStep3 : List (HloOp τ sig (Elt F)) :=
  [ unary main_arg4 main_v40 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v40 main_v41 rfl shapeCasts_S1x128x128_S128x128,
    binary main_v39 main_v41 main_v42 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v42 main_v43 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v44 ((extractStridedSlice S1x128 ![2, 0] · slices_S4x128_S1x128_2_0) : (⟨S4x128, .f32⟩ : BufTy).Contents (Elt F) → (⟨S1x128, .f32⟩ : BufTy).Contents (Elt F)),
    reshape main_v44 main_v45 rfl shapeCasts_S1x128_S128,
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S10000x128 ![0, 1] bcast_S1x128_S10000x128_0_1 : (⟨S1x128, .f32⟩ : BufTy).Contents (Elt F) → (⟨S10000x128, .f32⟩ : BufTy).Contents (Elt F)),
    binary main_v43 main_v47 main_v48 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S10000x128, .f32⟩) main_call6_v0) (broadcastInDim S10000x128 ![] bcast_S_S10000x128),
    TRef.binary (TRef.of (T := ⟨S10000x128, .f32⟩) main_v48) (TRef.of (T := ⟨S10000x128, .f32⟩) main_call6_v0) (TRef.of (T := ⟨S10000x128, .f32⟩) main_v49) maximumf,
    TRef.binary (TRef.of (T := ⟨S10000x128, .f32⟩) main_v49) (TRef.of (T := ⟨S10000x128, .f32⟩) main_v49) (TRef.of (T := ⟨S10000x128, .f32⟩) main_call7_v0) mulf,
    TRef.nullary (TRef.of (T := ⟨S_, .f32⟩) main_call7_cst) (constant S_ .f32 0x00000000#32),
    TRef.binary (TRef.of (T := ⟨S10000x128, .f32⟩) main_call7_v0) (TRef.of (T := ⟨S_, .f32⟩) main_call7_cst) (TRef.of (T := ⟨S10000, .f32⟩) main_call7_v1) (fun x v => Host.reduceAdd x v reducesTo_S10000x128_S10000_d1 h_S_),
    TRef.unary (TRef.of (T := ⟨S10000, .f32⟩) main_call7_v1) (TRef.of (T := ⟨S10000x1, .f32⟩) main_call7_v2) (broadcastInDim S10000x1 ![0] bcast_S10000_S10000x1_0),
    TRef.unary (TRef.of (T := ⟨S10000x1, .f32⟩) main_call7_v2) (TRef.of (T := ⟨S10000x1, .f32⟩) main_v50) Host.sqrt,
    nullary main_cst_2 (constant S_ .f32 0x2B8CBCCC#32),
    unary main_cst_2 main_v51 (broadcastInDim S10000x1 ![] bcast_S_S10000x1 : (⟨S_, .f32⟩ : BufTy).Contents (Elt F) → (⟨S10000x1, .f32⟩ : BufTy).Contents (Elt F)),
    binary main_v50 main_v51 main_v52 (maximumf : (⟨S10000x1, .f32⟩ : BufTy).Contents (Elt F) → (⟨S10000x1, .f32⟩ : BufTy).Contents (Elt F) → (⟨S10000x1, .f32⟩ : BufTy).Contents (Elt F)),
    unary main_v52 main_v53 (broadcastInDim S10000x128 ![0, 1] bcast_S10000x1_S10000x128_0_1 : (⟨S10000x1, .f32⟩ : BufTy).Contents (Elt F) → (⟨S10000x128, .f32⟩ : BufTy).Contents (Elt F)),
    binary main_v49 main_v53 main_v54 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sStep3_sub : (sStep3 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sStep3_W : List (Ref sig .tc) :=
  [main_v40, main_v41, main_v42, main_v43, main_v44, main_v45, main_v46, main_v47, main_v48, main_call6_cst, main_call6_v0, main_v49, main_call7_v0, main_call7_cst, main_call7_v1, main_call7_v2, main_v50, main_cst_2, main_v51, main_v52, main_v53, main_v54]

/-- The stretch writing `main_v55` … `main_v69`. -/
def sStep4 : List (HloOp τ sig (Elt F)) :=
  [ unary main_arg4 main_v55 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v55 main_v56 rfl shapeCasts_S1x128x128_S128x128,
    binary main_v54 main_v56 main_v57 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v57 main_v58 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v59 ((extractStridedSlice S1x128 ![3, 0] · slices_S4x128_S1x128_3_0) : (⟨S4x128, .f32⟩ : BufTy).Contents (Elt F) → (⟨S1x128, .f32⟩ : BufTy).Contents (Elt F)),
    reshape main_v59 main_v60 rfl shapeCasts_S1x128_S128,
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S10000x128 ![0, 1] bcast_S1x128_S10000x128_0_1 : (⟨S1x128, .f32⟩ : BufTy).Contents (Elt F) → (⟨S10000x128, .f32⟩ : BufTy).Contents (Elt F)),
    binary main_v58 main_v62 main_v63 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S10000x128, .f32⟩) main_call8_v0) (broadcastInDim S10000x128 ![] bcast_S_S10000x128),
    TRef.binary (TRef.of (T := ⟨S10000x128, .f32⟩) main_v63) (TRef.of (T := ⟨S10000x128, .f32⟩) main_call8_v0) (TRef.of (T := ⟨S10000x128, .f32⟩) main_v64) maximumf,
    TRef.binary (TRef.of (T := ⟨S10000x128, .f32⟩) main_v64) (TRef.of (T := ⟨S10000x128, .f32⟩) main_v64) (TRef.of (T := ⟨S10000x128, .f32⟩) main_call9_v0) mulf,
    TRef.nullary (TRef.of (T := ⟨S_, .f32⟩) main_call9_cst) (constant S_ .f32 0x00000000#32),
    TRef.binary (TRef.of (T := ⟨S10000x128, .f32⟩) main_call9_v0) (TRef.of (T := ⟨S_, .f32⟩) main_call9_cst) (TRef.of (T := ⟨S10000, .f32⟩) main_call9_v1) (fun x v => Host.reduceAdd x v reducesTo_S10000x128_S10000_d1 h_S_),
    TRef.unary (TRef.of (T := ⟨S10000, .f32⟩) main_call9_v1) (TRef.of (T := ⟨S10000x1, .f32⟩) main_call9_v2) (broadcastInDim S10000x1 ![0] bcast_S10000_S10000x1_0),
    TRef.unary (TRef.of (T := ⟨S10000x1, .f32⟩) main_call9_v2) (TRef.of (T := ⟨S10000x1, .f32⟩) main_v65) Host.sqrt,
    nullary main_cst_3 (constant S_ .f32 0x2B8CBCCC#32),
    unary main_cst_3 main_v66 (broadcastInDim S10000x1 ![] bcast_S_S10000x1 : (⟨S_, .f32⟩ : BufTy).Contents (Elt F) → (⟨S10000x1, .f32⟩ : BufTy).Contents (Elt F)),
    binary main_v65 main_v66 main_v67 (maximumf : (⟨S10000x1, .f32⟩ : BufTy).Contents (Elt F) → (⟨S10000x1, .f32⟩ : BufTy).Contents (Elt F) → (⟨S10000x1, .f32⟩ : BufTy).Contents (Elt F)),
    unary main_v67 main_v68 (broadcastInDim S10000x128 ![0, 1] bcast_S10000x1_S10000x128_0_1 : (⟨S10000x1, .f32⟩ : BufTy).Contents (Elt F) → (⟨S10000x128, .f32⟩ : BufTy).Contents (Elt F)),
    binary main_v64 main_v68 main_v69 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sStep4_sub : (sStep4 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sStep4_W : List (Ref sig .tc) :=
  [main_v55, main_v56, main_v57, main_v58, main_v59, main_v60, main_v61, main_v62, main_v63, main_call8_cst, main_call8_v0, main_v64, main_call9_v0, main_call9_cst, main_call9_v1, main_call9_v2, main_v65, main_cst_3, main_v66, main_v67, main_v68, main_v69]

/-- The stretch writing `main_v70` … `main_v75`. -/
def sLast : List (HloOp τ sig (Elt F)) :=
  [ binary main_v69 main_arg6 main_v70 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v70 main_v71 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v72 (broadcastInDim S1x128 ![1] bcast_S128_S1x128_1 : (⟨S128, .f32⟩ : BufTy).Contents (Elt F) → (⟨S1x128, .f32⟩ : BufTy).Contents (Elt F)),
    unary main_v72 main_v73 (broadcastInDim S10000x128 ![0, 1] bcast_S1x128_S10000x128_0_1 : (⟨S1x128, .f32⟩ : BufTy).Contents (Elt F) → (⟨S10000x128, .f32⟩ : BufTy).Contents (Elt F)),
    binary main_v71 main_v73 main_v74 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S10000x128, .f32⟩) main_call10_v0) (broadcastInDim S10000x128 ![] bcast_S_S10000x128),
    TRef.binary (TRef.of (T := ⟨S10000x128, .f32⟩) main_v74) (TRef.of (T := ⟨S10000x128, .f32⟩) main_call10_v0) (TRef.of (T := ⟨S10000x128, .f32⟩) main_v75) maximumf ]

/-- Every operation of the stretch touches buffers of the TensorCore only. -/
theorem sLast_sub : (sLast : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩

/-- The buffers that stretch writes. -/
def sLast_W : List (Ref sig .tc) :=
  [main_v70, main_v71, main_v72, main_v73, main_v74, main_call10_cst, main_call10_v0, main_v75]

/-- The stretch writing `main_v76` … `main_v84`. -/
def sMlp0 : List (HloOp τ sig (Elt F)) :=
  [ binary main_v69 main_arg8 main_v76 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v77 (broadcastInDim S1x128 ![1] bcast_S128_S1x128_1 : (⟨S128, .f32⟩ : BufTy).Contents (Elt F) → (⟨S1x128, .f32⟩ : BufTy).Contents (Elt F)),
    unary main_v77 main_v78 (broadcastInDim S10000x128 ![0, 1] bcast_S1x128_S10000x128_0_1 : (⟨S1x128, .f32⟩ : BufTy).Contents (Elt F) → (⟨S10000x128, .f32⟩ : BufTy).Contents (Elt F)),
    binary main_v76 main_v78 main_v79 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S10000x128, .f32⟩) main_call11_v0) (broadcastInDim S10000x128 ![] bcast_S_S10000x128),
    TRef.binary (TRef.of (T := ⟨S10000x128, .f32⟩) main_v79) (TRef.of (T := ⟨S10000x128, .f32⟩) main_call11_v0) (TRef.of (T := ⟨S10000x128, .f32⟩) main_v80) maximumf,
    binary main_v80 main_arg10 main_v81 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v82 (broadcastInDim S1x1 ![1] bcast_S1_S1x1_1 : (⟨S1, .f32⟩ : BufTy).Contents (Elt F) → (⟨S1x1, .f32⟩ : BufTy).Contents (Elt F)),
    unary main_v82 main_v83 (broadcastInDim S10000x1 ![0, 1] bcast_S1x1_S10000x1_0_1 : (⟨S1x1, .f32⟩ : BufTy).Contents (Elt F) → (⟨S10000x1, .f32⟩ : BufTy).Contents (Elt F)),
    binary main_v81 main_v83 main_v84 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sMlp0_sub : (sMlp0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that stretch writes. -/
def sMlp0_W : List (Ref sig .tc) :=
  [main_v76, main_v77, main_v78, main_v79, main_call11_cst, main_call11_v0, main_v80, main_v81, main_v82, main_v83, main_v84]

/-- The stretch writing `main_v85` … `main_v99`. -/
def sBr0 : List (HloOp τ sig (Elt F)) :=
  [ unary main_arg4 main_v85 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v85 main_v86 rfl shapeCasts_S1x128x128_S128x128,
    binary main_v69 main_v86 main_v87 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v87 main_v88 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v89 ((extractStridedSlice S1x128 ![0, 0] · slices_S4x128_S1x128_0_0) : (⟨S4x128, .f32⟩ : BufTy).Contents (Elt F) → (⟨S1x128, .f32⟩ : BufTy).Contents (Elt F)),
    reshape main_v89 main_v90 rfl shapeCasts_S1x128_S128,
    unary main_v90 main_v91 (broadcastInDim S1x128 ![1] bcast_S128_S1x128_1 : (⟨S128, .f32⟩ : BufTy).Contents (Elt F) → (⟨S1x128, .f32⟩ : BufTy).Contents (Elt F)),
    unary main_v91 main_v92 (broadcastInDim S10000x128 ![0, 1] bcast_S1x128_S10000x128_0_1 : (⟨S1x128, .f32⟩ : BufTy).Contents (Elt F) → (⟨S10000x128, .f32⟩ : BufTy).Contents (Elt F)),
    binary main_v88 main_v92 main_v93 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S10000x128, .f32⟩) main_call12_v0) (broadcastInDim S10000x128 ![] bcast_S_S10000x128),
    TRef.binary (TRef.of (T := ⟨S10000x128, .f32⟩) main_v93) (TRef.of (T := ⟨S10000x128, .f32⟩) main_call12_v0) (TRef.of (T := ⟨S10000x128, .f32⟩) main_v94) maximumf,
    TRef.binary (TRef.of (T := ⟨S10000x128, .f32⟩) main_v94) (TRef.of (T := ⟨S10000x128, .f32⟩) main_v94) (TRef.of (T := ⟨S10000x128, .f32⟩) main_call13_v0) mulf,
    TRef.nullary (TRef.of (T := ⟨S_, .f32⟩) main_call13_cst) (constant S_ .f32 0x00000000#32),
    TRef.binary (TRef.of (T := ⟨S10000x128, .f32⟩) main_call13_v0) (TRef.of (T := ⟨S_, .f32⟩) main_call13_cst) (TRef.of (T := ⟨S10000, .f32⟩) main_call13_v1) (fun x v => Host.reduceAdd x v reducesTo_S10000x128_S10000_d1 h_S_),
    TRef.unary (TRef.of (T := ⟨S10000, .f32⟩) main_call13_v1) (TRef.of (T := ⟨S10000x1, .f32⟩) main_call13_v2) (broadcastInDim S10000x1 ![0] bcast_S10000_S10000x1_0),
    TRef.unary (TRef.of (T := ⟨S10000x1, .f32⟩) main_call13_v2) (TRef.of (T := ⟨S10000x1, .f32⟩) main_v95) Host.sqrt,
    nullary main_cst_4 (constant S_ .f32 0x2B8CBCCC#32),
    unary main_cst_4 main_v96 (broadcastInDim S10000x1 ![] bcast_S_S10000x1 : (⟨S_, .f32⟩ : BufTy).Contents (Elt F) → (⟨S10000x1, .f32⟩ : BufTy).Contents (Elt F)),
    binary main_v95 main_v96 main_v97 (maximumf : (⟨S10000x1, .f32⟩ : BufTy).Contents (Elt F) → (⟨S10000x1, .f32⟩ : BufTy).Contents (Elt F) → (⟨S10000x1, .f32⟩ : BufTy).Contents (Elt F)),
    unary main_v97 main_v98 (broadcastInDim S10000x128 ![0, 1] bcast_S10000x1_S10000x128_0_1 : (⟨S10000x1, .f32⟩ : BufTy).Contents (Elt F) → (⟨S10000x128, .f32⟩ : BufTy).Contents (Elt F)),
    binary main_v94 main_v98 main_v99 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sBr0_sub : (sBr0 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sBr0_W : List (Ref sig .tc) :=
  [main_v85, main_v86, main_v87, main_v88, main_v89, main_v90, main_v91, main_v92, main_v93, main_call12_cst, main_call12_v0, main_v94, main_call13_v0, main_call13_cst, main_call13_v1, main_call13_v2, main_v95, main_cst_4, main_v96, main_v97, main_v98, main_v99]

/-- The stretch writing `main_v100` … `main_v108`. -/
def sMlp1 : List (HloOp τ sig (Elt F)) :=
  [ binary main_v99 main_arg8 main_v100 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v101 (broadcastInDim S1x128 ![1] bcast_S128_S1x128_1 : (⟨S128, .f32⟩ : BufTy).Contents (Elt F) → (⟨S1x128, .f32⟩ : BufTy).Contents (Elt F)),
    unary main_v101 main_v102 (broadcastInDim S10000x128 ![0, 1] bcast_S1x128_S10000x128_0_1 : (⟨S1x128, .f32⟩ : BufTy).Contents (Elt F) → (⟨S10000x128, .f32⟩ : BufTy).Contents (Elt F)),
    binary main_v100 main_v102 main_v103 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S10000x128, .f32⟩) main_call14_v0) (broadcastInDim S10000x128 ![] bcast_S_S10000x128),
    TRef.binary (TRef.of (T := ⟨S10000x128, .f32⟩) main_v103) (TRef.of (T := ⟨S10000x128, .f32⟩) main_call14_v0) (TRef.of (T := ⟨S10000x128, .f32⟩) main_v104) maximumf,
    binary main_v104 main_arg10 main_v105 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v106 (broadcastInDim S1x1 ![1] bcast_S1_S1x1_1 : (⟨S1, .f32⟩ : BufTy).Contents (Elt F) → (⟨S1x1, .f32⟩ : BufTy).Contents (Elt F)),
    unary main_v106 main_v107 (broadcastInDim S10000x1 ![0, 1] bcast_S1x1_S10000x1_0_1 : (⟨S1x1, .f32⟩ : BufTy).Contents (Elt F) → (⟨S10000x1, .f32⟩ : BufTy).Contents (Elt F)),
    binary main_v105 main_v107 main_v108 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sMlp1_sub : (sMlp1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that stretch writes. -/
def sMlp1_W : List (Ref sig .tc) :=
  [main_v100, main_v101, main_v102, main_v103, main_call14_cst, main_call14_v0, main_v104, main_v105, main_v106, main_v107, main_v108]

/-- The stretch writing `main_v109` … `main_v123`. -/
def sBr1 : List (HloOp τ sig (Elt F)) :=
  [ unary main_arg4 main_v109 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v109 main_v110 rfl shapeCasts_S1x128x128_S128x128,
    binary main_v69 main_v110 main_v111 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v111 main_v112 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v113 ((extractStridedSlice S1x128 ![1, 0] · slices_S4x128_S1x128_1_0) : (⟨S4x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S10000x128 ![0, 1] bcast_S1x128_S10000x128_0_1 : (⟨S1x128, .f32⟩ : BufTy).Contents (Elt F) → (⟨S10000x128, .f32⟩ : BufTy).Contents (Elt F)),
    binary main_v112 main_v116 main_v117 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S10000x128, .f32⟩) main_call15_v0) (broadcastInDim S10000x128 ![] bcast_S_S10000x128),
    TRef.binary (TRef.of (T := ⟨S10000x128, .f32⟩) main_v117) (TRef.of (T := ⟨S10000x128, .f32⟩) main_call15_v0) (TRef.of (T := ⟨S10000x128, .f32⟩) main_v118) maximumf,
    TRef.binary (TRef.of (T := ⟨S10000x128, .f32⟩) main_v118) (TRef.of (T := ⟨S10000x128, .f32⟩) main_v118) (TRef.of (T := ⟨S10000x128, .f32⟩) main_call16_v0) mulf,
    TRef.nullary (TRef.of (T := ⟨S_, .f32⟩) main_call16_cst) (constant S_ .f32 0x00000000#32),
    TRef.binary (TRef.of (T := ⟨S10000x128, .f32⟩) main_call16_v0) (TRef.of (T := ⟨S_, .f32⟩) main_call16_cst) (TRef.of (T := ⟨S10000, .f32⟩) main_call16_v1) (fun x v => Host.reduceAdd x v reducesTo_S10000x128_S10000_d1 h_S_),
    TRef.unary (TRef.of (T := ⟨S10000, .f32⟩) main_call16_v1) (TRef.of (T := ⟨S10000x1, .f32⟩) main_call16_v2) (broadcastInDim S10000x1 ![0] bcast_S10000_S10000x1_0),
    TRef.unary (TRef.of (T := ⟨S10000x1, .f32⟩) main_call16_v2) (TRef.of (T := ⟨S10000x1, .f32⟩) main_v119) Host.sqrt,
    nullary main_cst_5 (constant S_ .f32 0x2B8CBCCC#32),
    unary main_cst_5 main_v120 (broadcastInDim S10000x1 ![] bcast_S_S10000x1 : (⟨S_, .f32⟩ : BufTy).Contents (Elt F) → (⟨S10000x1, .f32⟩ : BufTy).Contents (Elt F)),
    binary main_v119 main_v120 main_v121 (maximumf : (⟨S10000x1, .f32⟩ : BufTy).Contents (Elt F) → (⟨S10000x1, .f32⟩ : BufTy).Contents (Elt F) → (⟨S10000x1, .f32⟩ : BufTy).Contents (Elt F)),
    unary main_v121 main_v122 (broadcastInDim S10000x128 ![0, 1] bcast_S10000x1_S10000x128_0_1 : (⟨S10000x1, .f32⟩ : BufTy).Contents (Elt F) → (⟨S10000x128, .f32⟩ : BufTy).Contents (Elt F)),
    binary main_v118 main_v122 main_v123 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sBr1_sub : (sBr1 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sBr1_W : List (Ref sig .tc) :=
  [main_v109, main_v110, main_v111, main_v112, main_v113, main_v114, main_v115, main_v116, main_v117, main_call15_cst, main_call15_v0, main_v118, main_call16_v0, main_call16_cst, main_call16_v1, main_call16_v2, main_v119, main_cst_5, main_v120, main_v121, main_v122, main_v123]

/-- The stretch writing `main_v124` … `main_v132`. -/
def sMlp2 : List (HloOp τ sig (Elt F)) :=
  [ binary main_v123 main_arg8 main_v124 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v125 (broadcastInDim S1x128 ![1] bcast_S128_S1x128_1 : (⟨S128, .f32⟩ : BufTy).Contents (Elt F) → (⟨S1x128, .f32⟩ : BufTy).Contents (Elt F)),
    unary main_v125 main_v126 (broadcastInDim S10000x128 ![0, 1] bcast_S1x128_S10000x128_0_1 : (⟨S1x128, .f32⟩ : BufTy).Contents (Elt F) → (⟨S10000x128, .f32⟩ : BufTy).Contents (Elt F)),
    binary main_v124 main_v126 main_v127 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S10000x128, .f32⟩) main_call17_v0) (broadcastInDim S10000x128 ![] bcast_S_S10000x128),
    TRef.binary (TRef.of (T := ⟨S10000x128, .f32⟩) main_v127) (TRef.of (T := ⟨S10000x128, .f32⟩) main_call17_v0) (TRef.of (T := ⟨S10000x128, .f32⟩) main_v128) maximumf,
    binary main_v128 main_arg10 main_v129 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v130 (broadcastInDim S1x1 ![1] bcast_S1_S1x1_1 : (⟨S1, .f32⟩ : BufTy).Contents (Elt F) → (⟨S1x1, .f32⟩ : BufTy).Contents (Elt F)),
    unary main_v130 main_v131 (broadcastInDim S10000x1 ![0, 1] bcast_S1x1_S10000x1_0_1 : (⟨S1x1, .f32⟩ : BufTy).Contents (Elt F) → (⟨S10000x1, .f32⟩ : BufTy).Contents (Elt F)),
    binary main_v129 main_v131 main_v132 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sMlp2_sub : (sMlp2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that stretch writes. -/
def sMlp2_W : List (Ref sig .tc) :=
  [main_v124, main_v125, main_v126, main_v127, main_call17_cst, main_call17_v0, main_v128, main_v129, main_v130, main_v131, main_v132]

/-- The stretch writing `main_v133` … `main_v147`. -/
def sBr2 : List (HloOp τ sig (Elt F)) :=
  [ unary main_arg4 main_v133 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v133 main_v134 rfl shapeCasts_S1x128x128_S128x128,
    binary main_v69 main_v134 main_v135 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v135 main_v136 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v137 ((extractStridedSlice S1x128 ![2, 0] · slices_S4x128_S1x128_2_0) : (⟨S4x128, .f32⟩ : BufTy).Contents (Elt F) → (⟨S1x128, .f32⟩ : BufTy).Contents (Elt F)),
    reshape main_v137 main_v138 rfl shapeCasts_S1x128_S128,
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S10000x128 ![0, 1] bcast_S1x128_S10000x128_0_1 : (⟨S1x128, .f32⟩ : BufTy).Contents (Elt F) → (⟨S10000x128, .f32⟩ : BufTy).Contents (Elt F)),
    binary main_v136 main_v140 main_v141 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S10000x128, .f32⟩) main_call18_v0) (broadcastInDim S10000x128 ![] bcast_S_S10000x128),
    TRef.binary (TRef.of (T := ⟨S10000x128, .f32⟩) main_v141) (TRef.of (T := ⟨S10000x128, .f32⟩) main_call18_v0) (TRef.of (T := ⟨S10000x128, .f32⟩) main_v142) maximumf,
    TRef.binary (TRef.of (T := ⟨S10000x128, .f32⟩) main_v142) (TRef.of (T := ⟨S10000x128, .f32⟩) main_v142) (TRef.of (T := ⟨S10000x128, .f32⟩) main_call19_v0) mulf,
    TRef.nullary (TRef.of (T := ⟨S_, .f32⟩) main_call19_cst) (constant S_ .f32 0x00000000#32),
    TRef.binary (TRef.of (T := ⟨S10000x128, .f32⟩) main_call19_v0) (TRef.of (T := ⟨S_, .f32⟩) main_call19_cst) (TRef.of (T := ⟨S10000, .f32⟩) main_call19_v1) (fun x v => Host.reduceAdd x v reducesTo_S10000x128_S10000_d1 h_S_),
    TRef.unary (TRef.of (T := ⟨S10000, .f32⟩) main_call19_v1) (TRef.of (T := ⟨S10000x1, .f32⟩) main_call19_v2) (broadcastInDim S10000x1 ![0] bcast_S10000_S10000x1_0),
    TRef.unary (TRef.of (T := ⟨S10000x1, .f32⟩) main_call19_v2) (TRef.of (T := ⟨S10000x1, .f32⟩) main_v143) Host.sqrt,
    nullary main_cst_6 (constant S_ .f32 0x2B8CBCCC#32),
    unary main_cst_6 main_v144 (broadcastInDim S10000x1 ![] bcast_S_S10000x1 : (⟨S_, .f32⟩ : BufTy).Contents (Elt F) → (⟨S10000x1, .f32⟩ : BufTy).Contents (Elt F)),
    binary main_v143 main_v144 main_v145 (maximumf : (⟨S10000x1, .f32⟩ : BufTy).Contents (Elt F) → (⟨S10000x1, .f32⟩ : BufTy).Contents (Elt F) → (⟨S10000x1, .f32⟩ : BufTy).Contents (Elt F)),
    unary main_v145 main_v146 (broadcastInDim S10000x128 ![0, 1] bcast_S10000x1_S10000x128_0_1 : (⟨S10000x1, .f32⟩ : BufTy).Contents (Elt F) → (⟨S10000x128, .f32⟩ : BufTy).Contents (Elt F)),
    binary main_v142 main_v146 main_v147 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sBr2_sub : (sBr2 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sBr2_W : List (Ref sig .tc) :=
  [main_v133, main_v134, main_v135, main_v136, main_v137, main_v138, main_v139, main_v140, main_v141, main_call18_cst, main_call18_v0, main_v142, main_call19_v0, main_call19_cst, main_call19_v1, main_call19_v2, main_v143, main_cst_6, main_v144, main_v145, main_v146, main_v147]

/-- The stretch writing `main_v148` … `main_v156`. -/
def sMlp3 : List (HloOp τ sig (Elt F)) :=
  [ binary main_v147 main_arg8 main_v148 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v149 (broadcastInDim S1x128 ![1] bcast_S128_S1x128_1 : (⟨S128, .f32⟩ : BufTy).Contents (Elt F) → (⟨S1x128, .f32⟩ : BufTy).Contents (Elt F)),
    unary main_v149 main_v150 (broadcastInDim S10000x128 ![0, 1] bcast_S1x128_S10000x128_0_1 : (⟨S1x128, .f32⟩ : BufTy).Contents (Elt F) → (⟨S10000x128, .f32⟩ : BufTy).Contents (Elt F)),
    binary main_v148 main_v150 main_v151 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S10000x128, .f32⟩) main_call20_v0) (broadcastInDim S10000x128 ![] bcast_S_S10000x128),
    TRef.binary (TRef.of (T := ⟨S10000x128, .f32⟩) main_v151) (TRef.of (T := ⟨S10000x128, .f32⟩) main_call20_v0) (TRef.of (T := ⟨S10000x128, .f32⟩) main_v152) maximumf,
    binary main_v152 main_arg10 main_v153 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v154 (broadcastInDim S1x1 ![1] bcast_S1_S1x1_1 : (⟨S1, .f32⟩ : BufTy).Contents (Elt F) → (⟨S1x1, .f32⟩ : BufTy).Contents (Elt F)),
    unary main_v154 main_v155 (broadcastInDim S10000x1 ![0, 1] bcast_S1x1_S10000x1_0_1 : (⟨S1x1, .f32⟩ : BufTy).Contents (Elt F) → (⟨S10000x1, .f32⟩ : BufTy).Contents (Elt F)),
    binary main_v153 main_v155 main_v156 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sMlp3_sub : (sMlp3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that stretch writes. -/
def sMlp3_W : List (Ref sig .tc) :=
  [main_v148, main_v149, main_v150, main_v151, main_call20_cst, main_call20_v0, main_v152, main_v153, main_v154, main_v155, main_v156]

/-- The stretch writing `main_v157` … `main_v171`. -/
def sBr3 : List (HloOp τ sig (Elt F)) :=
  [ unary main_arg4 main_v157 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v157 main_v158 rfl shapeCasts_S1x128x128_S128x128,
    binary main_v69 main_v158 main_v159 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v159 main_v160 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v161 ((extractStridedSlice S1x128 ![3, 0] · slices_S4x128_S1x128_3_0) : (⟨S4x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S10000x128 ![0, 1] bcast_S1x128_S10000x128_0_1 : (⟨S1x128, .f32⟩ : BufTy).Contents (Elt F) → (⟨S10000x128, .f32⟩ : BufTy).Contents (Elt F)),
    binary main_v160 main_v164 main_v165 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S10000x128, .f32⟩) main_call21_v0) (broadcastInDim S10000x128 ![] bcast_S_S10000x128),
    TRef.binary (TRef.of (T := ⟨S10000x128, .f32⟩) main_v165) (TRef.of (T := ⟨S10000x128, .f32⟩) main_call21_v0) (TRef.of (T := ⟨S10000x128, .f32⟩) main_v166) maximumf,
    TRef.binary (TRef.of (T := ⟨S10000x128, .f32⟩) main_v166) (TRef.of (T := ⟨S10000x128, .f32⟩) main_v166) (TRef.of (T := ⟨S10000x128, .f32⟩) main_call22_v0) mulf,
    TRef.nullary (TRef.of (T := ⟨S_, .f32⟩) main_call22_cst) (constant S_ .f32 0x00000000#32),
    TRef.binary (TRef.of (T := ⟨S10000x128, .f32⟩) main_call22_v0) (TRef.of (T := ⟨S_, .f32⟩) main_call22_cst) (TRef.of (T := ⟨S10000, .f32⟩) main_call22_v1) (fun x v => Host.reduceAdd x v reducesTo_S10000x128_S10000_d1 h_S_),
    TRef.unary (TRef.of (T := ⟨S10000, .f32⟩) main_call22_v1) (TRef.of (T := ⟨S10000x1, .f32⟩) main_call22_v2) (broadcastInDim S10000x1 ![0] bcast_S10000_S10000x1_0),
    TRef.unary (TRef.of (T := ⟨S10000x1, .f32⟩) main_call22_v2) (TRef.of (T := ⟨S10000x1, .f32⟩) main_v167) Host.sqrt,
    nullary main_cst_7 (constant S_ .f32 0x2B8CBCCC#32),
    unary main_cst_7 main_v168 (broadcastInDim S10000x1 ![] bcast_S_S10000x1 : (⟨S_, .f32⟩ : BufTy).Contents (Elt F) → (⟨S10000x1, .f32⟩ : BufTy).Contents (Elt F)),
    binary main_v167 main_v168 main_v169 (maximumf : (⟨S10000x1, .f32⟩ : BufTy).Contents (Elt F) → (⟨S10000x1, .f32⟩ : BufTy).Contents (Elt F) → (⟨S10000x1, .f32⟩ : BufTy).Contents (Elt F)),
    unary main_v169 main_v170 (broadcastInDim S10000x128 ![0, 1] bcast_S10000x1_S10000x128_0_1 : (⟨S10000x1, .f32⟩ : BufTy).Contents (Elt F) → (⟨S10000x128, .f32⟩ : BufTy).Contents (Elt F)),
    binary main_v166 main_v170 main_v171 (Host.divf : (⟨S10000x128, .f32⟩ : BufTy).Contents (Elt F) → (⟨S10000x128, .f32⟩ : BufTy).Contents (Elt F) → (⟨S10000x128, .f32⟩ : BufTy).Contents (Elt F)) ]

/-- Every operation of the stretch touches buffers of the TensorCore only. -/
theorem sBr3_sub : (sBr3 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The buffers that stretch writes. -/
def sBr3_W : List (Ref sig .tc) :=
  [main_v157, main_v158, main_v159, main_v160, main_v161, main_v162, main_v163, main_v164, main_v165, main_call21_cst, main_call21_v0, main_v166, main_call22_v0, main_call22_cst, main_call22_v1, main_call22_v2, main_v167, main_cst_7, main_v168, main_v169, main_v170, main_v171]

/-- The stretch writing `main_v172` … `main_v180`. -/
def sMlp4 : List (HloOp τ sig (Elt F)) :=
  [ binary main_v171 main_arg8 main_v172 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v173 (broadcastInDim S1x128 ![1] bcast_S128_S1x128_1 : (⟨S128, .f32⟩ : BufTy).Contents (Elt F) → (⟨S1x128, .f32⟩ : BufTy).Contents (Elt F)),
    unary main_v173 main_v174 (broadcastInDim S10000x128 ![0, 1] bcast_S1x128_S10000x128_0_1 : (⟨S1x128, .f32⟩ : BufTy).Contents (Elt F) → (⟨S10000x128, .f32⟩ : BufTy).Contents (Elt F)),
    binary main_v172 main_v174 main_v175 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S10000x128, .f32⟩) main_call23_v0) (broadcastInDim S10000x128 ![] bcast_S_S10000x128),
    TRef.binary (TRef.of (T := ⟨S10000x128, .f32⟩) main_v175) (TRef.of (T := ⟨S10000x128, .f32⟩) main_call23_v0) (TRef.of (T := ⟨S10000x128, .f32⟩) main_v176) maximumf,
    binary main_v176 main_arg10 main_v177 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v178 (broadcastInDim S1x1 ![1] bcast_S1_S1x1_1 : (⟨S1, .f32⟩ : BufTy).Contents (Elt F) → (⟨S1x1, .f32⟩ : BufTy).Contents (Elt F)),
    unary main_v178 main_v179 (broadcastInDim S10000x1 ![0, 1] bcast_S1x1_S10000x1_0_1 : (⟨S1x1, .f32⟩ : BufTy).Contents (Elt F) → (⟨S10000x1, .f32⟩ : BufTy).Contents (Elt F)),
    binary main_v177 main_v179 main_v180 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sMlp4_sub : (sMlp4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that stretch writes. -/
def sMlp4_W : List (Ref sig .tc) :=
  [main_v172, main_v173, main_v174, main_v175, main_call23_cst, main_call23_v0, main_v176, main_v177, main_v178, main_v179, main_v180]

/-- The stretch writing `main_v181` … `main_v189`. -/
def sMlp5 : List (HloOp τ sig (Elt F)) :=
  [ binary main_v75 main_arg8 main_v181 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v182 (broadcastInDim S1x128 ![1] bcast_S128_S1x128_1 : (⟨S128, .f32⟩ : BufTy).Contents (Elt F) → (⟨S1x128, .f32⟩ : BufTy).Contents (Elt F)),
    unary main_v182 main_v183 (broadcastInDim S10000x128 ![0, 1] bcast_S1x128_S10000x128_0_1 : (⟨S1x128, .f32⟩ : BufTy).Contents (Elt F) → (⟨S10000x128, .f32⟩ : BufTy).Contents (Elt F)),
    binary main_v181 main_v183 main_v184 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S10000x128, .f32⟩) main_call24_v0) (broadcastInDim S10000x128 ![] bcast_S_S10000x128),
    TRef.binary (TRef.of (T := ⟨S10000x128, .f32⟩) main_v184) (TRef.of (T := ⟨S10000x128, .f32⟩) main_call24_v0) (TRef.of (T := ⟨S10000x128, .f32⟩) main_v185) maximumf,
    binary main_v185 main_arg10 main_v186 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v187 (broadcastInDim S1x1 ![1] bcast_S1_S1x1_1 : (⟨S1, .f32⟩ : BufTy).Contents (Elt F) → (⟨S1x1, .f32⟩ : BufTy).Contents (Elt F)),
    unary main_v187 main_v188 (broadcastInDim S10000x1 ![0, 1] bcast_S1x1_S10000x1_0_1 : (⟨S1x1, .f32⟩ : BufTy).Contents (Elt F) → (⟨S10000x1, .f32⟩ : BufTy).Contents (Elt F)),
    binary main_v186 main_v188 main_v189 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sMlp5_sub : (sMlp5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that stretch writes. -/
def sMlp5_W : List (Ref sig .tc) :=
  [main_v181, main_v182, main_v183, main_v184, main_call24_cst, main_call24_v0, main_v185, main_v186, main_v187, main_v188, main_v189]

/-- The stretch writing `main_v190` … `main_v194`. -/
def sSum : List (HloOp τ sig (Elt F)) :=
  [ binary main_v84 main_v108 main_v190 (addf : (⟨S10000x1, .f32⟩ : BufTy).Contents (Elt F) → (⟨S10000x1, .f32⟩ : BufTy).Contents (Elt F) → (⟨S10000x1, .f32⟩ : BufTy).Contents (Elt F)),
    binary main_v190 main_v132 main_v191 (addf : (⟨S10000x1, .f32⟩ : BufTy).Contents (Elt F) → (⟨S10000x1, .f32⟩ : BufTy).Contents (Elt F) → (⟨S10000x1, .f32⟩ : BufTy).Contents (Elt F)),
    binary main_v191 main_v156 main_v192 (addf : (⟨S10000x1, .f32⟩ : BufTy).Contents (Elt F) → (⟨S10000x1, .f32⟩ : BufTy).Contents (Elt F) → (⟨S10000x1, .f32⟩ : BufTy).Contents (Elt F)),
    binary main_v192 main_v180 main_v193 (addf : (⟨S10000x1, .f32⟩ : BufTy).Contents (Elt F) → (⟨S10000x1, .f32⟩ : BufTy).Contents (Elt F) → (⟨S10000x1, .f32⟩ : BufTy).Contents (Elt F)),
    binary main_v193 main_v189 main_v194 (addf : (⟨S10000x1, .f32⟩ : BufTy).Contents (Elt F) → (⟨S10000x1, .f32⟩ : BufTy).Contents (Elt F) → (⟨S10000x1, .f32⟩ : BufTy).Contents (Elt F)) ]

/-- Every operation of the stretch touches buffers of the TensorCore only. -/
theorem sSum_sub : (sSum : List (HloOp τ sig (Elt F))).Forall fun op => op.bufs ⊆ tcRefs τ sig :=
  ⟨binary_bufs_sub .., binary_bufs_sub .., binary_bufs_sub .., binary_bufs_sub .., binary_bufs_sub ..⟩

/-- The buffers that stretch writes. -/
def sSum_W : List (Ref sig .tc) :=
  [main_v190, main_v191, main_v192, main_v193, main_v194]

/-- The whole program: the stretches in order. -/
def ops : List (HloOp τ sig (Elt F)) :=
  sStep0 ++ (sStep1 ++ (sStep2 ++ (sStep3 ++ (sStep4 ++ (sLast ++ (sMlp0 ++ (sBr0 ++ (sMlp1 ++ (sBr1 ++ (sMlp2 ++ (sBr2 ++ (sMlp3 ++ (sBr3 ++ (sMlp4 ++ (sMlp5 ++ (sSum))))))))))))))))

/-- Every operation of the program touches buffers of the TensorCore only. -/
theorem ops_sub : (ops : List (HloOp τ sig (Elt F))).Forall fun op => op.bufs ⊆ tcRefs τ sig := by
  unfold ops
  simp only [List.forall_append]
  exact ⟨sStep0_sub, sStep1_sub, sStep2_sub, sStep3_sub, sStep4_sub, sLast_sub, sMlp0_sub, sBr0_sub, sMlp1_sub, sBr1_sub, sMlp2_sub, sBr2_sub, sMlp3_sub, sBr3_sub, sMlp4_sub, sMlp5_sub, sSum_sub⟩

/-- Running two lists one after the other is running their concatenation. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

end Cert.ReferenceIdeal.RefValue

end
-- ==== Proof.Ref.MainEq.lean ====
/-
  The reference program is its operations run in order.
-/
import proofs.«172286_g11278584119306_cont_sun_m_662_2_alg».proof.Proof.Ref.Ops

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The program on a device is the straight line of its operations. -/
theorem main_eq (c : Dev nD) : main (F := F) c = seq ops := rfl

/-- No TensorCore buffer and no semaphore of the program is scoped to a region. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.Ref.Value.lean ====
/-
  The reference program's stages as functions of their operand arrays, and each stage read entry by entry: a
  propagation is the matrix product with the adjacency plus the bias, rectified; a normalisation divides every row
  by its Euclidean norm floored at the small constant; a perceptron is a rectified affine map followed by an affine
  map to one column.  A two-axis array is read as the function of its row and column (`mat`), a one-axis array as
  the function of its coordinate (`vec`).
-/
import proofs.«172286_g11278584119306_cont_sun_m_662_2_alg».proof.Proof.Gen.ReferenceIdeal
import proofs.«172286_g11278584119306_cont_sun_m_662_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.GraphScore

/-- The contents of a single-precision buffer of shape `s`, over the extended reals. -/
abbrev C (s : Shape) : Type := FVec Ideal s .f32

/-- A two-axis array as a function of row and column. -/
def mat {a b : ℕ} (X : C ⟨2, ![a, b]⟩) (i : Fin a) (j : Fin b) : EReal := X (ix2 i j)
/-- A one-axis array as a function of its coordinate. -/
def vec {n : ℕ} (x : C ⟨1, ![n]⟩) (j : Fin n) : EReal := x (ix1 j)

theorem mat_apply {a b : ℕ} (X : C ⟨2, ![a, b]⟩) (i : (⟨2, ![a, b]⟩ : Shape).Idx) : X i = mat X (i 0) (i 1) := by
  unfold mat; exact congrArg X (eq_ix2 i)
theorem vec_apply {n : ℕ} (x : C ⟨1, ![n]⟩) (i : (⟨1, ![n]⟩ : Shape).Idx) : x i = vec x (i 0) := by
  unfold vec; exact congrArg x (eq_ix1 i)

/-! ## The stages -/

/-- The splat of zero. -/
def zeroV : C S10000x128 := broadcastInDim S10000x128 ![] bcast_S_S10000x128 (constant S_ .f32 0x00000000#32)
/-- The rectifier, entry by entry. -/
def reluV (z : C S10000x128) : C S10000x128 := maximumf z zeroV
/-- Every row's Euclidean norm, as a column. -/
def normV (r : C S10000x128) : C S10000x1 :=
  Host.sqrt (broadcastInDim S10000x1 ![0] bcast_S10000_S10000x1_0
    (Host.reduceAdd (mulf r r) (constant S_ .f32 0x00000000#32 : C S_) reducesTo_S10000x128_S10000_d1 h_S_))
/-- The splat of the floor. -/
def epsV : C S10000x1 := broadcastInDim S10000x1 ![] bcast_S_S10000x1 (constant S_ .f32 0x2B8CBCCC#32)
/-- Every row divided by its floored norm. -/
def normalizeV (r : C S10000x128) : C S10000x128 :=
  Host.divf r (broadcastInDim S10000x128 ![0, 1] bcast_S10000x1_S10000x128_0_1 (maximumf (normV r) epsV))
/-- A bias row repeated down the rows. -/
def biasV (b : C S128) : C S10000x128 :=
  broadcastInDim S10000x128 ![0, 1] bcast_S1x128_S10000x128_0_1 (broadcastInDim S1x128 ![1] bcast_S128_S1x128_1 b)
/-- The product with an adjacency. -/
def adjV (A : C S10000x10000) (y : C S10000x128) : C S10000x128 :=
  Host.dotGeneral dot_S10000x10000_S10000x128_S10000x128_1_0_0_1_n_n none A y
/-- The product with a square weight matrix. -/
def mmV (x : C S10000x128) (w : C S128x128) : C S10000x128 :=
  Host.dotGeneral dot_S10000x128_S128x128_S10000x128_1_0_0_1_n_n none x w
/-- `relu (A · y + b)`. -/
def actV (A : C S10000x10000) (y : C S10000x128) (b : C S128) : C S10000x128 := reluV (addf (adjV A y) (biasV b))
/-- The perceptron's hidden activations. -/
def hidV (x : C S10000x128) (w : C S128x128) (b : C S128) : C S10000x128 := reluV (addf (mmV x w) (biasV b))
/-- The perceptron's last layer. -/
def outV (h : C S10000x128) (w : C S128x1) (b : C S1) : C S10000x1 :=
  addf (Host.dotGeneral dot_S10000x128_S128x1_S10000x1_1_0_0_1_n_n none h w)
    (broadcastInDim S10000x1 ![0, 1] bcast_S1x1_S10000x1_0_1 (broadcastInDim S1x1 ![1] bcast_S1_S1x1_1 b))
/-- Weight matrix 0 of the stack. -/
def wSlice0 (W : C S4x128x128) : C S128x128 :=
  fun i => shapeCast S128x128 (extractStridedSlice S1x128x128 ![0, 0, 0] W slices_S4x128x128_S1x128x128_0_0_0) shapeCasts_S1x128x128_S128x128 i
/-- Bias row 0 of the stack. -/
def bSlice0 (B : C S4x128) : C S128 :=
  fun i => shapeCast S128 (extractStridedSlice S1x128 ![0, 0] B slices_S4x128_S1x128_0_0) shapeCasts_S1x128_S128 i
/-- Weight matrix 1 of the stack. -/
def wSlice1 (W : C S4x128x128) : C S128x128 :=
  fun i => shapeCast S128x128 (extractStridedSlice S1x128x128 ![1, 0, 0] W slices_S4x128x128_S1x128x128_1_0_0) shapeCasts_S1x128x128_S128x128 i
/-- Bias row 1 of the stack. -/
def bSlice1 (B : C S4x128) : C S128 :=
  fun i => shapeCast S128 (extractStridedSlice S1x128 ![1, 0] B slices_S4x128_S1x128_1_0) shapeCasts_S1x128_S128 i
/-- Weight matrix 2 of the stack. -/
def wSlice2 (W : C S4x128x128) : C S128x128 :=
  fun i => shapeCast S128x128 (extractStridedSlice S1x128x128 ![2, 0, 0] W slices_S4x128x128_S1x128x128_2_0_0) shapeCasts_S1x128x128_S128x128 i
/-- Bias row 2 of the stack. -/
def bSlice2 (B : C S4x128) : C S128 :=
  fun i => shapeCast S128 (extractStridedSlice S1x128 ![2, 0] B slices_S4x128_S1x128_2_0) shapeCasts_S1x128_S128 i
/-- Weight matrix 3 of the stack. -/
def wSlice3 (W : C S4x128x128) : C S128x128 :=
  fun i => shapeCast S128x128 (extractStridedSlice S1x128x128 ![3, 0, 0] W slices_S4x128x128_S1x128x128_3_0_0) shapeCasts_S1x128x128_S128x128 i
/-- Bias row 3 of the stack. -/
def bSlice3 (B : C S4x128) : C S128 :=
  fun i => shapeCast S128 (extractStridedSlice S1x128 ![3, 0] B slices_S4x128_S1x128_3_0) shapeCasts_S1x128_S128 i

/-! ## The contractions read at an index -/

theorem lhsA_0 (i : S10000x128.Idx) (q : dot_S10000x10000_S10000x128_S10000x128_1_0_0_1_n_n.contr.Idx) :
    (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide), dif_pos (show (0 : Fin S10000x10000.rank) ∈ dot_S10000x10000_S10000x128_S10000x128_1_0_0_1_n_n.lhsNonContracting by decide)]
  rfl
theorem lhsA_1 (i : S10000x128.Idx) (q : dot_S10000x10000_S10000x128_S10000x128_1_0_0_1_n_n.contr.Idx) :
    (dot_S10000x10000_S10000x128_S10000x128_1_0_0_1_n_n.lhsIdx i q 1).val = (q ⟨0, by decide⟩).val :=
  dot_S10000x10000_S10000x128_S10000x128_1_0_0_1_n_n.lhsIdx_val_of_single rfl i q
theorem rhsA_0 (i : S10000x128.Idx) (q : dot_S10000x10000_S10000x128_S10000x128_1_0_0_1_n_n.contr.Idx) :
    (dot_S10000x10000_S10000x128_S10000x128_1_0_0_1_n_n.rhsIdx i q 0).val = (q ⟨0, by decide⟩).val :=
  dot_S10000x10000_S10000x128_S10000x128_1_0_0_1_n_n.rhsIdx_val_of_single rfl i q
theorem rhsA_1 (i : S10000x128.Idx) (q : dot_S10000x10000_S10000x128_S10000x128_1_0_0_1_n_n.contr.Idx) :
    (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide), dif_pos (show (1 : Fin S10000x128.rank) ∈ dot_S10000x10000_S10000x128_S10000x128_1_0_0_1_n_n.rhsNonContracting by decide)]
  rfl
/-- The contraction entry by entry: the sum over the shared axis of the products. -/
theorem dotA_apply (X : C S10000x10000) (Y : C S10000x128) (i : S10000x128.Idx) :
    Host.dotGeneral dot_S10000x10000_S10000x128_S10000x128_1_0_0_1_n_n none X Y i = ∑ k : Fin 10000, mat X (i 0) k * mat Y k (i 1) := by
  simp only [Host.dotGeneral]
  rw [Ideal.dotGeneral_apply, ← Equiv.sum_comp (ValueIdx.contrEquiv1 dot_S10000x10000_S10000x128_S10000x128_1_0_0_1_n_n 10000 rfl rfl).symm]
  refine Finset.sum_congr rfl fun k _ => ?_
  have hk := ValueIdx.contrEquiv1_symm_val dot_S10000x10000_S10000x128_S10000x128_1_0_0_1_n_n 10000 rfl rfl k
  have el : dot_S10000x10000_S10000x128_S10000x128_1_0_0_1_n_n.lhsIdx i ((ValueIdx.contrEquiv1 dot_S10000x10000_S10000x128_S10000x128_1_0_0_1_n_n 10000 rfl rfl).symm k) = ix2 (i 0) k := funext fun a => Fin.ext (by
    match a with
    | ⟨0, _⟩ => exact lhsA_0 _ _
    | ⟨1, _⟩ => exact (lhsA_1 _ _).trans hk)
  have er : dot_S10000x10000_S10000x128_S10000x128_1_0_0_1_n_n.rhsIdx i ((ValueIdx.contrEquiv1 dot_S10000x10000_S10000x128_S10000x128_1_0_0_1_n_n 10000 rfl rfl).symm k) = ix2 k (i 1) := funext fun a => Fin.ext (by
    match a with
    | ⟨0, _⟩ => exact (rhsA_0 _ _).trans hk
    | ⟨1, _⟩ => exact rhsA_1 _ _)
  rw [el, er]
  rfl

theorem lhsW_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsW_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsW_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsW_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The contraction entry by entry: the sum over the shared axis of the products. -/
theorem dotW_apply (X : C S10000x128) (Y : C S128x128) (i : S10000x128.Idx) :
    Host.dotGeneral dot_S10000x128_S128x128_S10000x128_1_0_0_1_n_n none X Y i = ∑ k : Fin 128, mat X (i 0) k * mat Y k (i 1) := by
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (i 0) k := funext fun a => Fin.ext (by
    match a with
    | ⟨0, _⟩ => exact lhsW_0 _ _
    | ⟨1, _⟩ => exact (lhsW_1 _ _).trans hk)
  have er : dot_S10000x128_S128x128_S10000x128_1_0_0_1_n_n.rhsIdx i ((ValueIdx.contrEquiv1 dot_S10000x128_S128x128_S10000x128_1_0_0_1_n_n 128 rfl rfl).symm k) = ix2 k (i 1) := funext fun a => Fin.ext (by
    match a with
    | ⟨0, _⟩ => exact (rhsW_0 _ _).trans hk
    | ⟨1, _⟩ => exact rhsW_1 _ _)
  rw [el, er]
  rfl

theorem lhsO_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem lhsO_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem rhsO_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem rhsO_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl
/-- The contraction entry by entry: the sum over the shared axis of the products. -/
theorem dotO_apply (X : C S10000x128) (Y : C S128x1) (i : S10000x1.Idx) :
    Host.dotGeneral dot_S10000x128_S128x1_S10000x1_1_0_0_1_n_n none X Y i = ∑ k : Fin 128, mat X (i 0) k * mat Y k (i 1) := by
  simp only [Host.dotGeneral]
  rw [Ideal.dotGeneral_apply, ← Equiv.sum_comp (ValueIdx.contrEquiv1 dot_S10000x128_S128x1_S10000x1_1_0_0_1_n_n 128 rfl rfl).symm]
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx i ((ValueIdx.contrEquiv1 dot_S10000x128_S128x1_S10000x1_1_0_0_1_n_n 128 rfl rfl).symm k) = ix2 (i 0) k := funext fun a => Fin.ext (by
    match a with
    | ⟨0, _⟩ => exact lhsO_0 _ _
    | ⟨1, _⟩ => exact (lhsO_1 _ _).trans hk)
  have er : dot_S10000x128_S128x1_S10000x1_1_0_0_1_n_n.rhsIdx i ((ValueIdx.contrEquiv1 dot_S10000x128_S128x1_S10000x1_1_0_0_1_n_n 128 rfl rfl).symm k) = ix2 k (i 1) := funext fun a => Fin.ext (by
    match a with
    | ⟨0, _⟩ => exact (rhsO_0 _ _).trans hk
    | ⟨1, _⟩ => exact rhsO_1 _ _)
  rw [el, er]
  rfl

/-! ## The layout operations read at an index -/

theorem zeroV_apply (i : S10000x128.Idx) : zeroV i = 0 := by
  unfold zeroV
  rw [broadcastInDim_apply _ bcast_S_S10000x128 _ i ix0 (fun a => a.elim0)]
  exact Ideal.ofBits_zero_f32

theorem epsV_apply (i : S10000x1.Idx) : epsV i = eps := by
  unfold epsV
  rw [broadcastInDim_apply _ bcast_S_S10000x1 _ i ix0 (fun a => a.elim0)]
  rfl

theorem biasV_apply (b : C S128) (i : S10000x128.Idx) : biasV b i = vec b (i 1) := by
  unfold biasV
  rw [broadcastInDim_apply _ bcast_S1x128_S10000x128_0_1 _ i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 (i 1)) (fun a => match a with
    | ⟨0, _⟩ => by show (i 1).val = if (128 : Nat) = 1 then 0 else (i 1).val; rw [if_neg (by decide)])

theorem rowbc_apply (n : C S10000x1) (i : S10000x128.Idx) :
    broadcastInDim S10000x128 ![0, 1] bcast_S10000x1_S10000x128_0_1 n i = n (ix2 (i 0) 0) :=
  broadcastInDim_apply _ bcast_S10000x1_S10000x128_0_1 n i (ix2 (i 0) 0) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

theorem outBias_apply (b : C S1) (i : S10000x1.Idx) :
    broadcastInDim S10000x1 ![0, 1] bcast_S1x1_S10000x1_0_1 (broadcastInDim S1x1 ![1] bcast_S1_S1x1_1 b) i = vec b 0 := by
  rw [broadcastInDim_apply _ bcast_S1x1_S10000x1_0_1 _ i (ix2 0 0) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ bcast_S1_S1x1_1 b _ (ix1 0) (fun a => match a with
    | ⟨0, _⟩ => by show 0 = if (1 : Nat) = 1 then 0 else _; rw [if_pos rfl])

/-- A row's norm: the square root of the sum of its squares. -/
theorem normV_apply (r : C S10000x128) (i : S10000x1.Idx) :
    normV r i = Ideal.sqrt (∑ j : Fin 128, mat r (i 0) j * mat r (i 0) j) := by
  unfold normV
  show FloatOps.hostUnary .sqrt _ = _
  rw [Ideal.hostUnary_sqrt_def, broadcastInDim_apply _ bcast_S10000_S10000x1_0 _ i (ix1 (i 0)) (fun a => match a with
    | ⟨0, _⟩ => by show (i 0).val = if (10000 : Nat) = 1 then 0 else (i 0).val; rw [if_neg (by decide)])]
  simp only [Host.reduceAdd, Ideal.hostReduceAdd_def]
  rw [Ideal.hostReduceAdd_single reducesTo_S10000x128_S10000_d1 (by decide)]
  congr 1
  have h0 : (constant S_ .f32 0x00000000#32 : C S_) (Shape.Idx.first h_S_) = 0 := Ideal.ofBits_zero_f32
  rw [h0, zero_add]
  refine Finset.sum_congr rfl fun k _ => ?_
  exact congrArg (fun t => r t * r t) (funext fun a => Fin.ext (by match a with | ⟨0, _⟩ => rfl | ⟨1, _⟩ => rfl))

theorem wSlice0_apply (W : C S4x128x128) (i : S128x128.Idx) : wSlice0 W i = W (ix3 0 (i 0) (i 1)) := by
  unfold wSlice0
  rw [shapeCast_apply _ shapeCasts_S1x128x128_S128x128 i (ix3 0 (i 0) (i 1))
    (by rewrite [Shape.rowMajor_val_three, Shape.rowMajor_val_two]; show (0 * 128 + (i 0).val) * 128 + (i 1).val = (i 0).val * 128 + (i 1).val; omega)]
  exact extractStridedSlice_apply ![0, 0, 0] W slices_S4x128x128_S1x128x128_0_0_0 _ (ix3 0 (i 0) (i 1)) (fun a => match a with
    | ⟨0, _⟩ => by show 0 = 0 + 0; rfl
    | ⟨1, _⟩ => by show (i 0).val = 0 + (i 0).val; omega
    | ⟨2, _⟩ => by show (i 1).val = 0 + (i 1).val; omega)
theorem bSlice0_apply (B : C S4x128) (i : S128.Idx) : bSlice0 B i = B (ix2 0 (i 0)) := by
  unfold bSlice0
  rw [shapeCast_apply _ shapeCasts_S1x128_S128 i (ix2 0 (i 0))
    (by rewrite [Shape.rowMajor_val_two, Shape.rowMajor_val_one]; show 0 * 128 + (i 0).val = (i 0).val; omega)]
  exact extractStridedSlice_apply ![0, 0] B slices_S4x128_S1x128_0_0 _ (ix2 0 (i 0)) (fun a => match a with
    | ⟨0, _⟩ => by show 0 = 0 + 0; rfl
    | ⟨1, _⟩ => by show (i 0).val = 0 + (i 0).val; omega)
theorem wSlice1_apply (W : C S4x128x128) (i : S128x128.Idx) : wSlice1 W i = W (ix3 1 (i 0) (i 1)) := by
  unfold wSlice1
  rw [shapeCast_apply _ shapeCasts_S1x128x128_S128x128 i (ix3 0 (i 0) (i 1))
    (by rewrite [Shape.rowMajor_val_three, Shape.rowMajor_val_two]; show (0 * 128 + (i 0).val) * 128 + (i 1).val = (i 0).val * 128 + (i 1).val; omega)]
  exact extractStridedSlice_apply ![1, 0, 0] W slices_S4x128x128_S1x128x128_1_0_0 _ (ix3 1 (i 0) (i 1)) (fun a => match a with
    | ⟨0, _⟩ => by show 1 = 1 + 0; rfl
    | ⟨1, _⟩ => by show (i 0).val = 0 + (i 0).val; omega
    | ⟨2, _⟩ => by show (i 1).val = 0 + (i 1).val; omega)
theorem bSlice1_apply (B : C S4x128) (i : S128.Idx) : bSlice1 B i = B (ix2 1 (i 0)) := by
  unfold bSlice1
  rw [shapeCast_apply _ shapeCasts_S1x128_S128 i (ix2 0 (i 0))
    (by rewrite [Shape.rowMajor_val_two, Shape.rowMajor_val_one]; show 0 * 128 + (i 0).val = (i 0).val; omega)]
  exact extractStridedSlice_apply ![1, 0] B slices_S4x128_S1x128_1_0 _ (ix2 1 (i 0)) (fun a => match a with
    | ⟨0, _⟩ => by show 1 = 1 + 0; rfl
    | ⟨1, _⟩ => by show (i 0).val = 0 + (i 0).val; omega)
theorem wSlice2_apply (W : C S4x128x128) (i : S128x128.Idx) : wSlice2 W i = W (ix3 2 (i 0) (i 1)) := by
  unfold wSlice2
  rw [shapeCast_apply _ shapeCasts_S1x128x128_S128x128 i (ix3 0 (i 0) (i 1))
    (by rewrite [Shape.rowMajor_val_three, Shape.rowMajor_val_two]; show (0 * 128 + (i 0).val) * 128 + (i 1).val = (i 0).val * 128 + (i 1).val; omega)]
  exact extractStridedSlice_apply ![2, 0, 0] W slices_S4x128x128_S1x128x128_2_0_0 _ (ix3 2 (i 0) (i 1)) (fun a => match a with
    | ⟨0, _⟩ => by show 2 = 2 + 0; rfl
    | ⟨1, _⟩ => by show (i 0).val = 0 + (i 0).val; omega
    | ⟨2, _⟩ => by show (i 1).val = 0 + (i 1).val; omega)
theorem bSlice2_apply (B : C S4x128) (i : S128.Idx) : bSlice2 B i = B (ix2 2 (i 0)) := by
  unfold bSlice2
  rw [shapeCast_apply _ shapeCasts_S1x128_S128 i (ix2 0 (i 0))
    (by rewrite [Shape.rowMajor_val_two, Shape.rowMajor_val_one]; show 0 * 128 + (i 0).val = (i 0).val; omega)]
  exact extractStridedSlice_apply ![2, 0] B slices_S4x128_S1x128_2_0 _ (ix2 2 (i 0)) (fun a => match a with
    | ⟨0, _⟩ => by show 2 = 2 + 0; rfl
    | ⟨1, _⟩ => by show (i 0).val = 0 + (i 0).val; omega)
theorem wSlice3_apply (W : C S4x128x128) (i : S128x128.Idx) : wSlice3 W i = W (ix3 3 (i 0) (i 1)) := by
  unfold wSlice3
  rw [shapeCast_apply _ shapeCasts_S1x128x128_S128x128 i (ix3 0 (i 0) (i 1))
    (by rewrite [Shape.rowMajor_val_three, Shape.rowMajor_val_two]; show (0 * 128 + (i 0).val) * 128 + (i 1).val = (i 0).val * 128 + (i 1).val; omega)]
  exact extractStridedSlice_apply ![3, 0, 0] W slices_S4x128x128_S1x128x128_3_0_0 _ (ix3 3 (i 0) (i 1)) (fun a => match a with
    | ⟨0, _⟩ => by show 3 = 3 + 0; rfl
    | ⟨1, _⟩ => by show (i 0).val = 0 + (i 0).val; omega
    | ⟨2, _⟩ => by show (i 1).val = 0 + (i 1).val; omega)
theorem bSlice3_apply (B : C S4x128) (i : S128.Idx) : bSlice3 B i = B (ix2 3 (i 0)) := by
  unfold bSlice3
  rw [shapeCast_apply _ shapeCasts_S1x128_S128 i (ix2 0 (i 0))
    (by rewrite [Shape.rowMajor_val_two, Shape.rowMajor_val_one]; show 0 * 128 + (i 0).val = (i 0).val; omega)]
  exact extractStridedSlice_apply ![3, 0] B slices_S4x128_S1x128_3_0 _ (ix2 3 (i 0)) (fun a => match a with
    | ⟨0, _⟩ => by show 3 = 3 + 0; rfl
    | ⟨1, _⟩ => by show (i 0).val = 0 + (i 0).val; omega)

/-! ## The stages as the specification's functions -/

theorem mat_mmV (x : C S10000x128) (w : C S128x128) : mat (mmV x w) = mm (mat x) (mat w) := by
  funext i j; unfold mmV mm; rw [mat, dotW_apply]

theorem mat_actV (A : C S10000x10000) (y : C S10000x128) (b : C S128) :
    mat (actV A y b) = act (mat A) (mat y) (vec b) := by
  funext i j
  unfold actV reluV adjV act mm relu
  rw [mat, ValueIdx.maximumf_apply, ValueIdx.addf_apply, dotA_apply, biasV_apply, zeroV_apply]

theorem mat_hidV (x : C S10000x128) (w : C S128x128) (b : C S128) :
    mat (hidV x w b) = GraphScore.hidden (mat x) (mat w) (vec b) := by
  funext i j
  unfold hidV reluV mmV GraphScore.hidden mm relu
  rw [mat, ValueIdx.maximumf_apply, ValueIdx.addf_apply, dotW_apply, biasV_apply, zeroV_apply]

theorem mat_normalizeV (r : C S10000x128) : mat (normalizeV r) = GraphScore.normalize (mat r) := by
  funext i j
  unfold normalizeV GraphScore.normalize rowNorm
  rw [mat]
  show Ideal.div (r (ix2 i j)) (broadcastInDim S10000x128 ![0, 1] bcast_S10000x1_S10000x128_0_1 (maximumf (normV r) epsV) (ix2 i j)) = _
  rw [rowbc_apply, ValueIdx.maximumf_apply, normV_apply, epsV_apply]
  rfl

theorem outV_apply (h : C S10000x128) (w : C S128x1) (b : C S1) (i : S10000x1.Idx) :
    outV h w b i = (∑ j : Fin 128, mat h (i 0) j * mat w j 0) + vec b 0 := by
  unfold outV
  rw [ValueIdx.addf_apply, dotO_apply, outBias_apply]
  have e : i 1 = (0 : Fin 1) := Fin.ext (by have h : (i 1).val < 1 := (i 1).isLt; show (i 1).val = 0; omega)
  rw [e]
theorem mat_wSlice0 (W : C S4x128x128) : mat (wSlice0 W) = fun l j => W (ix3 0 l j) := by
  funext l j; rw [mat, wSlice0_apply]
theorem vec_bSlice0 (B : C S4x128) : vec (bSlice0 B) = fun j => B (ix2 0 j) := by
  funext j; rw [vec, bSlice0_apply]
theorem mat_wSlice1 (W : C S4x128x128) : mat (wSlice1 W) = fun l j => W (ix3 1 l j) := by
  funext l j; rw [mat, wSlice1_apply]
theorem vec_bSlice1 (B : C S4x128) : vec (bSlice1 B) = fun j => B (ix2 1 j) := by
  funext j; rw [vec, bSlice1_apply]
theorem mat_wSlice2 (W : C S4x128x128) : mat (wSlice2 W) = fun l j => W (ix3 2 l j) := by
  funext l j; rw [mat, wSlice2_apply]
theorem vec_bSlice2 (B : C S4x128) : vec (bSlice2 B) = fun j => B (ix2 2 j) := by
  funext j; rw [vec, bSlice2_apply]
theorem mat_wSlice3 (W : C S4x128x128) : mat (wSlice3 W) = fun l j => W (ix3 3 l j) := by
  funext l j; rw [mat, wSlice3_apply]
theorem vec_bSlice3 (B : C S4x128) : vec (bSlice3 B) = fun j => B (ix2 3 j) := by
  funext j; rw [vec, bSlice3_apply]

end Cert.ReferenceIdeal.RefValue

end
-- ==== Proof.Ref.StretchA.lean ====
/-
  The five propagation steps and the unnormalised last propagation: what each stretch of operations leaves in its
  result buffer, as the stage functions of the contents it starts from, and that it keeps every buffer it does not write.
-/
import proofs.«172286_g11278584119306_cont_sun_m_662_2_alg».proof.Proof.Ref.Ops
import proofs.«172286_g11278584119306_cont_sun_m_662_2_alg».proof.Proof.Ref.Value

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.GraphScore

/-- An operation whose one written buffer is among `W` writes inside `W`. -/
private theorem writes_sub {W : List (Ref sig .tc)} {op : HloOp τ sig (Elt Ideal)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- What the stretch leaves in `main_v9`, as a function of the contents it starts from. -/
theorem sStep0_val (V : Valuation τ sig (Elt Ideal)) :
    after sStep0 V (Proc.devRef (τ := τ) .tc main_v9) = normalizeV (actV (V (Proc.devRef (τ := τ) .tc main_arg0)) (V (Proc.devRef (τ := τ) .tc main_arg2)) (V (Proc.devRef (τ := τ) .tc main_arg3))) := by
  unfold sStep0
  after_results_simp
  rfl

/-- Every operation of the stretch writes one of the listed buffers. -/
theorem sStep0_hW : (sStep0 : List (HloOp τ sig (Elt Ideal))).Forall fun op => op.writes ⊆ ((sStep0_W).map (Proc.devRef (τ := τ) .tc)).toFinset :=
  ⟨writes_sub main_v0 rfl (by decide),
   writes_sub main_v1 rfl (by decide),
   writes_sub main_v2 rfl (by decide),
   writes_sub main_v3 rfl (by decide),
   writes_sub main_call0_cst rfl (by decide),
   writes_sub main_call0_v0 rfl (by decide),
   writes_sub main_v4 rfl (by decide),
   writes_sub main_call1_v0 rfl (by decide),
   writes_sub main_call1_cst rfl (by decide),
   writes_sub main_call1_v1 rfl (by decide),
   writes_sub main_call1_v2 rfl (by decide),
   writes_sub main_v5 rfl (by decide),
   writes_sub main_cst rfl (by decide),
   writes_sub main_v6 rfl (by decide),
   writes_sub main_v7 rfl (by decide),
   writes_sub main_v8 rfl (by decide),
   writes_sub main_v9 rfl (by decide)⟩

/-- A buffer the stretch does not write keeps its contents. -/
theorem sStep0_frame (V : Valuation τ sig (Elt Ideal)) {r : Ref sig .tc} (hr : r ∉ sStep0_W) :
    after sStep0 V (Proc.devRef .tc r) = V (Proc.devRef .tc r) :=
  after_of_writes_sub sStep0 V sStep0_hW hr

/-- What the stretch leaves in `main_v24`, as a function of the contents it starts from. -/
theorem sStep1_val (V : Valuation τ sig (Elt Ideal)) :
    after sStep1 V (Proc.devRef (τ := τ) .tc main_v24) = normalizeV (actV (V (Proc.devRef (τ := τ) .tc main_arg1)) (mmV (V (Proc.devRef (τ := τ) .tc main_v9)) (wSlice0 (V (Proc.devRef (τ := τ) .tc main_arg4)))) (bSlice0 (V (Proc.devRef (τ := τ) .tc main_arg5)))) := by
  unfold sStep1
  after_results_simp
  rfl

/-- Every operation of the stretch writes one of the listed buffers. -/
theorem sStep1_hW : (sStep1 : List (HloOp τ sig (Elt Ideal))).Forall fun op => op.writes ⊆ ((sStep1_W).map (Proc.devRef (τ := τ) .tc)).toFinset :=
  ⟨writes_sub main_v10 rfl (by decide),
   writes_sub main_v11 rfl (by decide),
   writes_sub main_v12 rfl (by decide),
   writes_sub main_v13 rfl (by decide),
   writes_sub main_v14 rfl (by decide),
   writes_sub main_v15 rfl (by decide),
   writes_sub main_v16 rfl (by decide),
   writes_sub main_v17 rfl (by decide),
   writes_sub main_v18 rfl (by decide),
   writes_sub main_call2_cst rfl (by decide),
   writes_sub main_call2_v0 rfl (by decide),
   writes_sub main_v19 rfl (by decide),
   writes_sub main_call3_v0 rfl (by decide),
   writes_sub main_call3_cst rfl (by decide),
   writes_sub main_call3_v1 rfl (by decide),
   writes_sub main_call3_v2 rfl (by decide),
   writes_sub main_v20 rfl (by decide),
   writes_sub main_cst_0 rfl (by decide),
   writes_sub main_v21 rfl (by decide),
   writes_sub main_v22 rfl (by decide),
   writes_sub main_v23 rfl (by decide),
   writes_sub main_v24 rfl (by decide)⟩

/-- A buffer the stretch does not write keeps its contents. -/
theorem sStep1_frame (V : Valuation τ sig (Elt Ideal)) {r : Ref sig .tc} (hr : r ∉ sStep1_W) :
    after sStep1 V (Proc.devRef .tc r) = V (Proc.devRef .tc r) :=
  after_of_writes_sub sStep1 V sStep1_hW hr

/-- What the stretch leaves in `main_v39`, as a function of the contents it starts from. -/
theorem sStep2_val (V : Valuation τ sig (Elt Ideal)) :
    after sStep2 V (Proc.devRef (τ := τ) .tc main_v39) = normalizeV (actV (V (Proc.devRef (τ := τ) .tc main_arg1)) (mmV (V (Proc.devRef (τ := τ) .tc main_v24)) (wSlice1 (V (Proc.devRef (τ := τ) .tc main_arg4)))) (bSlice1 (V (Proc.devRef (τ := τ) .tc main_arg5)))) := by
  unfold sStep2
  after_results_simp
  rfl

/-- Every operation of the stretch writes one of the listed buffers. -/
theorem sStep2_hW : (sStep2 : List (HloOp τ sig (Elt Ideal))).Forall fun op => op.writes ⊆ ((sStep2_W).map (Proc.devRef (τ := τ) .tc)).toFinset :=
  ⟨writes_sub main_v25 rfl (by decide),
   writes_sub main_v26 rfl (by decide),
   writes_sub main_v27 rfl (by decide),
   writes_sub main_v28 rfl (by decide),
   writes_sub main_v29 rfl (by decide),
   writes_sub main_v30 rfl (by decide),
   writes_sub main_v31 rfl (by decide),
   writes_sub main_v32 rfl (by decide),
   writes_sub main_v33 rfl (by decide),
   writes_sub main_call4_cst rfl (by decide),
   writes_sub main_call4_v0 rfl (by decide),
   writes_sub main_v34 rfl (by decide),
   writes_sub main_call5_v0 rfl (by decide),
   writes_sub main_call5_cst rfl (by decide),
   writes_sub main_call5_v1 rfl (by decide),
   writes_sub main_call5_v2 rfl (by decide),
   writes_sub main_v35 rfl (by decide),
   writes_sub main_cst_1 rfl (by decide),
   writes_sub main_v36 rfl (by decide),
   writes_sub main_v37 rfl (by decide),
   writes_sub main_v38 rfl (by decide),
   writes_sub main_v39 rfl (by decide)⟩

/-- A buffer the stretch does not write keeps its contents. -/
theorem sStep2_frame (V : Valuation τ sig (Elt Ideal)) {r : Ref sig .tc} (hr : r ∉ sStep2_W) :
    after sStep2 V (Proc.devRef .tc r) = V (Proc.devRef .tc r) :=
  after_of_writes_sub sStep2 V sStep2_hW hr

/-- What the stretch leaves in `main_v54`, as a function of the contents it starts from. -/
theorem sStep3_val (V : Valuation τ sig (Elt Ideal)) :
    after sStep3 V (Proc.devRef (τ := τ) .tc main_v54) = normalizeV (actV (V (Proc.devRef (τ := τ) .tc main_arg1)) (mmV (V (Proc.devRef (τ := τ) .tc main_v39)) (wSlice2 (V (Proc.devRef (τ := τ) .tc main_arg4)))) (bSlice2 (V (Proc.devRef (τ := τ) .tc main_arg5)))) := by
  unfold sStep3
  after_results_simp
  rfl

/-- Every operation of the stretch writes one of the listed buffers. -/
theorem sStep3_hW : (sStep3 : List (HloOp τ sig (Elt Ideal))).Forall fun op => op.writes ⊆ ((sStep3_W).map (Proc.devRef (τ := τ) .tc)).toFinset :=
  ⟨writes_sub main_v40 rfl (by decide),
   writes_sub main_v41 rfl (by decide),
   writes_sub main_v42 rfl (by decide),
   writes_sub main_v43 rfl (by decide),
   writes_sub main_v44 rfl (by decide),
   writes_sub main_v45 rfl (by decide),
   writes_sub main_v46 rfl (by decide),
   writes_sub main_v47 rfl (by decide),
   writes_sub main_v48 rfl (by decide),
   writes_sub main_call6_cst rfl (by decide),
   writes_sub main_call6_v0 rfl (by decide),
   writes_sub main_v49 rfl (by decide),
   writes_sub main_call7_v0 rfl (by decide),
   writes_sub main_call7_cst rfl (by decide),
   writes_sub main_call7_v1 rfl (by decide),
   writes_sub main_call7_v2 rfl (by decide),
   writes_sub main_v50 rfl (by decide),
   writes_sub main_cst_2 rfl (by decide),
   writes_sub main_v51 rfl (by decide),
   writes_sub main_v52 rfl (by decide),
   writes_sub main_v53 rfl (by decide),
   writes_sub main_v54 rfl (by decide)⟩

/-- A buffer the stretch does not write keeps its contents. -/
theorem sStep3_frame (V : Valuation τ sig (Elt Ideal)) {r : Ref sig .tc} (hr : r ∉ sStep3_W) :
    after sStep3 V (Proc.devRef .tc r) = V (Proc.devRef .tc r) :=
  after_of_writes_sub sStep3 V sStep3_hW hr

/-- What the stretch leaves in `main_v69`, as a function of the contents it starts from. -/
theorem sStep4_val (V : Valuation τ sig (Elt Ideal)) :
    after sStep4 V (Proc.devRef (τ := τ) .tc main_v69) = normalizeV (actV (V (Proc.devRef (τ := τ) .tc main_arg1)) (mmV (V (Proc.devRef (τ := τ) .tc main_v54)) (wSlice3 (V (Proc.devRef (τ := τ) .tc main_arg4)))) (bSlice3 (V (Proc.devRef (τ := τ) .tc main_arg5)))) := by
  unfold sStep4
  after_results_simp
  rfl

/-- Every operation of the stretch writes one of the listed buffers. -/
theorem sStep4_hW : (sStep4 : List (HloOp τ sig (Elt Ideal))).Forall fun op => op.writes ⊆ ((sStep4_W).map (Proc.devRef (τ := τ) .tc)).toFinset :=
  ⟨writes_sub main_v55 rfl (by decide),
   writes_sub main_v56 rfl (by decide),
   writes_sub main_v57 rfl (by decide),
   writes_sub main_v58 rfl (by decide),
   writes_sub main_v59 rfl (by decide),
   writes_sub main_v60 rfl (by decide),
   writes_sub main_v61 rfl (by decide),
   writes_sub main_v62 rfl (by decide),
   writes_sub main_v63 rfl (by decide),
   writes_sub main_call8_cst rfl (by decide),
   writes_sub main_call8_v0 rfl (by decide),
   writes_sub main_v64 rfl (by decide),
   writes_sub main_call9_v0 rfl (by decide),
   writes_sub main_call9_cst rfl (by decide),
   writes_sub main_call9_v1 rfl (by decide),
   writes_sub main_call9_v2 rfl (by decide),
   writes_sub main_v65 rfl (by decide),
   writes_sub main_cst_3 rfl (by decide),
   writes_sub main_v66 rfl (by decide),
   writes_sub main_v67 rfl (by decide),
   writes_sub main_v68 rfl (by decide),
   writes_sub main_v69 rfl (by decide)⟩

/-- A buffer the stretch does not write keeps its contents. -/
theorem sStep4_frame (V : Valuation τ sig (Elt Ideal)) {r : Ref sig .tc} (hr : r ∉ sStep4_W) :
    after sStep4 V (Proc.devRef .tc r) = V (Proc.devRef .tc r) :=
  after_of_writes_sub sStep4 V sStep4_hW hr

/-- What the stretch leaves in `main_v75`, as a function of the contents it starts from. -/
theorem sLast_val (V : Valuation τ sig (Elt Ideal)) :
    after sLast V (Proc.devRef (τ := τ) .tc main_v75) = actV (V (Proc.devRef (τ := τ) .tc main_arg1)) (mmV (V (Proc.devRef (τ := τ) .tc main_v69)) (V (Proc.devRef (τ := τ) .tc main_arg6))) (V (Proc.devRef (τ := τ) .tc main_arg7)) := by
  unfold sLast
  after_results_simp
  rfl

/-- Every operation of the stretch writes one of the listed buffers. -/
theorem sLast_hW : (sLast : List (HloOp τ sig (Elt Ideal))).Forall fun op => op.writes ⊆ ((sLast_W).map (Proc.devRef (τ := τ) .tc)).toFinset :=
  ⟨writes_sub main_v70 rfl (by decide),
   writes_sub main_v71 rfl (by decide),
   writes_sub main_v72 rfl (by decide),
   writes_sub main_v73 rfl (by decide),
   writes_sub main_v74 rfl (by decide),
   writes_sub main_call10_cst rfl (by decide),
   writes_sub main_call10_v0 rfl (by decide),
   writes_sub main_v75 rfl (by decide)⟩

/-- A buffer the stretch does not write keeps its contents. -/
theorem sLast_frame (V : Valuation τ sig (Elt Ideal)) {r : Ref sig .tc} (hr : r ∉ sLast_W) :
    after sLast V (Proc.devRef .tc r) = V (Proc.devRef .tc r) :=
  after_of_writes_sub sLast V sLast_hW hr

/-- Every operation of the stretch determines what it writes. -/
theorem sStep0_fresh : ∀ op ∈ (sStep0 : List (HloOp τ sig (Elt Ideal))), op.fresh = ∅ := by
  intro op h
  unfold sStep0 at h
  (repeat (cases h with | head => rfl | tail _ h => ?_)); exact nomatch h

/-- Every operation of the stretch determines what it writes. -/
theorem sStep1_fresh : ∀ op ∈ (sStep1 : List (HloOp τ sig (Elt Ideal))), op.fresh = ∅ := by
  intro op h
  unfold sStep1 at h
  (repeat (cases h with | head => rfl | tail _ h => ?_)); exact nomatch h

/-- Every operation of the stretch determines what it writes. -/
theorem sStep2_fresh : ∀ op ∈ (sStep2 : List (HloOp τ sig (Elt Ideal))), op.fresh = ∅ := by
  intro op h
  unfold sStep2 at h
  (repeat (cases h with | head => rfl | tail _ h => ?_)); exact nomatch h

/-- Every operation of the stretch determines what it writes. -/
theorem sStep3_fresh : ∀ op ∈ (sStep3 : List (HloOp τ sig (Elt Ideal))), op.fresh = ∅ := by
  intro op h
  unfold sStep3 at h
  (repeat (cases h with | head => rfl | tail _ h => ?_)); exact nomatch h

/-- Every operation of the stretch determines what it writes. -/
theorem sStep4_fresh : ∀ op ∈ (sStep4 : List (HloOp τ sig (Elt Ideal))), op.fresh = ∅ := by
  intro op h
  unfold sStep4 at h
  (repeat (cases h with | head => rfl | tail _ h => ?_)); exact nomatch h

/-- Every operation of the stretch determines what it writes. -/
theorem sLast_fresh : ∀ op ∈ (sLast : List (HloOp τ sig (Elt Ideal))), op.fresh = ∅ := by
  intro op h
  unfold sLast at h
  (repeat (cases h with | head => rfl | tail _ h => ?_)); exact nomatch h

end Cert.ReferenceIdeal.RefValue

end
-- ==== Proof.Ref.StretchB.lean ====
/-
  The four further normalised propagations of the features: what each stretch of operations leaves in its result
  buffer, as the stage functions of the contents it starts from, and that it keeps every buffer it does not write.
-/
import proofs.«172286_g11278584119306_cont_sun_m_662_2_alg».proof.Proof.Ref.Ops
import proofs.«172286_g11278584119306_cont_sun_m_662_2_alg».proof.Proof.Ref.Value

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.GraphScore

/-- An operation whose one written buffer is among `W` writes inside `W`. -/
private theorem writes_sub {W : List (Ref sig .tc)} {op : HloOp τ sig (Elt Ideal)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- What the stretch leaves in `main_v99`, as a function of the contents it starts from. -/
theorem sBr0_val (V : Valuation τ sig (Elt Ideal)) :
    after sBr0 V (Proc.devRef (τ := τ) .tc main_v99) = normalizeV (actV (V (Proc.devRef (τ := τ) .tc main_arg1)) (mmV (V (Proc.devRef (τ := τ) .tc main_v69)) (wSlice0 (V (Proc.devRef (τ := τ) .tc main_arg4)))) (bSlice0 (V (Proc.devRef (τ := τ) .tc main_arg5)))) := by
  unfold sBr0
  after_results_simp
  rfl

/-- Every operation of the stretch writes one of the listed buffers. -/
theorem sBr0_hW : (sBr0 : List (HloOp τ sig (Elt Ideal))).Forall fun op => op.writes ⊆ ((sBr0_W).map (Proc.devRef (τ := τ) .tc)).toFinset :=
  ⟨writes_sub main_v85 rfl (by decide),
   writes_sub main_v86 rfl (by decide),
   writes_sub main_v87 rfl (by decide),
   writes_sub main_v88 rfl (by decide),
   writes_sub main_v89 rfl (by decide),
   writes_sub main_v90 rfl (by decide),
   writes_sub main_v91 rfl (by decide),
   writes_sub main_v92 rfl (by decide),
   writes_sub main_v93 rfl (by decide),
   writes_sub main_call12_cst rfl (by decide),
   writes_sub main_call12_v0 rfl (by decide),
   writes_sub main_v94 rfl (by decide),
   writes_sub main_call13_v0 rfl (by decide),
   writes_sub main_call13_cst rfl (by decide),
   writes_sub main_call13_v1 rfl (by decide),
   writes_sub main_call13_v2 rfl (by decide),
   writes_sub main_v95 rfl (by decide),
   writes_sub main_cst_4 rfl (by decide),
   writes_sub main_v96 rfl (by decide),
   writes_sub main_v97 rfl (by decide),
   writes_sub main_v98 rfl (by decide),
   writes_sub main_v99 rfl (by decide)⟩

/-- A buffer the stretch does not write keeps its contents. -/
theorem sBr0_frame (V : Valuation τ sig (Elt Ideal)) {r : Ref sig .tc} (hr : r ∉ sBr0_W) :
    after sBr0 V (Proc.devRef .tc r) = V (Proc.devRef .tc r) :=
  after_of_writes_sub sBr0 V sBr0_hW hr

/-- What the stretch leaves in `main_v123`, as a function of the contents it starts from. -/
theorem sBr1_val (V : Valuation τ sig (Elt Ideal)) :
    after sBr1 V (Proc.devRef (τ := τ) .tc main_v123) = normalizeV (actV (V (Proc.devRef (τ := τ) .tc main_arg1)) (mmV (V (Proc.devRef (τ := τ) .tc main_v69)) (wSlice1 (V (Proc.devRef (τ := τ) .tc main_arg4)))) (bSlice1 (V (Proc.devRef (τ := τ) .tc main_arg5)))) := by
  unfold sBr1
  after_results_simp
  rfl

/-- Every operation of the stretch writes one of the listed buffers. -/
theorem sBr1_hW : (sBr1 : List (HloOp τ sig (Elt Ideal))).Forall fun op => op.writes ⊆ ((sBr1_W).map (Proc.devRef (τ := τ) .tc)).toFinset :=
  ⟨writes_sub main_v109 rfl (by decide),
   writes_sub main_v110 rfl (by decide),
   writes_sub main_v111 rfl (by decide),
   writes_sub main_v112 rfl (by decide),
   writes_sub main_v113 rfl (by decide),
   writes_sub main_v114 rfl (by decide),
   writes_sub main_v115 rfl (by decide),
   writes_sub main_v116 rfl (by decide),
   writes_sub main_v117 rfl (by decide),
   writes_sub main_call15_cst rfl (by decide),
   writes_sub main_call15_v0 rfl (by decide),
   writes_sub main_v118 rfl (by decide),
   writes_sub main_call16_v0 rfl (by decide),
   writes_sub main_call16_cst rfl (by decide),
   writes_sub main_call16_v1 rfl (by decide),
   writes_sub main_call16_v2 rfl (by decide),
   writes_sub main_v119 rfl (by decide),
   writes_sub main_cst_5 rfl (by decide),
   writes_sub main_v120 rfl (by decide),
   writes_sub main_v121 rfl (by decide),
   writes_sub main_v122 rfl (by decide),
   writes_sub main_v123 rfl (by decide)⟩

/-- A buffer the stretch does not write keeps its contents. -/
theorem sBr1_frame (V : Valuation τ sig (Elt Ideal)) {r : Ref sig .tc} (hr : r ∉ sBr1_W) :
    after sBr1 V (Proc.devRef .tc r) = V (Proc.devRef .tc r) :=
  after_of_writes_sub sBr1 V sBr1_hW hr

/-- What the stretch leaves in `main_v147`, as a function of the contents it starts from. -/
theorem sBr2_val (V : Valuation τ sig (Elt Ideal)) :
    after sBr2 V (Proc.devRef (τ := τ) .tc main_v147) = normalizeV (actV (V (Proc.devRef (τ := τ) .tc main_arg1)) (mmV (V (Proc.devRef (τ := τ) .tc main_v69)) (wSlice2 (V (Proc.devRef (τ := τ) .tc main_arg4)))) (bSlice2 (V (Proc.devRef (τ := τ) .tc main_arg5)))) := by
  unfold sBr2
  after_results_simp
  rfl

/-- Every operation of the stretch writes one of the listed buffers. -/
theorem sBr2_hW : (sBr2 : List (HloOp τ sig (Elt Ideal))).Forall fun op => op.writes ⊆ ((sBr2_W).map (Proc.devRef (τ := τ) .tc)).toFinset :=
  ⟨writes_sub main_v133 rfl (by decide),
   writes_sub main_v134 rfl (by decide),
   writes_sub main_v135 rfl (by decide),
   writes_sub main_v136 rfl (by decide),
   writes_sub main_v137 rfl (by decide),
   writes_sub main_v138 rfl (by decide),
   writes_sub main_v139 rfl (by decide),
   writes_sub main_v140 rfl (by decide),
   writes_sub main_v141 rfl (by decide),
   writes_sub main_call18_cst rfl (by decide),
   writes_sub main_call18_v0 rfl (by decide),
   writes_sub main_v142 rfl (by decide),
   writes_sub main_call19_v0 rfl (by decide),
   writes_sub main_call19_cst rfl (by decide),
   writes_sub main_call19_v1 rfl (by decide),
   writes_sub main_call19_v2 rfl (by decide),
   writes_sub main_v143 rfl (by decide),
   writes_sub main_cst_6 rfl (by decide),
   writes_sub main_v144 rfl (by decide),
   writes_sub main_v145 rfl (by decide),
   writes_sub main_v146 rfl (by decide),
   writes_sub main_v147 rfl (by decide)⟩

/-- A buffer the stretch does not write keeps its contents. -/
theorem sBr2_frame (V : Valuation τ sig (Elt Ideal)) {r : Ref sig .tc} (hr : r ∉ sBr2_W) :
    after sBr2 V (Proc.devRef .tc r) = V (Proc.devRef .tc r) :=
  after_of_writes_sub sBr2 V sBr2_hW hr

/-- What the stretch leaves in `main_v171`, as a function of the contents it starts from. -/
theorem sBr3_val (V : Valuation τ sig (Elt Ideal)) :
    after sBr3 V (Proc.devRef (τ := τ) .tc main_v171) = normalizeV (actV (V (Proc.devRef (τ := τ) .tc main_arg1)) (mmV (V (Proc.devRef (τ := τ) .tc main_v69)) (wSlice3 (V (Proc.devRef (τ := τ) .tc main_arg4)))) (bSlice3 (V (Proc.devRef (τ := τ) .tc main_arg5)))) := by
  unfold sBr3
  after_results_simp
  rfl

/-- Every operation of the stretch writes one of the listed buffers. -/
theorem sBr3_hW : (sBr3 : List (HloOp τ sig (Elt Ideal))).Forall fun op => op.writes ⊆ ((sBr3_W).map (Proc.devRef (τ := τ) .tc)).toFinset :=
  ⟨writes_sub main_v157 rfl (by decide),
   writes_sub main_v158 rfl (by decide),
   writes_sub main_v159 rfl (by decide),
   writes_sub main_v160 rfl (by decide),
   writes_sub main_v161 rfl (by decide),
   writes_sub main_v162 rfl (by decide),
   writes_sub main_v163 rfl (by decide),
   writes_sub main_v164 rfl (by decide),
   writes_sub main_v165 rfl (by decide),
   writes_sub main_call21_cst rfl (by decide),
   writes_sub main_call21_v0 rfl (by decide),
   writes_sub main_v166 rfl (by decide),
   writes_sub main_call22_v0 rfl (by decide),
   writes_sub main_call22_cst rfl (by decide),
   writes_sub main_call22_v1 rfl (by decide),
   writes_sub main_call22_v2 rfl (by decide),
   writes_sub main_v167 rfl (by decide),
   writes_sub main_cst_7 rfl (by decide),
   writes_sub main_v168 rfl (by decide),
   writes_sub main_v169 rfl (by decide),
   writes_sub main_v170 rfl (by decide),
   writes_sub main_v171 rfl (by decide)⟩

/-- A buffer the stretch does not write keeps its contents. -/
theorem sBr3_frame (V : Valuation τ sig (Elt Ideal)) {r : Ref sig .tc} (hr : r ∉ sBr3_W) :
    after sBr3 V (Proc.devRef .tc r) = V (Proc.devRef .tc r) :=
  after_of_writes_sub sBr3 V sBr3_hW hr

/-- Every operation of the stretch determines what it writes. -/
theorem sBr0_fresh : ∀ op ∈ (sBr0 : List (HloOp τ sig (Elt Ideal))), op.fresh = ∅ := by
  intro op h
  unfold sBr0 at h
  (repeat (cases h with | head => rfl | tail _ h => ?_)); exact nomatch h

/-- Every operation of the stretch determines what it writes. -/
theorem sBr1_fresh : ∀ op ∈ (sBr1 : List (HloOp τ sig (Elt Ideal))), op.fresh = ∅ := by
  intro op h
  unfold sBr1 at h
  (repeat (cases h with | head => rfl | tail _ h => ?_)); exact nomatch h

/-- Every operation of the stretch determines what it writes. -/
theorem sBr2_fresh : ∀ op ∈ (sBr2 : List (HloOp τ sig (Elt Ideal))), op.fresh = ∅ := by
  intro op h
  unfold sBr2 at h
  (repeat (cases h with | head => rfl | tail _ h => ?_)); exact nomatch h

/-- Every operation of the stretch determines what it writes. -/
theorem sBr3_fresh : ∀ op ∈ (sBr3 : List (HloOp τ sig (Elt Ideal))), op.fresh = ∅ := by
  intro op h
  unfold sBr3 at h
  (repeat (cases h with | head => rfl | tail _ h => ?_)); exact nomatch h

end Cert.ReferenceIdeal.RefValue

end
-- ==== Proof.Ref.StretchC.lean ====
/-
  The six perceptrons and the final additions: what each stretch of operations leaves in its result buffer, as the
  stage functions of the contents it starts from, and that it keeps every buffer it does not write.
-/
import proofs.«172286_g11278584119306_cont_sun_m_662_2_alg».proof.Proof.Ref.Ops
import proofs.«172286_g11278584119306_cont_sun_m_662_2_alg».proof.Proof.Ref.Value

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.GraphScore

/-- An operation whose one written buffer is among `W` writes inside `W`. -/
private theorem writes_sub {W : List (Ref sig .tc)} {op : HloOp τ sig (Elt Ideal)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- What the stretch leaves in `main_v84`, as a function of the contents it starts from. -/
theorem sMlp0_val (V : Valuation τ sig (Elt Ideal)) :
    after sMlp0 V (Proc.devRef (τ := τ) .tc main_v84) = outV (hidV (V (Proc.devRef (τ := τ) .tc main_v69)) (V (Proc.devRef (τ := τ) .tc main_arg8)) (V (Proc.devRef (τ := τ) .tc main_arg9))) (V (Proc.devRef (τ := τ) .tc main_arg10)) (V (Proc.devRef (τ := τ) .tc main_arg11)) := by
  unfold sMlp0
  after_results_simp
  rfl

/-- Every operation of the stretch writes one of the listed buffers. -/
theorem sMlp0_hW : (sMlp0 : List (HloOp τ sig (Elt Ideal))).Forall fun op => op.writes ⊆ ((sMlp0_W).map (Proc.devRef (τ := τ) .tc)).toFinset :=
  ⟨writes_sub main_v76 rfl (by decide),
   writes_sub main_v77 rfl (by decide),
   writes_sub main_v78 rfl (by decide),
   writes_sub main_v79 rfl (by decide),
   writes_sub main_call11_cst rfl (by decide),
   writes_sub main_call11_v0 rfl (by decide),
   writes_sub main_v80 rfl (by decide),
   writes_sub main_v81 rfl (by decide),
   writes_sub main_v82 rfl (by decide),
   writes_sub main_v83 rfl (by decide),
   writes_sub main_v84 rfl (by decide)⟩

/-- A buffer the stretch does not write keeps its contents. -/
theorem sMlp0_frame (V : Valuation τ sig (Elt Ideal)) {r : Ref sig .tc} (hr : r ∉ sMlp0_W) :
    after sMlp0 V (Proc.devRef .tc r) = V (Proc.devRef .tc r) :=
  after_of_writes_sub sMlp0 V sMlp0_hW hr

/-- What the stretch leaves in `main_v108`, as a function of the contents it starts from. -/
theorem sMlp1_val (V : Valuation τ sig (Elt Ideal)) :
    after sMlp1 V (Proc.devRef (τ := τ) .tc main_v108) = outV (hidV (V (Proc.devRef (τ := τ) .tc main_v99)) (V (Proc.devRef (τ := τ) .tc main_arg8)) (V (Proc.devRef (τ := τ) .tc main_arg9))) (V (Proc.devRef (τ := τ) .tc main_arg10)) (V (Proc.devRef (τ := τ) .tc main_arg11)) := by
  unfold sMlp1
  after_results_simp
  rfl

/-- Every operation of the stretch writes one of the listed buffers. -/
theorem sMlp1_hW : (sMlp1 : List (HloOp τ sig (Elt Ideal))).Forall fun op => op.writes ⊆ ((sMlp1_W).map (Proc.devRef (τ := τ) .tc)).toFinset :=
  ⟨writes_sub main_v100 rfl (by decide),
   writes_sub main_v101 rfl (by decide),
   writes_sub main_v102 rfl (by decide),
   writes_sub main_v103 rfl (by decide),
   writes_sub main_call14_cst rfl (by decide),
   writes_sub main_call14_v0 rfl (by decide),
   writes_sub main_v104 rfl (by decide),
   writes_sub main_v105 rfl (by decide),
   writes_sub main_v106 rfl (by decide),
   writes_sub main_v107 rfl (by decide),
   writes_sub main_v108 rfl (by decide)⟩

/-- A buffer the stretch does not write keeps its contents. -/
theorem sMlp1_frame (V : Valuation τ sig (Elt Ideal)) {r : Ref sig .tc} (hr : r ∉ sMlp1_W) :
    after sMlp1 V (Proc.devRef .tc r) = V (Proc.devRef .tc r) :=
  after_of_writes_sub sMlp1 V sMlp1_hW hr

/-- What the stretch leaves in `main_v132`, as a function of the contents it starts from. -/
theorem sMlp2_val (V : Valuation τ sig (Elt Ideal)) :
    after sMlp2 V (Proc.devRef (τ := τ) .tc main_v132) = outV (hidV (V (Proc.devRef (τ := τ) .tc main_v123)) (V (Proc.devRef (τ := τ) .tc main_arg8)) (V (Proc.devRef (τ := τ) .tc main_arg9))) (V (Proc.devRef (τ := τ) .tc main_arg10)) (V (Proc.devRef (τ := τ) .tc main_arg11)) := by
  unfold sMlp2
  after_results_simp
  rfl

/-- Every operation of the stretch writes one of the listed buffers. -/
theorem sMlp2_hW : (sMlp2 : List (HloOp τ sig (Elt Ideal))).Forall fun op => op.writes ⊆ ((sMlp2_W).map (Proc.devRef (τ := τ) .tc)).toFinset :=
  ⟨writes_sub main_v124 rfl (by decide),
   writes_sub main_v125 rfl (by decide),
   writes_sub main_v126 rfl (by decide),
   writes_sub main_v127 rfl (by decide),
   writes_sub main_call17_cst rfl (by decide),
   writes_sub main_call17_v0 rfl (by decide),
   writes_sub main_v128 rfl (by decide),
   writes_sub main_v129 rfl (by decide),
   writes_sub main_v130 rfl (by decide),
   writes_sub main_v131 rfl (by decide),
   writes_sub main_v132 rfl (by decide)⟩

/-- A buffer the stretch does not write keeps its contents. -/
theorem sMlp2_frame (V : Valuation τ sig (Elt Ideal)) {r : Ref sig .tc} (hr : r ∉ sMlp2_W) :
    after sMlp2 V (Proc.devRef .tc r) = V (Proc.devRef .tc r) :=
  after_of_writes_sub sMlp2 V sMlp2_hW hr

/-- What the stretch leaves in `main_v156`, as a function of the contents it starts from. -/
theorem sMlp3_val (V : Valuation τ sig (Elt Ideal)) :
    after sMlp3 V (Proc.devRef (τ := τ) .tc main_v156) = outV (hidV (V (Proc.devRef (τ := τ) .tc main_v147)) (V (Proc.devRef (τ := τ) .tc main_arg8)) (V (Proc.devRef (τ := τ) .tc main_arg9))) (V (Proc.devRef (τ := τ) .tc main_arg10)) (V (Proc.devRef (τ := τ) .tc main_arg11)) := by
  unfold sMlp3
  after_results_simp
  rfl

/-- Every operation of the stretch writes one of the listed buffers. -/
theorem sMlp3_hW : (sMlp3 : List (HloOp τ sig (Elt Ideal))).Forall fun op => op.writes ⊆ ((sMlp3_W).map (Proc.devRef (τ := τ) .tc)).toFinset :=
  ⟨writes_sub main_v148 rfl (by decide),
   writes_sub main_v149 rfl (by decide),
   writes_sub main_v150 rfl (by decide),
   writes_sub main_v151 rfl (by decide),
   writes_sub main_call20_cst rfl (by decide),
   writes_sub main_call20_v0 rfl (by decide),
   writes_sub main_v152 rfl (by decide),
   writes_sub main_v153 rfl (by decide),
   writes_sub main_v154 rfl (by decide),
   writes_sub main_v155 rfl (by decide),
   writes_sub main_v156 rfl (by decide)⟩

/-- A buffer the stretch does not write keeps its contents. -/
theorem sMlp3_frame (V : Valuation τ sig (Elt Ideal)) {r : Ref sig .tc} (hr : r ∉ sMlp3_W) :
    after sMlp3 V (Proc.devRef .tc r) = V (Proc.devRef .tc r) :=
  after_of_writes_sub sMlp3 V sMlp3_hW hr

/-- What the stretch leaves in `main_v180`, as a function of the contents it starts from. -/
theorem sMlp4_val (V : Valuation τ sig (Elt Ideal)) :
    after sMlp4 V (Proc.devRef (τ := τ) .tc main_v180) = outV (hidV (V (Proc.devRef (τ := τ) .tc main_v171)) (V (Proc.devRef (τ := τ) .tc main_arg8)) (V (Proc.devRef (τ := τ) .tc main_arg9))) (V (Proc.devRef (τ := τ) .tc main_arg10)) (V (Proc.devRef (τ := τ) .tc main_arg11)) := by
  unfold sMlp4
  after_results_simp
  rfl

/-- Every operation of the stretch writes one of the listed buffers. -/
theorem sMlp4_hW : (sMlp4 : List (HloOp τ sig (Elt Ideal))).Forall fun op => op.writes ⊆ ((sMlp4_W).map (Proc.devRef (τ := τ) .tc)).toFinset :=
  ⟨writes_sub main_v172 rfl (by decide),
   writes_sub main_v173 rfl (by decide),
   writes_sub main_v174 rfl (by decide),
   writes_sub main_v175 rfl (by decide),
   writes_sub main_call23_cst rfl (by decide),
   writes_sub main_call23_v0 rfl (by decide),
   writes_sub main_v176 rfl (by decide),
   writes_sub main_v177 rfl (by decide),
   writes_sub main_v178 rfl (by decide),
   writes_sub main_v179 rfl (by decide),
   writes_sub main_v180 rfl (by decide)⟩

/-- A buffer the stretch does not write keeps its contents. -/
theorem sMlp4_frame (V : Valuation τ sig (Elt Ideal)) {r : Ref sig .tc} (hr : r ∉ sMlp4_W) :
    after sMlp4 V (Proc.devRef .tc r) = V (Proc.devRef .tc r) :=
  after_of_writes_sub sMlp4 V sMlp4_hW hr

/-- What the stretch leaves in `main_v189`, as a function of the contents it starts from. -/
theorem sMlp5_val (V : Valuation τ sig (Elt Ideal)) :
    after sMlp5 V (Proc.devRef (τ := τ) .tc main_v189) = outV (hidV (V (Proc.devRef (τ := τ) .tc main_v75)) (V (Proc.devRef (τ := τ) .tc main_arg8)) (V (Proc.devRef (τ := τ) .tc main_arg9))) (V (Proc.devRef (τ := τ) .tc main_arg10)) (V (Proc.devRef (τ := τ) .tc main_arg11)) := by
  unfold sMlp5
  after_results_simp
  rfl

/-- Every operation of the stretch writes one of the listed buffers. -/
theorem sMlp5_hW : (sMlp5 : List (HloOp τ sig (Elt Ideal))).Forall fun op => op.writes ⊆ ((sMlp5_W).map (Proc.devRef (τ := τ) .tc)).toFinset :=
  ⟨writes_sub main_v181 rfl (by decide),
   writes_sub main_v182 rfl (by decide),
   writes_sub main_v183 rfl (by decide),
   writes_sub main_v184 rfl (by decide),
   writes_sub main_call24_cst rfl (by decide),
   writes_sub main_call24_v0 rfl (by decide),
   writes_sub main_v185 rfl (by decide),
   writes_sub main_v186 rfl (by decide),
   writes_sub main_v187 rfl (by decide),
   writes_sub main_v188 rfl (by decide),
   writes_sub main_v189 rfl (by decide)⟩

/-- A buffer the stretch does not write keeps its contents. -/
theorem sMlp5_frame (V : Valuation τ sig (Elt Ideal)) {r : Ref sig .tc} (hr : r ∉ sMlp5_W) :
    after sMlp5 V (Proc.devRef .tc r) = V (Proc.devRef .tc r) :=
  after_of_writes_sub sMlp5 V sMlp5_hW hr

/-- What the stretch leaves in `main_v194`, as a function of the contents it starts from. -/
theorem sSum_val (V : Valuation τ sig (Elt Ideal)) :
    after sSum V (Proc.devRef (τ := τ) .tc main_v194) = (addf (addf (addf (addf (addf (V (Proc.devRef (τ := τ) .tc main_v84)) (V (Proc.devRef (τ := τ) .tc main_v108))) (V (Proc.devRef (τ := τ) .tc main_v132))) (V (Proc.devRef (τ := τ) .tc main_v156))) (V (Proc.devRef (τ := τ) .tc main_v180))) (V (Proc.devRef (τ := τ) .tc main_v189)) : C S10000x1) := by
  unfold sSum
  after_results_simp

/-- Every operation of the stretch writes one of the listed buffers. -/
theorem sSum_hW : (sSum : List (HloOp τ sig (Elt Ideal))).Forall fun op => op.writes ⊆ ((sSum_W).map (Proc.devRef (τ := τ) .tc)).toFinset :=
  ⟨writes_sub main_v190 rfl (by decide),
   writes_sub main_v191 rfl (by decide),
   writes_sub main_v192 rfl (by decide),
   writes_sub main_v193 rfl (by decide),
   writes_sub main_v194 rfl (by decide)⟩

/-- A buffer the stretch does not write keeps its contents. -/
theorem sSum_frame (V : Valuation τ sig (Elt Ideal)) {r : Ref sig .tc} (hr : r ∉ sSum_W) :
    after sSum V (Proc.devRef .tc r) = V (Proc.devRef .tc r) :=
  after_of_writes_sub sSum V sSum_hW hr

/-- Every operation of the stretch determines what it writes. -/
theorem sMlp0_fresh : ∀ op ∈ (sMlp0 : List (HloOp τ sig (Elt Ideal))), op.fresh = ∅ := by
  intro op h
  unfold sMlp0 at h
  (repeat (cases h with | head => rfl | tail _ h => ?_)); exact nomatch h

/-- Every operation of the stretch determines what it writes. -/
theorem sMlp1_fresh : ∀ op ∈ (sMlp1 : List (HloOp τ sig (Elt Ideal))), op.fresh = ∅ := by
  intro op h
  unfold sMlp1 at h
  (repeat (cases h with | head => rfl | tail _ h => ?_)); exact nomatch h

/-- Every operation of the stretch determines what it writes. -/
theorem sMlp2_fresh : ∀ op ∈ (sMlp2 : List (HloOp τ sig (Elt Ideal))), op.fresh = ∅ := by
  intro op h
  unfold sMlp2 at h
  (repeat (cases h with | head => rfl | tail _ h => ?_)); exact nomatch h

/-- Every operation of the stretch determines what it writes. -/
theorem sMlp3_fresh : ∀ op ∈ (sMlp3 : List (HloOp τ sig (Elt Ideal))), op.fresh = ∅ := by
  intro op h
  unfold sMlp3 at h
  (repeat (cases h with | head => rfl | tail _ h => ?_)); exact nomatch h

/-- Every operation of the stretch determines what it writes. -/
theorem sMlp4_fresh : ∀ op ∈ (sMlp4 : List (HloOp τ sig (Elt Ideal))), op.fresh = ∅ := by
  intro op h
  unfold sMlp4 at h
  (repeat (cases h with | head => rfl | tail _ h => ?_)); exact nomatch h

/-- Every operation of the stretch determines what it writes. -/
theorem sMlp5_fresh : ∀ op ∈ (sMlp5 : List (HloOp τ sig (Elt Ideal))), op.fresh = ∅ := by
  intro op h
  unfold sMlp5 at h
  (repeat (cases h with | head => rfl | tail _ h => ?_)); exact nomatch h

/-- Every operation of the stretch determines what it writes. -/
theorem sSum_fresh : ∀ op ∈ (sSum : List (HloOp τ sig (Elt Ideal))), op.fresh = ∅ := by
  intro op h
  unfold sSum at h
  (repeat (cases h with | head => rfl | tail _ h => ?_)); exact nomatch h

end Cert.ReferenceIdeal.RefValue

end
-- ==== Proof.Ref.Run.lean ====
/-
  The reference program's run: every weakly fair execution ends with the result buffer holding, entry by entry, the
  sum of the six perceptron outputs over the features, their four further propagations and the last propagation —
  `Cert.GraphScore.scoreSum` of the twelve argument arrays — and with the arguments unchanged.  The program is its
  stretches in order; each stretch's result is a stage function of what the earlier ones left, and the stage
  functions are the specification's, entry by entry.
-/
import proofs.«172286_g11278584119306_cont_sun_m_662_2_alg».proof.Proof.Ref.MainEq
import proofs.«172286_g11278584119306_cont_sun_m_662_2_alg».proof.Proof.Ref.StretchA
import proofs.«172286_g11278584119306_cont_sun_m_662_2_alg».proof.Proof.Ref.StretchB
import proofs.«172286_g11278584119306_cont_sun_m_662_2_alg».proof.Proof.Ref.StretchC

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.GraphScore

/-- The twelve argument arrays of memory `m` on core `c`, entry by entry. -/
def argsOf (m : (ℓ : Loc nD τ sig) → Buf (Elt Ideal) ℓ) (c : Dev nD) : Cert.GraphScore.Args where
  adj1 i k := m ((c.tc : Thread nD τ).loc main_arg0) (ValueIdx.ix2 i k)
  adj2 i k := m ((c.tc : Thread nD τ).loc main_arg1) (ValueIdx.ix2 i k)
  W0 i j := m ((c.tc : Thread nD τ).loc main_arg2) (ValueIdx.ix2 i j)
  b0 j := m ((c.tc : Thread nD τ).loc main_arg3) (ValueIdx.ix1 j)
  Ws k l j := m ((c.tc : Thread nD τ).loc main_arg4) (ValueIdx.ix3 k l j)
  bs k j := m ((c.tc : Thread nD τ).loc main_arg5) (ValueIdx.ix2 k j)
  Wl i j := m ((c.tc : Thread nD τ).loc main_arg6) (ValueIdx.ix2 i j)
  bl j := m ((c.tc : Thread nD τ).loc main_arg7) (ValueIdx.ix1 j)
  Wm1 i j := m ((c.tc : Thread nD τ).loc main_arg8) (ValueIdx.ix2 i j)
  bm1 j := m ((c.tc : Thread nD τ).loc main_arg9) (ValueIdx.ix1 j)
  Wm2 l o := m ((c.tc : Thread nD τ).loc main_arg10) (ValueIdx.ix2 l o)
  bm2 o := m ((c.tc : Thread nD τ).loc main_arg11) (ValueIdx.ix1 o)

/-- The same arrays read from a core's buffer contents. -/
def argsOfV (V : Valuation τ sig (Elt Ideal)) : Cert.GraphScore.Args where
  adj1 i k := V (Proc.devRef (τ := τ) .tc main_arg0) (ValueIdx.ix2 i k)
  adj2 i k := V (Proc.devRef (τ := τ) .tc main_arg1) (ValueIdx.ix2 i k)
  W0 i j := V (Proc.devRef (τ := τ) .tc main_arg2) (ValueIdx.ix2 i j)
  b0 j := V (Proc.devRef (τ := τ) .tc main_arg3) (ValueIdx.ix1 j)
  Ws k l j := V (Proc.devRef (τ := τ) .tc main_arg4) (ValueIdx.ix3 k l j)
  bs k j := V (Proc.devRef (τ := τ) .tc main_arg5) (ValueIdx.ix2 k j)
  Wl i j := V (Proc.devRef (τ := τ) .tc main_arg6) (ValueIdx.ix2 i j)
  bl j := V (Proc.devRef (τ := τ) .tc main_arg7) (ValueIdx.ix1 j)
  Wm1 i j := V (Proc.devRef (τ := τ) .tc main_arg8) (ValueIdx.ix2 i j)
  bm1 j := V (Proc.devRef (τ := τ) .tc main_arg9) (ValueIdx.ix1 j)
  Wm2 l o := V (Proc.devRef (τ := τ) .tc main_arg10) (ValueIdx.ix2 l o)
  bm2 o := V (Proc.devRef (τ := τ) .tc main_arg11) (ValueIdx.ix1 o)

/-- The two readings of the arguments agree at the launch contents. -/
theorem argsOf_eq (m : (ℓ : Loc nD τ sig) → Buf (Elt Ideal) ℓ) (c : Dev nD) : argsOf m c = argsOfV (launchContents m c) := rfl

/-- The argument buffers the later stretches read hold what they held at the start. -/
structure Kept (V V0 : Valuation τ sig (Elt Ideal)) : Prop where
  a1 : V (Proc.devRef (τ := τ) .tc main_arg1) = V0 (Proc.devRef (τ := τ) .tc main_arg1)
  a4 : V (Proc.devRef (τ := τ) .tc main_arg4) = V0 (Proc.devRef (τ := τ) .tc main_arg4)
  a5 : V (Proc.devRef (τ := τ) .tc main_arg5) = V0 (Proc.devRef (τ := τ) .tc main_arg5)
  a6 : V (Proc.devRef (τ := τ) .tc main_arg6) = V0 (Proc.devRef (τ := τ) .tc main_arg6)
  a7 : V (Proc.devRef (τ := τ) .tc main_arg7) = V0 (Proc.devRef (τ := τ) .tc main_arg7)
  a8 : V (Proc.devRef (τ := τ) .tc main_arg8) = V0 (Proc.devRef (τ := τ) .tc main_arg8)
  a9 : V (Proc.devRef (τ := τ) .tc main_arg9) = V0 (Proc.devRef (τ := τ) .tc main_arg9)
  a10 : V (Proc.devRef (τ := τ) .tc main_arg10) = V0 (Proc.devRef (τ := τ) .tc main_arg10)
  a11 : V (Proc.devRef (τ := τ) .tc main_arg11) = V0 (Proc.devRef (τ := τ) .tc main_arg11)

theorem Kept.refl (V : Valuation τ sig (Elt Ideal)) : Kept V V := ⟨rfl, rfl, rfl, rfl, rfl, rfl, rfl, rfl, rfl⟩

/-- The stretch keeps the argument buffers. -/
theorem sStep0_kept {V V0 : Valuation τ sig (Elt Ideal)} (h : Kept V V0) : Kept (after sStep0 V) V0 :=
  ⟨(sStep0_frame V (by decide)).trans h.a1,
   (sStep0_frame V (by decide)).trans h.a4,
   (sStep0_frame V (by decide)).trans h.a5,
   (sStep0_frame V (by decide)).trans h.a6,
   (sStep0_frame V (by decide)).trans h.a7,
   (sStep0_frame V (by decide)).trans h.a8,
   (sStep0_frame V (by decide)).trans h.a9,
   (sStep0_frame V (by decide)).trans h.a10,
   (sStep0_frame V (by decide)).trans h.a11⟩
/-- The stretch keeps the argument buffers. -/
theorem sStep1_kept {V V0 : Valuation τ sig (Elt Ideal)} (h : Kept V V0) : Kept (after sStep1 V) V0 :=
  ⟨(sStep1_frame V (by decide)).trans h.a1,
   (sStep1_frame V (by decide)).trans h.a4,
   (sStep1_frame V (by decide)).trans h.a5,
   (sStep1_frame V (by decide)).trans h.a6,
   (sStep1_frame V (by decide)).trans h.a7,
   (sStep1_frame V (by decide)).trans h.a8,
   (sStep1_frame V (by decide)).trans h.a9,
   (sStep1_frame V (by decide)).trans h.a10,
   (sStep1_frame V (by decide)).trans h.a11⟩
/-- The stretch keeps the argument buffers. -/
theorem sStep2_kept {V V0 : Valuation τ sig (Elt Ideal)} (h : Kept V V0) : Kept (after sStep2 V) V0 :=
  ⟨(sStep2_frame V (by decide)).trans h.a1,
   (sStep2_frame V (by decide)).trans h.a4,
   (sStep2_frame V (by decide)).trans h.a5,
   (sStep2_frame V (by decide)).trans h.a6,
   (sStep2_frame V (by decide)).trans h.a7,
   (sStep2_frame V (by decide)).trans h.a8,
   (sStep2_frame V (by decide)).trans h.a9,
   (sStep2_frame V (by decide)).trans h.a10,
   (sStep2_frame V (by decide)).trans h.a11⟩
/-- The stretch keeps the argument buffers. -/
theorem sStep3_kept {V V0 : Valuation τ sig (Elt Ideal)} (h : Kept V V0) : Kept (after sStep3 V) V0 :=
  ⟨(sStep3_frame V (by decide)).trans h.a1,
   (sStep3_frame V (by decide)).trans h.a4,
   (sStep3_frame V (by decide)).trans h.a5,
   (sStep3_frame V (by decide)).trans h.a6,
   (sStep3_frame V (by decide)).trans h.a7,
   (sStep3_frame V (by decide)).trans h.a8,
   (sStep3_frame V (by decide)).trans h.a9,
   (sStep3_frame V (by decide)).trans h.a10,
   (sStep3_frame V (by decide)).trans h.a11⟩
/-- The stretch keeps the argument buffers. -/
theorem sStep4_kept {V V0 : Valuation τ sig (Elt Ideal)} (h : Kept V V0) : Kept (after sStep4 V) V0 :=
  ⟨(sStep4_frame V (by decide)).trans h.a1,
   (sStep4_frame V (by decide)).trans h.a4,
   (sStep4_frame V (by decide)).trans h.a5,
   (sStep4_frame V (by decide)).trans h.a6,
   (sStep4_frame V (by decide)).trans h.a7,
   (sStep4_frame V (by decide)).trans h.a8,
   (sStep4_frame V (by decide)).trans h.a9,
   (sStep4_frame V (by decide)).trans h.a10,
   (sStep4_frame V (by decide)).trans h.a11⟩
/-- The stretch keeps the argument buffers. -/
theorem sLast_kept {V V0 : Valuation τ sig (Elt Ideal)} (h : Kept V V0) : Kept (after sLast V) V0 :=
  ⟨(sLast_frame V (by decide)).trans h.a1,
   (sLast_frame V (by decide)).trans h.a4,
   (sLast_frame V (by decide)).trans h.a5,
   (sLast_frame V (by decide)).trans h.a6,
   (sLast_frame V (by decide)).trans h.a7,
   (sLast_frame V (by decide)).trans h.a8,
   (sLast_frame V (by decide)).trans h.a9,
   (sLast_frame V (by decide)).trans h.a10,
   (sLast_frame V (by decide)).trans h.a11⟩
/-- The stretch keeps the argument buffers. -/
theorem sMlp0_kept {V V0 : Valuation τ sig (Elt Ideal)} (h : Kept V V0) : Kept (after sMlp0 V) V0 :=
  ⟨(sMlp0_frame V (by decide)).trans h.a1,
   (sMlp0_frame V (by decide)).trans h.a4,
   (sMlp0_frame V (by decide)).trans h.a5,
   (sMlp0_frame V (by decide)).trans h.a6,
   (sMlp0_frame V (by decide)).trans h.a7,
   (sMlp0_frame V (by decide)).trans h.a8,
   (sMlp0_frame V (by decide)).trans h.a9,
   (sMlp0_frame V (by decide)).trans h.a10,
   (sMlp0_frame V (by decide)).trans h.a11⟩
/-- The stretch keeps the argument buffers. -/
theorem sBr0_kept {V V0 : Valuation τ sig (Elt Ideal)} (h : Kept V V0) : Kept (after sBr0 V) V0 :=
  ⟨(sBr0_frame V (by decide)).trans h.a1,
   (sBr0_frame V (by decide)).trans h.a4,
   (sBr0_frame V (by decide)).trans h.a5,
   (sBr0_frame V (by decide)).trans h.a6,
   (sBr0_frame V (by decide)).trans h.a7,
   (sBr0_frame V (by decide)).trans h.a8,
   (sBr0_frame V (by decide)).trans h.a9,
   (sBr0_frame V (by decide)).trans h.a10,
   (sBr0_frame V (by decide)).trans h.a11⟩
/-- The stretch keeps the argument buffers. -/
theorem sMlp1_kept {V V0 : Valuation τ sig (Elt Ideal)} (h : Kept V V0) : Kept (after sMlp1 V) V0 :=
  ⟨(sMlp1_frame V (by decide)).trans h.a1,
   (sMlp1_frame V (by decide)).trans h.a4,
   (sMlp1_frame V (by decide)).trans h.a5,
   (sMlp1_frame V (by decide)).trans h.a6,
   (sMlp1_frame V (by decide)).trans h.a7,
   (sMlp1_frame V (by decide)).trans h.a8,
   (sMlp1_frame V (by decide)).trans h.a9,
   (sMlp1_frame V (by decide)).trans h.a10,
   (sMlp1_frame V (by decide)).trans h.a11⟩
/-- The stretch keeps the argument buffers. -/
theorem sBr1_kept {V V0 : Valuation τ sig (Elt Ideal)} (h : Kept V V0) : Kept (after sBr1 V) V0 :=
  ⟨(sBr1_frame V (by decide)).trans h.a1,
   (sBr1_frame V (by decide)).trans h.a4,
   (sBr1_frame V (by decide)).trans h.a5,
   (sBr1_frame V (by decide)).trans h.a6,
   (sBr1_frame V (by decide)).trans h.a7,
   (sBr1_frame V (by decide)).trans h.a8,
   (sBr1_frame V (by decide)).trans h.a9,
   (sBr1_frame V (by decide)).trans h.a10,
   (sBr1_frame V (by decide)).trans h.a11⟩
/-- The stretch keeps the argument buffers. -/
theorem sMlp2_kept {V V0 : Valuation τ sig (Elt Ideal)} (h : Kept V V0) : Kept (after sMlp2 V) V0 :=
  ⟨(sMlp2_frame V (by decide)).trans h.a1,
   (sMlp2_frame V (by decide)).trans h.a4,
   (sMlp2_frame V (by decide)).trans h.a5,
   (sMlp2_frame V (by decide)).trans h.a6,
   (sMlp2_frame V (by decide)).trans h.a7,
   (sMlp2_frame V (by decide)).trans h.a8,
   (sMlp2_frame V (by decide)).trans h.a9,
   (sMlp2_frame V (by decide)).trans h.a10,
   (sMlp2_frame V (by decide)).trans h.a11⟩
/-- The stretch keeps the argument buffers. -/
theorem sBr2_kept {V V0 : Valuation τ sig (Elt Ideal)} (h : Kept V V0) : Kept (after sBr2 V) V0 :=
  ⟨(sBr2_frame V (by decide)).trans h.a1,
   (sBr2_frame V (by decide)).trans h.a4,
   (sBr2_frame V (by decide)).trans h.a5,
   (sBr2_frame V (by decide)).trans h.a6,
   (sBr2_frame V (by decide)).trans h.a7,
   (sBr2_frame V (by decide)).trans h.a8,
   (sBr2_frame V (by decide)).trans h.a9,
   (sBr2_frame V (by decide)).trans h.a10,
   (sBr2_frame V (by decide)).trans h.a11⟩
/-- The stretch keeps the argument buffers. -/
theorem sMlp3_kept {V V0 : Valuation τ sig (Elt Ideal)} (h : Kept V V0) : Kept (after sMlp3 V) V0 :=
  ⟨(sMlp3_frame V (by decide)).trans h.a1,
   (sMlp3_frame V (by decide)).trans h.a4,
   (sMlp3_frame V (by decide)).trans h.a5,
   (sMlp3_frame V (by decide)).trans h.a6,
   (sMlp3_frame V (by decide)).trans h.a7,
   (sMlp3_frame V (by decide)).trans h.a8,
   (sMlp3_frame V (by decide)).trans h.a9,
   (sMlp3_frame V (by decide)).trans h.a10,
   (sMlp3_frame V (by decide)).trans h.a11⟩
/-- The stretch keeps the argument buffers. -/
theorem sBr3_kept {V V0 : Valuation τ sig (Elt Ideal)} (h : Kept V V0) : Kept (after sBr3 V) V0 :=
  ⟨(sBr3_frame V (by decide)).trans h.a1,
   (sBr3_frame V (by decide)).trans h.a4,
   (sBr3_frame V (by decide)).trans h.a5,
   (sBr3_frame V (by decide)).trans h.a6,
   (sBr3_frame V (by decide)).trans h.a7,
   (sBr3_frame V (by decide)).trans h.a8,
   (sBr3_frame V (by decide)).trans h.a9,
   (sBr3_frame V (by decide)).trans h.a10,
   (sBr3_frame V (by decide)).trans h.a11⟩
/-- The stretch keeps the argument buffers. -/
theorem sMlp4_kept {V V0 : Valuation τ sig (Elt Ideal)} (h : Kept V V0) : Kept (after sMlp4 V) V0 :=
  ⟨(sMlp4_frame V (by decide)).trans h.a1,
   (sMlp4_frame V (by decide)).trans h.a4,
   (sMlp4_frame V (by decide)).trans h.a5,
   (sMlp4_frame V (by decide)).trans h.a6,
   (sMlp4_frame V (by decide)).trans h.a7,
   (sMlp4_frame V (by decide)).trans h.a8,
   (sMlp4_frame V (by decide)).trans h.a9,
   (sMlp4_frame V (by decide)).trans h.a10,
   (sMlp4_frame V (by decide)).trans h.a11⟩
/-- The stretch keeps the argument buffers. -/
theorem sMlp5_kept {V V0 : Valuation τ sig (Elt Ideal)} (h : Kept V V0) : Kept (after sMlp5 V) V0 :=
  ⟨(sMlp5_frame V (by decide)).trans h.a1,
   (sMlp5_frame V (by decide)).trans h.a4,
   (sMlp5_frame V (by decide)).trans h.a5,
   (sMlp5_frame V (by decide)).trans h.a6,
   (sMlp5_frame V (by decide)).trans h.a7,
   (sMlp5_frame V (by decide)).trans h.a8,
   (sMlp5_frame V (by decide)).trans h.a9,
   (sMlp5_frame V (by decide)).trans h.a10,
   (sMlp5_frame V (by decide)).trans h.a11⟩
/-- The stretch keeps the argument buffers. -/
theorem sSum_kept {V V0 : Valuation τ sig (Elt Ideal)} (h : Kept V V0) : Kept (after sSum V) V0 :=
  ⟨(sSum_frame V (by decide)).trans h.a1,
   (sSum_frame V (by decide)).trans h.a4,
   (sSum_frame V (by decide)).trans h.a5,
   (sSum_frame V (by decide)).trans h.a6,
   (sSum_frame V (by decide)).trans h.a7,
   (sSum_frame V (by decide)).trans h.a8,
   (sSum_frame V (by decide)).trans h.a9,
   (sSum_frame V (by decide)).trans h.a10,
   (sSum_frame V (by decide)).trans h.a11⟩

/-- The result buffer after the whole program, entry by entry: the score of the row. -/
theorem after_ops (V0 : Valuation τ sig (Elt Ideal)) :
    after ops V0 (Proc.devRef (τ := τ) .tc main_v194) = fun i => scoreSum (argsOfV V0) (i 0) := by
  unfold ops
  simp only [after_append]
  generalize hV1 : after sStep0 V0 = V1
  generalize hV2 : after sStep1 V1 = V2
  generalize hV3 : after sStep2 V2 = V3
  generalize hV4 : after sStep3 V3 = V4
  generalize hV5 : after sStep4 V4 = V5
  generalize hV6 : after sLast V5 = V6
  generalize hV7 : after sMlp0 V6 = V7
  generalize hV8 : after sBr0 V7 = V8
  generalize hV9 : after sMlp1 V8 = V9
  generalize hV10 : after sBr1 V9 = V10
  generalize hV11 : after sMlp2 V10 = V11
  generalize hV12 : after sBr2 V11 = V12
  generalize hV13 : after sMlp3 V12 = V13
  generalize hV14 : after sBr3 V13 = V14
  generalize hV15 : after sMlp4 V14 = V15
  generalize hV16 : after sMlp5 V15 = V16
  generalize hV17 : after sSum V16 = V17
  have k0 : Kept V0 V0 := Kept.refl V0
  have k1 : Kept V1 V0 := by rw [← hV1]; exact sStep0_kept k0
  have k2 : Kept V2 V0 := by rw [← hV2]; exact sStep1_kept k1
  have k3 : Kept V3 V0 := by rw [← hV3]; exact sStep2_kept k2
  have k4 : Kept V4 V0 := by rw [← hV4]; exact sStep3_kept k3
  have k5 : Kept V5 V0 := by rw [← hV5]; exact sStep4_kept k4
  have k6 : Kept V6 V0 := by rw [← hV6]; exact sLast_kept k5
  have k7 : Kept V7 V0 := by rw [← hV7]; exact sMlp0_kept k6
  have k8 : Kept V8 V0 := by rw [← hV8]; exact sBr0_kept k7
  have k9 : Kept V9 V0 := by rw [← hV9]; exact sMlp1_kept k8
  have k10 : Kept V10 V0 := by rw [← hV10]; exact sBr1_kept k9
  have k11 : Kept V11 V0 := by rw [← hV11]; exact sMlp2_kept k10
  have k12 : Kept V12 V0 := by rw [← hV12]; exact sBr2_kept k11
  have k13 : Kept V13 V0 := by rw [← hV13]; exact sMlp3_kept k12
  have k14 : Kept V14 V0 := by rw [← hV14]; exact sBr3_kept k13
  have k15 : Kept V15 V0 := by rw [← hV15]; exact sMlp4_kept k14
  have k16 : Kept V16 V0 := by rw [← hV16]; exact sMlp5_kept k15
  -- the five propagation steps
  have hx1 : mat (a := 10000) (b := 128) (V1 (Proc.devRef (τ := τ) .tc main_v9)) = x0 (argsOfV V0) := by
    rw [← hV1, sStep0_val, mat_normalizeV, mat_actV]; rfl
  have hx2 : mat (a := 10000) (b := 128) (V2 (Proc.devRef (τ := τ) .tc main_v24)) = x1 (argsOfV V0) := by
    rw [← hV2, sStep1_val, mat_normalizeV, mat_actV, mat_mmV, hx1, mat_wSlice0, vec_bSlice0, k1.a1, k1.a4, k1.a5]; rfl
  have hx3 : mat (a := 10000) (b := 128) (V3 (Proc.devRef (τ := τ) .tc main_v39)) = x2 (argsOfV V0) := by
    rw [← hV3, sStep2_val, mat_normalizeV, mat_actV, mat_mmV, hx2, mat_wSlice1, vec_bSlice1, k2.a1, k2.a4, k2.a5]; rfl
  have hx4 : mat (a := 10000) (b := 128) (V4 (Proc.devRef (τ := τ) .tc main_v54)) = x3 (argsOfV V0) := by
    rw [← hV4, sStep3_val, mat_normalizeV, mat_actV, mat_mmV, hx3, mat_wSlice2, vec_bSlice2, k3.a1, k3.a4, k3.a5]; rfl
  have hx5 : mat (a := 10000) (b := 128) (V5 (Proc.devRef (τ := τ) .tc main_v69)) = feat (argsOfV V0) := by
    rw [← hV5, sStep4_val, mat_normalizeV, mat_actV, mat_mmV, hx4, mat_wSlice3, vec_bSlice3, k4.a1, k4.a4, k4.a5]; rfl
  have f5 := hx5
  have f6 : mat (a := 10000) (b := 128) (V6 (Proc.devRef (τ := τ) .tc main_v69)) = feat (argsOfV V0) := by rw [← hV6, sLast_frame _ (by decide)]; exact f5
  have f7 : mat (a := 10000) (b := 128) (V7 (Proc.devRef (τ := τ) .tc main_v69)) = feat (argsOfV V0) := by rw [← hV7, sMlp0_frame _ (by decide)]; exact f6
  have f8 : mat (a := 10000) (b := 128) (V8 (Proc.devRef (τ := τ) .tc main_v69)) = feat (argsOfV V0) := by rw [← hV8, sBr0_frame _ (by decide)]; exact f7
  have f9 : mat (a := 10000) (b := 128) (V9 (Proc.devRef (τ := τ) .tc main_v69)) = feat (argsOfV V0) := by rw [← hV9, sMlp1_frame _ (by decide)]; exact f8
  have f10 : mat (a := 10000) (b := 128) (V10 (Proc.devRef (τ := τ) .tc main_v69)) = feat (argsOfV V0) := by rw [← hV10, sBr1_frame _ (by decide)]; exact f9
  have f11 : mat (a := 10000) (b := 128) (V11 (Proc.devRef (τ := τ) .tc main_v69)) = feat (argsOfV V0) := by rw [← hV11, sMlp2_frame _ (by decide)]; exact f10
  have f12 : mat (a := 10000) (b := 128) (V12 (Proc.devRef (τ := τ) .tc main_v69)) = feat (argsOfV V0) := by rw [← hV12, sBr2_frame _ (by decide)]; exact f11
  have f13 : mat (a := 10000) (b := 128) (V13 (Proc.devRef (τ := τ) .tc main_v69)) = feat (argsOfV V0) := by rw [← hV13, sMlp3_frame _ (by decide)]; exact f12
  have l6 : mat (a := 10000) (b := 128) (V6 (Proc.devRef (τ := τ) .tc main_v75)) = last (argsOfV V0) := by
    rw [← hV6, sLast_val, mat_actV, mat_mmV, f5, k5.a1, k5.a6, k5.a7]; rfl
  have l7 : mat (a := 10000) (b := 128) (V7 (Proc.devRef (τ := τ) .tc main_v75)) = last (argsOfV V0) := by rw [← hV7, sMlp0_frame _ (by decide)]; exact l6
  have l8 : mat (a := 10000) (b := 128) (V8 (Proc.devRef (τ := τ) .tc main_v75)) = last (argsOfV V0) := by rw [← hV8, sBr0_frame _ (by decide)]; exact l7
  have l9 : mat (a := 10000) (b := 128) (V9 (Proc.devRef (τ := τ) .tc main_v75)) = last (argsOfV V0) := by rw [← hV9, sMlp1_frame _ (by decide)]; exact l8
  have l10 : mat (a := 10000) (b := 128) (V10 (Proc.devRef (τ := τ) .tc main_v75)) = last (argsOfV V0) := by rw [← hV10, sBr1_frame _ (by decide)]; exact l9
  have l11 : mat (a := 10000) (b := 128) (V11 (Proc.devRef (τ := τ) .tc main_v75)) = last (argsOfV V0) := by rw [← hV11, sMlp2_frame _ (by decide)]; exact l10
  have l12 : mat (a := 10000) (b := 128) (V12 (Proc.devRef (τ := τ) .tc main_v75)) = last (argsOfV V0) := by rw [← hV12, sBr2_frame _ (by decide)]; exact l11
  have l13 : mat (a := 10000) (b := 128) (V13 (Proc.devRef (τ := τ) .tc main_v75)) = last (argsOfV V0) := by rw [← hV13, sMlp3_frame _ (by decide)]; exact l12
  have l14 : mat (a := 10000) (b := 128) (V14 (Proc.devRef (τ := τ) .tc main_v75)) = last (argsOfV V0) := by rw [← hV14, sBr3_frame _ (by decide)]; exact l13
  have l15 : mat (a := 10000) (b := 128) (V15 (Proc.devRef (τ := τ) .tc main_v75)) = last (argsOfV V0) := by rw [← hV15, sMlp4_frame _ (by decide)]; exact l14
  have b0 : mat (a := 10000) (b := 128) (V8 (Proc.devRef (τ := τ) .tc main_v99)) = branch (argsOfV V0) 0 := by
    rw [← hV8, sBr0_val, mat_normalizeV, mat_actV, mat_mmV, f7, mat_wSlice0, vec_bSlice0, k7.a1, k7.a4, k7.a5]; rfl
  have b1 : mat (a := 10000) (b := 128) (V10 (Proc.devRef (τ := τ) .tc main_v123)) = branch (argsOfV V0) 1 := by
    rw [← hV10, sBr1_val, mat_normalizeV, mat_actV, mat_mmV, f9, mat_wSlice1, vec_bSlice1, k9.a1, k9.a4, k9.a5]; rfl
  have b2 : mat (a := 10000) (b := 128) (V12 (Proc.devRef (τ := τ) .tc main_v147)) = branch (argsOfV V0) 2 := by
    rw [← hV12, sBr2_val, mat_normalizeV, mat_actV, mat_mmV, f11, mat_wSlice2, vec_bSlice2, k11.a1, k11.a4, k11.a5]; rfl
  have b3 : mat (a := 10000) (b := 128) (V14 (Proc.devRef (τ := τ) .tc main_v171)) = branch (argsOfV V0) 3 := by
    rw [← hV14, sBr3_val, mat_normalizeV, mat_actV, mat_mmV, f13, mat_wSlice3, vec_bSlice3, k13.a1, k13.a4, k13.a5]; rfl
  have o0_7 : ∀ i : S10000x1.Idx, V7 (Proc.devRef (τ := τ) .tc main_v84) i = mlp (argsOfV V0) (feat (argsOfV V0)) (i 0) := by
    intro i
    rw [← hV7, sMlp0_val, outV_apply, mat_hidV, f6, k6.a8, k6.a9, k6.a10, k6.a11]; rfl
  have o0_8 : ∀ i : S10000x1.Idx, V8 (Proc.devRef (τ := τ) .tc main_v84) i = mlp (argsOfV V0) (feat (argsOfV V0)) (i 0) := by
    intro i; rw [← hV8, sBr0_frame _ (by decide)]; exact o0_7 i
  have o0_9 : ∀ i : S10000x1.Idx, V9 (Proc.devRef (τ := τ) .tc main_v84) i = mlp (argsOfV V0) (feat (argsOfV V0)) (i 0) := by
    intro i; rw [← hV9, sMlp1_frame _ (by decide)]; exact o0_8 i
  have o0_10 : ∀ i : S10000x1.Idx, V10 (Proc.devRef (τ := τ) .tc main_v84) i = mlp (argsOfV V0) (feat (argsOfV V0)) (i 0) := by
    intro i; rw [← hV10, sBr1_frame _ (by decide)]; exact o0_9 i
  have o0_11 : ∀ i : S10000x1.Idx, V11 (Proc.devRef (τ := τ) .tc main_v84) i = mlp (argsOfV V0) (feat (argsOfV V0)) (i 0) := by
    intro i; rw [← hV11, sMlp2_frame _ (by decide)]; exact o0_10 i
  have o0_12 : ∀ i : S10000x1.Idx, V12 (Proc.devRef (τ := τ) .tc main_v84) i = mlp (argsOfV V0) (feat (argsOfV V0)) (i 0) := by
    intro i; rw [← hV12, sBr2_frame _ (by decide)]; exact o0_11 i
  have o0_13 : ∀ i : S10000x1.Idx, V13 (Proc.devRef (τ := τ) .tc main_v84) i = mlp (argsOfV V0) (feat (argsOfV V0)) (i 0) := by
    intro i; rw [← hV13, sMlp3_frame _ (by decide)]; exact o0_12 i
  have o0_14 : ∀ i : S10000x1.Idx, V14 (Proc.devRef (τ := τ) .tc main_v84) i = mlp (argsOfV V0) (feat (argsOfV V0)) (i 0) := by
    intro i; rw [← hV14, sBr3_frame _ (by decide)]; exact o0_13 i
  have o0_15 : ∀ i : S10000x1.Idx, V15 (Proc.devRef (τ := τ) .tc main_v84) i = mlp (argsOfV V0) (feat (argsOfV V0)) (i 0) := by
    intro i; rw [← hV15, sMlp4_frame _ (by decide)]; exact o0_14 i
  have o0_16 : ∀ i : S10000x1.Idx, V16 (Proc.devRef (τ := τ) .tc main_v84) i = mlp (argsOfV V0) (feat (argsOfV V0)) (i 0) := by
    intro i; rw [← hV16, sMlp5_frame _ (by decide)]; exact o0_15 i
  have o1_9 : ∀ i : S10000x1.Idx, V9 (Proc.devRef (τ := τ) .tc main_v108) i = mlp (argsOfV V0) (branch (argsOfV V0) 0) (i 0) := by
    intro i
    rw [← hV9, sMlp1_val, outV_apply, mat_hidV, b0, k8.a8, k8.a9, k8.a10, k8.a11]; rfl
  have o1_10 : ∀ i : S10000x1.Idx, V10 (Proc.devRef (τ := τ) .tc main_v108) i = mlp (argsOfV V0) (branch (argsOfV V0) 0) (i 0) := by
    intro i; rw [← hV10, sBr1_frame _ (by decide)]; exact o1_9 i
  have o1_11 : ∀ i : S10000x1.Idx, V11 (Proc.devRef (τ := τ) .tc main_v108) i = mlp (argsOfV V0) (branch (argsOfV V0) 0) (i 0) := by
    intro i; rw [← hV11, sMlp2_frame _ (by decide)]; exact o1_10 i
  have o1_12 : ∀ i : S10000x1.Idx, V12 (Proc.devRef (τ := τ) .tc main_v108) i = mlp (argsOfV V0) (branch (argsOfV V0) 0) (i 0) := by
    intro i; rw [← hV12, sBr2_frame _ (by decide)]; exact o1_11 i
  have o1_13 : ∀ i : S10000x1.Idx, V13 (Proc.devRef (τ := τ) .tc main_v108) i = mlp (argsOfV V0) (branch (argsOfV V0) 0) (i 0) := by
    intro i; rw [← hV13, sMlp3_frame _ (by decide)]; exact o1_12 i
  have o1_14 : ∀ i : S10000x1.Idx, V14 (Proc.devRef (τ := τ) .tc main_v108) i = mlp (argsOfV V0) (branch (argsOfV V0) 0) (i 0) := by
    intro i; rw [← hV14, sBr3_frame _ (by decide)]; exact o1_13 i
  have o1_15 : ∀ i : S10000x1.Idx, V15 (Proc.devRef (τ := τ) .tc main_v108) i = mlp (argsOfV V0) (branch (argsOfV V0) 0) (i 0) := by
    intro i; rw [← hV15, sMlp4_frame _ (by decide)]; exact o1_14 i
  have o1_16 : ∀ i : S10000x1.Idx, V16 (Proc.devRef (τ := τ) .tc main_v108) i = mlp (argsOfV V0) (branch (argsOfV V0) 0) (i 0) := by
    intro i; rw [← hV16, sMlp5_frame _ (by decide)]; exact o1_15 i
  have o2_11 : ∀ i : S10000x1.Idx, V11 (Proc.devRef (τ := τ) .tc main_v132) i = mlp (argsOfV V0) (branch (argsOfV V0) 1) (i 0) := by
    intro i
    rw [← hV11, sMlp2_val, outV_apply, mat_hidV, b1, k10.a8, k10.a9, k10.a10, k10.a11]; rfl
  have o2_12 : ∀ i : S10000x1.Idx, V12 (Proc.devRef (τ := τ) .tc main_v132) i = mlp (argsOfV V0) (branch (argsOfV V0) 1) (i 0) := by
    intro i; rw [← hV12, sBr2_frame _ (by decide)]; exact o2_11 i
  have o2_13 : ∀ i : S10000x1.Idx, V13 (Proc.devRef (τ := τ) .tc main_v132) i = mlp (argsOfV V0) (branch (argsOfV V0) 1) (i 0) := by
    intro i; rw [← hV13, sMlp3_frame _ (by decide)]; exact o2_12 i
  have o2_14 : ∀ i : S10000x1.Idx, V14 (Proc.devRef (τ := τ) .tc main_v132) i = mlp (argsOfV V0) (branch (argsOfV V0) 1) (i 0) := by
    intro i; rw [← hV14, sBr3_frame _ (by decide)]; exact o2_13 i
  have o2_15 : ∀ i : S10000x1.Idx, V15 (Proc.devRef (τ := τ) .tc main_v132) i = mlp (argsOfV V0) (branch (argsOfV V0) 1) (i 0) := by
    intro i; rw [← hV15, sMlp4_frame _ (by decide)]; exact o2_14 i
  have o2_16 : ∀ i : S10000x1.Idx, V16 (Proc.devRef (τ := τ) .tc main_v132) i = mlp (argsOfV V0) (branch (argsOfV V0) 1) (i 0) := by
    intro i; rw [← hV16, sMlp5_frame _ (by decide)]; exact o2_15 i
  have o3_13 : ∀ i : S10000x1.Idx, V13 (Proc.devRef (τ := τ) .tc main_v156) i = mlp (argsOfV V0) (branch (argsOfV V0) 2) (i 0) := by
    intro i
    rw [← hV13, sMlp3_val, outV_apply, mat_hidV, b2, k12.a8, k12.a9, k12.a10, k12.a11]; rfl
  have o3_14 : ∀ i : S10000x1.Idx, V14 (Proc.devRef (τ := τ) .tc main_v156) i = mlp (argsOfV V0) (branch (argsOfV V0) 2) (i 0) := by
    intro i; rw [← hV14, sBr3_frame _ (by decide)]; exact o3_13 i
  have o3_15 : ∀ i : S10000x1.Idx, V15 (Proc.devRef (τ := τ) .tc main_v156) i = mlp (argsOfV V0) (branch (argsOfV V0) 2) (i 0) := by
    intro i; rw [← hV15, sMlp4_frame _ (by decide)]; exact o3_14 i
  have o3_16 : ∀ i : S10000x1.Idx, V16 (Proc.devRef (τ := τ) .tc main_v156) i = mlp (argsOfV V0) (branch (argsOfV V0) 2) (i 0) := by
    intro i; rw [← hV16, sMlp5_frame _ (by decide)]; exact o3_15 i
  have o4_15 : ∀ i : S10000x1.Idx, V15 (Proc.devRef (τ := τ) .tc main_v180) i = mlp (argsOfV V0) (branch (argsOfV V0) 3) (i 0) := by
    intro i
    rw [← hV15, sMlp4_val, outV_apply, mat_hidV, b3, k14.a8, k14.a9, k14.a10, k14.a11]; rfl
  have o4_16 : ∀ i : S10000x1.Idx, V16 (Proc.devRef (τ := τ) .tc main_v180) i = mlp (argsOfV V0) (branch (argsOfV V0) 3) (i 0) := by
    intro i; rw [← hV16, sMlp5_frame _ (by decide)]; exact o4_15 i
  have o5_16 : ∀ i : S10000x1.Idx, V16 (Proc.devRef (τ := τ) .tc main_v189) i = mlp (argsOfV V0) (last (argsOfV V0)) (i 0) := by
    intro i
    rw [← hV16, sMlp5_val, outV_apply, mat_hidV, l15, k15.a8, k15.a9, k15.a10, k15.a11]; rfl
  -- the final additions
  rw [← hV17, sSum_val]
  funext i
  simp only [ValueIdx.addf_apply]
  rw [o0_16 i, o1_16 i, o2_16 i, o3_16 i, o4_16 i, o5_16 i]
  rfl

/-- A buffer no stretch writes keeps its contents through the whole program. -/
theorem ops_frame (V : Valuation τ sig (Elt Ideal)) {r : Ref sig .tc}
    (h0 : r ∉ sStep0_W)
    (h1 : r ∉ sStep1_W)
    (h2 : r ∉ sStep2_W)
    (h3 : r ∉ sStep3_W)
    (h4 : r ∉ sStep4_W)
    (h5 : r ∉ sLast_W)
    (h6 : r ∉ sMlp0_W)
    (h7 : r ∉ sBr0_W)
    (h8 : r ∉ sMlp1_W)
    (h9 : r ∉ sBr1_W)
    (h10 : r ∉ sMlp2_W)
    (h11 : r ∉ sBr2_W)
    (h12 : r ∉ sMlp3_W)
    (h13 : r ∉ sBr3_W)
    (h14 : r ∉ sMlp4_W)
    (h15 : r ∉ sMlp5_W)
    (h16 : r ∉ sSum_W) :
    after ops V (Proc.devRef .tc r) = V (Proc.devRef .tc r) := by
  unfold ops
  simp only [after_append]
  rw [sSum_frame _ h16, sMlp5_frame _ h15, sMlp4_frame _ h14, sBr3_frame _ h13, sMlp3_frame _ h12, sBr2_frame _ h11, sMlp2_frame _ h10, sBr1_frame _ h9, sMlp1_frame _ h8, sBr0_frame _ h7, sMlp0_frame _ h6, sLast_frame _ h5, sStep4_frame _ h4, sStep3_frame _ h3, sStep2_frame _ h2, sStep1_frame _ h1, sStep0_frame _ h0]

/-- Every operation of the program determines what it writes. -/
theorem ops_fresh : ∀ op ∈ (ops : List (HloOp τ sig (Elt Ideal))), op.fresh = ∅ := by
  intro op h
  unfold ops at h
  simp only [List.mem_append] at h
  rcases h with h | h | h | h | h | h | h | h | h | h | h | h | h | h | h | h | h
  exacts [sStep0_fresh op h, sStep1_fresh op h, sStep2_fresh op h, sStep3_fresh op h, sStep4_fresh op h, sLast_fresh op h, sMlp0_fresh op h, sBr0_fresh op h, sMlp1_fresh op h, sBr1_fresh op h, sMlp2_fresh op h, sBr2_fresh op h, sMlp3_fresh op h, sBr3_fresh op h, sMlp4_fresh op h, sMlp5_fresh op h, sSum_fresh op h]

/-- On every device, from any memory with zero counters: every weakly fair execution of the reference program
    terminates with the result buffer at the score of each row and the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v194) = (fun i => Cert.GraphScore.scoreSum (argsOf m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v194).trans ((after_ops _).trans (by rw [argsOf_eq])),
      (h c main_arg0).trans (ops_frame _ (by decide) (by decide) (by decide) (by decide) (by decide) (by decide) (by decide) (by decide) (by decide) (by decide) (by decide) (by decide) (by decide) (by decide) (by decide) (by decide) (by decide)),
      (h c main_arg1).trans (ops_frame _ (by decide) (by decide) (by decide) (by decide) (by decide) (by decide) (by decide) (by decide) (by decide) (by decide) (by decide) (by decide) (by decide) (by decide) (by decide) (by decide) (by decide)),
      (h c main_arg2).trans (ops_frame _ (by decide) (by decide) (by decide) (by decide) (by decide) (by decide) (by decide) (by decide) (by decide) (by decide) (by decide) (by decide) (by decide) (by decide) (by decide) (by decide) (by decide)),
      (h c main_arg3).trans (ops_frame _ (by decide) (by decide) (by decide) (by decide) (by decide) (by decide) (by decide) (by decide) (by decide) (by decide) (by decide) (by decide) (by decide) (by decide) (by decide) (by decide) (by decide)),
      (h c main_arg4).trans (ops_frame _ (by decide) (by decide) (by decide) (by decide) (by decide) (by decide) (by decide) (by decide) (by decide) (by decide) (by decide) (by decide) (by decide) (by decide) (by decide) (by decide) (by decide)),
      (h c main_arg5).trans (ops_frame _ (by decide) (by decide) (by decide) (by decide) (by decide) (by decide) (by decide) (by decide) (by decide) (by decide) (by decide) (by decide) (by decide) (by decide) (by decide) (by decide) (by decide)),
      (h c main_arg6).trans (ops_frame _ (by decide) (by decide) (by decide) (by decide) (by decide) (by decide) (by decide) (by decide) (by decide) (by decide) (by decide) (by decide) (by decide) (by decide) (by decide) (by decide) (by decide)),
      (h c main_arg7).trans (ops_frame _ (by decide) (by decide) (by decide) (by decide) (by decide) (by decide) (by decide) (by decide) (by decide) (by decide) (by decide) (by decide) (by decide) (by decide) (by decide) (by decide) (by decide)),
      (h c main_arg8).trans (ops_frame _ (by decide) (by decide) (by decide) (by decide) (by decide) (by decide) (by decide) (by decide) (by decide) (by decide) (by decide) (by decide) (by decide) (by decide) (by decide) (by decide) (by decide)),
      (h c main_arg9).trans (ops_frame _ (by decide) (by decide) (by decide) (by decide) (by decide) (by decide) (by decide) (by decide) (by decide) (by decide) (by decide) (by decide) (by decide) (by decide) (by decide) (by decide) (by decide)),
      (h c main_arg10).trans (ops_frame _ (by decide) (by decide) (by decide) (by decide) (by decide) (by decide) (by decide) (by decide) (by decide) (by decide) (by decide) (by decide) (by decide) (by decide) (by decide) (by decide) (by decide)),
      (h c main_arg11).trans (ops_frame _ (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.lean ====
/-
  The certificate's five claims.  The kernel program is six tiled passes over the adjacency matrices (five
  propagation steps `x ↦ normalize (relu (adj · (x · W) + b))`, the last also emitting the features times the five
  score-stage weight matrices side by side, then one pass computing a fused score); the reference is the same five
  steps followed by six two-layer perceptrons whose outputs are summed.  Over the extended reals both results are
  one function of the twelve argument arrays: step by step the two programs apply the same operations to the same
  entries (the kernels to 400 rows at a time, every operation acting row by row), and at the end a product
  distributes over the sum of the six rectified — hence nonnegative — hidden activations, and six times the bias is
  the bias added six times.  No finiteness of the inputs is used.
-/
import proofs.«172286_g11278584119306_cont_sun_m_662_2_alg».proof.Defs
import proofs.«172286_g11278584119306_cont_sun_m_662_2_alg».proof.Proof.Gen.Kernel
import proofs.«172286_g11278584119306_cont_sun_m_662_2_alg».proof.Proof.Gen.KernelIdeal
import proofs.«172286_g11278584119306_cont_sun_m_662_2_alg».proof.Proof.Gen.ReferenceIdeal
import proofs.«172286_g11278584119306_cont_sun_m_662_2_alg».proof.Proof.Gen.Pre_finite_inputs
import proofs.«172286_g11278584119306_cont_sun_m_662_2_alg».proof.Proof.KB.Run
import proofs.«172286_g11278584119306_cont_sun_m_662_2_alg».proof.Proof.KI.Run
import proofs.«172286_g11278584119306_cont_sun_m_662_2_alg».proof.Proof.KV.Chain
import proofs.«172286_g11278584119306_cont_sun_m_662_2_alg».proof.Proof.Ref.Run
import Idealize.ShloMosaic.Adequacy
import Idealize.ShloMosaic.Init

noncomputable section

namespace Cert.Proof

open Idealize.ShloMosaic Idealize.SL.Sem

/-- The word-level kernel program runs and leaves its arguments unchanged: its run with the result dropped. -/
theorem frame_kernel : Cert.frame_Kernel := fun m ρ _ =>
  (θ_run Cert.Kernel.defs _ _).mono (fun _ h c => (h c).2) (Cert.Kernel.Fr.run (F := Bits) m ρ)

/-- The same for the idealized kernel program. -/
theorem frame_kernelIdeal : Cert.frame_KernelIdeal := fun m ρ _ =>
  (θ_run Cert.KernelIdeal.defs _ _).mono (fun _ h c => (h c).2) (Cert.KernelIdeal.Fr.run (F := Ideal) m ρ)

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RefValue.run m ρ)

/-- Memories that agree on the twelve arguments give the same argument arrays, entry by entry. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefValue.argsOf m' c = Cert.KernelIdeal.KV.argsOf m c := by
  obtain ⟨h0, h1, h2, h3, h4, h5, h6, h7, h8, h9, h10, h11⟩ := h
  unfold Cert.ReferenceIdeal.RefValue.argsOf Cert.KernelIdeal.KV.argsOf
  rw [h0, h1, h2, h3, h4, h5, h6, h7, h8, h9, h10, h11]

/-- The two idealized programs, run from memories agreeing on the arguments, end with one result: the kernel
    program's is the fused score of the argument arrays, the reference's the sum of the six perceptron outputs, and
    the two are one function (`Cert.GraphScore.score_eq`). -/
theorem algebraic : Cert.algebraic_KernelIdeal_ReferenceIdeal := by
  intro m ρ m' ρ' _ hagree
  refine ⟨fun c i => Cert.GraphScore.scoreSum (Cert.KernelIdeal.KV.argsOf m c) (i 0), ?_, ?_⟩
  · exact (θ_run Cert.KernelIdeal.defs _ _).mono
      (fun _ h c => ⟨(h c).1.trans ((Cert.KernelIdeal.KV.res_eq m c).trans
        (funext fun i => Cert.GraphScore.score_eq _ (i 0))), (h c).2⟩)
      (Cert.KernelIdeal.Fr.run (F := Ideal) m ρ)
  · refine (θ_run Cert.ReferenceIdeal.defs _ _).mono (fun _ h c => ⟨(h c).1.trans ?_, (h c).2⟩)
      (Cert.ReferenceIdeal.RefValue.run m' ρ')
    exact congrArg (fun (A : Cert.GraphScore.Args) (i : Cert.ReferenceIdeal.S10000x1.Idx) => Cert.GraphScore.scoreSum A (i 0))
      (args_agree m m' c (hagree c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
